-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v233)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v233) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v266) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S4x128 .f32) (main_arg5 : FVec F S128x10 .f32) (main_arg6 : FVec F S10 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128x10 .f32 := Host.absf main_arg5
  let main_cst_8 : FVec F S_ .f32 := constant S_ .f32 0x7F800000#32
  let main_v25 : FVec F S128x10 .f32 := broadcastInDim S128x10 ![] bcast_S_S128x10 main_cst_8
  let main_v26 : IVec S128x10 1 := cmpf .olt main_v24 main_v25
  let main_c_9 : IVec S_ 1 := constantI S_ 1 1#1
  let main_v27 : IVec S_ 1 := (fun x v => Host.reduce IntOp.andi x v reducesTo_S128x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S50000x128 .f32) (main_arg1 : FVec F S4x128x128 .f32) (main_arg2 : FVec F S4x128 .f32) (main_arg3 : FVec F S4x128 .f32) (main_arg4 : FVec F S4x128 .f32) (main_arg5 : FVec F S128x10 .f32) (main_arg6 : FVec F S10 .f32) (main_arg7 : IVec S2x800000 32) (main_arg8 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S4x128x128 .f32 := Host.absf main_arg1
  let main_cst_0 : FVec F S_ .f32 := constant S_ .f32 0x7F800000#32
  let main_v5 : FVec F S4x128x128 .f32 := broadcastInDim S4x128x128 ![] bcast_S_S4x128x128 main_cst_0
  let main_v6 : IVec S4x128x128 1 := cmpf .olt main_v4 main_v5
  let main_c_1 : IVec S_ 1 := constantI S_ 1 1#1
  let main_v7 : IVec S_ 1 := (fun x v => Host.reduce IntOp.andi x v reducesTo_S4x128x128_S_d0_1_2 h_S_) main_v6 main_c_1
  let main_v8 : IVec S_ 1 := andi main_v3 main_v7
  let main_v9 : FVec F S4x128 .f32 := Host.absf main_arg2
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S4x128 .f32 := Host.absf main_arg3
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg4 main_arg5 main_arg6 main_v13 main_v16
-- ==== Kernel.lean ====
abbrev S50000x128 : Shape := ⟨2, ![50000, 128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128x128 : Shape := ⟨3, ![1, 128, 128]⟩
abbrev S128x128 : Shape := ⟨2, ![128, 128]⟩
abbrev S5000x128 : Shape := ⟨2, ![5000, 128]⟩
abbrev S800000x128 : Shape := ⟨2, ![800000, 128]⟩
abbrev S50000x1 : Shape := ⟨2, ![50000, 1]⟩
abbrev S1x128 : Shape := ⟨2, ![1, 128]⟩
abbrev S128 : Shape := ⟨1, ![128]⟩
abbrev S512x128 : Shape := ⟨2, ![512, 128]⟩
abbrev S512 : Shape := ⟨1, ![512]⟩
abbrev S512x1 : Shape := ⟨2, ![512, 1]⟩
abbrev S1x10 : Shape := ⟨2, ![1, 10]⟩
abbrev S512x10 : Shape := ⟨2, ![512, 10]⟩

abbrev nBuf : Space → Nat
  | .hbm => 287
  | .vmem => 48
  | .smem => 0
  | _ => 0

abbrev hbmTy0_0 (i : Nat) : BufTy := match i % 128 with
  | 0 => ⟨S50000x128, .f32⟩
  | 1 => ⟨S4x128x128, .f32⟩
  | 2 => ⟨S4x128, .f32⟩
  | 3 => ⟨S4x128, .f32⟩
  | 4 => ⟨S4x128, .f32⟩
  | 5 => ⟨S128x10, .f32⟩
  | 6 => ⟨S10, .f32⟩
  | 7 => ⟨S2x800000, .i32⟩
  | 8 => ⟨S50000, .i32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S50000, .f32⟩
  | 45 => ⟨S1x128x128, .f32⟩
  | 46 => ⟨S128x128, .f32⟩
  | 47 => ⟨S50000x128, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x1, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S1x128, .f32⟩
  | 88 => ⟨S128, .f32⟩
  | 89 => ⟨S_, .f32⟩
  | 90 => ⟨S128, .f32⟩
  | 91 => ⟨S128, .f32⟩
  | 92 => ⟨S128, .f32⟩
  | 93 => ⟨S128, .f32⟩
  | 94 => ⟨S1x128, .f32⟩
  | 95 => ⟨S128, .f32⟩
  | 96 => ⟨S128, .f32⟩
  | 97 => ⟨S128, .f32⟩
  | 98 => ⟨S1x128, .f32⟩
  | 99 => ⟨S1x128, .f32⟩
  | 100 => ⟨S50000x128, .f32⟩
  | 101 => ⟨S1x128x128, .f32⟩
  | 102 => ⟨S128x128, .f32⟩
  | 103 => ⟨S50000x128, .f32⟩
  | 104 => ⟨S_, .i32⟩
  | 105 => ⟨S800000, .i32⟩
  | 106 => ⟨S800000, .i1⟩
  | 107 => ⟨S_, .i32⟩
  | 108 => ⟨S800000, .i32⟩
  | 109 => ⟨S800000, .i32⟩
  | 110 => ⟨S800000, .i32⟩
  | 111 => ⟨S800000x1, .i32⟩
  | 112 => ⟨S800000x128, .f32⟩
  | 113 => ⟨S800000x1, .f32⟩
  | 114 => ⟨S800000x128, .f32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S50000x1, .f32⟩
  | 121 => ⟨S50000x128, .f32⟩
  | 122 => ⟨S50000x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S128, .f32⟩
  | 3 => ⟨S_, .f32⟩
  | 4 => ⟨S128, .f32⟩
  | 5 => ⟨S128, .f32⟩
  | 6 => ⟨S1x128, .f32⟩
  | 7 => ⟨S50000x128, .f32⟩
  | 8 => ⟨S50000x128, .f32⟩
  | 9 => ⟨S50000x128, .f32⟩
  | 10 => ⟨S_, .f32⟩
  | 11 => ⟨S128, .f32⟩
  | 12 => ⟨S_, .f32⟩
  | 13 => ⟨S128, .f32⟩
  | 14 => ⟨S128, .f32⟩
  | 15 => ⟨S1x128, .f32⟩
  | 16 => ⟨S128, .f32⟩
  | 17 => ⟨S_, .f32⟩
  | 18 => ⟨S128, .f32⟩
  | 19 => ⟨S128, .f32⟩
  | 20 => ⟨S128, .f32⟩
  | 21 => ⟨S128, .f32⟩
  | 22 => ⟨S1x128, .f32⟩
  | 23 => ⟨S128, .f32⟩
  | 24 => ⟨S128, .f32⟩
  | 25 => ⟨S128, .f32⟩
  | 26 => ⟨S1x128, .f32⟩
  | 27 => ⟨S1x128, .f32⟩
  | 28 => ⟨S50000x128, .f32⟩
  | 29 => ⟨S1x128x128, .f32⟩
  | 30 => ⟨S128x128, .f32⟩
  | 31 => ⟨S50000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x128, .f32⟩
  | 41 => ⟨S800000x1, .f32⟩
  | 42 => ⟨S800000x128, .f32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S50000x1, .f32⟩
  | 49 => ⟨S50000x128, .f32⟩
  | 50 => ⟨S50000x128, .f32⟩
  | 51 => ⟨S50000x128, .f32⟩
  | 52 => ⟨S1x128, .f32⟩
  | 53 => ⟨S128, .f32⟩
  | 54 => ⟨S1x128, .f32⟩
  | 55 => ⟨S50000x128, .f32⟩
  | 56 => ⟨S50000x128, .f32⟩
  | 57 => ⟨S_, .f32⟩
  | 58 => ⟨S128, .f32⟩
  | 59 => ⟨S_, .f32⟩
  | 60 => ⟨S128, .f32⟩
  | 61 => ⟨S128, .f32⟩
  | 62 => ⟨S1x128, .f32⟩
  | 63 => ⟨S50000x128, .f32⟩
  | 64 => ⟨S50000x128, .f32⟩
  | 65 => ⟨S50000x128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S128, .f32⟩
  | 73 => ⟨S_, .f32⟩
  | 74 => ⟨S128, .f32⟩
  | 75 => ⟨S128, .f32⟩
  | 76 => ⟨S128, .f32⟩
  | 77 => ⟨S128, .f32⟩
  | 78 => ⟨S1x128, .f32⟩
  | 79 => ⟨S128, .f32⟩
  | 80 => ⟨S128, .f32⟩
  | 81 => ⟨S128, .f32⟩
  | 82 => ⟨S1x128, .f32⟩
  | 83 => ⟨S1x128, .f32⟩
  | 84 => ⟨S50000x128, .f32⟩
  | 85 => ⟨S1x128x128, .f32⟩
  | 86 => ⟨S128x128, .f32⟩
  | 87 => ⟨S50000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S800000x1, .f32⟩
  | 98 => ⟨S800000x128, .f32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S50000x1, .f32⟩
  | 105 => ⟨S50000x128, .f32⟩
  | 106 => ⟨S50000x128, .f32⟩
  | 107 => ⟨S50000x128, .f32⟩
  | 108 => ⟨S1x128, .f32⟩
  | 109 => ⟨S128, .f32⟩
  | 110 => ⟨S1x128, .f32⟩
  | 111 => ⟨S50000x128, .f32⟩
  | 112 => ⟨S50000x128, .f32⟩
  | 113 => ⟨S_, .f32⟩
  | 114 => ⟨S128, .f32⟩
  | 115 => ⟨S_, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S50000x128, .f32⟩
  | 122 => ⟨S_, .f32⟩
  | 123 => ⟨S128, .f32⟩
  | 124 => ⟨S_, .f32⟩
  | 125 => ⟨S128, .f32⟩
  | 126 => ⟨S128, .f32⟩
  | 127 => ⟨S1x128, .f32⟩
  | _ => ⟨S50000x128, .f32⟩

abbrev hbmTy0_2 (i : Nat) : BufTy := match i % 128 with
  | 0 => ⟨S128, .f32⟩
  | 1 => ⟨S_, .f32⟩
  | 2 => ⟨S128, .f32⟩
  | 3 => ⟨S128, .f32⟩
  | 4 => ⟨S128, .f32⟩
  | 5 => ⟨S128, .f32⟩
  | 6 => ⟨S1x128, .f32⟩
  | 7 => ⟨S128, .f32⟩
  | 8 => ⟨S128, .f32⟩
  | 9 => ⟨S128, .f32⟩
  | 10 => ⟨S1x128, .f32⟩
  | 11 => ⟨S1x128, .f32⟩
  | 12 => ⟨S50000x128, .f32⟩
  | 13 => ⟨S_, .f32⟩
  | 14 => ⟨S512x128, .f32⟩
  | 15 => ⟨S50000x1, .i32⟩
  | 16 => ⟨S512x128, .f32⟩
  | 17 => ⟨S_, .f32⟩
  | 18 => ⟨S50000, .f32⟩
  | 19 => ⟨S_, .f32⟩
  | 20 => ⟨S512, .f32⟩
  | 21 => ⟨S50000x1, .i32⟩
  | 22 => ⟨S512, .f32⟩
  | 23 => ⟨S_, .f32⟩
  | 24 => ⟨S512, .f32⟩
  | 25 => ⟨S512, .f32⟩
  | 26 => ⟨S512x1, .f32⟩
  | 27 => ⟨S512x128, .f32⟩
  | 28 => ⟨S512x128, .f32⟩
  | 29 => ⟨S1x10, .f32⟩
  | 30 => ⟨S512x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S1x128, .f32⟩
  | .local _ .vmem, ⟨41, _⟩ => ⟨S1x128, .f32⟩
  | .local _ .vmem, ⟨42, _⟩ => ⟨S5000x128, .f32⟩
  | .local _ .vmem, ⟨43, _⟩ => ⟨S5000x128, .f32⟩
  | .local _ .vmem, ⟨44, _⟩ => ⟨S512x128, .f32⟩
  | .local _ .vmem, ⟨45, _⟩ => ⟨S128x10, .f32⟩
  | .local _ .vmem, ⟨46, _⟩ => ⟨S1x10, .f32⟩
  | .local _ .vmem, ⟨47, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_c_14 : Ref sig .tc := ⟨.hbm, 104, rfl⟩
abbrev main_v79 : Ref sig .tc := ⟨.hbm, 105, rfl⟩
abbrev main_v80 : Ref sig .tc := ⟨.hbm, 106, rfl⟩
abbrev main_c_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_cst_16 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_17 : Ref sig .tc := ⟨.hbm, 129, rfl⟩
abbrev main_v101 : Ref sig .tc := ⟨.hbm, 130, rfl⟩
abbrev main_cst_18 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_19 : Ref sig .tc := ⟨.hbm, 138, rfl⟩
abbrev main_v108 : Ref sig .tc := ⟨.hbm, 139, rfl⟩
abbrev main_cst_20 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_21 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_c_22 : Ref sig .tc := ⟨.hbm, 160, rfl⟩
abbrev main_v127 : Ref sig .tc := ⟨.hbm, 161, rfl⟩
abbrev main_v128 : Ref sig .tc := ⟨.hbm, 162, rfl⟩
abbrev main_c_23 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_cst_24 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_cst_25 : Ref sig .tc := ⟨.hbm, 185, rfl⟩
abbrev main_v149 : Ref sig .tc := ⟨.hbm, 186, rfl⟩
abbrev main_cst_26 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_cst_27 : Ref sig .tc := ⟨.hbm, 194, rfl⟩
abbrev main_v156 : Ref sig .tc := ⟨.hbm, 195, rfl⟩
abbrev main_cst_28 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_cst_29 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_c_30 : Ref sig .tc := ⟨.hbm, 216, rfl⟩
abbrev main_v175 : Ref sig .tc := ⟨.hbm, 217, rfl⟩
abbrev main_v176 : Ref sig .tc := ⟨.hbm, 218, rfl⟩
abbrev main_c_31 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_cst_32 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_v195 : Ref sig .tc := ⟨.hbm, 239, rfl⟩
abbrev main_v196 : Ref sig .tc := ⟨.hbm, 240, rfl⟩
abbrev main_cst_33 : Ref sig .tc := ⟨.hbm, 241, rfl⟩
abbrev main_v197 : Ref sig .tc := ⟨.hbm, 242, rfl⟩
abbrev main_cst_34 : Ref sig .tc := ⟨.hbm, 243, rfl⟩
abbrev main_v198 : Ref sig .tc := ⟨.hbm, 244, rfl⟩
abbrev main_v199 : Ref sig .tc := ⟨.hbm, 245, rfl⟩
abbrev main_v200 : Ref sig .tc := ⟨.hbm, 246, rfl⟩
abbrev main_v201 : Ref sig .tc := ⟨.hbm, 247, rfl⟩
abbrev main_v202 : Ref sig .tc := ⟨.hbm, 248, rfl⟩
abbrev main_v203 : Ref sig .tc := ⟨.hbm, 249, rfl⟩
abbrev main_cst_35 : Ref sig .tc := ⟨.hbm, 250, rfl⟩
abbrev main_v204 : Ref sig .tc := ⟨.hbm, 251, rfl⟩
abbrev main_cst_36 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_cst_37 : Ref sig .tc := ⟨.hbm, 257, rfl⟩
abbrev main_v209 : Ref sig .tc := ⟨.hbm, 258, rfl⟩
abbrev main_v210 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_cst_38 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_cst_39 : Ref sig .tc := ⟨.hbm, 273, rfl⟩
abbrev main_v223 : Ref sig .tc := ⟨.hbm, 274, rfl⟩
abbrev main_cst_40 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_cst_41 : Ref sig .tc := ⟨.hbm, 279, rfl⟩
abbrev main_v227 : Ref sig .tc := ⟨.hbm, 280, rfl⟩
abbrev main_v228 : Ref sig .tc := ⟨.hbm, 281, rfl⟩
abbrev main_v229 : Ref sig .tc := ⟨.hbm, 282, rfl⟩
abbrev main_v230 : Ref sig .tc := ⟨.hbm, 283, rfl⟩
abbrev main_v231 : Ref sig .tc := ⟨.hbm, 284, rfl⟩
abbrev main_v232 : Ref sig .tc := ⟨.hbm, 285, rfl⟩
abbrev main_v233 : Ref sig .tc := ⟨.hbm, 286, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg2_1 : Ref sig .tc := ⟨.vmem, 37, rfl⟩
abbrev cc7_stg0_0 : Ref sig .tc := ⟨.vmem, 38, rfl⟩
abbrev cc7_stg0_1 : Ref sig .tc := ⟨.vmem, 39, rfl⟩
abbrev cc7_stg1_0 : Ref sig .tc := ⟨.vmem, 40, rfl⟩
abbrev cc7_stg2_0 : Ref sig .tc := ⟨.vmem, 41, rfl⟩
abbrev cc7_stg3_0 : Ref sig .tc := ⟨.vmem, 42, rfl⟩
abbrev cc7_stg3_1 : Ref sig .tc := ⟨.vmem, 43, rfl⟩
abbrev cc8_stg0_0 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg3_0 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc7_sem0_0 : DmaSem sig := 38
abbrev cc7_sem0_1 : DmaSem sig := 39
abbrev cc7_sem1_0 : DmaSem sig := 40
abbrev cc7_sem2_0 : DmaSem sig := 41
abbrev cc7_sem3_0 : DmaSem sig := 42
abbrev cc7_sem3_1 : DmaSem sig := 43
abbrev cc8_sem0_0 : DmaSem sig := 44
abbrev cc8_sem1_0 : DmaSem sig := 45
abbrev cc8_sem2_0 : DmaSem sig := 46
abbrev cc8_sem3_0 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S512x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S128x10 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x10 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S512x10 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S4x128x128_S1x128x128_0_0_0 : S4x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S50000x128.size a
  hwx5_3 : ∀ i : grid5.Coords, EltTy.bits .f32 = 32 ∨ (Rect.block (s := S50000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S50000x128.size a
  hwx6_2 : ∀ i : grid6.Coords, EltTy.bits .f32 = 32 ∨ (Rect.block (s := S50000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S50000x128.size a
  hwx7_3 : ∀ i : grid7.Coords, EltTy.bits .f32 = 32 ∨ (Rect.block (s := S50000x128) S5000x128.size (cc7_transform_3 i) (hinb7_3 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S512x128.size a ≤ S512x128.size a
  hwx8_0 : ∀ i : grid8.Coords, EltTy.bits .f32 = 32 ∨ (Rect.block (s := S512x128) S512x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S128x10.size a ≤ S128x10.size a
  hwx8_1 : ∀ i : grid8.Coords, EltTy.bits .f32 = 32 ∨ (Rect.block (s := S128x10) S128x10.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x10.size a ≤ S1x10.size a
  hwx8_2 : ∀ i : grid8.Coords, EltTy.bits .f32 = 32 ∨ (Rect.block (s := S1x10) S1x10.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S512x10.size a ≤ S512x10.size a
  hwx8_3 : ∀ i : grid8.Coords, EltTy.bits .f32 = 32 ∨ (Rect.block (s := S512x10) S512x10.size (cc8_transform_3 i) (hinb8_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v73) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v74) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v75) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v75) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v77) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v78) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v100) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v121) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v122) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v123) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v123) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v125) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v126) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v148) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v169) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v170) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v171) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v171) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v173) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v174) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v196) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v217) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v218) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v219) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v231) S512x128.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg5) S128x10.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v232) S1x10.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v233) S512x10.size cc8_transform_3 reads8_3 true true 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

class Facts : Prop extends Facts₀ where

variable [Facts]
-- ==== ReferenceIdeal.lean ====
abbrev S50000x128 : Shape := ⟨2, ![50000, 128]⟩
abbrev S4x128x128 : Shape := ⟨3, ![4, 128, 128]⟩
abbrev S4x128 : Shape := ⟨2, ![4, 128]⟩
abbrev S128x10 : Shape := ⟨2, ![128, 10]⟩
abbrev S10 : Shape := ⟨1, ![10]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S800000x128 : Shape := ⟨2, ![800000, 128]⟩
abbrev S50000x1 : Shape := ⟨2, ![50000, 1]⟩
abbrev S512x128 : Shape := ⟨2, ![512, 128]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 328
  | .vmem => 0
  | .smem => 0
  | _ => 0

abbrev hbmTy0_0 (i : Nat) : BufTy := match i % 128 with
  | 0 => ⟨S50000x128, .f32⟩
  | 1 => ⟨S4x128x128, .f32⟩
  | 2 => ⟨S4x128, .f32⟩
  | 3 => ⟨S4x128, .f32⟩
  | 4 => ⟨S4x128, .f32⟩
  | 5 => ⟨S128x10, .f32⟩
  | 6 => ⟨S10, .f32⟩
  | 7 => ⟨S2x800000, .i32⟩
  | 8 => ⟨S50000, .i32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S800000, .f32⟩
  | 44 => ⟨S1x128x128, .f32⟩
  | 45 => ⟨S128x128, .f32⟩
  | 46 => ⟨S1x128, .f32⟩
  | 47 => ⟨S128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x1, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S50000, .f32⟩
  | 66 => ⟨S50000x1, .f32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S128, .f32⟩
  | 75 => ⟨S_, .f32⟩
  | 76 => ⟨S128, .f32⟩
  | 77 => ⟨S128, .f32⟩
  | 78 => ⟨S1x128, .f32⟩
  | 79 => ⟨S50000x128, .f32⟩
  | 80 => ⟨S50000x128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S1x128, .f32⟩
  | 88 => ⟨S50000x128, .f32⟩
  | 89 => ⟨S50000x128, .f32⟩
  | 90 => ⟨S_, .f32⟩
  | 91 => ⟨S128, .f32⟩
  | 92 => ⟨S128, .f32⟩
  | 93 => ⟨S128, .f32⟩
  | 94 => ⟨S1x128, .f32⟩
  | 95 => ⟨S50000x128, .f32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S1x128x128, .f32⟩
  | 111 => ⟨S128x128, .f32⟩
  | 112 => ⟨S1x128, .f32⟩
  | 113 => ⟨S128, .f32⟩
  | 114 => ⟨S50000x128, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x128, .f32⟩
  | 124 => ⟨S800000x1, .f32⟩
  | 125 => ⟨S800000x128, .f32⟩
  | 126 => ⟨S800000x128, .f32⟩
  | 127 => ⟨S_, .f32⟩
  | _ => ⟨S50000x128, .f32⟩

abbrev hbmTy0_1 (i : Nat) : BufTy := match i % 128 with
  | 0 => ⟨S50000x128, .f32⟩
  | 1 => ⟨S800000x1, .i32⟩
  | 2 => ⟨S50000x128, .f32⟩
  | 3 => ⟨S50000, .f32⟩
  | 4 => ⟨S50000x1, .f32⟩
  | 5 => ⟨S50000x128, .f32⟩
  | 6 => ⟨S50000x128, .f32⟩
  | 7 => ⟨S50000x128, .f32⟩
  | 8 => ⟨S1x128, .f32⟩
  | 9 => ⟨S50000x128, .f32⟩
  | 10 => ⟨S50000x128, .f32⟩
  | 11 => ⟨S_, .f32⟩
  | 12 => ⟨S128, .f32⟩
  | 13 => ⟨S_, .f32⟩
  | 14 => ⟨S128, .f32⟩
  | 15 => ⟨S128, .f32⟩
  | 16 => ⟨S1x128, .f32⟩
  | 17 => ⟨S50000x128, .f32⟩
  | 18 => ⟨S50000x128, .f32⟩
  | 19 => ⟨S50000x128, .f32⟩
  | 20 => ⟨S_, .f32⟩
  | 21 => ⟨S128, .f32⟩
  | 22 => ⟨S_, .f32⟩
  | 23 => ⟨S128, .f32⟩
  | 24 => ⟨S128, .f32⟩
  | 25 => ⟨S1x128, .f32⟩
  | 26 => ⟨S50000x128, .f32⟩
  | 27 => ⟨S50000x128, .f32⟩
  | 28 => ⟨S_, .f32⟩
  | 29 => ⟨S128, .f32⟩
  | 30 => ⟨S128, .f32⟩
  | 31 => ⟨S128, .f32⟩
  | 32 => ⟨S1x128, .f32⟩
  | 33 => ⟨S50000x128, .f32⟩
  | 34 => ⟨S50000x128, .f32⟩
  | 35 => ⟨S1x128, .f32⟩
  | 36 => ⟨S128, .f32⟩
  | 37 => ⟨S1x128, .f32⟩
  | 38 => ⟨S50000x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S1x128x128, .f32⟩
  | 49 => ⟨S128x128, .f32⟩
  | 50 => ⟨S1x128, .f32⟩
  | 51 => ⟨S128, .f32⟩
  | 52 => ⟨S50000x128, .f32⟩
  | 53 => ⟨S_, .i32⟩
  | 54 => ⟨S800000, .i32⟩
  | 55 => ⟨S800000, .i1⟩
  | 56 => ⟨S_, .i32⟩
  | 57 => ⟨S800000, .i32⟩
  | 58 => ⟨S800000, .i32⟩
  | 59 => ⟨S800000, .i32⟩
  | 60 => ⟨S800000x1, .i32⟩
  | 61 => ⟨S800000x128, .f32⟩
  | 62 => ⟨S800000x1, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000, .f32⟩
  | 70 => ⟨S50000x1, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S_, .f32⟩
  | 78 => ⟨S128, .f32⟩
  | 79 => ⟨S_, .f32⟩
  | 80 => ⟨S128, .f32⟩
  | 81 => ⟨S128, .f32⟩
  | 82 => ⟨S1x128, .f32⟩
  | 83 => ⟨S50000x128, .f32⟩
  | 84 => ⟨S50000x128, .f32⟩
  | 85 => ⟨S50000x128, .f32⟩
  | 86 => ⟨S_, .f32⟩
  | 87 => ⟨S128, .f32⟩
  | 88 => ⟨S_, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S_, .f32⟩
  | 95 => ⟨S128, .f32⟩
  | 96 => ⟨S128, .f32⟩
  | 97 => ⟨S128, .f32⟩
  | 98 => ⟨S1x128, .f32⟩
  | 99 => ⟨S50000x128, .f32⟩
  | 100 => ⟨S50000x128, .f32⟩
  | 101 => ⟨S1x128, .f32⟩
  | 102 => ⟨S128, .f32⟩
  | 103 => ⟨S1x128, .f32⟩
  | 104 => ⟨S50000x128, .f32⟩
  | 105 => ⟨S50000x128, .f32⟩
  | 106 => ⟨S1x128, .f32⟩
  | 107 => ⟨S128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S1x128x128, .f32⟩
  | 115 => ⟨S128x128, .f32⟩
  | 116 => ⟨S1x128, .f32⟩
  | 117 => ⟨S128, .f32⟩
  | 118 => ⟨S50000x128, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S50000x128, .f32⟩

abbrev hbmTy0_2 (i : Nat) : BufTy := match i % 128 with
  | 0 => ⟨S800000x1, .f32⟩
  | 1 => ⟨S800000x128, .f32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S50000, .f32⟩
  | 8 => ⟨S50000x1, .f32⟩
  | 9 => ⟨S50000x128, .f32⟩
  | 10 => ⟨S50000x128, .f32⟩
  | 11 => ⟨S50000x128, .f32⟩
  | 12 => ⟨S1x128, .f32⟩
  | 13 => ⟨S50000x128, .f32⟩
  | 14 => ⟨S50000x128, .f32⟩
  | 15 => ⟨S_, .f32⟩
  | 16 => ⟨S128, .f32⟩
  | 17 => ⟨S_, .f32⟩
  | 18 => ⟨S128, .f32⟩
  | 19 => ⟨S128, .f32⟩
  | 20 => ⟨S1x128, .f32⟩
  | 21 => ⟨S50000x128, .f32⟩
  | 22 => ⟨S50000x128, .f32⟩
  | 23 => ⟨S50000x128, .f32⟩
  | 24 => ⟨S_, .f32⟩
  | 25 => ⟨S128, .f32⟩
  | 26 => ⟨S_, .f32⟩
  | 27 => ⟨S128, .f32⟩
  | 28 => ⟨S128, .f32⟩
  | 29 => ⟨S1x128, .f32⟩
  | 30 => ⟨S50000x128, .f32⟩
  | 31 => ⟨S50000x128, .f32⟩
  | 32 => ⟨S_, .f32⟩
  | 33 => ⟨S128, .f32⟩
  | 34 => ⟨S128, .f32⟩
  | 35 => ⟨S128, .f32⟩
  | 36 => ⟨S1x128, .f32⟩
  | 37 => ⟨S50000x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S1x128, .f32⟩
  | 45 => ⟨S128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S_, .f32⟩
  | 53 => ⟨S512x128, .f32⟩
  | 54 => ⟨S50000x1, .i32⟩
  | 55 => ⟨S512x128, .f32⟩
  | 56 => ⟨S_, .f32⟩
  | 57 => ⟨S50000, .f32⟩
  | 58 => ⟨S_, .f32⟩
  | 59 => ⟨S512, .f32⟩
  | 60 => ⟨S50000x1, .i32⟩
  | 61 => ⟨S512, .f32⟩
  | 62 => ⟨S_, .f32⟩
  | 63 => ⟨S512, .f32⟩
  | 64 => ⟨S512, .f32⟩
  | 65 => ⟨S512x1, .f32⟩
  | 66 => ⟨S512x128, .f32⟩
  | 67 => ⟨S512x128, .f32⟩
  | 68 => ⟨S512x10, .f32⟩
  | 69 => ⟨S1x10, .f32⟩
  | 70 => ⟨S512x10, .f32⟩
  | 71 => ⟨S512x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_c_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_11 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_call0_cst : Ref sig .tc := ⟨.hbm, 107, rfl⟩
abbrev main_call0_v0 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_14 : Ref sig .tc := ⟨.hbm, 115, rfl⟩
abbrev main_v88 : Ref sig .tc := ⟨.hbm, 116, rfl⟩
abbrev main_v89 : Ref sig .tc := ⟨.hbm, 117, rfl⟩
abbrev main_c_15 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_16 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_17 : Ref sig .tc := ⟨.hbm, 139, rfl⟩
abbrev main_v109 : Ref sig .tc := ⟨.hbm, 140, rfl⟩
abbrev main_cst_18 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_19 : Ref sig .tc := ⟨.hbm, 148, rfl⟩
abbrev main_v116 : Ref sig .tc := ⟨.hbm, 149, rfl⟩
abbrev main_cst_20 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_21 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_call1_cst : Ref sig .tc := ⟨.hbm, 173, rfl⟩
abbrev main_call1_v0 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_c_22 : Ref sig .tc := ⟨.hbm, 181, rfl⟩
abbrev main_v144 : Ref sig .tc := ⟨.hbm, 182, rfl⟩
abbrev main_v145 : Ref sig .tc := ⟨.hbm, 183, rfl⟩
abbrev main_c_23 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_cst_24 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_cst_25 : Ref sig .tc := ⟨.hbm, 205, rfl⟩
abbrev main_v165 : Ref sig .tc := ⟨.hbm, 206, rfl⟩
abbrev main_cst_26 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_cst_27 : Ref sig .tc := ⟨.hbm, 214, rfl⟩
abbrev main_v172 : Ref sig .tc := ⟨.hbm, 215, rfl⟩
abbrev main_cst_28 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_cst_29 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_call2_cst : Ref sig .tc := ⟨.hbm, 239, rfl⟩
abbrev main_call2_v0 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_c_30 : Ref sig .tc := ⟨.hbm, 247, rfl⟩
abbrev main_v200 : Ref sig .tc := ⟨.hbm, 248, rfl⟩
abbrev main_v201 : Ref sig .tc := ⟨.hbm, 249, rfl⟩
abbrev main_c_31 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_v206 : Ref sig .tc := ⟨.hbm, 255, rfl⟩
abbrev main_v207 : Ref sig .tc := ⟨.hbm, 256, rfl⟩
abbrev main_v208 : Ref sig .tc := ⟨.hbm, 257, rfl⟩
abbrev main_v209 : Ref sig .tc := ⟨.hbm, 258, rfl⟩
abbrev main_cst_32 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_cst_33 : Ref sig .tc := ⟨.hbm, 271, rfl⟩
abbrev main_v221 : Ref sig .tc := ⟨.hbm, 272, rfl⟩
abbrev main_cst_34 : Ref sig .tc := ⟨.hbm, 273, rfl⟩
abbrev main_v222 : Ref sig .tc := ⟨.hbm, 274, rfl⟩
abbrev main_v223 : Ref sig .tc := ⟨.hbm, 275, rfl⟩
abbrev main_v224 : Ref sig .tc := ⟨.hbm, 276, rfl⟩
abbrev main_v225 : Ref sig .tc := ⟨.hbm, 277, rfl⟩
abbrev main_v226 : Ref sig .tc := ⟨.hbm, 278, rfl⟩
abbrev main_v227 : Ref sig .tc := ⟨.hbm, 279, rfl⟩
abbrev main_cst_35 : Ref sig .tc := ⟨.hbm, 280, rfl⟩
abbrev main_v228 : Ref sig .tc := ⟨.hbm, 281, rfl⟩
abbrev main_cst_36 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_cst_37 : Ref sig .tc := ⟨.hbm, 288, rfl⟩
abbrev main_v234 : Ref sig .tc := ⟨.hbm, 289, rfl⟩
abbrev main_v235 : Ref sig .tc := ⟨.hbm, 290, rfl⟩
abbrev main_v236 : Ref sig .tc := ⟨.hbm, 291, rfl⟩
abbrev main_v237 : Ref sig .tc := ⟨.hbm, 292, rfl⟩
abbrev main_v238 : Ref sig .tc := ⟨.hbm, 293, rfl⟩
abbrev main_v239 : Ref sig .tc := ⟨.hbm, 294, rfl⟩
abbrev main_v240 : Ref sig .tc := ⟨.hbm, 295, rfl⟩
abbrev main_v241 : Ref sig .tc := ⟨.hbm, 296, rfl⟩
abbrev main_v242 : Ref sig .tc := ⟨.hbm, 297, rfl⟩
abbrev main_v243 : Ref sig .tc := ⟨.hbm, 298, rfl⟩
abbrev main_v244 : Ref sig .tc := ⟨.hbm, 299, rfl⟩
abbrev main_v245 : Ref sig .tc := ⟨.hbm, 300, rfl⟩
abbrev main_v246 : Ref sig .tc := ⟨.hbm, 301, rfl⟩
abbrev main_v247 : Ref sig .tc := ⟨.hbm, 302, rfl⟩
abbrev main_v248 : Ref sig .tc := ⟨.hbm, 303, rfl⟩
abbrev main_v249 : Ref sig .tc := ⟨.hbm, 304, rfl⟩
abbrev main_call3_cst : Ref sig .tc := ⟨.hbm, 305, rfl⟩
abbrev main_call3_v0 : Ref sig .tc := ⟨.hbm, 306, rfl⟩
abbrev main_v250 : Ref sig .tc := ⟨.hbm, 307, rfl⟩
abbrev main_cst_38 : Ref sig .tc := ⟨.hbm, 308, rfl⟩
abbrev main_v251 : Ref sig .tc := ⟨.hbm, 309, rfl⟩
abbrev main_v252 : Ref sig .tc := ⟨.hbm, 310, rfl⟩
abbrev main_v253 : Ref sig .tc := ⟨.hbm, 311, rfl⟩
abbrev main_cst_39 : Ref sig .tc := ⟨.hbm, 312, rfl⟩
abbrev main_v254 : Ref sig .tc := ⟨.hbm, 313, rfl⟩
abbrev main_cst_40 : Ref sig .tc := ⟨.hbm, 314, rfl⟩
abbrev main_v255 : Ref sig .tc := ⟨.hbm, 315, rfl⟩
abbrev main_v256 : Ref sig .tc := ⟨.hbm, 316, rfl⟩
abbrev main_v257 : Ref sig .tc := ⟨.hbm, 317, rfl⟩
abbrev main_cst_41 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x10_S512x10_1_0_0_1_n_n_wf : DotDims.WF S512x128 S128x10 S512x10 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KernelRun.lean ====
/-
  The idealized kernel program's run, with its RESULT kept: every weakly fair execution of @main terminates, nothing
  faulting, the nine argument arrays end as launched, and the returned array [512, 10] ends at the contents the last
  segment boundary assigns it — the fold of @main's eighteen segments (nine stretches of host operations, nine kernel
  regions) from the launch memory. The frame claim keeps only the arguments; the value claim needs this one more buffer of
  the same final state.
-/
import proofs.«167957_j84052509983292_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting; the returned
    array holds what the fold of the segments leaves in it, and every argument array is as launched. -/
theorem run_result : θ_run defs (onTc (τ := τ) (main (F := F))) ⟨m, fun _ => 0, ρ⟩ (fun r => ∀ c : Dev nD,
      r.2.mem ((c.tc : Thread nD τ).loc main_v233) = W18 m ρ c (Proc.devRef .tc main_v233)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v233 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c)⟩)

end Cert.KernelIdeal.Gen

end
-- ==== Proof.Spec.lean ====
/-
  The shared vocabulary of this certificate's value proof, at the exact-arithmetic instance (a float is an extended
  real). A node-feature array has shape [50000, 128]; a per-feature row has shape [128] on the host and [1, 128] as a
  kernel operand.

  * `affineRelu c sc sh`: entry (n, j) is max (c(n, j) · sc(0, j) + sh(0, j)) 0 — what the fused normalisation kernel
    leaves in its output array, from the array `c` and the two rows `sc`, `sh`.
  * `kerNorm c mean r gamma beta`: `affineRelu` at the rows scale = gamma · r and shift = beta − mean · scale, each
    recast from [128] to [1, 128] — the kernel side of one normalisation, given the column means, the reciprocal
    standard deviations `r`, and the layer's two parameter rows.
  * `refNorm c mean r gamma beta`: max (((c − mean) · r) · gamma + beta) 0 with every row broadcast over the nodes — the
    reference's spelling of the same normalisation.
  The two agree wherever every quantity is a real number (distributivity fails at the infinities).
-/
import proofs.«167957_j84052509983292_1_alg».proof.KernelIdeal
import proofs.«167957_j84052509983292_1_alg».proof.ReferenceIdeal
import Idealize.ShloMosaic.PureOps.Ideal
import Idealize.ShloMosaic.Lib.ValueIdx

noncomputable section

namespace Cert.Spec

open Idealize.ShloMosaic Idealize.ShloMosaic.ValueIdx

variable [Cert.ReferenceIdeal.Facts] [Cert.KernelIdeal.Facts]

abbrev SN : Shape := Cert.ReferenceIdeal.S50000x128
abbrev SRow : Shape := Cert.ReferenceIdeal.S1x128
abbrev SF : Shape := Cert.ReferenceIdeal.S128

/-- Entry (n, j) of the fused kernel's output: max (c(n, j) · sc(0, j) + sh(0, j)) 0. -/
def affineRelu (c : FVec Ideal SN .f32) (sc sh : FVec Ideal SRow .f32) : FVec Ideal SN .f32 :=
  fun i => max (c i * sc (ix2 (0 : Fin 1) (i 1)) + sh (ix2 (0 : Fin 1) (i 1))) 0

/-- A [128] row repeated over the 50000 nodes, as the host programs spell it: first to [1, 128], then to [50000, 128]. -/
def overNodes (v : FVec Ideal SF .f32) : FVec Ideal SN .f32 :=
  broadcastInDim Cert.ReferenceIdeal.S50000x128 ![0, 1] Cert.ReferenceIdeal.Facts₀.bcast_S1x128_S50000x128_0_1
    (broadcastInDim Cert.ReferenceIdeal.S1x128 ![1] Cert.ReferenceIdeal.Facts₀.bcast_S128_S1x128_1 v)

/-- The all-zero node-feature array, as the host programs spell it. -/
def zerosN : FVec Ideal SN .f32 :=
  broadcastInDim Cert.ReferenceIdeal.S50000x128 ![] Cert.ReferenceIdeal.Facts₀.bcast_S_S50000x128
    (constant (F := Ideal) Cert.ReferenceIdeal.S_ .f32 0x00000000#32)

/-- The reference's normalisation: max (((c − mean) · r) · gamma + beta) 0, rows broadcast over the nodes. -/
def refNorm (c : FVec Ideal SN .f32) (mean r gamma beta : FVec Ideal SF .f32) : FVec Ideal SN .f32 :=
  maximumf (addf (mulf (mulf (subf c (overNodes mean)) (overNodes r)) (overNodes gamma)) (overNodes beta)) zerosN

/-- The kernel's normalisation: the fused kernel at scale = gamma · r and shift = beta − mean · scale. -/
def kerNorm (c : FVec Ideal SN .f32) (mean r gamma beta : FVec Ideal SF .f32) : FVec Ideal SN .f32 :=
  affineRelu c
    (shapeCast Cert.KernelIdeal.S1x128 (mulf gamma r) Cert.KernelIdeal.Facts₀.shapeCasts_S128_S1x128)
    (shapeCast Cert.KernelIdeal.S1x128 (subf beta (mulf mean (mulf gamma r))) Cert.KernelIdeal.Facts₀.shapeCasts_S128_S1x128)

end Cert.Spec

end
-- ==== Proof.Stages.lean ====
/-
  The stages both programs compute with the same host operations, each as ONE function of its inputs, in the programs'
  own spelling at the exact-arithmetic instance: the edge table's two rows, the degree normalisation, each layer's
  parameter slices, one graph convolution after the projection, the column statistics, the pooling and the classifier.
  A layer of the network is then: project (x · W), `comb`, normalise (`Cert.Spec.kerNorm` in the kernel,
  `Cert.Spec.refNorm` in the reference, at `meanOf` and `rOf` of the convolved array).
-/
import proofs.«167957_j84052509983292_1_alg».proof.Proof.Spec

set_option maxRecDepth 8192

noncomputable section

namespace Cert.Spec

open Idealize.ShloMosaic Cert.ReferenceIdeal Cert.ReferenceIdeal.Facts₀

variable [Cert.ReferenceIdeal.Facts] [Cert.KernelIdeal.Facts]

section Generic
variable {F : FTy → Type} [FloatOps F]

/-- Row 0 of the edge table: each edge's source node. -/
def srcOf (e : (⟨S2x800000, .i32⟩ : BufTy).Contents (Elt F)) : (⟨S800000, .i32⟩ : BufTy).Contents (Elt F) :=
  (shapeCast _ (((extractStridedSlice S1x800000 ![0, 0] · slices_S2x800000_S1x800000_0_0) : (⟨S2x800000, .i32⟩ : BufTy).Contents (Elt F) → (⟨S1x800000, .i32⟩ : BufTy).Contents (Elt F)) e) shapeCasts_S1x800000_S800000)

/-- Row 1 of the edge table: each edge's target node. -/
def dstOf (e : (⟨S2x800000, .i32⟩ : BufTy).Contents (Elt F)) : (⟨S800000, .i32⟩ : BufTy).Contents (Elt F) :=
  (shapeCast _ (((extractStridedSlice S1x800000 ![1, 0] · slices_S2x800000_S1x800000_1_0) : (⟨S2x800000, .i32⟩ : BufTy).Contents (Elt F) → (⟨S1x800000, .i32⟩ : BufTy).Contents (Elt F)) e) shapeCasts_S1x800000_S800000)

/-- deg^(-1/2) per node, where deg counts the edges arriving at the node, plus one for the self-loop. -/
def dinvOf (dst : (⟨S800000, .i32⟩ : BufTy).Contents (Elt F)) : (⟨S50000, .f32⟩ : BufTy).Contents (Elt F) :=
  ((Host.powf : (⟨S50000, .f32⟩ : BufTy).Contents (Elt F) → (⟨S50000, .f32⟩ : BufTy).Contents (Elt F) → (⟨S50000, .f32⟩ : BufTy).Contents (Elt F)) ((addf : (⟨S50000, .f32⟩ : BufTy).Contents (Elt F) → (⟨S50000, .f32⟩ : BufTy).Contents (Elt F) → (⟨S50000, .f32⟩ : BufTy).Contents (Elt F)) (((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)) ((broadcastInDim S50000 ![] bcast_S_S50000 : (⟨S_, .f32⟩ : BufTy).Contents (Elt F) → (⟨S50000, .f32⟩ : BufTy).Contents (Elt F)) (constant S_ .f32 0x00000000#32)) ((broadcastInDim S800000x1 ![0] bcast_S800000_S800000x1_0 : (⟨S800000, .i32⟩ : BufTy).Contents (Elt F) → (⟨S800000x1, .i32⟩ : BufTy).Contents (Elt F)) dst) ((broadcastInDim S800000 ![] bcast_S_S800000 : (⟨S_, .f32⟩ : BufTy).Contents (Elt F) → (⟨S800000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0x3F800000#32))) ((broadcastInDim S50000 ![] bcast_S_S50000 : (⟨S_, .f32⟩ : BufTy).Contents (Elt F) → (⟨S50000, .f32⟩ : BufTy).Contents (Elt F)) (constant S_ .f32 0xBF000000#32)))

/-- The symmetric edge weight dinv(src) · dinv(dst), a negative index wrapped by the number of nodes before each gather. -/
def normOf (src : (⟨S800000, .i32⟩ : BufTy).Contents (Elt F)) (dst : (⟨S800000, .i32⟩ : BufTy).Contents (Elt F)) (dinv : (⟨S50000, .f32⟩ : BufTy).Contents (Elt F)) : (⟨S800000, .f32⟩ : BufTy).Contents (Elt F) :=
  ((mulf : (⟨S800000, .f32⟩ : BufTy).Contents (Elt F) → (⟨S800000, .f32⟩ : BufTy).Contents (Elt F) → (⟨S800000, .f32⟩ : BufTy).Contents (Elt F)) (((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) dinv ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) src ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) src ((broadcastInDim S800000 ![] bcast_S_S800000 : (⟨S_, .i32⟩ : BufTy).Contents (Elt F) → (⟨S800000, .i32⟩ : BufTy).Contents (Elt F)) (constantI S_ 32 50000#32))) src))) (((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)) dinv ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) dst ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) dst ((broadcastInDim S800000 ![] bcast_S_S800000 : (⟨S_, .i32⟩ : BufTy).Contents (Elt F) → (⟨S800000, .i32⟩ : BufTy).Contents (Elt F)) (constantI S_ 32 50000#32))) dst))))

/-- Layer 0's weight matrix [128, 128]: slab 0 of the stacked weights. -/
def wOf0 (a : (⟨S4x128x128, .f32⟩ : BufTy).Contents (Elt F)) : (⟨S128x128, .f32⟩ : BufTy).Contents (Elt F) :=
  (shapeCast _ (((extractStridedSlice S1x128x128 ![0, 0, 0] · slices_S4x128x128_S1x128x128_0_0_0) : (⟨S4x128x128, .f32⟩ : BufTy).Contents (Elt F) → (⟨S1x128x128, .f32⟩ : BufTy).Contents (Elt F)) a) shapeCasts_S1x128x128_S128x128)

/-- Layer 0's bias row: row 0 of the stacked biases. -/
def bOf0 (a : (⟨S4x128, .f32⟩ : BufTy).Contents (Elt F)) : (⟨S128, .f32⟩ : BufTy).Contents (Elt F) :=
  (shapeCast _ (((extractStridedSlice S1x128 ![0, 0] · slices_S4x128_S1x128_0_0) : (⟨S4x128, .f32⟩ : BufTy).Contents (Elt F) → (⟨S1x128, .f32⟩ : BufTy).Contents (Elt F)) a) shapeCasts_S1x128_S128)

/-- Layer 0's normalisation gain row. -/
def gOf0 (a : (⟨S4x128, .f32⟩ : BufTy).Contents (Elt F)) : (⟨S128, .f32⟩ : BufTy).Contents (Elt F) :=
  (shapeCast _ (((extractStridedSlice S1x128 ![0, 0] · slices_S4x128_S1x128_0_0) : (⟨S4x128, .f32⟩ : BufTy).Contents (Elt F) → (⟨S1x128, .f32⟩ : BufTy).Contents (Elt F)) a) shapeCasts_S1x128_S128)

/-- Layer 0's normalisation offset row. -/
def tOf0 (a : (⟨S4x128, .f32⟩ : BufTy).Contents (Elt F)) : (⟨S128, .f32⟩ : BufTy).Contents (Elt F) :=
  (shapeCast _ (((extractStridedSlice S1x128 ![0, 0] · slices_S4x128_S1x128_0_0) : (⟨S4x128, .f32⟩ : BufTy).Contents (Elt F) → (⟨S1x128, .f32⟩ : BufTy).Contents (Elt F)) a) shapeCasts_S1x128_S128)

/-- Layer 1's weight matrix [128, 128]: slab 1 of the stacked weights. -/
def wOf1 (a : (⟨S4x128x128, .f32⟩ : BufTy).Contents (Elt F)) : (⟨S128x128, .f32⟩ : BufTy).Contents (Elt F) :=
  (shapeCast _ (((extractStridedSlice S1x128x128 ![1, 0, 0] · slices_S4x128x128_S1x128x128_1_0_0) : (⟨S4x128x128, .f32⟩ : BufTy).Contents (Elt F) → (⟨S1x128x128, .f32⟩ : BufTy).Contents (Elt F)) a) shapeCasts_S1x128x128_S128x128)

/-- Layer 1's bias row: row 1 of the stacked biases. -/
def bOf1 (a : (⟨S4x128, .f32⟩ : BufTy).Contents (Elt F)) : (⟨S128, .f32⟩ : BufTy).Contents (Elt F) :=
  (shapeCast _ (((extractStridedSlice S1x128 ![1, 0] · slices_S4x128_S1x128_1_0) : (⟨S4x128, .f32⟩ : BufTy).Contents (Elt F) → (⟨S1x128, .f32⟩ : BufTy).Contents (Elt F)) a) shapeCasts_S1x128_S128)

/-- Layer 1's normalisation gain row. -/
def gOf1 (a : (⟨S4x128, .f32⟩ : BufTy).Contents (Elt F)) : (⟨S128, .f32⟩ : BufTy).Contents (Elt F) :=
  (shapeCast _ (((extractStridedSlice S1x128 ![1, 0] · slices_S4x128_S1x128_1_0) : (⟨S4x128, .f32⟩ : BufTy).Contents (Elt F) → (⟨S1x128, .f32⟩ : BufTy).Contents (Elt F)) a) shapeCasts_S1x128_S128)

/-- Layer 1's normalisation offset row. -/
def tOf1 (a : (⟨S4x128, .f32⟩ : BufTy).Contents (Elt F)) : (⟨S128, .f32⟩ : BufTy).Contents (Elt F) :=
  (shapeCast _ (((extractStridedSlice S1x128 ![1, 0] · slices_S4x128_S1x128_1_0) : (⟨S4x128, .f32⟩ : BufTy).Contents (Elt F) → (⟨S1x128, .f32⟩ : BufTy).Contents (Elt F)) a) shapeCasts_S1x128_S128)

/-- Layer 2's weight matrix [128, 128]: slab 2 of the stacked weights. -/
def wOf2 (a : (⟨S4x128x128, .f32⟩ : BufTy).Contents (Elt F)) : (⟨S128x128, .f32⟩ : BufTy).Contents (Elt F) :=
  (shapeCast _ (((extractStridedSlice S1x128x128 ![2, 0, 0] · slices_S4x128x128_S1x128x128_2_0_0) : (⟨S4x128x128, .f32⟩ : BufTy).Contents (Elt F) → (⟨S1x128x128, .f32⟩ : BufTy).Contents (Elt F)) a) shapeCasts_S1x128x128_S128x128)

/-- Layer 2's bias row: row 2 of the stacked biases. -/
def bOf2 (a : (⟨S4x128, .f32⟩ : BufTy).Contents (Elt F)) : (⟨S128, .f32⟩ : BufTy).Contents (Elt F) :=
  (shapeCast _ (((extractStridedSlice S1x128 ![2, 0] · slices_S4x128_S1x128_2_0) : (⟨S4x128, .f32⟩ : BufTy).Contents (Elt F) → (⟨S1x128, .f32⟩ : BufTy).Contents (Elt F)) a) shapeCasts_S1x128_S128)

/-- Layer 2's normalisation gain row. -/
def gOf2 (a : (⟨S4x128, .f32⟩ : BufTy).Contents (Elt F)) : (⟨S128, .f32⟩ : BufTy).Contents (Elt F) :=
  (shapeCast _ (((extractStridedSlice S1x128 ![2, 0] · slices_S4x128_S1x128_2_0) : (⟨S4x128, .f32⟩ : BufTy).Contents (Elt F) → (⟨S1x128, .f32⟩ : BufTy).Contents (Elt F)) a) shapeCasts_S1x128_S128)

/-- Layer 2's normalisation offset row. -/
def tOf2 (a : (⟨S4x128, .f32⟩ : BufTy).Contents (Elt F)) : (⟨S128, .f32⟩ : BufTy).Contents (Elt F) :=
  (shapeCast _ (((extractStridedSlice S1x128 ![2, 0] · slices_S4x128_S1x128_2_0) : (⟨S4x128, .f32⟩ : BufTy).Contents (Elt F) → (⟨S1x128, .f32⟩ : BufTy).Contents (Elt F)) a) shapeCasts_S1x128_S128)

/-- Layer 3's weight matrix [128, 128]: slab 3 of the stacked weights. -/
def wOf3 (a : (⟨S4x128x128, .f32⟩ : BufTy).Contents (Elt F)) : (⟨S128x128, .f32⟩ : BufTy).Contents (Elt F) :=
  (shapeCast _ (((extractStridedSlice S1x128x128 ![3, 0, 0] · slices_S4x128x128_S1x128x128_3_0_0) : (⟨S4x128x128, .f32⟩ : BufTy).Contents (Elt F) → (⟨S1x128x128, .f32⟩ : BufTy).Contents (Elt F)) a) shapeCasts_S1x128x128_S128x128)

/-- Layer 3's bias row: row 3 of the stacked biases. -/
def bOf3 (a : (⟨S4x128, .f32⟩ : BufTy).Contents (Elt F)) : (⟨S128, .f32⟩ : BufTy).Contents (Elt F) :=
  (shapeCast _ (((extractStridedSlice S1x128 ![3, 0] · slices_S4x128_S1x128_3_0) : (⟨S4x128, .f32⟩ : BufTy).Contents (Elt F) → (⟨S1x128, .f32⟩ : BufTy).Contents (Elt F)) a) shapeCasts_S1x128_S128)

/-- Layer 3's normalisation gain row. -/
def gOf3 (a : (⟨S4x128, .f32⟩ : BufTy).Contents (Elt F)) : (⟨S128, .f32⟩ : BufTy).Contents (Elt F) :=
  (shapeCast _ (((extractStridedSlice S1x128 ![3, 0] · slices_S4x128_S1x128_3_0) : (⟨S4x128, .f32⟩ : BufTy).Contents (Elt F) → (⟨S1x128, .f32⟩ : BufTy).Contents (Elt F)) a) shapeCasts_S1x128_S128)

/-- Layer 3's normalisation offset row. -/
def tOf3 (a : (⟨S4x128, .f32⟩ : BufTy).Contents (Elt F)) : (⟨S128, .f32⟩ : BufTy).Contents (Elt F) :=
  (shapeCast _ (((extractStridedSlice S1x128 ![3, 0] · slices_S4x128_S1x128_3_0) : (⟨S4x128, .f32⟩ : BufTy).Contents (Elt F) → (⟨S1x128, .f32⟩ : BufTy).Contents (Elt F)) a) shapeCasts_S1x128_S128)

/-- One graph convolution after the projection h: the edge messages h(src) · norm summed into their target rows, plus the self-loop term h · dinv2, plus the bias row. -/
def comb (h : (⟨S50000x128, .f32⟩ : BufTy).Contents (Elt F)) (bl : (⟨S128, .f32⟩ : BufTy).Contents (Elt F)) (src : (⟨S800000, .i32⟩ : BufTy).Contents (Elt F)) (dst : (⟨S800000, .i32⟩ : BufTy).Contents (Elt F)) (norm : (⟨S800000, .f32⟩ : BufTy).Contents (Elt F)) (dinv2 : (⟨S50000, .f32⟩ : BufTy).Contents (Elt F)) : (⟨S50000x128, .f32⟩ : BufTy).Contents (Elt F) :=
  ((addf : (⟨S50000x128, .f32⟩ : BufTy).Contents (Elt F) → (⟨S50000x128, .f32⟩ : BufTy).Contents (Elt F) → (⟨S50000x128, .f32⟩ : BufTy).Contents (Elt F)) ((addf : (⟨S50000x128, .f32⟩ : BufTy).Contents (Elt F) → (⟨S50000x128, .f32⟩ : BufTy).Contents (Elt F) → (⟨S50000x128, .f32⟩ : BufTy).Contents (Elt F)) (((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ((broadcastInDim S50000x128 ![] bcast_S_S50000x128 : (⟨S_, .f32⟩ : BufTy).Contents (Elt F) → (⟨S50000x128, .f32⟩ : BufTy).Contents (Elt F)) (constant S_ .f32 0x00000000#32)) ((broadcastInDim S800000x1 ![0] bcast_S800000_S800000x1_0 : (⟨S800000, .i32⟩ : BufTy).Contents (Elt F) → (⟨S800000x1, .i32⟩ : BufTy).Contents (Elt F)) dst) ((mulf : (⟨S800000x128, .f32⟩ : BufTy).Contents (Elt F) → (⟨S800000x128, .f32⟩ : BufTy).Contents (Elt F) → (⟨S800000x128, .f32⟩ : BufTy).Contents (Elt F)) (((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)) h ((broadcastInDim S800000x1 ![0] bcast_S800000_S800000x1_0 : (⟨S800000, .i32⟩ : BufTy).Contents (Elt F) → (⟨S800000x1, .i32⟩ : BufTy).Contents (Elt F)) ((select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)) ((cmpi .slt : (⟨S800000, .i32⟩ : BufTy).Contents (Elt F) → (⟨S800000, .i32⟩ : BufTy).Contents (Elt F) → (⟨S800000, .i1⟩ : BufTy).Contents (Elt F)) src ((broadcastInDim S800000 ![] bcast_S_S800000 : (⟨S_, .i32⟩ : BufTy).Contents (Elt F) → (⟨S800000, .i32⟩ : BufTy).Contents (Elt F)) (constantI S_ 32 0#32))) ((addi : (⟨S800000, .i32⟩ : BufTy).Contents (Elt F) → (⟨S800000, .i32⟩ : BufTy).Contents (Elt F) → (⟨S800000, .i32⟩ : BufTy).Contents (Elt F)) src ((broadcastInDim S800000 ![] bcast_S_S800000 : (⟨S_, .i32⟩ : BufTy).Contents (Elt F) → (⟨S800000, .i32⟩ : BufTy).Contents (Elt F)) (constantI S_ 32 50000#32))) src))) ((broadcastInDim S800000x128 ![0, 1] bcast_S800000x1_S800000x128_0_1 : (⟨S800000x1, .f32⟩ : BufTy).Contents (Elt F) → (⟨S800000x128, .f32⟩ : BufTy).Contents (Elt F)) ((broadcastInDim S800000x1 ![0] bcast_S800000_S800000x1_0 : (⟨S800000, .f32⟩ : BufTy).Contents (Elt F) → (⟨S800000x1, .f32⟩ : BufTy).Contents (Elt F)) norm)))) ((mulf : (⟨S50000x128, .f32⟩ : BufTy).Contents (Elt F) → (⟨S50000x128, .f32⟩ : BufTy).Contents (Elt F) → (⟨S50000x128, .f32⟩ : BufTy).Contents (Elt F)) h ((broadcastInDim S50000x128 ![0, 1] bcast_S50000x1_S50000x128_0_1 : (⟨S50000x1, .f32⟩ : BufTy).Contents (Elt F) → (⟨S50000x128, .f32⟩ : BufTy).Contents (Elt F)) ((broadcastInDim S50000x1 ![0] bcast_S50000_S50000x1_0 : (⟨S50000, .f32⟩ : BufTy).Contents (Elt F) → (⟨S50000x1, .f32⟩ : BufTy).Contents (Elt F)) dinv2)))) ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) bl)))

/-- The column means over the 50000 nodes. -/
def meanOf (c : (⟨S50000x128, .f32⟩ : BufTy).Contents (Elt F)) : (⟨S128, .f32⟩ : BufTy).Contents (Elt F) :=
  ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) c (constant S_ .f32 0x00000000#32)) ((broadcastInDim S128 ![] bcast_S_S128 : (⟨S_, .f32⟩ : BufTy).Contents (Elt F) → (⟨S128, .f32⟩ : BufTy).Contents (Elt F)) (constant S_ .f32 0x47435000#32)))

/-- 1 / sqrt(var + eps) per column, var the mean over the nodes of the squared deviation from the column mean. -/
def rOf (c : (⟨S50000x128, .f32⟩ : BufTy).Contents (Elt F)) : (⟨S128, .f32⟩ : BufTy).Contents (Elt F) :=
  ((Host.rsqrt : (⟨S128, .f32⟩ : BufTy).Contents (Elt F) → (⟨S128, .f32⟩ : BufTy).Contents (Elt F)) ((addf : (⟨S128, .f32⟩ : BufTy).Contents (Elt F) → (⟨S128, .f32⟩ : BufTy).Contents (Elt F) → (⟨S128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) ((mulf : (⟨S50000x128, .f32⟩ : BufTy).Contents (Elt F) → (⟨S50000x128, .f32⟩ : BufTy).Contents (Elt F) → (⟨S50000x128, .f32⟩ : BufTy).Contents (Elt F)) ((subf : (⟨S50000x128, .f32⟩ : BufTy).Contents (Elt F) → (⟨S50000x128, .f32⟩ : BufTy).Contents (Elt F) → (⟨S50000x128, .f32⟩ : BufTy).Contents (Elt F)) c ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) c (constant S_ .f32 0x00000000#32)) ((broadcastInDim S128 ![] bcast_S_S128 : (⟨S_, .f32⟩ : BufTy).Contents (Elt F) → (⟨S128, .f32⟩ : BufTy).Contents (Elt F)) (constant S_ .f32 0x47435000#32)))))) ((subf : (⟨S50000x128, .f32⟩ : BufTy).Contents (Elt F) → (⟨S50000x128, .f32⟩ : BufTy).Contents (Elt F) → (⟨S50000x128, .f32⟩ : BufTy).Contents (Elt F)) c ((broadcastInDim S50000x128 ![0, 1] bcast_S1x128_S50000x128_0_1 : (⟨S1x128, .f32⟩ : BufTy).Contents (Elt F) → (⟨S50000x128, .f32⟩ : BufTy).Contents (Elt F)) ((broadcastInDim S1x128 ![1] bcast_S128_S1x128_1 : (⟨S128, .f32⟩ : BufTy).Contents (Elt F) → (⟨S1x128, .f32⟩ : BufTy).Contents (Elt F)) ((Host.divf : (⟨S128, .f32⟩ : BufTy).Contents (Elt F) → (⟨S128, .f32⟩ : BufTy).Contents (Elt F) → (⟨S128, .f32⟩ : BufTy).Contents (Elt F)) (((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)) c (constant S_ .f32 0x00000000#32)) ((broadcastInDim S128 ![] bcast_S_S128 : (⟨S_, .f32⟩ : BufTy).Contents (Elt F) → (⟨S128, .f32⟩ : BufTy).Contents (Elt F)) (constant S_ .f32 0x47435000#32))))))) (constant S_ .f32 0x00000000#32)) ((broadcastInDim S128 ![] bcast_S_S128 : (⟨S_, .f32⟩ : BufTy).Contents (Elt F) → (⟨S128, .f32⟩ : BufTy).Contents (Elt F)) (constant S_ .f32 0x47435000#32))) ((broadcastInDim S128 ![] bcast_S_S128 : (⟨S_, .f32⟩ : BufTy).Contents (Elt F) → (⟨S128, .f32⟩ : BufTy).Contents (Elt F)) (constant S_ .f32 0x3727C5AC#32))))

/-- The per-graph mean of the node rows: rows summed into their graph, divided by max(count, 1). -/
def poolOf (x : (⟨S50000x128, .f32⟩ : BufTy).Contents (Elt F)) (batch : (⟨S50000, .i32⟩ : BufTy).Contents (Elt F)) : (⟨S512x128, .f32⟩ : BufTy).Contents (Elt F) :=
  ((Host.divf : (⟨S512x128, .f32⟩ : BufTy).Contents (Elt F) → (⟨S512x128, .f32⟩ : BufTy).Contents (Elt F) → (⟨S512x128, .f32⟩ : BufTy).Contents (Elt F)) (((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)) ((broadcastInDim S512x128 ![] bcast_S_S512x128 : (⟨S_, .f32⟩ : BufTy).Contents (Elt F) → (⟨S512x128, .f32⟩ : BufTy).Contents (Elt F)) (constant S_ .f32 0x00000000#32)) ((broadcastInDim S50000x1 ![0] bcast_S50000_S50000x1_0 : (⟨S50000, .i32⟩ : BufTy).Contents (Elt F) → (⟨S50000x1, .i32⟩ : BufTy).Contents (Elt F)) batch) x) ((broadcastInDim S512x128 ![0, 1] bcast_S512x1_S512x128_0_1 : (⟨S512x1, .f32⟩ : BufTy).Contents (Elt F) → (⟨S512x128, .f32⟩ : BufTy).Contents (Elt F)) ((broadcastInDim S512x1 ![0] bcast_S512_S512x1_0 : (⟨S512, .f32⟩ : BufTy).Contents (Elt F) → (⟨S512x1, .f32⟩ : BufTy).Contents (Elt F)) ((maximumf : (⟨S512, .f32⟩ : BufTy).Contents (Elt F) → (⟨S512, .f32⟩ : BufTy).Contents (Elt F) → (⟨S512, .f32⟩ : BufTy).Contents (Elt F)) (((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)) ((broadcastInDim S512 ![] bcast_S_S512 : (⟨S_, .f32⟩ : BufTy).Contents (Elt F) → (⟨S512, .f32⟩ : BufTy).Contents (Elt F)) (constant S_ .f32 0x00000000#32)) ((broadcastInDim S50000x1 ![0] bcast_S50000_S50000x1_0 : (⟨S50000, .i32⟩ : BufTy).Contents (Elt F) → (⟨S50000x1, .i32⟩ : BufTy).Contents (Elt F)) batch) ((broadcastInDim S50000 ![] bcast_S_S50000 : (⟨S_, .f32⟩ : BufTy).Contents (Elt F) → (⟨S50000, .f32⟩ : BufTy).Contents (Elt F)) (constant S_ .f32 0x3F800000#32))) ((broadcastInDim S512 ![] bcast_S_S512 : (⟨S_, .f32⟩ : BufTy).Contents (Elt F) → (⟨S512, .f32⟩ : BufTy).Contents (Elt F)) (constant S_ .f32 0x3F800000#32))))))

/-- The classifier p · Wc + bc, the bias row broadcast over the graphs. -/
def clsOf (p : (⟨S512x128, .f32⟩ : BufTy).Contents (Elt F)) (wc : (⟨S128x10, .f32⟩ : BufTy).Contents (Elt F)) (bc : (⟨S10, .f32⟩ : BufTy).Contents (Elt F)) : (⟨S512x10, .f32⟩ : BufTy).Contents (Elt F) :=
  ((addf : (⟨S512x10, .f32⟩ : BufTy).Contents (Elt F) → (⟨S512x10, .f32⟩ : BufTy).Contents (Elt F) → (⟨S512x10, .f32⟩ : BufTy).Contents (Elt F)) (((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)) p wc) ((broadcastInDim S512x10 ![0, 1] bcast_S1x10_S512x10_0_1 : (⟨S1x10, .f32⟩ : BufTy).Contents (Elt F) → (⟨S512x10, .f32⟩ : BufTy).Contents (Elt F)) ((broadcastInDim S1x10 ![1] bcast_S10_S1x10_1 : (⟨S10, .f32⟩ : BufTy).Contents (Elt F) → (⟨S1x10, .f32⟩ : BufTy).Contents (Elt F)) bc)))

/-- The projection x · W of the node rows. -/
def proj (x : (⟨S50000x128, .f32⟩ : BufTy).Contents (Elt F)) (w : (⟨S128x128, .f32⟩ : BufTy).Contents (Elt F)) : (⟨S50000x128, .f32⟩ : BufTy).Contents (Elt F) :=
  ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) x w

end Generic

/-- One layer as the kernel computes it. -/
def kerLayer (x : FVec Ideal S50000x128 .f32) (w : FVec Ideal S128x128 .f32) (bl g t : FVec Ideal S128 .f32)
    (src dst : IVec S800000 32) (norm : FVec Ideal S800000 .f32) (dinv2 : FVec Ideal S50000 .f32) : FVec Ideal S50000x128 .f32 :=
  kerNorm (comb (F := Ideal) (proj (F := Ideal) x w) bl src dst norm dinv2) (meanOf (F := Ideal) (comb (F := Ideal) (proj (F := Ideal) x w) bl src dst norm dinv2))
    (rOf (F := Ideal) (comb (F := Ideal) (proj (F := Ideal) x w) bl src dst norm dinv2)) g t

/-- One layer as the reference computes it. -/
def refLayer (x : FVec Ideal S50000x128 .f32) (w : FVec Ideal S128x128 .f32) (bl g t : FVec Ideal S128 .f32)
    (src dst : IVec S800000 32) (norm : FVec Ideal S800000 .f32) (dinv2 : FVec Ideal S50000 .f32) : FVec Ideal S50000x128 .f32 :=
  refNorm (comb (F := Ideal) (proj (F := Ideal) x w) bl src dst norm dinv2) (meanOf (F := Ideal) (comb (F := Ideal) (proj (F := Ideal) x w) bl src dst norm dinv2))
    (rOf (F := Ideal) (comb (F := Ideal) (proj (F := Ideal) x w) bl src dst norm dinv2)) g t

end Cert.Spec

end
-- ==== Proof.Network.lean ====
/-
  The whole network as one function of the nine argument arrays, on each side: four layers from the node features,
  then the pooling and the classifier. `refX l` / `kerX l` is the node-feature array after `l` layers in the
  reference's / the kernel's spelling; they differ only in the normalisation's spelling (`refLayer` / `kerLayer`)
  and, at the end, in how the classifier's bias row is spread over the graphs.
-/
import proofs.«167957_j84052509983292_1_alg».proof.Proof.Stages

noncomputable section

namespace Cert.Spec

open Idealize.ShloMosaic Idealize.ShloMosaic.ValueIdx Cert.ReferenceIdeal Cert.ReferenceIdeal.Facts₀

variable [Cert.ReferenceIdeal.Facts] [Cert.KernelIdeal.Facts]

/-- The edge weights from the edge table alone. -/
def normE (e : IVec S2x800000 32) : FVec Ideal S800000 .f32 :=
  normOf (F := Ideal) (srcOf (F := Ideal) e) (dstOf (F := Ideal) e) (dinvOf (F := Ideal) (dstOf (F := Ideal) e))
/-- deg^(-1) per node from the edge table alone (the self-loop's weight). -/
def dinv2E (e : IVec S2x800000 32) : FVec Ideal S50000 .f32 :=
  mulf (dinvOf (F := Ideal) (dstOf (F := Ideal) e)) (dinvOf (F := Ideal) (dstOf (F := Ideal) e))

/-- The node features after 1 layer, reference spelling. -/
def refX1 (a0 : FVec Ideal S50000x128 .f32) (a1 : FVec Ideal S4x128x128 .f32) (a2 : FVec Ideal S4x128 .f32) (a3 : FVec Ideal S4x128 .f32) (a4 : FVec Ideal S4x128 .f32) (e : IVec S2x800000 32) : FVec Ideal S50000x128 .f32 :=
  refLayer a0 (wOf0 (F := Ideal) a1) (bOf0 (F := Ideal) a2) (gOf0 (F := Ideal) a3) (tOf0 (F := Ideal) a4)
    (srcOf (F := Ideal) e) (dstOf (F := Ideal) e) (normE e) (dinv2E e)

/-- The node features after 2 layers, reference spelling. -/
def refX2 (a0 : FVec Ideal S50000x128 .f32) (a1 : FVec Ideal S4x128x128 .f32) (a2 : FVec Ideal S4x128 .f32) (a3 : FVec Ideal S4x128 .f32) (a4 : FVec Ideal S4x128 .f32) (e : IVec S2x800000 32) : FVec Ideal S50000x128 .f32 :=
  refLayer (refX1 a0 a1 a2 a3 a4 e) (wOf1 (F := Ideal) a1) (bOf1 (F := Ideal) a2) (gOf1 (F := Ideal) a3) (tOf1 (F := Ideal) a4)
    (srcOf (F := Ideal) e) (dstOf (F := Ideal) e) (normE e) (dinv2E e)

/-- The node features after 3 layers, reference spelling. -/
def refX3 (a0 : FVec Ideal S50000x128 .f32) (a1 : FVec Ideal S4x128x128 .f32) (a2 : FVec Ideal S4x128 .f32) (a3 : FVec Ideal S4x128 .f32) (a4 : FVec Ideal S4x128 .f32) (e : IVec S2x800000 32) : FVec Ideal S50000x128 .f32 :=
  refLayer (refX2 a0 a1 a2 a3 a4 e) (wOf2 (F := Ideal) a1) (bOf2 (F := Ideal) a2) (gOf2 (F := Ideal) a3) (tOf2 (F := Ideal) a4)
    (srcOf (F := Ideal) e) (dstOf (F := Ideal) e) (normE e) (dinv2E e)

/-- The node features after 4 layers, reference spelling. -/
def refX4 (a0 : FVec Ideal S50000x128 .f32) (a1 : FVec Ideal S4x128x128 .f32) (a2 : FVec Ideal S4x128 .f32) (a3 : FVec Ideal S4x128 .f32) (a4 : FVec Ideal S4x128 .f32) (e : IVec S2x800000 32) : FVec Ideal S50000x128 .f32 :=
  refLayer (refX3 a0 a1 a2 a3 a4 e) (wOf3 (F := Ideal) a1) (bOf3 (F := Ideal) a2) (gOf3 (F := Ideal) a3) (tOf3 (F := Ideal) a4)
    (srcOf (F := Ideal) e) (dstOf (F := Ideal) e) (normE e) (dinv2E e)

/-- The node features after 1 layer, kernel spelling. -/
def kerX1 (a0 : FVec Ideal S50000x128 .f32) (a1 : FVec Ideal S4x128x128 .f32) (a2 : FVec Ideal S4x128 .f32) (a3 : FVec Ideal S4x128 .f32) (a4 : FVec Ideal S4x128 .f32) (e : IVec S2x800000 32) : FVec Ideal S50000x128 .f32 :=
  kerLayer a0 (wOf0 (F := Ideal) a1) (bOf0 (F := Ideal) a2) (gOf0 (F := Ideal) a3) (tOf0 (F := Ideal) a4)
    (srcOf (F := Ideal) e) (dstOf (F := Ideal) e) (normE e) (dinv2E e)

/-- The node features after 2 layers, kernel spelling. -/
def kerX2 (a0 : FVec Ideal S50000x128 .f32) (a1 : FVec Ideal S4x128x128 .f32) (a2 : FVec Ideal S4x128 .f32) (a3 : FVec Ideal S4x128 .f32) (a4 : FVec Ideal S4x128 .f32) (e : IVec S2x800000 32) : FVec Ideal S50000x128 .f32 :=
  kerLayer (kerX1 a0 a1 a2 a3 a4 e) (wOf1 (F := Ideal) a1) (bOf1 (F := Ideal) a2) (gOf1 (F := Ideal) a3) (tOf1 (F := Ideal) a4)
    (srcOf (F := Ideal) e) (dstOf (F := Ideal) e) (normE e) (dinv2E e)

/-- The node features after 3 layers, kernel spelling. -/
def kerX3 (a0 : FVec Ideal S50000x128 .f32) (a1 : FVec Ideal S4x128x128 .f32) (a2 : FVec Ideal S4x128 .f32) (a3 : FVec Ideal S4x128 .f32) (a4 : FVec Ideal S4x128 .f32) (e : IVec S2x800000 32) : FVec Ideal S50000x128 .f32 :=
  kerLayer (kerX2 a0 a1 a2 a3 a4 e) (wOf2 (F := Ideal) a1) (bOf2 (F := Ideal) a2) (gOf2 (F := Ideal) a3) (tOf2 (F := Ideal) a4)
    (srcOf (F := Ideal) e) (dstOf (F := Ideal) e) (normE e) (dinv2E e)

/-- The node features after 4 layers, kernel spelling. -/
def kerX4 (a0 : FVec Ideal S50000x128 .f32) (a1 : FVec Ideal S4x128x128 .f32) (a2 : FVec Ideal S4x128 .f32) (a3 : FVec Ideal S4x128 .f32) (a4 : FVec Ideal S4x128 .f32) (e : IVec S2x800000 32) : FVec Ideal S50000x128 .f32 :=
  kerLayer (kerX3 a0 a1 a2 a3 a4 e) (wOf3 (F := Ideal) a1) (bOf3 (F := Ideal) a2) (gOf3 (F := Ideal) a3) (tOf3 (F := Ideal) a4)
    (srcOf (F := Ideal) e) (dstOf (F := Ideal) e) (normE e) (dinv2E e)

/-- The reference's result: the classifier of the pooled features after four layers. -/
def refOut (a0 : FVec Ideal S50000x128 .f32) (a1 : FVec Ideal S4x128x128 .f32) (a2 : FVec Ideal S4x128 .f32) (a3 : FVec Ideal S4x128 .f32) (a4 : FVec Ideal S4x128 .f32) (a5 : FVec Ideal S128x10 .f32) (a6 : FVec Ideal S10 .f32) (e : IVec S2x800000 32) (a8 : IVec S50000 32) : FVec Ideal S512x10 .f32 :=
  clsOf (F := Ideal) (poolOf (F := Ideal) (refX4 a0 a1 a2 a3 a4 e) a8) a5 a6

/-- The kernel's classifier: p · Wc plus the bias row [1, 10] read at the column. -/
def clsKer (p : FVec Ideal S512x128 .f32) (wc : FVec Ideal S128x10 .f32) (b2 : FVec Ideal S1x10 .f32) : FVec Ideal S512x10 .f32 :=
  addf (Host.dotGeneral (F := Ideal) dot_S512x128_S128x10_S512x10_1_0_0_1_n_n none p wc) (fun i => b2 (ix2 (0 : Fin 1) (i 1)))

/-- The kernel's result: its classifier of the pooled features after four layers, the bias recast to a row [1, 10]. -/
def kerOut (a0 : FVec Ideal S50000x128 .f32) (a1 : FVec Ideal S4x128x128 .f32) (a2 : FVec Ideal S4x128 .f32) (a3 : FVec Ideal S4x128 .f32) (a4 : FVec Ideal S4x128 .f32) (a5 : FVec Ideal S128x10 .f32) (a6 : FVec Ideal S10 .f32) (e : IVec S2x800000 32) (a8 : IVec S50000 32) : FVec Ideal S512x10 .f32 :=
  clsKer (poolOf (F := Ideal) (kerX4 a0 a1 a2 a3 a4 e) a8) a5 (shapeCast Cert.KernelIdeal.S1x10 a6 Cert.KernelIdeal.Facts₀.shapeCasts_S10_S1x10)

end Cert.Spec

end
-- ==== Proof.KernelHost.lean ====
/-
  The idealized kernel program's nine stretches of host operations read one at a time, each from arbitrary starting
  contents `V`: what a stretch leaves in the buffers the next region or a later stretch reads, as the shared stage
  functions of what it reads, and that it leaves the other live buffers as they were. The stretch before a
  normalisation region leaves the convolved array and the two rows scale = gamma · r and shift = beta − mean · scale,
  each recast to [1, 128].
-/
import proofs.«167957_j84052509983292_1_alg».proof.Proof.Gen.KernelIdeal.Launch
import proofs.«167957_j84052509983292_1_alg».proof.Proof.Network
import proofs.«167957_j84052509983292_1_alg».proof.Proof.Gen.KernelIdeal
import proofs.«167957_j84052509983292_1_alg».proof.Proof.Gen.ReferenceIdeal
import Idealize.ShloMosaic.Lib.StableHlo.Run

set_option maxRecDepth 16384

noncomputable section

namespace Cert.Spec

variable [Cert.KernelIdeal.Facts]

open Idealize.ShloMosaic

/-- The kernel's scale row gamma · r, recast from [128] to [1, 128]. -/
def scaleRow (g r : FVec Ideal Cert.ReferenceIdeal.S128 .f32) : FVec Ideal Cert.KernelIdeal.S1x128 .f32 :=
  shapeCast Cert.KernelIdeal.S1x128 (mulf g r) Cert.KernelIdeal.Facts₀.shapeCasts_S128_S1x128

/-- The kernel's shift row beta − mean · (gamma · r), recast from [128] to [1, 128]. -/
def shiftRow (t mean g r : FVec Ideal Cert.ReferenceIdeal.S128 .f32) : FVec Ideal Cert.KernelIdeal.S1x128 .f32 :=
  shapeCast Cert.KernelIdeal.S1x128 (subf t (mulf mean (mulf g r))) Cert.KernelIdeal.Facts₀.shapeCasts_S128_S1x128

end Cert.Spec

namespace Cert.KernelIdeal.HostValue

open Cert.KernelIdeal Cert.KernelIdeal.Gen Idealize.ShloMosaic Idealize.ShloMosaic.TcCoe Idealize.SL.Sem Idealize.ShloMosaic.StableHlo Cert.Spec

variable (V : Valuation τ sig (Elt Ideal))

/-! ## Stretch 0: the graph quantities and layer 0's weights -/
theorem H0_v1 : StableHlo.after (hostOps0 (F := Ideal)) V (Proc.devRef .tc main_v1) = srcOf (F := Ideal) (V (Proc.devRef .tc main_arg7)) := by after_results_simp <;> rfl
theorem H0_v3 : StableHlo.after (hostOps0 (F := Ideal)) V (Proc.devRef .tc main_v3) = dstOf (F := Ideal) (V (Proc.devRef .tc main_arg7)) := by after_results_simp <;> rfl
theorem H0_v26 : StableHlo.after (hostOps0 (F := Ideal)) V (Proc.devRef .tc main_v26) = normE (V (Proc.devRef .tc main_arg7)) := by after_results_simp <;> rfl
theorem H0_v27 : StableHlo.after (hostOps0 (F := Ideal)) V (Proc.devRef .tc main_v27) = dinv2E (V (Proc.devRef .tc main_arg7)) := by after_results_simp <;> rfl
theorem H0_v29 : StableHlo.after (hostOps0 (F := Ideal)) V (Proc.devRef .tc main_v29) = wOf0 (F := Ideal) (V (Proc.devRef .tc main_arg1)) := by after_results_simp <;> rfl
theorem H0_keep_arg0 : StableHlo.after (hostOps0 (F := Ideal)) V (Proc.devRef .tc main_arg0) = V (Proc.devRef .tc main_arg0) := by after_results_simp <;> rfl
theorem H0_keep_arg1 : StableHlo.after (hostOps0 (F := Ideal)) V (Proc.devRef .tc main_arg1) = V (Proc.devRef .tc main_arg1) := by after_results_simp <;> rfl
theorem H0_keep_arg2 : StableHlo.after (hostOps0 (F := Ideal)) V (Proc.devRef .tc main_arg2) = V (Proc.devRef .tc main_arg2) := by after_results_simp <;> rfl
theorem H0_keep_arg3 : StableHlo.after (hostOps0 (F := Ideal)) V (Proc.devRef .tc main_arg3) = V (Proc.devRef .tc main_arg3) := by after_results_simp <;> rfl
theorem H0_keep_arg4 : StableHlo.after (hostOps0 (F := Ideal)) V (Proc.devRef .tc main_arg4) = V (Proc.devRef .tc main_arg4) := by after_results_simp <;> rfl
theorem H0_keep_arg5 : StableHlo.after (hostOps0 (F := Ideal)) V (Proc.devRef .tc main_arg5) = V (Proc.devRef .tc main_arg5) := by after_results_simp <;> rfl
theorem H0_keep_arg6 : StableHlo.after (hostOps0 (F := Ideal)) V (Proc.devRef .tc main_arg6) = V (Proc.devRef .tc main_arg6) := by after_results_simp <;> rfl
theorem H0_keep_arg8 : StableHlo.after (hostOps0 (F := Ideal)) V (Proc.devRef .tc main_arg8) = V (Proc.devRef .tc main_arg8) := by after_results_simp <;> rfl

/-! ## Stretch 1: layer 0's convolution, statistics, scale and shift -/
theorem H1_c : StableHlo.after (hostOps1 (F := Ideal)) V (Proc.devRef .tc main_v52) = (comb (F := Ideal) (V (Proc.devRef .tc main_v30)) (bOf0 (F := Ideal) (V (Proc.devRef .tc main_arg2))) (V (Proc.devRef .tc main_v1)) (V (Proc.devRef .tc main_v3)) (V (Proc.devRef .tc main_v26)) (V (Proc.devRef .tc main_v27))) := by after_results_simp <;> rfl
theorem H1_sc : StableHlo.after (hostOps1 (F := Ideal)) V (Proc.devRef .tc main_v73) = scaleRow (gOf0 (F := Ideal) (V (Proc.devRef .tc main_arg3))) (rOf (F := Ideal) (comb (F := Ideal) (V (Proc.devRef .tc main_v30)) (bOf0 (F := Ideal) (V (Proc.devRef .tc main_arg2))) (V (Proc.devRef .tc main_v1)) (V (Proc.devRef .tc main_v3)) (V (Proc.devRef .tc main_v26)) (V (Proc.devRef .tc main_v27)))) := by after_results_simp <;> rfl
theorem H1_sh : StableHlo.after (hostOps1 (F := Ideal)) V (Proc.devRef .tc main_v74) = shiftRow (tOf0 (F := Ideal) (V (Proc.devRef .tc main_arg4))) (meanOf (F := Ideal) (comb (F := Ideal) (V (Proc.devRef .tc main_v30)) (bOf0 (F := Ideal) (V (Proc.devRef .tc main_arg2))) (V (Proc.devRef .tc main_v1)) (V (Proc.devRef .tc main_v3)) (V (Proc.devRef .tc main_v26)) (V (Proc.devRef .tc main_v27)))) (gOf0 (F := Ideal) (V (Proc.devRef .tc main_arg3))) (rOf (F := Ideal) (comb (F := Ideal) (V (Proc.devRef .tc main_v30)) (bOf0 (F := Ideal) (V (Proc.devRef .tc main_arg2))) (V (Proc.devRef .tc main_v1)) (V (Proc.devRef .tc main_v3)) (V (Proc.devRef .tc main_v26)) (V (Proc.devRef .tc main_v27)))) := by after_results_simp <;> rfl
theorem H1_keep_v1 : StableHlo.after (hostOps1 (F := Ideal)) V (Proc.devRef .tc main_v1) = V (Proc.devRef .tc main_v1) := by after_results_simp <;> rfl
theorem H1_keep_v3 : StableHlo.after (hostOps1 (F := Ideal)) V (Proc.devRef .tc main_v3) = V (Proc.devRef .tc main_v3) := by after_results_simp <;> rfl
theorem H1_keep_v26 : StableHlo.after (hostOps1 (F := Ideal)) V (Proc.devRef .tc main_v26) = V (Proc.devRef .tc main_v26) := by after_results_simp <;> rfl
theorem H1_keep_v27 : StableHlo.after (hostOps1 (F := Ideal)) V (Proc.devRef .tc main_v27) = V (Proc.devRef .tc main_v27) := by after_results_simp <;> rfl
theorem H1_keep_arg1 : StableHlo.after (hostOps1 (F := Ideal)) V (Proc.devRef .tc main_arg1) = V (Proc.devRef .tc main_arg1) := by after_results_simp <;> rfl
theorem H1_keep_arg2 : StableHlo.after (hostOps1 (F := Ideal)) V (Proc.devRef .tc main_arg2) = V (Proc.devRef .tc main_arg2) := by after_results_simp <;> rfl
theorem H1_keep_arg3 : StableHlo.after (hostOps1 (F := Ideal)) V (Proc.devRef .tc main_arg3) = V (Proc.devRef .tc main_arg3) := by after_results_simp <;> rfl
theorem H1_keep_arg4 : StableHlo.after (hostOps1 (F := Ideal)) V (Proc.devRef .tc main_arg4) = V (Proc.devRef .tc main_arg4) := by after_results_simp <;> rfl
theorem H1_keep_arg5 : StableHlo.after (hostOps1 (F := Ideal)) V (Proc.devRef .tc main_arg5) = V (Proc.devRef .tc main_arg5) := by after_results_simp <;> rfl
theorem H1_keep_arg6 : StableHlo.after (hostOps1 (F := Ideal)) V (Proc.devRef .tc main_arg6) = V (Proc.devRef .tc main_arg6) := by after_results_simp <;> rfl
theorem H1_keep_arg8 : StableHlo.after (hostOps1 (F := Ideal)) V (Proc.devRef .tc main_arg8) = V (Proc.devRef .tc main_arg8) := by after_results_simp <;> rfl

/-! ## Stretch 2: layer 1's weights -/
theorem H2_w : StableHlo.after (hostOps2 (F := Ideal)) V (Proc.devRef .tc main_v77) = wOf1 (F := Ideal) (V (Proc.devRef .tc main_arg1)) := by after_results_simp <;> rfl
theorem H2_keep_v75 : StableHlo.after (hostOps2 (F := Ideal)) V (Proc.devRef .tc main_v75) = V (Proc.devRef .tc main_v75) := by after_results_simp <;> rfl
theorem H2_keep_v1 : StableHlo.after (hostOps2 (F := Ideal)) V (Proc.devRef .tc main_v1) = V (Proc.devRef .tc main_v1) := by after_results_simp <;> rfl
theorem H2_keep_v3 : StableHlo.after (hostOps2 (F := Ideal)) V (Proc.devRef .tc main_v3) = V (Proc.devRef .tc main_v3) := by after_results_simp <;> rfl
theorem H2_keep_v26 : StableHlo.after (hostOps2 (F := Ideal)) V (Proc.devRef .tc main_v26) = V (Proc.devRef .tc main_v26) := by after_results_simp <;> rfl
theorem H2_keep_v27 : StableHlo.after (hostOps2 (F := Ideal)) V (Proc.devRef .tc main_v27) = V (Proc.devRef .tc main_v27) := by after_results_simp <;> rfl
theorem H2_keep_arg1 : StableHlo.after (hostOps2 (F := Ideal)) V (Proc.devRef .tc main_arg1) = V (Proc.devRef .tc main_arg1) := by after_results_simp <;> rfl
theorem H2_keep_arg2 : StableHlo.after (hostOps2 (F := Ideal)) V (Proc.devRef .tc main_arg2) = V (Proc.devRef .tc main_arg2) := by after_results_simp <;> rfl
theorem H2_keep_arg3 : StableHlo.after (hostOps2 (F := Ideal)) V (Proc.devRef .tc main_arg3) = V (Proc.devRef .tc main_arg3) := by after_results_simp <;> rfl
theorem H2_keep_arg4 : StableHlo.after (hostOps2 (F := Ideal)) V (Proc.devRef .tc main_arg4) = V (Proc.devRef .tc main_arg4) := by after_results_simp <;> rfl
theorem H2_keep_arg5 : StableHlo.after (hostOps2 (F := Ideal)) V (Proc.devRef .tc main_arg5) = V (Proc.devRef .tc main_arg5) := by after_results_simp <;> rfl
theorem H2_keep_arg6 : StableHlo.after (hostOps2 (F := Ideal)) V (Proc.devRef .tc main_arg6) = V (Proc.devRef .tc main_arg6) := by after_results_simp <;> rfl
theorem H2_keep_arg8 : StableHlo.after (hostOps2 (F := Ideal)) V (Proc.devRef .tc main_arg8) = V (Proc.devRef .tc main_arg8) := by after_results_simp <;> rfl

/-! ## Stretch 3: layer 1's convolution, statistics, scale and shift -/
theorem H3_c : StableHlo.after (hostOps3 (F := Ideal)) V (Proc.devRef .tc main_v100) = (comb (F := Ideal) (V (Proc.devRef .tc main_v78)) (bOf1 (F := Ideal) (V (Proc.devRef .tc main_arg2))) (V (Proc.devRef .tc main_v1)) (V (Proc.devRef .tc main_v3)) (V (Proc.devRef .tc main_v26)) (V (Proc.devRef .tc main_v27))) := by after_results_simp <;> rfl
theorem H3_sc : StableHlo.after (hostOps3 (F := Ideal)) V (Proc.devRef .tc main_v121) = scaleRow (gOf1 (F := Ideal) (V (Proc.devRef .tc main_arg3))) (rOf (F := Ideal) (comb (F := Ideal) (V (Proc.devRef .tc main_v78)) (bOf1 (F := Ideal) (V (Proc.devRef .tc main_arg2))) (V (Proc.devRef .tc main_v1)) (V (Proc.devRef .tc main_v3)) (V (Proc.devRef .tc main_v26)) (V (Proc.devRef .tc main_v27)))) := by after_results_simp <;> rfl
theorem H3_sh : StableHlo.after (hostOps3 (F := Ideal)) V (Proc.devRef .tc main_v122) = shiftRow (tOf1 (F := Ideal) (V (Proc.devRef .tc main_arg4))) (meanOf (F := Ideal) (comb (F := Ideal) (V (Proc.devRef .tc main_v78)) (bOf1 (F := Ideal) (V (Proc.devRef .tc main_arg2))) (V (Proc.devRef .tc main_v1)) (V (Proc.devRef .tc main_v3)) (V (Proc.devRef .tc main_v26)) (V (Proc.devRef .tc main_v27)))) (gOf1 (F := Ideal) (V (Proc.devRef .tc main_arg3))) (rOf (F := Ideal) (comb (F := Ideal) (V (Proc.devRef .tc main_v78)) (bOf1 (F := Ideal) (V (Proc.devRef .tc main_arg2))) (V (Proc.devRef .tc main_v1)) (V (Proc.devRef .tc main_v3)) (V (Proc.devRef .tc main_v26)) (V (Proc.devRef .tc main_v27)))) := by after_results_simp <;> rfl
theorem H3_keep_v1 : StableHlo.after (hostOps3 (F := Ideal)) V (Proc.devRef .tc main_v1) = V (Proc.devRef .tc main_v1) := by after_results_simp <;> rfl
theorem H3_keep_v3 : StableHlo.after (hostOps3 (F := Ideal)) V (Proc.devRef .tc main_v3) = V (Proc.devRef .tc main_v3) := by after_results_simp <;> rfl
theorem H3_keep_v26 : StableHlo.after (hostOps3 (F := Ideal)) V (Proc.devRef .tc main_v26) = V (Proc.devRef .tc main_v26) := by after_results_simp <;> rfl
theorem H3_keep_v27 : StableHlo.after (hostOps3 (F := Ideal)) V (Proc.devRef .tc main_v27) = V (Proc.devRef .tc main_v27) := by after_results_simp <;> rfl
theorem H3_keep_arg1 : StableHlo.after (hostOps3 (F := Ideal)) V (Proc.devRef .tc main_arg1) = V (Proc.devRef .tc main_arg1) := by after_results_simp <;> rfl
theorem H3_keep_arg2 : StableHlo.after (hostOps3 (F := Ideal)) V (Proc.devRef .tc main_arg2) = V (Proc.devRef .tc main_arg2) := by after_results_simp <;> rfl
theorem H3_keep_arg3 : StableHlo.after (hostOps3 (F := Ideal)) V (Proc.devRef .tc main_arg3) = V (Proc.devRef .tc main_arg3) := by after_results_simp <;> rfl
theorem H3_keep_arg4 : StableHlo.after (hostOps3 (F := Ideal)) V (Proc.devRef .tc main_arg4) = V (Proc.devRef .tc main_arg4) := by after_results_simp <;> rfl
theorem H3_keep_arg5 : StableHlo.after (hostOps3 (F := Ideal)) V (Proc.devRef .tc main_arg5) = V (Proc.devRef .tc main_arg5) := by after_results_simp <;> rfl
theorem H3_keep_arg6 : StableHlo.after (hostOps3 (F := Ideal)) V (Proc.devRef .tc main_arg6) = V (Proc.devRef .tc main_arg6) := by after_results_simp <;> rfl
theorem H3_keep_arg8 : StableHlo.after (hostOps3 (F := Ideal)) V (Proc.devRef .tc main_arg8) = V (Proc.devRef .tc main_arg8) := by after_results_simp <;> rfl

/-! ## Stretch 4: layer 2's weights -/
theorem H4_w : StableHlo.after (hostOps4 (F := Ideal)) V (Proc.devRef .tc main_v125) = wOf2 (F := Ideal) (V (Proc.devRef .tc main_arg1)) := by after_results_simp <;> rfl
theorem H4_keep_v123 : StableHlo.after (hostOps4 (F := Ideal)) V (Proc.devRef .tc main_v123) = V (Proc.devRef .tc main_v123) := by after_results_simp <;> rfl
theorem H4_keep_v1 : StableHlo.after (hostOps4 (F := Ideal)) V (Proc.devRef .tc main_v1) = V (Proc.devRef .tc main_v1) := by after_results_simp <;> rfl
theorem H4_keep_v3 : StableHlo.after (hostOps4 (F := Ideal)) V (Proc.devRef .tc main_v3) = V (Proc.devRef .tc main_v3) := by after_results_simp <;> rfl
theorem H4_keep_v26 : StableHlo.after (hostOps4 (F := Ideal)) V (Proc.devRef .tc main_v26) = V (Proc.devRef .tc main_v26) := by after_results_simp <;> rfl
theorem H4_keep_v27 : StableHlo.after (hostOps4 (F := Ideal)) V (Proc.devRef .tc main_v27) = V (Proc.devRef .tc main_v27) := by after_results_simp <;> rfl
theorem H4_keep_arg1 : StableHlo.after (hostOps4 (F := Ideal)) V (Proc.devRef .tc main_arg1) = V (Proc.devRef .tc main_arg1) := by after_results_simp <;> rfl
theorem H4_keep_arg2 : StableHlo.after (hostOps4 (F := Ideal)) V (Proc.devRef .tc main_arg2) = V (Proc.devRef .tc main_arg2) := by after_results_simp <;> rfl
theorem H4_keep_arg3 : StableHlo.after (hostOps4 (F := Ideal)) V (Proc.devRef .tc main_arg3) = V (Proc.devRef .tc main_arg3) := by after_results_simp <;> rfl
theorem H4_keep_arg4 : StableHlo.after (hostOps4 (F := Ideal)) V (Proc.devRef .tc main_arg4) = V (Proc.devRef .tc main_arg4) := by after_results_simp <;> rfl
theorem H4_keep_arg5 : StableHlo.after (hostOps4 (F := Ideal)) V (Proc.devRef .tc main_arg5) = V (Proc.devRef .tc main_arg5) := by after_results_simp <;> rfl
theorem H4_keep_arg6 : StableHlo.after (hostOps4 (F := Ideal)) V (Proc.devRef .tc main_arg6) = V (Proc.devRef .tc main_arg6) := by after_results_simp <;> rfl
theorem H4_keep_arg8 : StableHlo.after (hostOps4 (F := Ideal)) V (Proc.devRef .tc main_arg8) = V (Proc.devRef .tc main_arg8) := by after_results_simp <;> rfl

/-! ## Stretch 5: layer 2's convolution, statistics, scale and shift -/
theorem H5_c : StableHlo.after (hostOps5 (F := Ideal)) V (Proc.devRef .tc main_v148) = (comb (F := Ideal) (V (Proc.devRef .tc main_v126)) (bOf2 (F := Ideal) (V (Proc.devRef .tc main_arg2))) (V (Proc.devRef .tc main_v1)) (V (Proc.devRef .tc main_v3)) (V (Proc.devRef .tc main_v26)) (V (Proc.devRef .tc main_v27))) := by after_results_simp <;> rfl
theorem H5_sc : StableHlo.after (hostOps5 (F := Ideal)) V (Proc.devRef .tc main_v169) = scaleRow (gOf2 (F := Ideal) (V (Proc.devRef .tc main_arg3))) (rOf (F := Ideal) (comb (F := Ideal) (V (Proc.devRef .tc main_v126)) (bOf2 (F := Ideal) (V (Proc.devRef .tc main_arg2))) (V (Proc.devRef .tc main_v1)) (V (Proc.devRef .tc main_v3)) (V (Proc.devRef .tc main_v26)) (V (Proc.devRef .tc main_v27)))) := by after_results_simp <;> rfl
theorem H5_sh : StableHlo.after (hostOps5 (F := Ideal)) V (Proc.devRef .tc main_v170) = shiftRow (tOf2 (F := Ideal) (V (Proc.devRef .tc main_arg4))) (meanOf (F := Ideal) (comb (F := Ideal) (V (Proc.devRef .tc main_v126)) (bOf2 (F := Ideal) (V (Proc.devRef .tc main_arg2))) (V (Proc.devRef .tc main_v1)) (V (Proc.devRef .tc main_v3)) (V (Proc.devRef .tc main_v26)) (V (Proc.devRef .tc main_v27)))) (gOf2 (F := Ideal) (V (Proc.devRef .tc main_arg3))) (rOf (F := Ideal) (comb (F := Ideal) (V (Proc.devRef .tc main_v126)) (bOf2 (F := Ideal) (V (Proc.devRef .tc main_arg2))) (V (Proc.devRef .tc main_v1)) (V (Proc.devRef .tc main_v3)) (V (Proc.devRef .tc main_v26)) (V (Proc.devRef .tc main_v27)))) := by after_results_simp <;> rfl
theorem H5_keep_v1 : StableHlo.after (hostOps5 (F := Ideal)) V (Proc.devRef .tc main_v1) = V (Proc.devRef .tc main_v1) := by after_results_simp <;> rfl
theorem H5_keep_v3 : StableHlo.after (hostOps5 (F := Ideal)) V (Proc.devRef .tc main_v3) = V (Proc.devRef .tc main_v3) := by after_results_simp <;> rfl
theorem H5_keep_v26 : StableHlo.after (hostOps5 (F := Ideal)) V (Proc.devRef .tc main_v26) = V (Proc.devRef .tc main_v26) := by after_results_simp <;> rfl
theorem H5_keep_v27 : StableHlo.after (hostOps5 (F := Ideal)) V (Proc.devRef .tc main_v27) = V (Proc.devRef .tc main_v27) := by after_results_simp <;> rfl
theorem H5_keep_arg1 : StableHlo.after (hostOps5 (F := Ideal)) V (Proc.devRef .tc main_arg1) = V (Proc.devRef .tc main_arg1) := by after_results_simp <;> rfl
theorem H5_keep_arg2 : StableHlo.after (hostOps5 (F := Ideal)) V (Proc.devRef .tc main_arg2) = V (Proc.devRef .tc main_arg2) := by after_results_simp <;> rfl
theorem H5_keep_arg3 : StableHlo.after (hostOps5 (F := Ideal)) V (Proc.devRef .tc main_arg3) = V (Proc.devRef .tc main_arg3) := by after_results_simp <;> rfl
theorem H5_keep_arg4 : StableHlo.after (hostOps5 (F := Ideal)) V (Proc.devRef .tc main_arg4) = V (Proc.devRef .tc main_arg4) := by after_results_simp <;> rfl
theorem H5_keep_arg5 : StableHlo.after (hostOps5 (F := Ideal)) V (Proc.devRef .tc main_arg5) = V (Proc.devRef .tc main_arg5) := by after_results_simp <;> rfl
theorem H5_keep_arg6 : StableHlo.after (hostOps5 (F := Ideal)) V (Proc.devRef .tc main_arg6) = V (Proc.devRef .tc main_arg6) := by after_results_simp <;> rfl
theorem H5_keep_arg8 : StableHlo.after (hostOps5 (F := Ideal)) V (Proc.devRef .tc main_arg8) = V (Proc.devRef .tc main_arg8) := by after_results_simp <;> rfl

/-! ## Stretch 6: layer 3's weights -/
theorem H6_w : StableHlo.after (hostOps6 (F := Ideal)) V (Proc.devRef .tc main_v173) = wOf3 (F := Ideal) (V (Proc.devRef .tc main_arg1)) := by after_results_simp <;> rfl
theorem H6_keep_v171 : StableHlo.after (hostOps6 (F := Ideal)) V (Proc.devRef .tc main_v171) = V (Proc.devRef .tc main_v171) := by after_results_simp <;> rfl
theorem H6_keep_v1 : StableHlo.after (hostOps6 (F := Ideal)) V (Proc.devRef .tc main_v1) = V (Proc.devRef .tc main_v1) := by after_results_simp <;> rfl
theorem H6_keep_v3 : StableHlo.after (hostOps6 (F := Ideal)) V (Proc.devRef .tc main_v3) = V (Proc.devRef .tc main_v3) := by after_results_simp <;> rfl
theorem H6_keep_v26 : StableHlo.after (hostOps6 (F := Ideal)) V (Proc.devRef .tc main_v26) = V (Proc.devRef .tc main_v26) := by after_results_simp <;> rfl
theorem H6_keep_v27 : StableHlo.after (hostOps6 (F := Ideal)) V (Proc.devRef .tc main_v27) = V (Proc.devRef .tc main_v27) := by after_results_simp <;> rfl
theorem H6_keep_arg1 : StableHlo.after (hostOps6 (F := Ideal)) V (Proc.devRef .tc main_arg1) = V (Proc.devRef .tc main_arg1) := by after_results_simp <;> rfl
theorem H6_keep_arg2 : StableHlo.after (hostOps6 (F := Ideal)) V (Proc.devRef .tc main_arg2) = V (Proc.devRef .tc main_arg2) := by after_results_simp <;> rfl
theorem H6_keep_arg3 : StableHlo.after (hostOps6 (F := Ideal)) V (Proc.devRef .tc main_arg3) = V (Proc.devRef .tc main_arg3) := by after_results_simp <;> rfl
theorem H6_keep_arg4 : StableHlo.after (hostOps6 (F := Ideal)) V (Proc.devRef .tc main_arg4) = V (Proc.devRef .tc main_arg4) := by after_results_simp <;> rfl
theorem H6_keep_arg5 : StableHlo.after (hostOps6 (F := Ideal)) V (Proc.devRef .tc main_arg5) = V (Proc.devRef .tc main_arg5) := by after_results_simp <;> rfl
theorem H6_keep_arg6 : StableHlo.after (hostOps6 (F := Ideal)) V (Proc.devRef .tc main_arg6) = V (Proc.devRef .tc main_arg6) := by after_results_simp <;> rfl
theorem H6_keep_arg8 : StableHlo.after (hostOps6 (F := Ideal)) V (Proc.devRef .tc main_arg8) = V (Proc.devRef .tc main_arg8) := by after_results_simp <;> rfl

/-! ## Stretch 7: layer 3's convolution, statistics, scale and shift -/
theorem H7_c : StableHlo.after (hostOps7 (F := Ideal)) V (Proc.devRef .tc main_v196) = (comb (F := Ideal) (V (Proc.devRef .tc main_v174)) (bOf3 (F := Ideal) (V (Proc.devRef .tc main_arg2))) (V (Proc.devRef .tc main_v1)) (V (Proc.devRef .tc main_v3)) (V (Proc.devRef .tc main_v26)) (V (Proc.devRef .tc main_v27))) := by after_results_simp <;> rfl
theorem H7_sc : StableHlo.after (hostOps7 (F := Ideal)) V (Proc.devRef .tc main_v217) = scaleRow (gOf3 (F := Ideal) (V (Proc.devRef .tc main_arg3))) (rOf (F := Ideal) (comb (F := Ideal) (V (Proc.devRef .tc main_v174)) (bOf3 (F := Ideal) (V (Proc.devRef .tc main_arg2))) (V (Proc.devRef .tc main_v1)) (V (Proc.devRef .tc main_v3)) (V (Proc.devRef .tc main_v26)) (V (Proc.devRef .tc main_v27)))) := by after_results_simp <;> rfl
theorem H7_sh : StableHlo.after (hostOps7 (F := Ideal)) V (Proc.devRef .tc main_v218) = shiftRow (tOf3 (F := Ideal) (V (Proc.devRef .tc main_arg4))) (meanOf (F := Ideal) (comb (F := Ideal) (V (Proc.devRef .tc main_v174)) (bOf3 (F := Ideal) (V (Proc.devRef .tc main_arg2))) (V (Proc.devRef .tc main_v1)) (V (Proc.devRef .tc main_v3)) (V (Proc.devRef .tc main_v26)) (V (Proc.devRef .tc main_v27)))) (gOf3 (F := Ideal) (V (Proc.devRef .tc main_arg3))) (rOf (F := Ideal) (comb (F := Ideal) (V (Proc.devRef .tc main_v174)) (bOf3 (F := Ideal) (V (Proc.devRef .tc main_arg2))) (V (Proc.devRef .tc main_v1)) (V (Proc.devRef .tc main_v3)) (V (Proc.devRef .tc main_v26)) (V (Proc.devRef .tc main_v27)))) := by after_results_simp <;> rfl
theorem H7_keep_v1 : StableHlo.after (hostOps7 (F := Ideal)) V (Proc.devRef .tc main_v1) = V (Proc.devRef .tc main_v1) := by after_results_simp <;> rfl
theorem H7_keep_v3 : StableHlo.after (hostOps7 (F := Ideal)) V (Proc.devRef .tc main_v3) = V (Proc.devRef .tc main_v3) := by after_results_simp <;> rfl
theorem H7_keep_v26 : StableHlo.after (hostOps7 (F := Ideal)) V (Proc.devRef .tc main_v26) = V (Proc.devRef .tc main_v26) := by after_results_simp <;> rfl
theorem H7_keep_v27 : StableHlo.after (hostOps7 (F := Ideal)) V (Proc.devRef .tc main_v27) = V (Proc.devRef .tc main_v27) := by after_results_simp <;> rfl
theorem H7_keep_arg1 : StableHlo.after (hostOps7 (F := Ideal)) V (Proc.devRef .tc main_arg1) = V (Proc.devRef .tc main_arg1) := by after_results_simp <;> rfl
theorem H7_keep_arg2 : StableHlo.after (hostOps7 (F := Ideal)) V (Proc.devRef .tc main_arg2) = V (Proc.devRef .tc main_arg2) := by after_results_simp <;> rfl
theorem H7_keep_arg3 : StableHlo.after (hostOps7 (F := Ideal)) V (Proc.devRef .tc main_arg3) = V (Proc.devRef .tc main_arg3) := by after_results_simp <;> rfl
theorem H7_keep_arg4 : StableHlo.after (hostOps7 (F := Ideal)) V (Proc.devRef .tc main_arg4) = V (Proc.devRef .tc main_arg4) := by after_results_simp <;> rfl
theorem H7_keep_arg5 : StableHlo.after (hostOps7 (F := Ideal)) V (Proc.devRef .tc main_arg5) = V (Proc.devRef .tc main_arg5) := by after_results_simp <;> rfl
theorem H7_keep_arg6 : StableHlo.after (hostOps7 (F := Ideal)) V (Proc.devRef .tc main_arg6) = V (Proc.devRef .tc main_arg6) := by after_results_simp <;> rfl
theorem H7_keep_arg8 : StableHlo.after (hostOps7 (F := Ideal)) V (Proc.devRef .tc main_arg8) = V (Proc.devRef .tc main_arg8) := by after_results_simp <;> rfl

/-! ## Stretch 8: the pooling, and the classifier's bias as a row -/
theorem H8_p : StableHlo.after (hostOps8 (F := Ideal)) V (Proc.devRef .tc main_v231) = poolOf (F := Ideal) (V (Proc.devRef .tc main_v219)) (V (Proc.devRef .tc main_arg8)) := by after_results_simp <;> rfl
theorem H8_b : StableHlo.after (hostOps8 (F := Ideal)) V (Proc.devRef .tc main_v232) = (shapeCast Cert.KernelIdeal.S1x10 (V (Proc.devRef .tc main_arg6) : FVec Ideal Cert.KernelIdeal.S10 .f32) Cert.KernelIdeal.Facts₀.shapeCasts_S10_S1x10 : FVec Ideal Cert.KernelIdeal.S1x10 .f32) := by after_results_simp <;> rfl
theorem H8_keep_arg5 : StableHlo.after (hostOps8 (F := Ideal)) V (Proc.devRef .tc main_arg5) = V (Proc.devRef .tc main_arg5) := by after_results_simp <;> rfl

end Cert.KernelIdeal.HostValue

end
-- ==== Proof.LibWholeStore.lean ====
/-
  A buffer whose LAST store went through the rectangle covering its whole shape (offsets all zero) holds that store's payload,
  whatever was stored before: read back through the view, or loaded again through the same rectangle. General facts about
  views, stated once so that a kernel body that overwrites a scratch or an output block whole can be read off its store list.
-/
import Idealize.ShloMosaic.Lib.Pipeline.FrameBody
import Idealize.ShloMosaic.Lib.Pipeline.Value

namespace Idealize.ShloMosaic.View

variable {Val : EltTy → Type} [∀ e, Nonempty (Val e)] {S : Shape} {e : EltTy}
variable {sig : RefSig} {κ : Kind} {sp : Space}

/-- Reading a buffer back after a list of stores whose last one covers the whole shape gives that store's payload. -/
theorem read_writes_whole_last (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  rw [read_writes_eq_canon v f _ (fun y => ⟨_, List.Mem.head _, mem_set_unit_zero h inb y⟩), canon_cons_unit_zero h]

/-- Loading the whole shape after such a list of stores reads that payload. -/
theorem readCov_whole_last (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.Mem.head _, mem_set_unit_zero rfl inb y⟩), canon_cons_unit_zero rfl,
    ld_unit_zero rfl]

/-- Loading the whole shape of a buffer reads its contents. -/
theorem readAt_whole (v : View sig κ sp S e) (f : v.ty.Contents Val) {off : Fin S.rank → Nat} (h : off = fun _ => 0)
    (inb : ∀ a, off a + S.size a ≤ S.size a) :
    v.readAt Val (Rect.unit off S.size inb).toLoadRect f = v.read Val f := by
  rw [readAt_eq_ld]; exact ld_unit_zero h inb _

end Idealize.ShloMosaic.View

namespace Cert.Lib

/-- The zero offsets of a rank-2 and of a rank-3 rectangle, as the printed programs spell them. -/
theorem zeros2 : (![0, 0] : Fin 2 → Nat) = fun _ => 0 := funext fun a => by fin_cases a <;> rfl
theorem zeros3 : (![0, 0, 0] : Fin 3 → Nat) = fun _ => 0 := funext fun a => by fin_cases a <;> rfl

end Cert.Lib
-- ==== Proof.RegionLin0.lean ====
/-
  The linear kernel of region 0, read as one function of the two arrays the region finds: the matrix product x · w.

  The region's grid has ten points; point t loads rows 5000·t … 5000·t + 4999 of x and the whole of w, and stores
  back rows 5000·t … 5000·t + 4999 of its output: the product of the loaded block of x with w, accumulated into zeros
  (the casts to a narrower float format in between change nothing here, every value being an extended real). Entry
  (p, q) of that block product is the sum over k < 128 of x(5000·t + p, k) · w(k, q), which is entry (5000·t + p, q) of
  the product of the whole arrays. So after the ten write-backs the output array is the whole product.

  * `sum_contr_rows_cols`: for any rows-by-columns product, the sum over the contraction index is the sum over k;
  * `lin0_pay_apply`, `lin0_ref_apply`: the block product and the whole product at an entry, as that sum;
  * `lin0_point`: hence a block entry is the whole product at the array index it is written to;
  * `lin0_idx`: the index maps over the grid; `lin0_rows`, `lin0_blk0`, `lin0_blk1`, `lin0_row`, `lin0_col`: the loaded
    blocks as the arrays read through the output's rectangle, and where an output block's entry sits;
  * `lin0_flushed`, `lin0_mem_blk`, `lin0_cover`, `lin_arr0`: the write-backs, the cover, the array after the region.
-/
import proofs.«167957_j84052509983292_1_alg».proof.Proof.Gen.KernelIdeal.Frame
import proofs.«167957_j84052509983292_1_alg».proof.Proof.Gen.ReferenceIdeal
import proofs.«167957_j84052509983292_1_alg».proof.Proof.LibWholeStore
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- For a product of an [a, b] array by a [b, c] array whose dimension numbers contract the inner axis (read off as
    the four coordinate equations), the sum over the contraction index at output entry (p, q) is the sum over k < b
    of l(p, k) · r(k, q). -/
theorem lin0_sum_contr_rows_cols {a b c : Nat} (d : DotDims ⟨2, ![a, b]⟩ ⟨2, ![b, c]⟩ ⟨2, ![a, c]⟩)
    (hr : d.contr.rank = 1) (hs : d.contr.size ⟨0, by omega⟩ = b)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (l : (⟨2, ![a, b]⟩ : Shape).Idx → EReal) (r : (⟨2, ![b, c]⟩ : Shape).Idx → EReal) (p : Fin a) (q : Fin c) :
    ∑ k : d.contr.Idx, l (d.lhsIdx (ix2 p q) k) * r (d.rhsIdx (ix2 p q) k) = ∑ k : Fin b, l (ix2 p k) * r (ix2 k q) := by
  refine (Equiv.sum_comp (contrEquiv1 d b hr hs).symm
    (fun k => l (d.lhsIdx (ix2 p q) k) * r (d.rhsIdx (ix2 p q) k))).symm.trans ?_
  refine Finset.sum_congr rfl fun k _ => ?_
  have hk := contrEquiv1_symm_val d b hr hs k
  have el : d.lhsIdx (ix2 p q) ((contrEquiv1 d b hr hs).symm k) = ix2 p k := by
    funext ax; apply Fin.ext
    match ax with
    | ⟨0, _⟩ => exact hl0 _ _
    | ⟨1, _⟩ => exact (hl1 _ _).trans hk
  have er : d.rhsIdx (ix2 p q) ((contrEquiv1 d b hr hs).symm k) = ix2 k q := by
    funext ax; apply Fin.ext
    match ax with
    | ⟨0, _⟩ => exact (hr0 _ _).trans hk
    | ⟨1, _⟩ => exact hr1 _ _
  show l (d.lhsIdx (ix2 p q) ((contrEquiv1 d b hr hs).symm k)) * r (d.rhsIdx (ix2 p q) ((contrEquiv1 d b hr hs).symm k)) = _
  rw [el, er]

/-- Entry (p, q) of the stored block: the sum over k of x0(p, k) · w(k, q). -/
theorem lin0_pay_apply (x0 : FVec Ideal S5000x128 .f32) (w : FVec Ideal S128x128 .f32) (p : Fin 5000) (q : Fin 128) :
    k0_pay1 (F := Ideal) x0 w (ix2 p q) = ∑ k : Fin 128, x0 (ix2 p k) * w (ix2 k q) := by
  unfold k0_pay1
  simp only [shapeCast_self, matmul]
  rw [Ideal.matmul_constant_zero_apply]
  exact lin0_sum_contr_rows_cols dot_S5000x128_S128x128_S5000x128_1_0_0_1_n_n rfl rfl (fun _ _ => rfl)
    (fun j k => DotDims.lhsIdx_val_of_single _ rfl j k) (fun j k => DotDims.rhsIdx_val_of_single _ rfl j k) (fun _ _ => rfl)
    x0 w p q

/-- Entry (n, q) of the product of the whole arrays: the sum over k of a(n, k) · w(k, q). -/
theorem lin0_ref_apply (A : FVec Ideal S50000x128 .f32) (W : FVec Ideal S128x128 .f32) (n : Fin 50000) (q : Fin 128) :
    Host.dotGeneral (F := Ideal) (φ₁ := .f32) (φ₂ := .f32) Cert.ReferenceIdeal.dot_S50000x128_S128x128_S50000x128_1_0_0_1_n_n none A W (ix2 n q)
      = ∑ k : Fin 128, A (ix2 n k) * W (ix2 k q) := by
  simp only [Host.dotGeneral]
  rw [Ideal.dotGeneral_apply]
  exact lin0_sum_contr_rows_cols Cert.ReferenceIdeal.dot_S50000x128_S128x128_S50000x128_1_0_0_1_n_n rfl rfl (fun _ _ => rfl)
    (fun j k => DotDims.lhsIdx_val_of_single _ rfl j k) (fun j k => DotDims.rhsIdx_val_of_single _ rfl j k) (fun _ _ => rfl)
    A W n q

/-- A block entry j is the whole product at the array index i, when the loaded block of x is rows R … R + 4999 of x,
    the loaded w is w, and i is j moved down by R rows. -/
theorem lin0_point (A : FVec Ideal S50000x128 .f32) (W : FVec Ideal S128x128 .f32)
    (x0 : FVec Ideal S5000x128 .f32) (w : FVec Ideal S128x128 .f32) (j : S5000x128.Idx) (i : S50000x128.Idx)
    (R : Nat) (hR : R + 5000 ≤ 50000)
    (h0 : ∀ (p : Fin 5000) (k : Fin 128), x0 (ix2 p k) = A (ix2 ⟨R + p.val, by omega⟩ k)) (h1 : w = W)
    (hi0 : (i 0).val = R + (j 0).val) (hi1 : (i 1).val = (j 1).val) :
    k0_pay1 (F := Ideal) x0 w j
      = Host.dotGeneral (F := Ideal) (φ₁ := .f32) (φ₂ := .f32) Cert.ReferenceIdeal.dot_S50000x128_S128x128_S50000x128_1_0_0_1_n_n none A W i := by
  obtain ⟨p, q, rfl⟩ : ∃ (p : Fin 5000) (q : Fin 128), j = ix2 p q := ⟨j 0, j 1, eq_ix2 j⟩
  obtain ⟨n, r, rfl⟩ : ∃ (n : Fin 50000) (r : Fin 128), i = ix2 n r := ⟨i 0, i 1, eq_ix2 i⟩
  have hrq : r = q := Fin.ext hi1
  have hn : n = ⟨R + p.val, by omega⟩ := Fin.ext hi0
  rw [lin0_pay_apply, lin0_ref_apply, h1, hn, hrq]
  exact Finset.sum_congr rfl fun k _ => by rw [h0]

/-- The index maps over the ten points: window 0 moves with window 2 along the rows and both sit at column block 0;
    window 1 stays at block (0, 0); window 2's row block is the point's number. -/
theorem lin0_idx : ∀ t : Fin cfg0.N, win0_0.index t (0 : Fin 2) = win0_2.index t (0 : Fin 2)
    ∧ win0_0.index t (1 : Fin 2) = win0_2.index t (1 : Fin 2)
    ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- The rows of point t's block lie inside the array. -/
theorem lin0_rows (t : Fin cfg0.N) : win0_2.index t (0 : Fin 2) * 5000 + 5000 ≤ 50000 := by
  obtain ⟨e0, e1, e2, e3, e4, e5⟩ := lin0_idx t
  have hN : cfg0.N = 10 := N_0
  have ht : t.val < 10 := Nat.lt_of_lt_of_eq t.isLt hN
  omega

set_option maxHeartbeats 1000000 in
/-- The loaded block of x at point t is rows 5000·t … of x. -/
theorem lin0_blk0 (c : Dev nD) (t : Fin cfg0.N) (p : Fin 5000) (k : Fin 128) :
    iblk0 V c 0 t (ix2 p k)
      = V c (Pipeline.arrRef spec0 0) (ix2 (⟨win0_2.index t (0 : Fin 2) * 5000 + p.val, by have := lin0_rows t; omega⟩ : Fin 50000) k) := by
  obtain ⟨e0, e1, e2, e3, e4, e5⟩ := lin0_idx t
  show V c (Pipeline.arrRef spec0 0) (((cfg0.win 0).blk t).view.emb (ix2 p k)) = _
  have h : ((cfg0.win 0).blk t).view.emb (ix2 p k)
      = ix2 (⟨win0_2.index t (0 : Fin 2) * 5000 + p.val, by have := lin0_rows t; omega⟩ : Fin 50000) k := by
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  rw [h]

set_option maxHeartbeats 1000000 in
/-- The loaded w at any point is the whole array w. -/
theorem lin0_blk1 (c : Dev nD) (t : Fin cfg0.N) : iblk0 V c 1 t = V c (Pipeline.arrRef spec0 1) := by
  obtain ⟨e0, e1, e2, e3, e4, e5⟩ := lin0_idx t
  funext y
  show V c (Pipeline.arrRef spec0 1) (((cfg0.win 1).blk t).view.emb y) = V c (Pipeline.arrRef spec0 1) y
  have h : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  rw [h]

set_option maxHeartbeats 1000000 in
/-- An entry of the output block sits in the array 5000·t rows further down … -/
theorem lin0_row (t : Fin cfg0.N) (j : ((cfg0.win 2).xblock (grid0.coords t)).Idx) :
    ((((cfg0.win 2).blk t).view.emb j) 0).val = win0_2.index t (0 : Fin 2) * 5000 + (j 0).val := by
  show win0_2.index t (0 : Fin 2) * 5000 + 1 * (j 0).val = _
  omega

set_option maxHeartbeats 1000000 in
/-- … and in its own column. -/
theorem lin0_col (t : Fin cfg0.N) (j : ((cfg0.win 2).xblock (grid0.coords t)).Idx) :
    ((((cfg0.win 2).blk t).view.emb j) 1).val = (j 1).val := by
  obtain ⟨e0, e1, e2, e3, e4, e5⟩ := lin0_idx t
  show win0_2.index t (1 : Fin 2) * 128 + 1 * (j 1).val = (j 1).val
  omega

set_option maxHeartbeats 1000000 in
/-- What point t writes back is block t of the product of the arrays as the region finds them. -/
theorem lin0_flushed (c : Dev nD) (t : Fin cfg0.N) :
    (dat0 (F := Ideal) V c).flushed 2 t = ((cfg0.win 2).blk t).view.read (Elt Ideal)
      (Host.dotGeneral (F := Ideal) (φ₁ := .f32) (φ₂ := .f32) Cert.ReferenceIdeal.dot_S50000x128_S128x128_S50000x128_1_0_0_1_n_n none
        (V c (Pipeline.arrRef spec0 0) : FVec Ideal S50000x128 .f32) (V c (Pipeline.arrRef spec0 1) : FVec Ideal S128x128 .f32)) := by
  show (cfg0.win 2).cut (grid0.coords t) ((dat0 (F := Ideal) V c).after 2 t) = _
  rw [after0_2]
  unfold out0_2
  rw [View.canon_unit_zero Cert.Lib.zeros2]
  simp only [View.ld_unit_zero (S := S5000x128) Cert.Lib.zeros2, View.ld_unit_zero (S := S128x128) Cert.Lib.zeros2]
  funext j
  show k0_pay1 (F := Ideal) (iblk0 V c 0 t) (iblk0 V c 1 t) j
    = Host.dotGeneral (F := Ideal) (φ₁ := .f32) (φ₂ := .f32) Cert.ReferenceIdeal.dot_S50000x128_S128x128_S50000x128_1_0_0_1_n_n none
        (V c (Pipeline.arrRef spec0 0) : FVec Ideal S50000x128 .f32) (V c (Pipeline.arrRef spec0 1) : FVec Ideal S128x128 .f32) (((cfg0.win 2).blk t).view.emb j)
  exact lin0_point (V c (Pipeline.arrRef spec0 0)) (V c (Pipeline.arrRef spec0 1)) (iblk0 V c 0 t) (iblk0 V c 1 t)
    j (((cfg0.win 2).blk t).view.emb j) (win0_2.index t (0 : Fin 2) * 5000) (lin0_rows t)
    (lin0_blk0 V c t) (lin0_blk1 V c t) (lin0_row t j) (lin0_col t j)

/-- An index of the output array is in point t's block iff each coordinate is in the block's range on its axis. -/
theorem lin0_mem_blk (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v30).slice (win0_2.rect t)).set ↔ _
  rw [View.set_slice_whole, Rect.mem_set_unit]
  exact Iff.rfl

/-- Row n of the output array lies in the block of point n / 5000. -/
theorem lin0_cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0, e1, e2, e3, e4, e5⟩ := lin0_idx t
  refine ⟨t, flush0_2 t, ?_⟩
  rw [lin0_mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

set_option maxHeartbeats 1000000 in
/-- The output array after the region: the product of the arrays as the region finds them. -/
theorem lin_arr0 (c : Dev nD) :
    (dat0 (F := Ideal) V c).arrAt 2 cfg0.N
      = Host.dotGeneral (F := Ideal) (φ₁ := .f32) (φ₂ := .f32) Cert.ReferenceIdeal.dot_S50000x128_S128x128_S50000x128_1_0_0_1_n_n none
          (V c (Pipeline.arrRef spec0 0) : FVec Ideal S50000x128 .f32) (V c (Pipeline.arrRef spec0 1) : FVec Ideal S128x128 .f32) :=
  (dat0 (F := Ideal) V c).arrAt_eq_of_cover 2 _ (fun t _ => lin0_flushed V c t) (fun i => lin0_cover i)

end Cert.KernelIdeal.RegionValue

end
-- ==== Proof.RegionLin2.lean ====
/-
  The linear kernel of region 2, read as one function of the two arrays the region finds: the matrix product x · w.

  The region's grid has ten points; point t loads rows 5000·t … 5000·t + 4999 of x and the whole of w, and stores
  back rows 5000·t … 5000·t + 4999 of its output: the product of the loaded block of x with w, accumulated into zeros
  (the casts to a narrower float format in between change nothing here, every value being an extended real). Entry
  (p, q) of that block product is the sum over k < 128 of x(5000·t + p, k) · w(k, q), which is entry (5000·t + p, q) of
  the product of the whole arrays. So after the ten write-backs the output array is the whole product.

  * `sum_contr_rows_cols`: for any rows-by-columns product, the sum over the contraction index is the sum over k;
  * `lin2_pay_apply`, `lin2_ref_apply`: the block product and the whole product at an entry, as that sum;
  * `lin2_point`: hence a block entry is the whole product at the array index it is written to;
  * `lin2_idx`: the index maps over the grid; `lin2_rows`, `lin2_blk0`, `lin2_blk1`, `lin2_row`, `lin2_col`: the loaded
    blocks as the arrays read through the output's rectangle, and where an output block's entry sits;
  * `lin2_flushed`, `lin2_mem_blk`, `lin2_cover`, `lin_arr2`: the write-backs, the cover, the array after the region.
-/
import proofs.«167957_j84052509983292_1_alg».proof.Proof.Gen.KernelIdeal.Frame
import proofs.«167957_j84052509983292_1_alg».proof.Proof.Gen.ReferenceIdeal
import proofs.«167957_j84052509983292_1_alg».proof.Proof.LibWholeStore
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- For a product of an [a, b] array by a [b, c] array whose dimension numbers contract the inner axis (read off as
    the four coordinate equations), the sum over the contraction index at output entry (p, q) is the sum over k < b
    of l(p, k) · r(k, q). -/
theorem lin2_sum_contr_rows_cols {a b c : Nat} (d : DotDims ⟨2, ![a, b]⟩ ⟨2, ![b, c]⟩ ⟨2, ![a, c]⟩)
    (hr : d.contr.rank = 1) (hs : d.contr.size ⟨0, by omega⟩ = b)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (l : (⟨2, ![a, b]⟩ : Shape).Idx → EReal) (r : (⟨2, ![b, c]⟩ : Shape).Idx → EReal) (p : Fin a) (q : Fin c) :
    ∑ k : d.contr.Idx, l (d.lhsIdx (ix2 p q) k) * r (d.rhsIdx (ix2 p q) k) = ∑ k : Fin b, l (ix2 p k) * r (ix2 k q) := by
  refine (Equiv.sum_comp (contrEquiv1 d b hr hs).symm
    (fun k => l (d.lhsIdx (ix2 p q) k) * r (d.rhsIdx (ix2 p q) k))).symm.trans ?_
  refine Finset.sum_congr rfl fun k _ => ?_
  have hk := contrEquiv1_symm_val d b hr hs k
  have el : d.lhsIdx (ix2 p q) ((contrEquiv1 d b hr hs).symm k) = ix2 p k := by
    funext ax; apply Fin.ext
    match ax with
    | ⟨0, _⟩ => exact hl0 _ _
    | ⟨1, _⟩ => exact (hl1 _ _).trans hk
  have er : d.rhsIdx (ix2 p q) ((contrEquiv1 d b hr hs).symm k) = ix2 k q := by
    funext ax; apply Fin.ext
    match ax with
    | ⟨0, _⟩ => exact (hr0 _ _).trans hk
    | ⟨1, _⟩ => exact hr1 _ _
  show l (d.lhsIdx (ix2 p q) ((contrEquiv1 d b hr hs).symm k)) * r (d.rhsIdx (ix2 p q) ((contrEquiv1 d b hr hs).symm k)) = _
  rw [el, er]

/-- Entry (p, q) of the stored block: the sum over k of x0(p, k) · w(k, q). -/
theorem lin2_pay_apply (x0 : FVec Ideal S5000x128 .f32) (w : FVec Ideal S128x128 .f32) (p : Fin 5000) (q : Fin 128) :
    k2_pay1 (F := Ideal) x0 w (ix2 p q) = ∑ k : Fin 128, x0 (ix2 p k) * w (ix2 k q) := by
  unfold k2_pay1
  simp only [shapeCast_self, matmul]
  rw [Ideal.matmul_constant_zero_apply]
  exact lin2_sum_contr_rows_cols dot_S5000x128_S128x128_S5000x128_1_0_0_1_n_n rfl rfl (fun _ _ => rfl)
    (fun j k => DotDims.lhsIdx_val_of_single _ rfl j k) (fun j k => DotDims.rhsIdx_val_of_single _ rfl j k) (fun _ _ => rfl)
    x0 w p q

/-- Entry (n, q) of the product of the whole arrays: the sum over k of a(n, k) · w(k, q). -/
theorem lin2_ref_apply (A : FVec Ideal S50000x128 .f32) (W : FVec Ideal S128x128 .f32) (n : Fin 50000) (q : Fin 128) :
    Host.dotGeneral (F := Ideal) (φ₁ := .f32) (φ₂ := .f32) Cert.ReferenceIdeal.dot_S50000x128_S128x128_S50000x128_1_0_0_1_n_n none A W (ix2 n q)
      = ∑ k : Fin 128, A (ix2 n k) * W (ix2 k q) := by
  simp only [Host.dotGeneral]
  rw [Ideal.dotGeneral_apply]
  exact lin2_sum_contr_rows_cols Cert.ReferenceIdeal.dot_S50000x128_S128x128_S50000x128_1_0_0_1_n_n rfl rfl (fun _ _ => rfl)
    (fun j k => DotDims.lhsIdx_val_of_single _ rfl j k) (fun j k => DotDims.rhsIdx_val_of_single _ rfl j k) (fun _ _ => rfl)
    A W n q

/-- A block entry j is the whole product at the array index i, when the loaded block of x is rows R … R + 4999 of x,
    the loaded w is w, and i is j moved down by R rows. -/
theorem lin2_point (A : FVec Ideal S50000x128 .f32) (W : FVec Ideal S128x128 .f32)
    (x0 : FVec Ideal S5000x128 .f32) (w : FVec Ideal S128x128 .f32) (j : S5000x128.Idx) (i : S50000x128.Idx)
    (R : Nat) (hR : R + 5000 ≤ 50000)
    (h0 : ∀ (p : Fin 5000) (k : Fin 128), x0 (ix2 p k) = A (ix2 ⟨R + p.val, by omega⟩ k)) (h1 : w = W)
    (hi0 : (i 0).val = R + (j 0).val) (hi1 : (i 1).val = (j 1).val) :
    k2_pay1 (F := Ideal) x0 w j
      = Host.dotGeneral (F := Ideal) (φ₁ := .f32) (φ₂ := .f32) Cert.ReferenceIdeal.dot_S50000x128_S128x128_S50000x128_1_0_0_1_n_n none A W i := by
  obtain ⟨p, q, rfl⟩ : ∃ (p : Fin 5000) (q : Fin 128), j = ix2 p q := ⟨j 0, j 1, eq_ix2 j⟩
  obtain ⟨n, r, rfl⟩ : ∃ (n : Fin 50000) (r : Fin 128), i = ix2 n r := ⟨i 0, i 1, eq_ix2 i⟩
  have hrq : r = q := Fin.ext hi1
  have hn : n = ⟨R + p.val, by omega⟩ := Fin.ext hi0
  rw [lin2_pay_apply, lin2_ref_apply, h1, hn, hrq]
  exact Finset.sum_congr rfl fun k _ => by rw [h0]

/-- The index maps over the ten points: window 0 moves with window 2 along the rows and both sit at column block 0;
    window 1 stays at block (0, 0); window 2's row block is the point's number. -/
theorem lin2_idx : ∀ t : Fin cfg2.N, win2_0.index t (0 : Fin 2) = win2_2.index t (0 : Fin 2)
    ∧ win2_0.index t (1 : Fin 2) = win2_2.index t (1 : Fin 2)
    ∧ win2_1.index t (0 : Fin 2) = 0 ∧ win2_1.index t (1 : Fin 2) = 0
    ∧ win2_2.index t (1 : Fin 2) = 0 ∧ win2_2.index t (0 : Fin 2) = t.val :=
  (by decide +kernel : ∀ t : Fin grid2.N, _)

/-- The rows of point t's block lie inside the array. -/
theorem lin2_rows (t : Fin cfg2.N) : win2_2.index t (0 : Fin 2) * 5000 + 5000 ≤ 50000 := by
  obtain ⟨e0, e1, e2, e3, e4, e5⟩ := lin2_idx t
  have hN : cfg2.N = 10 := N_2
  have ht : t.val < 10 := Nat.lt_of_lt_of_eq t.isLt hN
  omega

set_option maxHeartbeats 1000000 in
/-- The loaded block of x at point t is rows 5000·t … of x. -/
theorem lin2_blk0 (c : Dev nD) (t : Fin cfg2.N) (p : Fin 5000) (k : Fin 128) :
    iblk2 V c 0 t (ix2 p k)
      = V c (Pipeline.arrRef spec2 0) (ix2 (⟨win2_2.index t (0 : Fin 2) * 5000 + p.val, by have := lin2_rows t; omega⟩ : Fin 50000) k) := by
  obtain ⟨e0, e1, e2, e3, e4, e5⟩ := lin2_idx t
  show V c (Pipeline.arrRef spec2 0) (((cfg2.win 0).blk t).view.emb (ix2 p k)) = _
  have h : ((cfg2.win 0).blk t).view.emb (ix2 p k)
      = ix2 (⟨win2_2.index t (0 : Fin 2) * 5000 + p.val, by have := lin2_rows t; omega⟩ : Fin 50000) k := by
    funext a; apply Fin.ext
    match a with
    | ⟨0, _⟩ => show win2_0.index t (0 : Fin 2) * 5000 + 1 * p.val = win2_2.index t (0 : Fin 2) * 5000 + p.val; omega
    | ⟨1, _⟩ => show win2_0.index t (1 : Fin 2) * 128 + 1 * k.val = k.val; omega
  rw [h]

set_option maxHeartbeats 1000000 in
/-- The loaded w at any point is the whole array w. -/
theorem lin2_blk1 (c : Dev nD) (t : Fin cfg2.N) : iblk2 V c 1 t = V c (Pipeline.arrRef spec2 1) := by
  obtain ⟨e0, e1, e2, e3, e4, e5⟩ := lin2_idx t
  funext y
  show V c (Pipeline.arrRef spec2 1) (((cfg2.win 1).blk t).view.emb y) = V c (Pipeline.arrRef spec2 1) y
  have h : ((cfg2.win 1).blk t).view.emb y = y := by
    funext a; apply Fin.ext
    match a with
    | ⟨0, _⟩ => show win2_1.index t (0 : Fin 2) * 128 + 1 * (y 0).val = (y 0).val; omega
    | ⟨1, _⟩ => show win2_1.index t (1 : Fin 2) * 128 + 1 * (y 1).val = (y 1).val; omega
  rw [h]

set_option maxHeartbeats 1000000 in
/-- An entry of the output block sits in the array 5000·t rows further down … -/
theorem lin2_row (t : Fin cfg2.N) (j : ((cfg2.win 2).xblock (grid2.coords t)).Idx) :
    ((((cfg2.win 2).blk t).view.emb j) 0).val = win2_2.index t (0 : Fin 2) * 5000 + (j 0).val := by
  show win2_2.index t (0 : Fin 2) * 5000 + 1 * (j 0).val = _
  omega

set_option maxHeartbeats 1000000 in
/-- … and in its own column. -/
theorem lin2_col (t : Fin cfg2.N) (j : ((cfg2.win 2).xblock (grid2.coords t)).Idx) :
    ((((cfg2.win 2).blk t).view.emb j) 1).val = (j 1).val := by
  obtain ⟨e0, e1, e2, e3, e4, e5⟩ := lin2_idx t
  show win2_2.index t (1 : Fin 2) * 128 + 1 * (j 1).val = (j 1).val
  omega

set_option maxHeartbeats 1000000 in
/-- What point t writes back is block t of the product of the arrays as the region finds them. -/
theorem lin2_flushed (c : Dev nD) (t : Fin cfg2.N) :
    (dat2 (F := Ideal) V c).flushed 2 t = ((cfg2.win 2).blk t).view.read (Elt Ideal)
      (Host.dotGeneral (F := Ideal) (φ₁ := .f32) (φ₂ := .f32) Cert.ReferenceIdeal.dot_S50000x128_S128x128_S50000x128_1_0_0_1_n_n none
        (V c (Pipeline.arrRef spec2 0) : FVec Ideal S50000x128 .f32) (V c (Pipeline.arrRef spec2 1) : FVec Ideal S128x128 .f32)) := by
  show (cfg2.win 2).cut (grid2.coords t) ((dat2 (F := Ideal) V c).after 2 t) = _
  rw [after2_2]
  unfold out2_2
  rw [View.canon_unit_zero Cert.Lib.zeros2]
  simp only [View.ld_unit_zero (S := S5000x128) Cert.Lib.zeros2, View.ld_unit_zero (S := S128x128) Cert.Lib.zeros2]
  funext j
  show k2_pay1 (F := Ideal) (iblk2 V c 0 t) (iblk2 V c 1 t) j
    = Host.dotGeneral (F := Ideal) (φ₁ := .f32) (φ₂ := .f32) Cert.ReferenceIdeal.dot_S50000x128_S128x128_S50000x128_1_0_0_1_n_n none
        (V c (Pipeline.arrRef spec2 0) : FVec Ideal S50000x128 .f32) (V c (Pipeline.arrRef spec2 1) : FVec Ideal S128x128 .f32) (((cfg2.win 2).blk t).view.emb j)
  exact lin2_point (V c (Pipeline.arrRef spec2 0)) (V c (Pipeline.arrRef spec2 1)) (iblk2 V c 0 t) (iblk2 V c 1 t)
    j (((cfg2.win 2).blk t).view.emb j) (win2_2.index t (0 : Fin 2) * 5000) (lin2_rows t)
    (lin2_blk0 V c t) (lin2_blk1 V c t) (lin2_row t j) (lin2_col t j)

/-- An index of the output array is in point t's block iff each coordinate is in the block's range on its axis. -/
theorem lin2_mem_blk (t : Fin cfg2.N) (i : S50000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v78).slice (win2_2.rect t)).set ↔ _
  rw [View.set_slice_whole, Rect.mem_set_unit]
  exact Iff.rfl

/-- Row n of the output array lies in the block of point n / 5000. -/
theorem lin2_cover (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e0, e1, e2, e3, e4, e5⟩ := lin2_idx t
  refine ⟨t, flush2_2 t, ?_⟩
  rw [lin2_mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

set_option maxHeartbeats 1000000 in
/-- The output array after the region: the product of the arrays as the region finds them. -/
theorem lin_arr2 (c : Dev nD) :
    (dat2 (F := Ideal) V c).arrAt 2 cfg2.N
      = Host.dotGeneral (F := Ideal) (φ₁ := .f32) (φ₂ := .f32) Cert.ReferenceIdeal.dot_S50000x128_S128x128_S50000x128_1_0_0_1_n_n none
          (V c (Pipeline.arrRef spec2 0) : FVec Ideal S50000x128 .f32) (V c (Pipeline.arrRef spec2 1) : FVec Ideal S128x128 .f32) :=
  (dat2 (F := Ideal) V c).arrAt_eq_of_cover 2 _ (fun t _ => lin2_flushed V c t) (fun i => lin2_cover i)

end Cert.KernelIdeal.RegionValue

end
-- ==== Proof.RegionLin4.lean ====
/-
  The linear kernel of region 4, read as one function of the two arrays the region finds: the matrix product x · w.

  The region's grid has ten points; point t loads rows 5000·t … 5000·t + 4999 of x and the whole of w, and stores
  back rows 5000·t … 5000·t + 4999 of its output: the product of the loaded block of x with w, accumulated into zeros
  (the casts to a narrower float format in between change nothing here, every value being an extended real). Entry
  (p, q) of that block product is the sum over k < 128 of x(5000·t + p, k) · w(k, q), which is entry (5000·t + p, q) of
  the product of the whole arrays. So after the ten write-backs the output array is the whole product.

  * `sum_contr_rows_cols`: for any rows-by-columns product, the sum over the contraction index is the sum over k;
  * `lin4_pay_apply`, `lin4_ref_apply`: the block product and the whole product at an entry, as that sum;
  * `lin4_point`: hence a block entry is the whole product at the array index it is written to;
  * `lin4_idx`: the index maps over the grid; `lin4_rows`, `lin4_blk0`, `lin4_blk1`, `lin4_row`, `lin4_col`: the loaded
    blocks as the arrays read through the output's rectangle, and where an output block's entry sits;
  * `lin4_flushed`, `lin4_mem_blk`, `lin4_cover`, `lin_arr4`: the write-backs, the cover, the array after the region.
-/
import proofs.«167957_j84052509983292_1_alg».proof.Proof.Gen.KernelIdeal.Frame
import proofs.«167957_j84052509983292_1_alg».proof.Proof.Gen.ReferenceIdeal
import proofs.«167957_j84052509983292_1_alg».proof.Proof.LibWholeStore
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- For a product of an [a, b] array by a [b, c] array whose dimension numbers contract the inner axis (read off as
    the four coordinate equations), the sum over the contraction index at output entry (p, q) is the sum over k < b
    of l(p, k) · r(k, q). -/
theorem lin4_sum_contr_rows_cols {a b c : Nat} (d : DotDims ⟨2, ![a, b]⟩ ⟨2, ![b, c]⟩ ⟨2, ![a, c]⟩)
    (hr : d.contr.rank = 1) (hs : d.contr.size ⟨0, by omega⟩ = b)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (l : (⟨2, ![a, b]⟩ : Shape).Idx → EReal) (r : (⟨2, ![b, c]⟩ : Shape).Idx → EReal) (p : Fin a) (q : Fin c) :
    ∑ k : d.contr.Idx, l (d.lhsIdx (ix2 p q) k) * r (d.rhsIdx (ix2 p q) k) = ∑ k : Fin b, l (ix2 p k) * r (ix2 k q) := by
  refine (Equiv.sum_comp (contrEquiv1 d b hr hs).symm
    (fun k => l (d.lhsIdx (ix2 p q) k) * r (d.rhsIdx (ix2 p q) k))).symm.trans ?_
  refine Finset.sum_congr rfl fun k _ => ?_
  have hk := contrEquiv1_symm_val d b hr hs k
  have el : d.lhsIdx (ix2 p q) ((contrEquiv1 d b hr hs).symm k) = ix2 p k := by
    funext ax; apply Fin.ext
    match ax with
    | ⟨0, _⟩ => exact hl0 _ _
    | ⟨1, _⟩ => exact (hl1 _ _).trans hk
  have er : d.rhsIdx (ix2 p q) ((contrEquiv1 d b hr hs).symm k) = ix2 k q := by
    funext ax; apply Fin.ext
    match ax with
    | ⟨0, _⟩ => exact (hr0 _ _).trans hk
    | ⟨1, _⟩ => exact hr1 _ _
  show l (d.lhsIdx (ix2 p q) ((contrEquiv1 d b hr hs).symm k)) * r (d.rhsIdx (ix2 p q) ((contrEquiv1 d b hr hs).symm k)) = _
  rw [el, er]

/-- Entry (p, q) of the stored block: the sum over k of x0(p, k) · w(k, q). -/
theorem lin4_pay_apply (x0 : FVec Ideal S5000x128 .f32) (w : FVec Ideal S128x128 .f32) (p : Fin 5000) (q : Fin 128) :
    k4_pay1 (F := Ideal) x0 w (ix2 p q) = ∑ k : Fin 128, x0 (ix2 p k) * w (ix2 k q) := by
  unfold k4_pay1
  simp only [shapeCast_self, matmul]
  rw [Ideal.matmul_constant_zero_apply]
  exact lin4_sum_contr_rows_cols dot_S5000x128_S128x128_S5000x128_1_0_0_1_n_n rfl rfl (fun _ _ => rfl)
    (fun j k => DotDims.lhsIdx_val_of_single _ rfl j k) (fun j k => DotDims.rhsIdx_val_of_single _ rfl j k) (fun _ _ => rfl)
    x0 w p q

/-- Entry (n, q) of the product of the whole arrays: the sum over k of a(n, k) · w(k, q). -/
theorem lin4_ref_apply (A : FVec Ideal S50000x128 .f32) (W : FVec Ideal S128x128 .f32) (n : Fin 50000) (q : Fin 128) :
    Host.dotGeneral (F := Ideal) (φ₁ := .f32) (φ₂ := .f32) Cert.ReferenceIdeal.dot_S50000x128_S128x128_S50000x128_1_0_0_1_n_n none A W (ix2 n q)
      = ∑ k : Fin 128, A (ix2 n k) * W (ix2 k q) := by
  simp only [Host.dotGeneral]
  rw [Ideal.dotGeneral_apply]
  exact lin4_sum_contr_rows_cols Cert.ReferenceIdeal.dot_S50000x128_S128x128_S50000x128_1_0_0_1_n_n rfl rfl (fun _ _ => rfl)
    (fun j k => DotDims.lhsIdx_val_of_single _ rfl j k) (fun j k => DotDims.rhsIdx_val_of_single _ rfl j k) (fun _ _ => rfl)
    A W n q

/-- A block entry j is the whole product at the array index i, when the loaded block of x is rows R … R + 4999 of x,
    the loaded w is w, and i is j moved down by R rows. -/
theorem lin4_point (A : FVec Ideal S50000x128 .f32) (W : FVec Ideal S128x128 .f32)
    (x0 : FVec Ideal S5000x128 .f32) (w : FVec Ideal S128x128 .f32) (j : S5000x128.Idx) (i : S50000x128.Idx)
    (R : Nat) (hR : R + 5000 ≤ 50000)
    (h0 : ∀ (p : Fin 5000) (k : Fin 128), x0 (ix2 p k) = A (ix2 ⟨R + p.val, by omega⟩ k)) (h1 : w = W)
    (hi0 : (i 0).val = R + (j 0).val) (hi1 : (i 1).val = (j 1).val) :
    k4_pay1 (F := Ideal) x0 w j
      = Host.dotGeneral (F := Ideal) (φ₁ := .f32) (φ₂ := .f32) Cert.ReferenceIdeal.dot_S50000x128_S128x128_S50000x128_1_0_0_1_n_n none A W i := by
  obtain ⟨p, q, rfl⟩ : ∃ (p : Fin 5000) (q : Fin 128), j = ix2 p q := ⟨j 0, j 1, eq_ix2 j⟩
  obtain ⟨n, r, rfl⟩ : ∃ (n : Fin 50000) (r : Fin 128), i = ix2 n r := ⟨i 0, i 1, eq_ix2 i⟩
  have hrq : r = q := Fin.ext hi1
  have hn : n = ⟨R + p.val, by omega⟩ := Fin.ext hi0
  rw [lin4_pay_apply, lin4_ref_apply, h1, hn, hrq]
  exact Finset.sum_congr rfl fun k _ => by rw [h0]

/-- The index maps over the ten points: window 0 moves with window 2 along the rows and both sit at column block 0;
    window 1 stays at block (0, 0); window 2's row block is the point's number. -/
theorem lin4_idx : ∀ t : Fin cfg4.N, win4_0.index t (0 : Fin 2) = win4_2.index t (0 : Fin 2)
    ∧ win4_0.index t (1 : Fin 2) = win4_2.index t (1 : Fin 2)
    ∧ win4_1.index t (0 : Fin 2) = 0 ∧ win4_1.index t (1 : Fin 2) = 0
    ∧ win4_2.index t (1 : Fin 2) = 0 ∧ win4_2.index t (0 : Fin 2) = t.val :=
  (by decide +kernel : ∀ t : Fin grid4.N, _)

/-- The rows of point t's block lie inside the array. -/
theorem lin4_rows (t : Fin cfg4.N) : win4_2.index t (0 : Fin 2) * 5000 + 5000 ≤ 50000 := by
  obtain ⟨e0, e1, e2, e3, e4, e5⟩ := lin4_idx t
  have hN : cfg4.N = 10 := N_4
  have ht : t.val < 10 := Nat.lt_of_lt_of_eq t.isLt hN
  omega

set_option maxHeartbeats 1000000 in
/-- The loaded block of x at point t is rows 5000·t … of x. -/
theorem lin4_blk0 (c : Dev nD) (t : Fin cfg4.N) (p : Fin 5000) (k : Fin 128) :
    iblk4 V c 0 t (ix2 p k)
      = V c (Pipeline.arrRef spec4 0) (ix2 (⟨win4_2.index t (0 : Fin 2) * 5000 + p.val, by have := lin4_rows t; omega⟩ : Fin 50000) k) := by
  obtain ⟨e0, e1, e2, e3, e4, e5⟩ := lin4_idx t
  show V c (Pipeline.arrRef spec4 0) (((cfg4.win 0).blk t).view.emb (ix2 p k)) = _
  have h : ((cfg4.win 0).blk t).view.emb (ix2 p k)
      = ix2 (⟨win4_2.index t (0 : Fin 2) * 5000 + p.val, by have := lin4_rows t; omega⟩ : Fin 50000) k := by
    funext a; apply Fin.ext
    match a with
    | ⟨0, _⟩ => show win4_0.index t (0 : Fin 2) * 5000 + 1 * p.val = win4_2.index t (0 : Fin 2) * 5000 + p.val; omega
    | ⟨1, _⟩ => show win4_0.index t (1 : Fin 2) * 128 + 1 * k.val = k.val; omega
  rw [h]

set_option maxHeartbeats 1000000 in
/-- The loaded w at any point is the whole array w. -/
theorem lin4_blk1 (c : Dev nD) (t : Fin cfg4.N) : iblk4 V c 1 t = V c (Pipeline.arrRef spec4 1) := by
  obtain ⟨e0, e1, e2, e3, e4, e5⟩ := lin4_idx t
  funext y
  show V c (Pipeline.arrRef spec4 1) (((cfg4.win 1).blk t).view.emb y) = V c (Pipeline.arrRef spec4 1) y
  have h : ((cfg4.win 1).blk t).view.emb y = y := by
    funext a; apply Fin.ext
    match a with
    | ⟨0, _⟩ => show win4_1.index t (0 : Fin 2) * 128 + 1 * (y 0).val = (y 0).val; omega
    | ⟨1, _⟩ => show win4_1.index t (1 : Fin 2) * 128 + 1 * (y 1).val = (y 1).val; omega
  rw [h]

set_option maxHeartbeats 1000000 in
/-- An entry of the output block sits in the array 5000·t rows further down … -/
theorem lin4_row (t : Fin cfg4.N) (j : ((cfg4.win 2).xblock (grid4.coords t)).Idx) :
    ((((cfg4.win 2).blk t).view.emb j) 0).val = win4_2.index t (0 : Fin 2) * 5000 + (j 0).val := by
  show win4_2.index t (0 : Fin 2) * 5000 + 1 * (j 0).val = _
  omega

set_option maxHeartbeats 1000000 in
/-- … and in its own column. -/
theorem lin4_col (t : Fin cfg4.N) (j : ((cfg4.win 2).xblock (grid4.coords t)).Idx) :
    ((((cfg4.win 2).blk t).view.emb j) 1).val = (j 1).val := by
  obtain ⟨e0, e1, e2, e3, e4, e5⟩ := lin4_idx t
  show win4_2.index t (1 : Fin 2) * 128 + 1 * (j 1).val = (j 1).val
  omega

set_option maxHeartbeats 1000000 in
/-- What point t writes back is block t of the product of the arrays as the region finds them. -/
theorem lin4_flushed (c : Dev nD) (t : Fin cfg4.N) :
    (dat4 (F := Ideal) V c).flushed 2 t = ((cfg4.win 2).blk t).view.read (Elt Ideal)
      (Host.dotGeneral (F := Ideal) (φ₁ := .f32) (φ₂ := .f32) Cert.ReferenceIdeal.dot_S50000x128_S128x128_S50000x128_1_0_0_1_n_n none
        (V c (Pipeline.arrRef spec4 0) : FVec Ideal S50000x128 .f32) (V c (Pipeline.arrRef spec4 1) : FVec Ideal S128x128 .f32)) := by
  show (cfg4.win 2).cut (grid4.coords t) ((dat4 (F := Ideal) V c).after 2 t) = _
  rw [after4_2]
  unfold out4_2
  rw [View.canon_unit_zero Cert.Lib.zeros2]
  simp only [View.ld_unit_zero (S := S5000x128) Cert.Lib.zeros2, View.ld_unit_zero (S := S128x128) Cert.Lib.zeros2]
  funext j
  show k4_pay1 (F := Ideal) (iblk4 V c 0 t) (iblk4 V c 1 t) j
    = Host.dotGeneral (F := Ideal) (φ₁ := .f32) (φ₂ := .f32) Cert.ReferenceIdeal.dot_S50000x128_S128x128_S50000x128_1_0_0_1_n_n none
        (V c (Pipeline.arrRef spec4 0) : FVec Ideal S50000x128 .f32) (V c (Pipeline.arrRef spec4 1) : FVec Ideal S128x128 .f32) (((cfg4.win 2).blk t).view.emb j)
  exact lin4_point (V c (Pipeline.arrRef spec4 0)) (V c (Pipeline.arrRef spec4 1)) (iblk4 V c 0 t) (iblk4 V c 1 t)
    j (((cfg4.win 2).blk t).view.emb j) (win4_2.index t (0 : Fin 2) * 5000) (lin4_rows t)
    (lin4_blk0 V c t) (lin4_blk1 V c t) (lin4_row t j) (lin4_col t j)

/-- An index of the output array is in point t's block iff each coordinate is in the block's range on its axis. -/
theorem lin4_mem_blk (t : Fin cfg4.N) (i : S50000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v126).slice (win4_2.rect t)).set ↔ _
  rw [View.set_slice_whole, Rect.mem_set_unit]
  exact Iff.rfl

/-- Row n of the output array lies in the block of point n / 5000. -/
theorem lin4_cover (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨e0, e1, e2, e3, e4, e5⟩ := lin4_idx t
  refine ⟨t, flush4_2 t, ?_⟩
  rw [lin4_mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

set_option maxHeartbeats 1000000 in
/-- The output array after the region: the product of the arrays as the region finds them. -/
theorem lin_arr4 (c : Dev nD) :
    (dat4 (F := Ideal) V c).arrAt 2 cfg4.N
      = Host.dotGeneral (F := Ideal) (φ₁ := .f32) (φ₂ := .f32) Cert.ReferenceIdeal.dot_S50000x128_S128x128_S50000x128_1_0_0_1_n_n none
          (V c (Pipeline.arrRef spec4 0) : FVec Ideal S50000x128 .f32) (V c (Pipeline.arrRef spec4 1) : FVec Ideal S128x128 .f32) :=
  (dat4 (F := Ideal) V c).arrAt_eq_of_cover 2 _ (fun t _ => lin4_flushed V c t) (fun i => lin4_cover i)

end Cert.KernelIdeal.RegionValue

end
-- ==== Proof.RegionLin6.lean ====
/-
  The linear kernel of region 6, read as one function of the two arrays the region finds: the matrix product x · w.

  The region's grid has ten points; point t loads rows 5000·t … 5000·t + 4999 of x and the whole of w, and stores
  back rows 5000·t … 5000·t + 4999 of its output: the product of the loaded block of x with w, accumulated into zeros
  (the casts to a narrower float format in between change nothing here, every value being an extended real). Entry
  (p, q) of that block product is the sum over k < 128 of x(5000·t + p, k) · w(k, q), which is entry (5000·t + p, q) of
  the product of the whole arrays. So after the ten write-backs the output array is the whole product.

  * `sum_contr_rows_cols`: for any rows-by-columns product, the sum over the contraction index is the sum over k;
  * `lin6_pay_apply`, `lin6_ref_apply`: the block product and the whole product at an entry, as that sum;
  * `lin6_point`: hence a block entry is the whole product at the array index it is written to;
  * `lin6_idx`: the index maps over the grid; `lin6_rows`, `lin6_blk0`, `lin6_blk1`, `lin6_row`, `lin6_col`: the loaded
    blocks as the arrays read through the output's rectangle, and where an output block's entry sits;
  * `lin6_flushed`, `lin6_mem_blk`, `lin6_cover`, `lin_arr6`: the write-backs, the cover, the array after the region.
-/
import proofs.«167957_j84052509983292_1_alg».proof.Proof.Gen.KernelIdeal.Frame
import proofs.«167957_j84052509983292_1_alg».proof.Proof.Gen.ReferenceIdeal
import proofs.«167957_j84052509983292_1_alg».proof.Proof.LibWholeStore
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- For a product of an [a, b] array by a [b, c] array whose dimension numbers contract the inner axis (read off as
    the four coordinate equations), the sum over the contraction index at output entry (p, q) is the sum over k < b
    of l(p, k) · r(k, q). -/
theorem lin6_sum_contr_rows_cols {a b c : Nat} (d : DotDims ⟨2, ![a, b]⟩ ⟨2, ![b, c]⟩ ⟨2, ![a, c]⟩)
    (hr : d.contr.rank = 1) (hs : d.contr.size ⟨0, by omega⟩ = b)
    (hl0 : ∀ j k, (d.lhsIdx j k 0).val = (j 0).val)
    (hl1 : ∀ j k, (d.lhsIdx j k 1).val = (k ⟨0, by omega⟩).val)
    (hr0 : ∀ j k, (d.rhsIdx j k 0).val = (k ⟨0, by omega⟩).val)
    (hr1 : ∀ j k, (d.rhsIdx j k 1).val = (j 1).val)
    (l : (⟨2, ![a, b]⟩ : Shape).Idx → EReal) (r : (⟨2, ![b, c]⟩ : Shape).Idx → EReal) (p : Fin a) (q : Fin c) :
    ∑ k : d.contr.Idx, l (d.lhsIdx (ix2 p q) k) * r (d.rhsIdx (ix2 p q) k) = ∑ k : Fin b, l (ix2 p k) * r (ix2 k q) := by
  refine (Equiv.sum_comp (contrEquiv1 d b hr hs).symm
    (fun k => l (d.lhsIdx (ix2 p q) k) * r (d.rhsIdx (ix2 p q) k))).symm.trans ?_
  refine Finset.sum_congr rfl fun k _ => ?_
  have hk := contrEquiv1_symm_val d b hr hs k
  have el : d.lhsIdx (ix2 p q) ((contrEquiv1 d b hr hs).symm k) = ix2 p k := by
    funext ax; apply Fin.ext
    match ax with
    | ⟨0, _⟩ => exact hl0 _ _
    | ⟨1, _⟩ => exact (hl1 _ _).trans hk
  have er : d.rhsIdx (ix2 p q) ((contrEquiv1 d b hr hs).symm k) = ix2 k q := by
    funext ax; apply Fin.ext
    match ax with
    | ⟨0, _⟩ => exact (hr0 _ _).trans hk
    | ⟨1, _⟩ => exact hr1 _ _
  show l (d.lhsIdx (ix2 p q) ((contrEquiv1 d b hr hs).symm k)) * r (d.rhsIdx (ix2 p q) ((contrEquiv1 d b hr hs).symm k)) = _
  rw [el, er]

/-- Entry (p, q) of the stored block: the sum over k of x0(p, k) · w(k, q). -/
theorem lin6_pay_apply (x0 : FVec Ideal S5000x128 .f32) (w : FVec Ideal S128x128 .f32) (p : Fin 5000) (q : Fin 128) :
    k6_pay1 (F := Ideal) x0 w (ix2 p q) = ∑ k : Fin 128, x0 (ix2 p k) * w (ix2 k q) := by
  unfold k6_pay1
  simp only [shapeCast_self, matmul]
  rw [Ideal.matmul_constant_zero_apply]
  exact lin6_sum_contr_rows_cols dot_S5000x128_S128x128_S5000x128_1_0_0_1_n_n rfl rfl (fun _ _ => rfl)
    (fun j k => DotDims.lhsIdx_val_of_single _ rfl j k) (fun j k => DotDims.rhsIdx_val_of_single _ rfl j k) (fun _ _ => rfl)
    x0 w p q

/-- Entry (n, q) of the product of the whole arrays: the sum over k of a(n, k) · w(k, q). -/
theorem lin6_ref_apply (A : FVec Ideal S50000x128 .f32) (W : FVec Ideal S128x128 .f32) (n : Fin 50000) (q : Fin 128) :
    Host.dotGeneral (F := Ideal) (φ₁ := .f32) (φ₂ := .f32) Cert.ReferenceIdeal.dot_S50000x128_S128x128_S50000x128_1_0_0_1_n_n none A W (ix2 n q)
      = ∑ k : Fin 128, A (ix2 n k) * W (ix2 k q) := by
  simp only [Host.dotGeneral]
  rw [Ideal.dotGeneral_apply]
  exact lin6_sum_contr_rows_cols Cert.ReferenceIdeal.dot_S50000x128_S128x128_S50000x128_1_0_0_1_n_n rfl rfl (fun _ _ => rfl)
    (fun j k => DotDims.lhsIdx_val_of_single _ rfl j k) (fun j k => DotDims.rhsIdx_val_of_single _ rfl j k) (fun _ _ => rfl)
    A W n q

/-- A block entry j is the whole product at the array index i, when the loaded block of x is rows R … R + 4999 of x,
    the loaded w is w, and i is j moved down by R rows. -/
theorem lin6_point (A : FVec Ideal S50000x128 .f32) (W : FVec Ideal S128x128 .f32)
    (x0 : FVec Ideal S5000x128 .f32) (w : FVec Ideal S128x128 .f32) (j : S5000x128.Idx) (i : S50000x128.Idx)
    (R : Nat) (hR : R + 5000 ≤ 50000)
    (h0 : ∀ (p : Fin 5000) (k : Fin 128), x0 (ix2 p k) = A (ix2 ⟨R + p.val, by omega⟩ k)) (h1 : w = W)
    (hi0 : (i 0).val = R + (j 0).val) (hi1 : (i 1).val = (j 1).val) :
    k6_pay1 (F := Ideal) x0 w j
      = Host.dotGeneral (F := Ideal) (φ₁ := .f32) (φ₂ := .f32) Cert.ReferenceIdeal.dot_S50000x128_S128x128_S50000x128_1_0_0_1_n_n none A W i := by
  obtain ⟨p, q, rfl⟩ : ∃ (p : Fin 5000) (q : Fin 128), j = ix2 p q := ⟨j 0, j 1, eq_ix2 j⟩
  obtain ⟨n, r, rfl⟩ : ∃ (n : Fin 50000) (r : Fin 128), i = ix2 n r := ⟨i 0, i 1, eq_ix2 i⟩
  have hrq : r = q := Fin.ext hi1
  have hn : n = ⟨R + p.val, by omega⟩ := Fin.ext hi0
  rw [lin6_pay_apply, lin6_ref_apply, h1, hn, hrq]
  exact Finset.sum_congr rfl fun k _ => by rw [h0]

/-- The index maps over the ten points: window 0 moves with window 2 along the rows and both sit at column block 0;
    window 1 stays at block (0, 0); window 2's row block is the point's number. -/
theorem lin6_idx : ∀ t : Fin cfg6.N, win6_0.index t (0 : Fin 2) = win6_2.index t (0 : Fin 2)
    ∧ win6_0.index t (1 : Fin 2) = win6_2.index t (1 : Fin 2)
    ∧ win6_1.index t (0 : Fin 2) = 0 ∧ win6_1.index t (1 : Fin 2) = 0
    ∧ win6_2.index t (1 : Fin 2) = 0 ∧ win6_2.index t (0 : Fin 2) = t.val :=
  (by decide +kernel : ∀ t : Fin grid6.N, _)

/-- The rows of point t's block lie inside the array. -/
theorem lin6_rows (t : Fin cfg6.N) : win6_2.index t (0 : Fin 2) * 5000 + 5000 ≤ 50000 := by
  obtain ⟨e0, e1, e2, e3, e4, e5⟩ := lin6_idx t
  have hN : cfg6.N = 10 := N_6
  have ht : t.val < 10 := Nat.lt_of_lt_of_eq t.isLt hN
  omega

set_option maxHeartbeats 1000000 in
/-- The loaded block of x at point t is rows 5000·t … of x. -/
theorem lin6_blk0 (c : Dev nD) (t : Fin cfg6.N) (p : Fin 5000) (k : Fin 128) :
    iblk6 V c 0 t (ix2 p k)
      = V c (Pipeline.arrRef spec6 0) (ix2 (⟨win6_2.index t (0 : Fin 2) * 5000 + p.val, by have := lin6_rows t; omega⟩ : Fin 50000) k) := by
  obtain ⟨e0, e1, e2, e3, e4, e5⟩ := lin6_idx t
  show V c (Pipeline.arrRef spec6 0) (((cfg6.win 0).blk t).view.emb (ix2 p k)) = _
  have h : ((cfg6.win 0).blk t).view.emb (ix2 p k)
      = ix2 (⟨win6_2.index t (0 : Fin 2) * 5000 + p.val, by have := lin6_rows t; omega⟩ : Fin 50000) k := by
    funext a; apply Fin.ext
    match a with
    | ⟨0, _⟩ => show win6_0.index t (0 : Fin 2) * 5000 + 1 * p.val = win6_2.index t (0 : Fin 2) * 5000 + p.val; omega
    | ⟨1, _⟩ => show win6_0.index t (1 : Fin 2) * 128 + 1 * k.val = k.val; omega
  rw [h]

set_option maxHeartbeats 1000000 in
/-- The loaded w at any point is the whole array w. -/
theorem lin6_blk1 (c : Dev nD) (t : Fin cfg6.N) : iblk6 V c 1 t = V c (Pipeline.arrRef spec6 1) := by
  obtain ⟨e0, e1, e2, e3, e4, e5⟩ := lin6_idx t
  funext y
  show V c (Pipeline.arrRef spec6 1) (((cfg6.win 1).blk t).view.emb y) = V c (Pipeline.arrRef spec6 1) y
  have h : ((cfg6.win 1).blk t).view.emb y = y := by
    funext a; apply Fin.ext
    match a with
    | ⟨0, _⟩ => show win6_1.index t (0 : Fin 2) * 128 + 1 * (y 0).val = (y 0).val; omega
    | ⟨1, _⟩ => show win6_1.index t (1 : Fin 2) * 128 + 1 * (y 1).val = (y 1).val; omega
  rw [h]

set_option maxHeartbeats 1000000 in
/-- An entry of the output block sits in the array 5000·t rows further down … -/
theorem lin6_row (t : Fin cfg6.N) (j : ((cfg6.win 2).xblock (grid6.coords t)).Idx) :
    ((((cfg6.win 2).blk t).view.emb j) 0).val = win6_2.index t (0 : Fin 2) * 5000 + (j 0).val := by
  show win6_2.index t (0 : Fin 2) * 5000 + 1 * (j 0).val = _
  omega

set_option maxHeartbeats 1000000 in
/-- … and in its own column. -/
theorem lin6_col (t : Fin cfg6.N) (j : ((cfg6.win 2).xblock (grid6.coords t)).Idx) :
    ((((cfg6.win 2).blk t).view.emb j) 1).val = (j 1).val := by
  obtain ⟨e0, e1, e2, e3, e4, e5⟩ := lin6_idx t
  show win6_2.index t (1 : Fin 2) * 128 + 1 * (j 1).val = (j 1).val
  omega

set_option maxHeartbeats 1000000 in
/-- What point t writes back is block t of the product of the arrays as the region finds them. -/
theorem lin6_flushed (c : Dev nD) (t : Fin cfg6.N) :
    (dat6 (F := Ideal) V c).flushed 2 t = ((cfg6.win 2).blk t).view.read (Elt Ideal)
      (Host.dotGeneral (F := Ideal) (φ₁ := .f32) (φ₂ := .f32) Cert.ReferenceIdeal.dot_S50000x128_S128x128_S50000x128_1_0_0_1_n_n none
        (V c (Pipeline.arrRef spec6 0) : FVec Ideal S50000x128 .f32) (V c (Pipeline.arrRef spec6 1) : FVec Ideal S128x128 .f32)) := by
  show (cfg6.win 2).cut (grid6.coords t) ((dat6 (F := Ideal) V c).after 2 t) = _
  rw [after6_2]
  unfold out6_2
  rw [View.canon_unit_zero Cert.Lib.zeros2]
  simp only [View.ld_unit_zero (S := S5000x128) Cert.Lib.zeros2, View.ld_unit_zero (S := S128x128) Cert.Lib.zeros2]
  funext j
  show k6_pay1 (F := Ideal) (iblk6 V c 0 t) (iblk6 V c 1 t) j
    = Host.dotGeneral (F := Ideal) (φ₁ := .f32) (φ₂ := .f32) Cert.ReferenceIdeal.dot_S50000x128_S128x128_S50000x128_1_0_0_1_n_n none
        (V c (Pipeline.arrRef spec6 0) : FVec Ideal S50000x128 .f32) (V c (Pipeline.arrRef spec6 1) : FVec Ideal S128x128 .f32) (((cfg6.win 2).blk t).view.emb j)
  exact lin6_point (V c (Pipeline.arrRef spec6 0)) (V c (Pipeline.arrRef spec6 1)) (iblk6 V c 0 t) (iblk6 V c 1 t)
    j (((cfg6.win 2).blk t).view.emb j) (win6_2.index t (0 : Fin 2) * 5000) (lin6_rows t)
    (lin6_blk0 V c t) (lin6_blk1 V c t) (lin6_row t j) (lin6_col t j)

/-- An index of the output array is in point t's block iff each coordinate is in the block's range on its axis. -/
theorem lin6_mem_blk (t : Fin cfg6.N) (i : S50000x128.Idx) :
    i ∈ ((cfg6.win 2).blk t).view.set ↔ ∀ a : Fin 2, win6_2.index t a * S5000x128.size a ≤ (i a).val
      ∧ (i a).val < win6_2.index t a * S5000x128.size a + S5000x128.size a := by
  show i ∈ ((View.whole main_v174).slice (win6_2.rect t)).set ↔ _
  rw [View.set_slice_whole, Rect.mem_set_unit]
  exact Iff.rfl

/-- Row n of the output array lies in the block of point n / 5000. -/
theorem lin6_cover (i : S50000x128.Idx) :
    ∃ t : Fin cfg6.N, (cfg6.win 2).flush t = true ∧ i ∈ ((cfg6.win 2).blk t).view.set := by
  have hi0 : (i 0).val < 50000 := (i 0).isLt
  have hi1 : (i 1).val < 128 := (i 1).isLt
  have hN : cfg6.N = 10 := N_6
  obtain ⟨t, ht⟩ : ∃ t : Fin cfg6.N, t.val = (i 0).val / 5000 := ⟨⟨(i 0).val / 5000, by rw [hN]; omega⟩, rfl⟩
  obtain ⟨e0, e1, e2, e3, e4, e5⟩ := lin6_idx t
  refine ⟨t, flush6_2 t, ?_⟩
  rw [lin6_mem_blk]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

set_option maxHeartbeats 1000000 in
/-- The output array after the region: the product of the arrays as the region finds them. -/
theorem lin_arr6 (c : Dev nD) :
    (dat6 (F := Ideal) V c).arrAt 2 cfg6.N
      = Host.dotGeneral (F := Ideal) (φ₁ := .f32) (φ₂ := .f32) Cert.ReferenceIdeal.dot_S50000x128_S128x128_S50000x128_1_0_0_1_n_n none
          (V c (Pipeline.arrRef spec6 0) : FVec Ideal S50000x128 .f32) (V c (Pipeline.arrRef spec6 1) : FVec Ideal S128x128 .f32) :=
  (dat6 (F := Ideal) V c).arrAt_eq_of_cover 2 _ (fun t _ => lin6_flushed V c t) (fun i => lin6_cover i)

end Cert.KernelIdeal.RegionValue

end
-- ==== Proof.RegionNorm1.lean ====
/-
  The fused normalisation kernel of region 1, read as one function of the three arrays the region finds.

  The region's grid has ten points; point t loads rows 5000·t … 5000·t + 4999 of the array c, and the whole of the
  two rows sc and sh, and stores back rows 5000·t … 5000·t + 4999 of its output. The body's one store is
  max (c · sc + sh) 0 with each row repeated over the 5000 rows of the block. So after the ten write-backs entry
  (n, j) of the output array is max (c(n, j) · sc(0, j) + sh(0, j)) 0:

  * `norm1_pay_apply`: the stored block at entry (p, q);
  * `norm1_point`: hence a block entry is the whole-array function at the array index it is written to, as soon as
    the loaded blocks are the arrays read where the output's rectangle says;
  * `norm1_idx`: the index maps over the grid: the blocked input moves with the output, the rows stay put;
  * `norm1_blk0`, `norm1_blk1`, `norm1_blk2`, `norm1_col`: each loaded block as the array read through the output's
    rectangle, and the column of an output block's entry;
  * `norm1_flushed`: what point t writes back is block t of the whole-array function;
  * `norm1_mem_blk`, `norm1_cover`: row n lies in the block of point n / 5000;
  * `norm_arr1`: the output array after the region.
-/
import proofs.«167957_j84052509983292_1_alg».proof.Proof.Gen.KernelIdeal.Frame
import proofs.«167957_j84052509983292_1_alg».proof.Proof.Gen.ReferenceIdeal
import proofs.«167957_j84052509983292_1_alg».proof.Proof.Spec
import proofs.«167957_j84052509983292_1_alg».proof.Proof.LibWholeStore
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Entry (p, q) of the stored block: max (x0(p, q) · x1(0, q) + x2(0, q)) 0. -/
theorem norm1_pay_apply (x0 : FVec Ideal S5000x128 .f32) (x1 x2 : FVec Ideal S1x128 .f32) (p : Fin 5000) (q : Fin 128) :
    k1_pay1 (F := Ideal) x0 x1 x2 (ix2 p q)
      = max (x0 (ix2 p q) * x1 (ix2 (0 : Fin 1) q) + x2 (ix2 (0 : Fin 1) q)) 0 := by
  unfold k1_pay1
  simp only [shapeCast_self]
  show max (x0 (ix2 p q) * broadcastTo S5000x128 x1 _ (ix2 p q) + broadcastTo S5000x128 x2 _ (ix2 p q))
      (Ideal.ofBits .f32 0x00000000#32) = _
  rw [broadcastTo_1b_ab_apply x1 _ p q, broadcastTo_1b_ab_apply x2 _ p q, Ideal.ofBits_zero_f32]

/-- A block entry j is the whole-array function at the array index i, when the loaded block of c holds at j what c
    holds at i, the loaded rows are the rows, and i and j have the same column. -/
theorem norm1_point (A0 : FVec Ideal S50000x128 .f32) (A1 A2 : FVec Ideal S1x128 .f32)
    (x0 : FVec Ideal S5000x128 .f32) (x1 x2 : FVec Ideal S1x128 .f32) (j : S5000x128.Idx) (i : S50000x128.Idx)
    (h0 : x0 j = A0 i) (h1 : x1 = A1) (h2 : x2 = A2) (hi : (i 1).val = (j 1).val) :
    k1_pay1 (F := Ideal) x0 x1 x2 j = Cert.Spec.affineRelu A0 A1 A2 i := by
  obtain ⟨p, q, rfl⟩ : ∃ (p : Fin 5000) (q : Fin 128), j = ix2 p q := ⟨j 0, j 1, eq_ix2 j⟩
  obtain ⟨n, r, rfl⟩ : ∃ (n : Fin 50000) (r : Fin 128), i = ix2 n r := ⟨i 0, i 1, eq_ix2 i⟩
  have hrq : r = q := Fin.ext hi
  rw [norm1_pay_apply, h0, h1, h2, ← hrq]
  rfl

/-- The index maps over the ten points: window 0 moves with window 3 along the rows and both sit at column block 0;
    windows 1 and 2 stay at block (0, 0); window 3's row block is the point's number. -/
theorem norm1_idx : ∀ t : Fin cfg1.N, win1_0.index t (0 : Fin 2) = win1_3.index t (0 : Fin 2)
    ∧ win1_0.index t (1 : Fin 2) = win1_3.index t (1 : Fin 2)
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

set_option maxHeartbeats 1000000 in
/-- The loaded block of c at point t is c read through the output block's rectangle. -/
theorem norm1_blk0 (c : Dev nD) (t : Fin cfg1.N) (j : ((cfg1.win 3).xblock (grid1.coords t)).Idx) :
    iblk1 V c 0 t j = V c (Pipeline.arrRef spec1 0) (((cfg1.win 3).blk t).view.emb j) := by
  obtain ⟨e0, e1, e2, e3, e4, e5, e6, e7⟩ := norm1_idx t
  show V c (Pipeline.arrRef spec1 0) (((cfg1.win 0).blk t).view.emb j)
    = V c (Pipeline.arrRef spec1 0) (((cfg1.win 3).blk t).view.emb j)
  have h : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  rw [h]

set_option maxHeartbeats 1000000 in
/-- The loaded row sc at any point is the whole row array. -/
theorem norm1_blk1 (c : Dev nD) (t : Fin cfg1.N) : iblk1 V c 1 t = V c (Pipeline.arrRef spec1 1) := by
  obtain ⟨e0, e1, e2, e3, e4, e5, e6, e7⟩ := norm1_idx t
  funext y
  show V c (Pipeline.arrRef spec1 1) (((cfg1.win 1).blk t).view.emb y) = V c (Pipeline.arrRef spec1 1) y
  have h : ((cfg1.win 1).blk t).view.emb y = y := by
    funext a; apply Fin.ext
    match a with
    | ⟨0, _⟩ => show win1_1.index t (0 : Fin 2) * 1 + 1 * (y 0).val = (y 0).val; omega
    | ⟨1, _⟩ => show win1_1.index t (1 : Fin 2) * 128 + 1 * (y 1).val = (y 1).val; omega
  rw [h]

set_option maxHeartbeats 1000000 in
/-- The loaded row sh at any point is the whole row array. -/
theorem norm1_blk2 (c : Dev nD) (t : Fin cfg1.N) : iblk1 V c 2 t = V c (Pipeline.arrRef spec1 2) := by
  obtain ⟨e0, e1, e2, e3, e4, e5, e6, e7⟩ := norm1_idx t
  funext y
  show V c (Pipeline.arrRef spec1 2) (((cfg1.win 2).blk t).view.emb y) = V c (Pipeline.arrRef spec1 2) y
  have h : ((cfg1.win 2).blk t).view.emb y = y := by
    funext a; apply Fin.ext
    match a with
    | ⟨0, _⟩ => show win1_2.index t (0 : Fin 2) * 1 + 1 * (y 0).val = (y 0).val; omega
    | ⟨1, _⟩ => show win1_2.index t (1 : Fin 2) * 128 + 1 * (y 1).val = (y 1).val; omega
  rw [h]

set_option maxHeartbeats 1000000 in
/-- An entry of the output block sits in the array in its own column. -/
theorem norm1_col (t : Fin cfg1.N) (j : ((cfg1.win 3).xblock (grid1.coords t)).Idx) :
    ((((cfg1.win 3).blk t).view.emb j) 1).val = (j 1).val := by
  obtain ⟨e0, e1, e2, e3, e4, e5, e6, e7⟩ := norm1_idx t
  show win1_3.index t (1 : Fin 2) * 128 + 1 * (j 1).val = (j 1).val
  omega

set_option maxHeartbeats 1000000 in
/-- What point t writes back is block t of max (c · sc + sh) 0 of the arrays as the region finds them. -/
theorem norm1_flushed (c : Dev nD) (t : Fin cfg1.N) :
    (dat1 (F := Ideal) V c).flushed 3 t = ((cfg1.win 3).blk t).view.read (Elt Ideal)
      (Cert.Spec.affineRelu (V c (Pipeline.arrRef spec1 0)) (V c (Pipeline.arrRef spec1 1)) (V c (Pipeline.arrRef spec1 2))) := by
  show (cfg1.win 3).cut (grid1.coords t) ((dat1 (F := Ideal) V c).after 3 t) = _
  rw [after1_3]
  unfold out1_3
  rw [View.canon_unit_zero Cert.Lib.zeros2]
  simp only [View.ld_unit_zero (S := S5000x128) Cert.Lib.zeros2, View.ld_unit_zero (S := S1x128) Cert.Lib.zeros2]
  funext j
  show k1_pay1 (F := Ideal) (iblk1 V c 0 t) (iblk1 V c 1 t) (iblk1 V c 2 t) j
    = Cert.Spec.affineRelu (V c (Pipeline.arrRef spec1 0)) (V c (Pipeline.arrRef spec1 1)) (V c (Pipeline.arrRef spec1 2))
        (((cfg1.win 3).blk t).view.emb j)
  exact norm1_point (V c (Pipeline.arrRef spec1 0)) (V c (Pipeline.arrRef spec1 1)) (V c (Pipeline.arrRef spec1 2))
    (iblk1 V c 0 t) (iblk1 V c 1 t) (iblk1 V c 2 t) j (((cfg1.win 3).blk t).view.emb j)
    (norm1_blk0 V c t j) (norm1_blk1 V c t) (norm1_blk2 V c t) (norm1_col t j)

/-- An index of the output array is in point t's block iff each coordinate is in the block's range on its axis. -/
theorem norm1_mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v75).slice (win1_3.rect t)).set ↔ _
  rw [View.set_slice_whole, Rect.mem_set_unit]
  exact Iff.rfl

/-- Row n of the output array lies in the block of point n / 5000. -/
theorem norm1_cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨e0, e1, e2, e3, e4, e5, e6, e7⟩ := norm1_idx t
  refine ⟨t, flush1_3 t, ?_⟩
  rw [norm1_mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

set_option maxHeartbeats 1000000 in
/-- The output array after the region: max (c · sc + sh) 0, entry by entry, of the arrays as the region finds them. -/
theorem norm_arr1 (c : Dev nD) :
    (dat1 (F := Ideal) V c).arrAt 3 cfg1.N
      = Cert.Spec.affineRelu (V c (Pipeline.arrRef spec1 0)) (V c (Pipeline.arrRef spec1 1)) (V c (Pipeline.arrRef spec1 2)) :=
  (dat1 (F := Ideal) V c).arrAt_eq_of_cover 3 _ (fun t _ => norm1_flushed V c t) (fun i => norm1_cover i)

end Cert.KernelIdeal.RegionValue

end
-- ==== Proof.RegionNorm3.lean ====
/-
  The fused normalisation kernel of region 3, read as one function of the three arrays the region finds.

  The region's grid has ten points; point t loads rows 5000·t … 5000·t + 4999 of the array c, and the whole of the
  two rows sc and sh, and stores back rows 5000·t … 5000·t + 4999 of its output. The body's one store is
  max (c · sc + sh) 0 with each row repeated over the 5000 rows of the block. So after the ten write-backs entry
  (n, j) of the output array is max (c(n, j) · sc(0, j) + sh(0, j)) 0:

  * `norm3_pay_apply`: the stored block at entry (p, q);
  * `norm3_point`: hence a block entry is the whole-array function at the array index it is written to, as soon as
    the loaded blocks are the arrays read where the output's rectangle says;
  * `norm3_idx`: the index maps over the grid: the blocked input moves with the output, the rows stay put;
  * `norm3_blk0`, `norm3_blk1`, `norm3_blk2`, `norm3_col`: each loaded block as the array read through the output's
    rectangle, and the column of an output block's entry;
  * `norm3_flushed`: what point t writes back is block t of the whole-array function;
  * `norm3_mem_blk`, `norm3_cover`: row n lies in the block of point n / 5000;
  * `norm_arr3`: the output array after the region.
-/
import proofs.«167957_j84052509983292_1_alg».proof.Proof.Gen.KernelIdeal.Frame
import proofs.«167957_j84052509983292_1_alg».proof.Proof.Gen.ReferenceIdeal
import proofs.«167957_j84052509983292_1_alg».proof.Proof.Spec
import proofs.«167957_j84052509983292_1_alg».proof.Proof.LibWholeStore
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Entry (p, q) of the stored block: max (x0(p, q) · x1(0, q) + x2(0, q)) 0. -/
theorem norm3_pay_apply (x0 : FVec Ideal S5000x128 .f32) (x1 x2 : FVec Ideal S1x128 .f32) (p : Fin 5000) (q : Fin 128) :
    k3_pay1 (F := Ideal) x0 x1 x2 (ix2 p q)
      = max (x0 (ix2 p q) * x1 (ix2 (0 : Fin 1) q) + x2 (ix2 (0 : Fin 1) q)) 0 := by
  unfold k3_pay1
  simp only [shapeCast_self]
  show max (x0 (ix2 p q) * broadcastTo S5000x128 x1 _ (ix2 p q) + broadcastTo S5000x128 x2 _ (ix2 p q))
      (Ideal.ofBits .f32 0x00000000#32) = _
  rw [broadcastTo_1b_ab_apply x1 _ p q, broadcastTo_1b_ab_apply x2 _ p q, Ideal.ofBits_zero_f32]

/-- A block entry j is the whole-array function at the array index i, when the loaded block of c holds at j what c
    holds at i, the loaded rows are the rows, and i and j have the same column. -/
theorem norm3_point (A0 : FVec Ideal S50000x128 .f32) (A1 A2 : FVec Ideal S1x128 .f32)
    (x0 : FVec Ideal S5000x128 .f32) (x1 x2 : FVec Ideal S1x128 .f32) (j : S5000x128.Idx) (i : S50000x128.Idx)
    (h0 : x0 j = A0 i) (h1 : x1 = A1) (h2 : x2 = A2) (hi : (i 1).val = (j 1).val) :
    k3_pay1 (F := Ideal) x0 x1 x2 j = Cert.Spec.affineRelu A0 A1 A2 i := by
  obtain ⟨p, q, rfl⟩ : ∃ (p : Fin 5000) (q : Fin 128), j = ix2 p q := ⟨j 0, j 1, eq_ix2 j⟩
  obtain ⟨n, r, rfl⟩ : ∃ (n : Fin 50000) (r : Fin 128), i = ix2 n r := ⟨i 0, i 1, eq_ix2 i⟩
  have hrq : r = q := Fin.ext hi
  rw [norm3_pay_apply, h0, h1, h2, ← hrq]
  rfl

/-- The index maps over the ten points: window 0 moves with window 3 along the rows and both sit at column block 0;
    windows 1 and 2 stay at block (0, 0); window 3's row block is the point's number. -/
theorem norm3_idx : ∀ t : Fin cfg3.N, win3_0.index t (0 : Fin 2) = win3_3.index t (0 : Fin 2)
    ∧ win3_0.index t (1 : Fin 2) = win3_3.index t (1 : Fin 2)
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) = t.val :=
  (by decide +kernel : ∀ t : Fin grid3.N, _)

set_option maxHeartbeats 1000000 in
/-- The loaded block of c at point t is c read through the output block's rectangle. -/
theorem norm3_blk0 (c : Dev nD) (t : Fin cfg3.N) (j : ((cfg3.win 3).xblock (grid3.coords t)).Idx) :
    iblk3 V c 0 t j = V c (Pipeline.arrRef spec3 0) (((cfg3.win 3).blk t).view.emb j) := by
  obtain ⟨e0, e1, e2, e3, e4, e5, e6, e7⟩ := norm3_idx t
  show V c (Pipeline.arrRef spec3 0) (((cfg3.win 0).blk t).view.emb j)
    = V c (Pipeline.arrRef spec3 0) (((cfg3.win 3).blk t).view.emb j)
  have h : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  rw [h]

set_option maxHeartbeats 1000000 in
/-- The loaded row sc at any point is the whole row array. -/
theorem norm3_blk1 (c : Dev nD) (t : Fin cfg3.N) : iblk3 V c 1 t = V c (Pipeline.arrRef spec3 1) := by
  obtain ⟨e0, e1, e2, e3, e4, e5, e6, e7⟩ := norm3_idx t
  funext y
  show V c (Pipeline.arrRef spec3 1) (((cfg3.win 1).blk t).view.emb y) = V c (Pipeline.arrRef spec3 1) y
  have h : ((cfg3.win 1).blk t).view.emb y = y := by
    funext a; apply Fin.ext
    match a with
    | ⟨0, _⟩ => show win3_1.index t (0 : Fin 2) * 1 + 1 * (y 0).val = (y 0).val; omega
    | ⟨1, _⟩ => show win3_1.index t (1 : Fin 2) * 128 + 1 * (y 1).val = (y 1).val; omega
  rw [h]

set_option maxHeartbeats 1000000 in
/-- The loaded row sh at any point is the whole row array. -/
theorem norm3_blk2 (c : Dev nD) (t : Fin cfg3.N) : iblk3 V c 2 t = V c (Pipeline.arrRef spec3 2) := by
  obtain ⟨e0, e1, e2, e3, e4, e5, e6, e7⟩ := norm3_idx t
  funext y
  show V c (Pipeline.arrRef spec3 2) (((cfg3.win 2).blk t).view.emb y) = V c (Pipeline.arrRef spec3 2) y
  have h : ((cfg3.win 2).blk t).view.emb y = y := by
    funext a; apply Fin.ext
    match a with
    | ⟨0, _⟩ => show win3_2.index t (0 : Fin 2) * 1 + 1 * (y 0).val = (y 0).val; omega
    | ⟨1, _⟩ => show win3_2.index t (1 : Fin 2) * 128 + 1 * (y 1).val = (y 1).val; omega
  rw [h]

set_option maxHeartbeats 1000000 in
/-- An entry of the output block sits in the array in its own column. -/
theorem norm3_col (t : Fin cfg3.N) (j : ((cfg3.win 3).xblock (grid3.coords t)).Idx) :
    ((((cfg3.win 3).blk t).view.emb j) 1).val = (j 1).val := by
  obtain ⟨e0, e1, e2, e3, e4, e5, e6, e7⟩ := norm3_idx t
  show win3_3.index t (1 : Fin 2) * 128 + 1 * (j 1).val = (j 1).val
  omega

set_option maxHeartbeats 1000000 in
/-- What point t writes back is block t of max (c · sc + sh) 0 of the arrays as the region finds them. -/
theorem norm3_flushed (c : Dev nD) (t : Fin cfg3.N) :
    (dat3 (F := Ideal) V c).flushed 3 t = ((cfg3.win 3).blk t).view.read (Elt Ideal)
      (Cert.Spec.affineRelu (V c (Pipeline.arrRef spec3 0)) (V c (Pipeline.arrRef spec3 1)) (V c (Pipeline.arrRef spec3 2))) := by
  show (cfg3.win 3).cut (grid3.coords t) ((dat3 (F := Ideal) V c).after 3 t) = _
  rw [after3_3]
  unfold out3_3
  rw [View.canon_unit_zero Cert.Lib.zeros2]
  simp only [View.ld_unit_zero (S := S5000x128) Cert.Lib.zeros2, View.ld_unit_zero (S := S1x128) Cert.Lib.zeros2]
  funext j
  show k3_pay1 (F := Ideal) (iblk3 V c 0 t) (iblk3 V c 1 t) (iblk3 V c 2 t) j
    = Cert.Spec.affineRelu (V c (Pipeline.arrRef spec3 0)) (V c (Pipeline.arrRef spec3 1)) (V c (Pipeline.arrRef spec3 2))
        (((cfg3.win 3).blk t).view.emb j)
  exact norm3_point (V c (Pipeline.arrRef spec3 0)) (V c (Pipeline.arrRef spec3 1)) (V c (Pipeline.arrRef spec3 2))
    (iblk3 V c 0 t) (iblk3 V c 1 t) (iblk3 V c 2 t) j (((cfg3.win 3).blk t).view.emb j)
    (norm3_blk0 V c t j) (norm3_blk1 V c t) (norm3_blk2 V c t) (norm3_col t j)

/-- An index of the output array is in point t's block iff each coordinate is in the block's range on its axis. -/
theorem norm3_mem_blk (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v123).slice (win3_3.rect t)).set ↔ _
  rw [View.set_slice_whole, Rect.mem_set_unit]
  exact Iff.rfl

/-- Row n of the output array lies in the block of point n / 5000. -/
theorem norm3_cover (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨e0, e1, e2, e3, e4, e5, e6, e7⟩ := norm3_idx t
  refine ⟨t, flush3_3 t, ?_⟩
  rw [norm3_mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

set_option maxHeartbeats 1000000 in
/-- The output array after the region: max (c · sc + sh) 0, entry by entry, of the arrays as the region finds them. -/
theorem norm_arr3 (c : Dev nD) :
    (dat3 (F := Ideal) V c).arrAt 3 cfg3.N
      = Cert.Spec.affineRelu (V c (Pipeline.arrRef spec3 0)) (V c (Pipeline.arrRef spec3 1)) (V c (Pipeline.arrRef spec3 2)) :=
  (dat3 (F := Ideal) V c).arrAt_eq_of_cover 3 _ (fun t _ => norm3_flushed V c t) (fun i => norm3_cover i)

end Cert.KernelIdeal.RegionValue

end
-- ==== Proof.RegionNorm5.lean ====
/-
  The fused normalisation kernel of region 5, read as one function of the three arrays the region finds.

  The region's grid has ten points; point t loads rows 5000·t … 5000·t + 4999 of the array c, and the whole of the
  two rows sc and sh, and stores back rows 5000·t … 5000·t + 4999 of its output. The body's one store is
  max (c · sc + sh) 0 with each row repeated over the 5000 rows of the block. So after the ten write-backs entry
  (n, j) of the output array is max (c(n, j) · sc(0, j) + sh(0, j)) 0:

  * `norm5_pay_apply`: the stored block at entry (p, q);
  * `norm5_point`: hence a block entry is the whole-array function at the array index it is written to, as soon as
    the loaded blocks are the arrays read where the output's rectangle says;
  * `norm5_idx`: the index maps over the grid: the blocked input moves with the output, the rows stay put;
  * `norm5_blk0`, `norm5_blk1`, `norm5_blk2`, `norm5_col`: each loaded block as the array read through the output's
    rectangle, and the column of an output block's entry;
  * `norm5_flushed`: what point t writes back is block t of the whole-array function;
  * `norm5_mem_blk`, `norm5_cover`: row n lies in the block of point n / 5000;
  * `norm_arr5`: the output array after the region.
-/
import proofs.«167957_j84052509983292_1_alg».proof.Proof.Gen.KernelIdeal.Frame
import proofs.«167957_j84052509983292_1_alg».proof.Proof.Gen.ReferenceIdeal
import proofs.«167957_j84052509983292_1_alg».proof.Proof.Spec
import proofs.«167957_j84052509983292_1_alg».proof.Proof.LibWholeStore
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Entry (p, q) of the stored block: max (x0(p, q) · x1(0, q) + x2(0, q)) 0. -/
theorem norm5_pay_apply (x0 : FVec Ideal S5000x128 .f32) (x1 x2 : FVec Ideal S1x128 .f32) (p : Fin 5000) (q : Fin 128) :
    k5_pay1 (F := Ideal) x0 x1 x2 (ix2 p q)
      = max (x0 (ix2 p q) * x1 (ix2 (0 : Fin 1) q) + x2 (ix2 (0 : Fin 1) q)) 0 := by
  unfold k5_pay1
  simp only [shapeCast_self]
  show max (x0 (ix2 p q) * broadcastTo S5000x128 x1 _ (ix2 p q) + broadcastTo S5000x128 x2 _ (ix2 p q))
      (Ideal.ofBits .f32 0x00000000#32) = _
  rw [broadcastTo_1b_ab_apply x1 _ p q, broadcastTo_1b_ab_apply x2 _ p q, Ideal.ofBits_zero_f32]

/-- A block entry j is the whole-array function at the array index i, when the loaded block of c holds at j what c
    holds at i, the loaded rows are the rows, and i and j have the same column. -/
theorem norm5_point (A0 : FVec Ideal S50000x128 .f32) (A1 A2 : FVec Ideal S1x128 .f32)
    (x0 : FVec Ideal S5000x128 .f32) (x1 x2 : FVec Ideal S1x128 .f32) (j : S5000x128.Idx) (i : S50000x128.Idx)
    (h0 : x0 j = A0 i) (h1 : x1 = A1) (h2 : x2 = A2) (hi : (i 1).val = (j 1).val) :
    k5_pay1 (F := Ideal) x0 x1 x2 j = Cert.Spec.affineRelu A0 A1 A2 i := by
  obtain ⟨p, q, rfl⟩ : ∃ (p : Fin 5000) (q : Fin 128), j = ix2 p q := ⟨j 0, j 1, eq_ix2 j⟩
  obtain ⟨n, r, rfl⟩ : ∃ (n : Fin 50000) (r : Fin 128), i = ix2 n r := ⟨i 0, i 1, eq_ix2 i⟩
  have hrq : r = q := Fin.ext hi
  rw [norm5_pay_apply, h0, h1, h2, ← hrq]
  rfl

/-- The index maps over the ten points: window 0 moves with window 3 along the rows and both sit at column block 0;
    windows 1 and 2 stay at block (0, 0); window 3's row block is the point's number. -/
theorem norm5_idx : ∀ t : Fin cfg5.N, win5_0.index t (0 : Fin 2) = win5_3.index t (0 : Fin 2)
    ∧ win5_0.index t (1 : Fin 2) = win5_3.index t (1 : Fin 2)
    ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0 ∧ win5_3.index t (0 : Fin 2) = t.val :=
  (by decide +kernel : ∀ t : Fin grid5.N, _)

set_option maxHeartbeats 1000000 in
/-- The loaded block of c at point t is c read through the output block's rectangle. -/
theorem norm5_blk0 (c : Dev nD) (t : Fin cfg5.N) (j : ((cfg5.win 3).xblock (grid5.coords t)).Idx) :
    iblk5 V c 0 t j = V c (Pipeline.arrRef spec5 0) (((cfg5.win 3).blk t).view.emb j) := by
  obtain ⟨e0, e1, e2, e3, e4, e5, e6, e7⟩ := norm5_idx t
  show V c (Pipeline.arrRef spec5 0) (((cfg5.win 0).blk t).view.emb j)
    = V c (Pipeline.arrRef spec5 0) (((cfg5.win 3).blk t).view.emb j)
  have h : ((cfg5.win 0).blk t).view.emb j = ((cfg5.win 3).blk t).view.emb j := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * (j 1).val = win5_3.index t (1 : Fin 2) * 128 + 1 * (j 1).val; omega
  rw [h]

set_option maxHeartbeats 1000000 in
/-- The loaded row sc at any point is the whole row array. -/
theorem norm5_blk1 (c : Dev nD) (t : Fin cfg5.N) : iblk5 V c 1 t = V c (Pipeline.arrRef spec5 1) := by
  obtain ⟨e0, e1, e2, e3, e4, e5, e6, e7⟩ := norm5_idx t
  funext y
  show V c (Pipeline.arrRef spec5 1) (((cfg5.win 1).blk t).view.emb y) = V c (Pipeline.arrRef spec5 1) y
  have h : ((cfg5.win 1).blk t).view.emb y = y := by
    funext a; apply Fin.ext
    match a with
    | ⟨0, _⟩ => show win5_1.index t (0 : Fin 2) * 1 + 1 * (y 0).val = (y 0).val; omega
    | ⟨1, _⟩ => show win5_1.index t (1 : Fin 2) * 128 + 1 * (y 1).val = (y 1).val; omega
  rw [h]

set_option maxHeartbeats 1000000 in
/-- The loaded row sh at any point is the whole row array. -/
theorem norm5_blk2 (c : Dev nD) (t : Fin cfg5.N) : iblk5 V c 2 t = V c (Pipeline.arrRef spec5 2) := by
  obtain ⟨e0, e1, e2, e3, e4, e5, e6, e7⟩ := norm5_idx t
  funext y
  show V c (Pipeline.arrRef spec5 2) (((cfg5.win 2).blk t).view.emb y) = V c (Pipeline.arrRef spec5 2) y
  have h : ((cfg5.win 2).blk t).view.emb y = y := by
    funext a; apply Fin.ext
    match a with
    | ⟨0, _⟩ => show win5_2.index t (0 : Fin 2) * 1 + 1 * (y 0).val = (y 0).val; omega
    | ⟨1, _⟩ => show win5_2.index t (1 : Fin 2) * 128 + 1 * (y 1).val = (y 1).val; omega
  rw [h]

set_option maxHeartbeats 1000000 in
/-- An entry of the output block sits in the array in its own column. -/
theorem norm5_col (t : Fin cfg5.N) (j : ((cfg5.win 3).xblock (grid5.coords t)).Idx) :
    ((((cfg5.win 3).blk t).view.emb j) 1).val = (j 1).val := by
  obtain ⟨e0, e1, e2, e3, e4, e5, e6, e7⟩ := norm5_idx t
  show win5_3.index t (1 : Fin 2) * 128 + 1 * (j 1).val = (j 1).val
  omega

set_option maxHeartbeats 1000000 in
/-- What point t writes back is block t of max (c · sc + sh) 0 of the arrays as the region finds them. -/
theorem norm5_flushed (c : Dev nD) (t : Fin cfg5.N) :
    (dat5 (F := Ideal) V c).flushed 3 t = ((cfg5.win 3).blk t).view.read (Elt Ideal)
      (Cert.Spec.affineRelu (V c (Pipeline.arrRef spec5 0)) (V c (Pipeline.arrRef spec5 1)) (V c (Pipeline.arrRef spec5 2))) := by
  show (cfg5.win 3).cut (grid5.coords t) ((dat5 (F := Ideal) V c).after 3 t) = _
  rw [after5_3]
  unfold out5_3
  rw [View.canon_unit_zero Cert.Lib.zeros2]
  simp only [View.ld_unit_zero (S := S5000x128) Cert.Lib.zeros2, View.ld_unit_zero (S := S1x128) Cert.Lib.zeros2]
  funext j
  show k5_pay1 (F := Ideal) (iblk5 V c 0 t) (iblk5 V c 1 t) (iblk5 V c 2 t) j
    = Cert.Spec.affineRelu (V c (Pipeline.arrRef spec5 0)) (V c (Pipeline.arrRef spec5 1)) (V c (Pipeline.arrRef spec5 2))
        (((cfg5.win 3).blk t).view.emb j)
  exact norm5_point (V c (Pipeline.arrRef spec5 0)) (V c (Pipeline.arrRef spec5 1)) (V c (Pipeline.arrRef spec5 2))
    (iblk5 V c 0 t) (iblk5 V c 1 t) (iblk5 V c 2 t) j (((cfg5.win 3).blk t).view.emb j)
    (norm5_blk0 V c t j) (norm5_blk1 V c t) (norm5_blk2 V c t) (norm5_col t j)

/-- An index of the output array is in point t's block iff each coordinate is in the block's range on its axis. -/
theorem norm5_mem_blk (t : Fin cfg5.N) (i : S50000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v171).slice (win5_3.rect t)).set ↔ _
  rw [View.set_slice_whole, Rect.mem_set_unit]
  exact Iff.rfl

/-- Row n of the output array lies in the block of point n / 5000. -/
theorem norm5_cover (i : S50000x128.Idx) :
    ∃ t : Fin cfg5.N, (cfg5.win 3).flush t = true ∧ i ∈ ((cfg5.win 3).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨e0, e1, e2, e3, e4, e5, e6, e7⟩ := norm5_idx t
  refine ⟨t, flush5_3 t, ?_⟩
  rw [norm5_mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

set_option maxHeartbeats 1000000 in
/-- The output array after the region: max (c · sc + sh) 0, entry by entry, of the arrays as the region finds them. -/
theorem norm_arr5 (c : Dev nD) :
    (dat5 (F := Ideal) V c).arrAt 3 cfg5.N
      = Cert.Spec.affineRelu (V c (Pipeline.arrRef spec5 0)) (V c (Pipeline.arrRef spec5 1)) (V c (Pipeline.arrRef spec5 2)) :=
  (dat5 (F := Ideal) V c).arrAt_eq_of_cover 3 _ (fun t _ => norm5_flushed V c t) (fun i => norm5_cover i)

end Cert.KernelIdeal.RegionValue

end
-- ==== Proof.RegionNorm7.lean ====
/-
  The fused normalisation kernel of region 7, read as one function of the three arrays the region finds.

  The region's grid has ten points; point t loads rows 5000·t … 5000·t + 4999 of the array c, and the whole of the
  two rows sc and sh, and stores back rows 5000·t … 5000·t + 4999 of its output. The body's one store is
  max (c · sc + sh) 0 with each row repeated over the 5000 rows of the block. So after the ten write-backs entry
  (n, j) of the output array is max (c(n, j) · sc(0, j) + sh(0, j)) 0:

  * `norm7_pay_apply`: the stored block at entry (p, q);
  * `norm7_point`: hence a block entry is the whole-array function at the array index it is written to, as soon as
    the loaded blocks are the arrays read where the output's rectangle says;
  * `norm7_idx`: the index maps over the grid: the blocked input moves with the output, the rows stay put;
  * `norm7_blk0`, `norm7_blk1`, `norm7_blk2`, `norm7_col`: each loaded block as the array read through the output's
    rectangle, and the column of an output block's entry;
  * `norm7_flushed`: what point t writes back is block t of the whole-array function;
  * `norm7_mem_blk`, `norm7_cover`: row n lies in the block of point n / 5000;
  * `norm_arr7`: the output array after the region.
-/
import proofs.«167957_j84052509983292_1_alg».proof.Proof.Gen.KernelIdeal.Frame
import proofs.«167957_j84052509983292_1_alg».proof.Proof.Gen.ReferenceIdeal
import proofs.«167957_j84052509983292_1_alg».proof.Proof.Spec
import proofs.«167957_j84052509983292_1_alg».proof.Proof.LibWholeStore
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- Entry (p, q) of the stored block: max (x0(p, q) · x1(0, q) + x2(0, q)) 0. -/
theorem norm7_pay_apply (x0 : FVec Ideal S5000x128 .f32) (x1 x2 : FVec Ideal S1x128 .f32) (p : Fin 5000) (q : Fin 128) :
    k7_pay1 (F := Ideal) x0 x1 x2 (ix2 p q)
      = max (x0 (ix2 p q) * x1 (ix2 (0 : Fin 1) q) + x2 (ix2 (0 : Fin 1) q)) 0 := by
  unfold k7_pay1
  simp only [shapeCast_self]
  show max (x0 (ix2 p q) * broadcastTo S5000x128 x1 _ (ix2 p q) + broadcastTo S5000x128 x2 _ (ix2 p q))
      (Ideal.ofBits .f32 0x00000000#32) = _
  rw [broadcastTo_1b_ab_apply x1 _ p q, broadcastTo_1b_ab_apply x2 _ p q, Ideal.ofBits_zero_f32]

/-- A block entry j is the whole-array function at the array index i, when the loaded block of c holds at j what c
    holds at i, the loaded rows are the rows, and i and j have the same column. -/
theorem norm7_point (A0 : FVec Ideal S50000x128 .f32) (A1 A2 : FVec Ideal S1x128 .f32)
    (x0 : FVec Ideal S5000x128 .f32) (x1 x2 : FVec Ideal S1x128 .f32) (j : S5000x128.Idx) (i : S50000x128.Idx)
    (h0 : x0 j = A0 i) (h1 : x1 = A1) (h2 : x2 = A2) (hi : (i 1).val = (j 1).val) :
    k7_pay1 (F := Ideal) x0 x1 x2 j = Cert.Spec.affineRelu A0 A1 A2 i := by
  obtain ⟨p, q, rfl⟩ : ∃ (p : Fin 5000) (q : Fin 128), j = ix2 p q := ⟨j 0, j 1, eq_ix2 j⟩
  obtain ⟨n, r, rfl⟩ : ∃ (n : Fin 50000) (r : Fin 128), i = ix2 n r := ⟨i 0, i 1, eq_ix2 i⟩
  have hrq : r = q := Fin.ext hi
  rw [norm7_pay_apply, h0, h1, h2, ← hrq]
  rfl

/-- The index maps over the ten points: window 0 moves with window 3 along the rows and both sit at column block 0;
    windows 1 and 2 stay at block (0, 0); window 3's row block is the point's number. -/
theorem norm7_idx : ∀ t : Fin cfg7.N, win7_0.index t (0 : Fin 2) = win7_3.index t (0 : Fin 2)
    ∧ win7_0.index t (1 : Fin 2) = win7_3.index t (1 : Fin 2)
    ∧ win7_1.index t (0 : Fin 2) = 0 ∧ win7_1.index t (1 : Fin 2) = 0
    ∧ win7_2.index t (0 : Fin 2) = 0 ∧ win7_2.index t (1 : Fin 2) = 0
    ∧ win7_3.index t (1 : Fin 2) = 0 ∧ win7_3.index t (0 : Fin 2) = t.val :=
  (by decide +kernel : ∀ t : Fin grid7.N, _)

set_option maxHeartbeats 1000000 in
/-- The loaded block of c at point t is c read through the output block's rectangle. -/
theorem norm7_blk0 (c : Dev nD) (t : Fin cfg7.N) (j : ((cfg7.win 3).xblock (grid7.coords t)).Idx) :
    iblk7 V c 0 t j = V c (Pipeline.arrRef spec7 0) (((cfg7.win 3).blk t).view.emb j) := by
  obtain ⟨e0, e1, e2, e3, e4, e5, e6, e7⟩ := norm7_idx t
  show V c (Pipeline.arrRef spec7 0) (((cfg7.win 0).blk t).view.emb j)
    = V c (Pipeline.arrRef spec7 0) (((cfg7.win 3).blk t).view.emb j)
  have h : ((cfg7.win 0).blk t).view.emb j = ((cfg7.win 3).blk t).view.emb j := by
    funext a; apply Fin.ext
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 128 + 1 * (j 1).val = win7_3.index t (1 : Fin 2) * 128 + 1 * (j 1).val; omega
  rw [h]

set_option maxHeartbeats 1000000 in
/-- The loaded row sc at any point is the whole row array. -/
theorem norm7_blk1 (c : Dev nD) (t : Fin cfg7.N) : iblk7 V c 1 t = V c (Pipeline.arrRef spec7 1) := by
  obtain ⟨e0, e1, e2, e3, e4, e5, e6, e7⟩ := norm7_idx t
  funext y
  show V c (Pipeline.arrRef spec7 1) (((cfg7.win 1).blk t).view.emb y) = V c (Pipeline.arrRef spec7 1) y
  have h : ((cfg7.win 1).blk t).view.emb y = y := by
    funext a; apply Fin.ext
    match a with
    | ⟨0, _⟩ => show win7_1.index t (0 : Fin 2) * 1 + 1 * (y 0).val = (y 0).val; omega
    | ⟨1, _⟩ => show win7_1.index t (1 : Fin 2) * 128 + 1 * (y 1).val = (y 1).val; omega
  rw [h]

set_option maxHeartbeats 1000000 in
/-- The loaded row sh at any point is the whole row array. -/
theorem norm7_blk2 (c : Dev nD) (t : Fin cfg7.N) : iblk7 V c 2 t = V c (Pipeline.arrRef spec7 2) := by
  obtain ⟨e0, e1, e2, e3, e4, e5, e6, e7⟩ := norm7_idx t
  funext y
  show V c (Pipeline.arrRef spec7 2) (((cfg7.win 2).blk t).view.emb y) = V c (Pipeline.arrRef spec7 2) y
  have h : ((cfg7.win 2).blk t).view.emb y = y := by
    funext a; apply Fin.ext
    match a with
    | ⟨0, _⟩ => show win7_2.index t (0 : Fin 2) * 1 + 1 * (y 0).val = (y 0).val; omega
    | ⟨1, _⟩ => show win7_2.index t (1 : Fin 2) * 128 + 1 * (y 1).val = (y 1).val; omega
  rw [h]

set_option maxHeartbeats 1000000 in
/-- An entry of the output block sits in the array in its own column. -/
theorem norm7_col (t : Fin cfg7.N) (j : ((cfg7.win 3).xblock (grid7.coords t)).Idx) :
    ((((cfg7.win 3).blk t).view.emb j) 1).val = (j 1).val := by
  obtain ⟨e0, e1, e2, e3, e4, e5, e6, e7⟩ := norm7_idx t
  show win7_3.index t (1 : Fin 2) * 128 + 1 * (j 1).val = (j 1).val
  omega

set_option maxHeartbeats 1000000 in
/-- What point t writes back is block t of max (c · sc + sh) 0 of the arrays as the region finds them. -/
theorem norm7_flushed (c : Dev nD) (t : Fin cfg7.N) :
    (dat7 (F := Ideal) V c).flushed 3 t = ((cfg7.win 3).blk t).view.read (Elt Ideal)
      (Cert.Spec.affineRelu (V c (Pipeline.arrRef spec7 0)) (V c (Pipeline.arrRef spec7 1)) (V c (Pipeline.arrRef spec7 2))) := by
  show (cfg7.win 3).cut (grid7.coords t) ((dat7 (F := Ideal) V c).after 3 t) = _
  rw [after7_3]
  unfold out7_3
  rw [View.canon_unit_zero Cert.Lib.zeros2]
  simp only [View.ld_unit_zero (S := S5000x128) Cert.Lib.zeros2, View.ld_unit_zero (S := S1x128) Cert.Lib.zeros2]
  funext j
  show k7_pay1 (F := Ideal) (iblk7 V c 0 t) (iblk7 V c 1 t) (iblk7 V c 2 t) j
    = Cert.Spec.affineRelu (V c (Pipeline.arrRef spec7 0)) (V c (Pipeline.arrRef spec7 1)) (V c (Pipeline.arrRef spec7 2))
        (((cfg7.win 3).blk t).view.emb j)
  exact norm7_point (V c (Pipeline.arrRef spec7 0)) (V c (Pipeline.arrRef spec7 1)) (V c (Pipeline.arrRef spec7 2))
    (iblk7 V c 0 t) (iblk7 V c 1 t) (iblk7 V c 2 t) j (((cfg7.win 3).blk t).view.emb j)
    (norm7_blk0 V c t j) (norm7_blk1 V c t) (norm7_blk2 V c t) (norm7_col t j)

/-- An index of the output array is in point t's block iff each coordinate is in the block's range on its axis. -/
theorem norm7_mem_blk (t : Fin cfg7.N) (i : S50000x128.Idx) :
    i ∈ ((cfg7.win 3).blk t).view.set ↔ ∀ a : Fin 2, win7_3.index t a * S5000x128.size a ≤ (i a).val
      ∧ (i a).val < win7_3.index t a * S5000x128.size a + S5000x128.size a := by
  show i ∈ ((View.whole main_v219).slice (win7_3.rect t)).set ↔ _
  rw [View.set_slice_whole, Rect.mem_set_unit]
  exact Iff.rfl

/-- Row n of the output array lies in the block of point n / 5000. -/
theorem norm7_cover (i : S50000x128.Idx) :
    ∃ t : Fin cfg7.N, (cfg7.win 3).flush t = true ∧ i ∈ ((cfg7.win 3).blk t).view.set := by
  have hi0 : (i 0).val < 50000 := (i 0).isLt
  have hi1 : (i 1).val < 128 := (i 1).isLt
  have hN : cfg7.N = 10 := N_7
  obtain ⟨t, ht⟩ : ∃ t : Fin cfg7.N, t.val = (i 0).val / 5000 := ⟨⟨(i 0).val / 5000, by rw [hN]; omega⟩, rfl⟩
  obtain ⟨e0, e1, e2, e3, e4, e5, e6, e7⟩ := norm7_idx t
  refine ⟨t, flush7_3 t, ?_⟩
  rw [norm7_mem_blk]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 128 ≤ (i 1).val ∧ (i 1).val < win7_3.index t (1 : Fin 2) * 128 + 128; omega

set_option maxHeartbeats 1000000 in
/-- The output array after the region: max (c · sc + sh) 0, entry by entry, of the arrays as the region finds them. -/
theorem norm_arr7 (c : Dev nD) :
    (dat7 (F := Ideal) V c).arrAt 3 cfg7.N
      = Cert.Spec.affineRelu (V c (Pipeline.arrRef spec7 0)) (V c (Pipeline.arrRef spec7 1)) (V c (Pipeline.arrRef spec7 2)) :=
  (dat7 (F := Ideal) V c).arrAt_eq_of_cover 3 _ (fun t _ => norm7_flushed V c t) (fun i => norm7_cover i)

end Cert.KernelIdeal.RegionValue

end
-- ==== Proof.LibIdealLayout.lean ====
/-
  General facts about array operations read at the exact (extended-real) instance, for any shapes.

  * A matrix product accumulated into the zero array is the host's `dot_general` of the same operands: both are, entry by
    entry, the plain sum over the contracted index (there is no rounding and no accumulation order at this instance).
  * One row `v : [b]` spread over all rows of an `[a, b]` array reads, at `(p, c)`, `v c` — in the two spellings programs
    use: a cast to `[1, b]` followed by a vector broadcast, and two `broadcast_in_dim`s (`[b] → [1, b] → [a, b]`).
  * A scalar spread over an array reads the scalar at every index.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.IdealLayout

open Idealize.ShloMosaic Idealize.ShloMosaic.ValueIdx

/-- At the exact instance a `tpu.matmul` into the zero accumulator IS the host's `dot_general` with the same dimension
    numbers: entry `j` of either is `∑ k, lhs (lhsIdx j k) * rhs (rhsIdx j k)`. -/
theorem matmul_zero_eq_dotGeneral {sl sr so : Shape} {φ₁ φ₂ : FTy} (d : DotDims sl sr so) (prec : Option ContractPrecision)
    (l : FVec Ideal sl φ₁) (r : FVec Ideal sr φ₂) :
    matmul d prec l r (constant (F := Ideal) so .f32 0x00000000#32) = Host.dotGeneral d prec l r := by
  funext j
  simp only [matmul, Host.dotGeneral]
  rw [Ideal.matmul_constant_zero_apply, Ideal.dotGeneral_apply]

/-- The same with the operands' float formats free: a matrix product into zeros of one pair of arrays is the host's
    `dot_general` of any pair with the same entries (at the exact instance an entry is an extended real whatever its
    format, so a body's bf16 casts change nothing). -/
theorem matmul_zero_eq_dotGeneral_of_eq {sl sr so : Shape} {φ₁ φ₂ ψ₁ ψ₂ : FTy} (d : DotDims sl sr so) (prec : Option ContractPrecision)
    (l : FVec Ideal sl φ₁) (r : FVec Ideal sr φ₂) (l' : FVec Ideal sl ψ₁) (r' : FVec Ideal sr ψ₂)
    (hl : ∀ i, (l i : EReal) = l' i) (hr : ∀ i, (r i : EReal) = r' i) :
    (matmul d prec l r (constant (F := Ideal) so .f32 0x00000000#32) : so.Idx → EReal) = Host.dotGeneral d prec l' r' := by
  funext j
  simp only [matmul, Host.dotGeneral]
  rw [Ideal.matmul_constant_zero_apply, Ideal.dotGeneral_apply]
  exact Finset.sum_congr rfl fun k _ => by rw [hl, hr]

/-- A row cast `[b] → [1, b]` and broadcast over `a` rows reads the row's entry of the column. -/
theorem broadcastTo_row_apply {α : Type} {a b : ℕ} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- Two `broadcast_in_dim`s, `[b] → [1, b]` along the last axis and `[1, b] → [a, b]`, read the row's entry of the column. -/
theorem broadcastInDim_row_apply {α : Type} {a b : ℕ} (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1])
    (p : Fin a) (c : Fin b) :
    broadcastInDim ⟨2, ![a, b]⟩ ![0, 1] h2 (broadcastInDim ⟨2, ![1, b]⟩ ![1] h1 v) (ix2 p c) = v (ix1 c) := by
  have hc : c.val = if b = 1 then 0 else c.val := by
    split
    · have := c.isLt; omega
    · rfl
  refine (broadcastInDim_apply ![0, 1] h2 _ (ix2 p c) (ix2 (0 : Fin 1) c) (fun ax => ?_)).trans
    (broadcastInDim_apply ![1] h1 v (ix2 (0 : Fin 1) c) (ix1 c) (fun ax => ?_))
  · match ax with
    | ⟨0, _⟩ => show 0 = if (1 : Nat) = 1 then 0 else p.val; rw [if_pos rfl]
    | ⟨1, _⟩ => exact hc
  · match ax with
    | ⟨0, _⟩ => exact hc

/-- A scalar spread over an array by `broadcast_in_dim` reads the scalar everywhere. -/
theorem broadcastInDim_scalar_apply {α : Type} {t : Shape} (dims : Fin 0 → Fin t.rank)
    (h : (⟨0, ![]⟩ : Shape).BroadcastsInDim t dims) (x : (⟨0, ![]⟩ : Shape).Idx → α) (j : t.Idx) :
    broadcastInDim t dims h x j = x (fun a => a.elim0) :=
  broadcastInDim_apply dims h x j (fun a => a.elim0) (fun a => a.elim0)

end Idealize.ShloMosaic.IdealLayout

end
-- ==== Proof.RegionCls8.lean ====
/-
  The classifier kernel of region 8, read as one function of the three arrays the region finds: p · w + b.

  The region's grid has one point, and each of its four windows is its whole array: the point loads the pooled
  features p [512, 128], the weights w [128, 10] and the bias row b [1, 10], and stores back the product of p with w,
  accumulated into zeros, plus the bias row repeated over the 512 rows. So after the one write-back entry (g, j) of
  the output array is the sum over k of p(g, k) · w(k, j), plus b(0, j).

  * `cls8_pay`: the stored block as that function of the loaded blocks;
  * `cls8_point`: hence a block entry is the whole-array function at the same index, the loaded blocks being the arrays;
  * `cls8_idx`: every window sits at block (0, 0); `cls8_blk0` … `cls8_blk2`, `cls8_out`: each block is its array;
  * `cls8_flushed`, `cls8_mem_blk`, `cls8_cover`, `cls_arr8`: the write-back, the cover, the array after the region.
-/
import proofs.«167957_j84052509983292_1_alg».proof.Proof.Gen.KernelIdeal.Frame
import proofs.«167957_j84052509983292_1_alg».proof.Proof.Gen.ReferenceIdeal
import proofs.«167957_j84052509983292_1_alg».proof.Proof.LibWholeStore
import proofs.«167957_j84052509983292_1_alg».proof.Proof.LibIdealLayout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The two programs' dimension numbers for the [512, 128] by [128, 10] product are the same record. -/
theorem cls8_dims : (dot_S512x128_S128x10_S512x10_1_0_0_1_n_n : DotDims S512x128 S128x10 S512x10) = Cert.ReferenceIdeal.dot_S512x128_S128x10_S512x10_1_0_0_1_n_n := rfl

/-- The stored block: the product of the loaded p and w, plus the loaded bias row over all rows. -/
theorem cls8_pay (x0 : FVec Ideal S512x128 .f32) (w : FVec Ideal S128x10 .f32) (b : FVec Ideal S1x10 .f32) :
    k8_pay1 (F := Ideal) x0 w b = addf (Host.dotGeneral (F := Ideal) (φ₁ := .f32) (φ₂ := .f32) Cert.ReferenceIdeal.dot_S512x128_S128x10_S512x10_1_0_0_1_n_n none x0 w)
        (fun i => (b : FVec Ideal S1x10 .f32) (ix2 (0 : Fin 1) (i 1))) := by
  have e1 : matmul dot_S512x128_S128x10_S512x10_1_0_0_1_n_n none x0 w (constant (F := Ideal) S512x10 .f32 0x00000000#32)
      = Host.dotGeneral (F := Ideal) (φ₁ := .f32) (φ₂ := .f32) Cert.ReferenceIdeal.dot_S512x128_S128x10_S512x10_1_0_0_1_n_n none x0 w :=
    (Idealize.ShloMosaic.IdealLayout.matmul_zero_eq_dotGeneral dot_S512x128_S128x10_S512x10_1_0_0_1_n_n none x0 w).trans
      (congrArg (fun d => Host.dotGeneral (F := Ideal) d none x0 w) cls8_dims)
  have e2 : ∀ h, broadcastTo S512x10 b h = fun i => b (ix2 (0 : Fin 1) (i 1)) := fun h => funext fun i => by
    obtain ⟨p, q, rfl⟩ : ∃ (p : Fin 512) (q : Fin 10), i = ix2 p q := ⟨i 0, i 1, eq_ix2 i⟩
    exact broadcastTo_1b_ab_apply b h p q
  unfold k8_pay1
  simp only [shapeCast_self]
  rw [e1, e2]

/-- A block entry j is the whole-array function at the array index i = j, when the loaded blocks are the arrays. -/
theorem cls8_point (A0 : FVec Ideal S512x128 .f32) (A1 : FVec Ideal S128x10 .f32) (A2 : FVec Ideal S1x10 .f32)
    (x0 : FVec Ideal S512x128 .f32) (x1 : FVec Ideal S128x10 .f32) (x2 : FVec Ideal S1x10 .f32) (j i : S512x10.Idx)
    (h0 : x0 = A0) (h1 : x1 = A1) (h2 : x2 = A2) (hij : i = j) :
    k8_pay1 (F := Ideal) x0 x1 x2 j = (addf (Host.dotGeneral (F := Ideal) (φ₁ := .f32) (φ₂ := .f32) Cert.ReferenceIdeal.dot_S512x128_S128x10_S512x10_1_0_0_1_n_n none A0 A1)
        (fun i => (A2 : FVec Ideal S1x10 .f32) (ix2 (0 : Fin 1) (i 1)))) i := by
  rw [cls8_pay, h0, h1, h2, hij]

/-- Every window sits at block (0, 0) at the grid's one point. -/
theorem cls8_idx : ∀ t : Fin cfg8.N, win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0 :=
  (by decide +kernel : ∀ t : Fin grid8.N, _)

set_option maxHeartbeats 1000000 in
/-- The loaded p is the whole array p. -/
theorem cls8_blk0 (c : Dev nD) (t : Fin cfg8.N) : iblk8 V c 0 t = V c (Pipeline.arrRef spec8 0) := by
  obtain ⟨e0, e1, e2, e3, e4, e5, e6, e7⟩ := cls8_idx t
  funext y
  show V c (Pipeline.arrRef spec8 0) (((cfg8.win 0).blk t).view.emb y) = V c (Pipeline.arrRef spec8 0) y
  have h : ((cfg8.win 0).blk t).view.emb y = y := by
    funext a; apply Fin.ext
    match a with
    | ⟨0, _⟩ => show win8_0.index t (0 : Fin 2) * 512 + 1 * (y 0).val = (y 0).val; omega
    | ⟨1, _⟩ => show win8_0.index t (1 : Fin 2) * 128 + 1 * (y 1).val = (y 1).val; omega
  rw [h]

set_option maxHeartbeats 1000000 in
/-- The loaded w is the whole array w. -/
theorem cls8_blk1 (c : Dev nD) (t : Fin cfg8.N) : iblk8 V c 1 t = V c (Pipeline.arrRef spec8 1) := by
  obtain ⟨e0, e1, e2, e3, e4, e5, e6, e7⟩ := cls8_idx t
  funext y
  show V c (Pipeline.arrRef spec8 1) (((cfg8.win 1).blk t).view.emb y) = V c (Pipeline.arrRef spec8 1) y
  have h : ((cfg8.win 1).blk t).view.emb y = y := by
    funext a; apply Fin.ext
    match a with
    | ⟨0, _⟩ => show win8_1.index t (0 : Fin 2) * 128 + 1 * (y 0).val = (y 0).val; omega
    | ⟨1, _⟩ => show win8_1.index t (1 : Fin 2) * 10 + 1 * (y 1).val = (y 1).val; omega
  rw [h]

set_option maxHeartbeats 1000000 in
/-- The loaded bias row is the whole array b. -/
theorem cls8_blk2 (c : Dev nD) (t : Fin cfg8.N) : iblk8 V c 2 t = V c (Pipeline.arrRef spec8 2) := by
  obtain ⟨e0, e1, e2, e3, e4, e5, e6, e7⟩ := cls8_idx t
  funext y
  show V c (Pipeline.arrRef spec8 2) (((cfg8.win 2).blk t).view.emb y) = V c (Pipeline.arrRef spec8 2) y
  have h : ((cfg8.win 2).blk t).view.emb y = y := by
    funext a; apply Fin.ext
    match a with
    | ⟨0, _⟩ => show win8_2.index t (0 : Fin 2) * 1 + 1 * (y 0).val = (y 0).val; omega
    | ⟨1, _⟩ => show win8_2.index t (1 : Fin 2) * 10 + 1 * (y 1).val = (y 1).val; omega
  rw [h]

set_option maxHeartbeats 1000000 in
/-- An entry of the output block sits in the array at the same index. -/
theorem cls8_out (t : Fin cfg8.N) (j : ((cfg8.win 3).xblock (grid8.coords t)).Idx) :
    ((cfg8.win 3).blk t).view.emb j = j := by
  obtain ⟨e0, e1, e2, e3, e4, e5, e6, e7⟩ := cls8_idx t
  funext a; apply Fin.ext
  match a with
  | ⟨0, _⟩ => show win8_3.index t (0 : Fin 2) * 512 + 1 * (j 0).val = (j 0).val; omega
  | ⟨1, _⟩ => show win8_3.index t (1 : Fin 2) * 10 + 1 * (j 1).val = (j 1).val; omega

set_option maxHeartbeats 1000000 in
/-- What the one point writes back is the whole of p · w + b of the arrays as the region finds them. -/
theorem cls8_flushed (c : Dev nD) (t : Fin cfg8.N) :
    (dat8 (F := Ideal) V c).flushed 3 t = ((cfg8.win 3).blk t).view.read (Elt Ideal)
      (addf (Host.dotGeneral (F := Ideal) (φ₁ := .f32) (φ₂ := .f32) Cert.ReferenceIdeal.dot_S512x128_S128x10_S512x10_1_0_0_1_n_n none (V c (Pipeline.arrRef spec8 0) : FVec Ideal S512x128 .f32) (V c (Pipeline.arrRef spec8 1) : FVec Ideal S128x10 .f32))
        (fun i => (V c (Pipeline.arrRef spec8 2) : FVec Ideal S1x10 .f32) (ix2 (0 : Fin 1) (i 1)))) := by
  show (cfg8.win 3).cut (grid8.coords t) ((dat8 (F := Ideal) V c).after 3 t) = _
  rw [after8_3]
  unfold out8_3
  rw [View.canon_unit_zero Cert.Lib.zeros2]
  simp only [View.ld_unit_zero (S := S512x128) Cert.Lib.zeros2, View.ld_unit_zero (S := S128x10) Cert.Lib.zeros2,
    View.ld_unit_zero (S := S1x10) Cert.Lib.zeros2]
  funext j
  show k8_pay1 (F := Ideal) (iblk8 V c 0 t) (iblk8 V c 1 t) (iblk8 V c 2 t) j
    = (addf (Host.dotGeneral (F := Ideal) (φ₁ := .f32) (φ₂ := .f32) Cert.ReferenceIdeal.dot_S512x128_S128x10_S512x10_1_0_0_1_n_n none (V c (Pipeline.arrRef spec8 0) : FVec Ideal S512x128 .f32) (V c (Pipeline.arrRef spec8 1) : FVec Ideal S128x10 .f32))
        (fun i => (V c (Pipeline.arrRef spec8 2) : FVec Ideal S1x10 .f32) (ix2 (0 : Fin 1) (i 1))))
        (((cfg8.win 3).blk t).view.emb j)
  exact cls8_point (V c (Pipeline.arrRef spec8 0)) (V c (Pipeline.arrRef spec8 1)) (V c (Pipeline.arrRef spec8 2))
    (iblk8 V c 0 t) (iblk8 V c 1 t) (iblk8 V c 2 t) j (((cfg8.win 3).blk t).view.emb j)
    (cls8_blk0 V c t) (cls8_blk1 V c t) (cls8_blk2 V c t) (cls8_out t j)

/-- An index of the output array is in the point's block iff each coordinate is in the block's range on its axis. -/
theorem cls8_mem_blk (t : Fin cfg8.N) (i : S512x10.Idx) :
    i ∈ ((cfg8.win 3).blk t).view.set ↔ ∀ a : Fin 2, win8_3.index t a * S512x10.size a ≤ (i a).val
      ∧ (i a).val < win8_3.index t a * S512x10.size a + S512x10.size a := by
  show i ∈ ((View.whole main_v233).slice (win8_3.rect t)).set ↔ _
  rw [View.set_slice_whole, Rect.mem_set_unit]
  exact Iff.rfl

/-- Every index of the output array lies in the one point's block. -/
theorem cls8_cover (i : S512x10.Idx) :
    ∃ t : Fin cfg8.N, (cfg8.win 3).flush t = true ∧ i ∈ ((cfg8.win 3).blk t).view.set := by
  have hi0 : (i 0).val < 512 := (i 0).isLt
  have hi1 : (i 1).val < 10 := (i 1).isLt
  have hN : cfg8.N = 1 := N_8
  obtain ⟨t, ht⟩ : ∃ t : Fin cfg8.N, t.val = 0 := ⟨⟨0, by rw [hN]; omega⟩, rfl⟩
  obtain ⟨e0, e1, e2, e3, e4, e5, e6, e7⟩ := cls8_idx t
  refine ⟨t, flush8_3 t, ?_⟩
  rw [cls8_mem_blk]
  intro a
  match a with
  | ⟨0, _⟩ => show win8_3.index t (0 : Fin 2) * 512 ≤ (i 0).val ∧ (i 0).val < win8_3.index t (0 : Fin 2) * 512 + 512; omega
  | ⟨1, _⟩ => show win8_3.index t (1 : Fin 2) * 10 ≤ (i 1).val ∧ (i 1).val < win8_3.index t (1 : Fin 2) * 10 + 10; omega

set_option maxHeartbeats 1000000 in
/-- The output array after the region: p · w + b of the arrays as the region finds them. -/
theorem cls_arr8 (c : Dev nD) :
    (dat8 (F := Ideal) V c).arrAt 3 cfg8.N
      = addf (Host.dotGeneral (F := Ideal) (φ₁ := .f32) (φ₂ := .f32) Cert.ReferenceIdeal.dot_S512x128_S128x10_S512x10_1_0_0_1_n_n none (V c (Pipeline.arrRef spec8 0) : FVec Ideal S512x128 .f32) (V c (Pipeline.arrRef spec8 1) : FVec Ideal S128x10 .f32))
        (fun i => (V c (Pipeline.arrRef spec8 2) : FVec Ideal S1x10 .f32) (ix2 (0 : Fin 1) (i 1))) :=
  (dat8 (F := Ideal) V c).arrAt_eq_of_cover 3 _ (fun t _ => cls8_flushed V c t) (fun i => cls8_cover i)

end Cert.KernelIdeal.RegionValue

end
-- ==== Proof.KernelChain.lean ====
/-
  The idealized kernel program's buffer contents at the eighteen segment boundaries, read back to the launch memory: a
  host stretch by its stage functions, a region by its whole-array value (the projection x · W, the fused
  normalisation, the classifier), every other live buffer carried through unchanged. One layer is four segments —
  weights' slice, projection region, convolution and statistics, normalisation region — and leaves `kerLayer` of what
  it found; after the last region the returned array holds `kerOut` of the nine argument arrays as launched.
-/
import proofs.«167957_j84052509983292_1_alg».proof.Proof.KernelRun
import proofs.«167957_j84052509983292_1_alg».proof.Proof.KernelHost
import proofs.«167957_j84052509983292_1_alg».proof.Proof.RegionLin0
import proofs.«167957_j84052509983292_1_alg».proof.Proof.RegionLin2
import proofs.«167957_j84052509983292_1_alg».proof.Proof.RegionLin4
import proofs.«167957_j84052509983292_1_alg».proof.Proof.RegionLin6
import proofs.«167957_j84052509983292_1_alg».proof.Proof.RegionNorm1
import proofs.«167957_j84052509983292_1_alg».proof.Proof.RegionNorm3
import proofs.«167957_j84052509983292_1_alg».proof.Proof.RegionNorm5
import proofs.«167957_j84052509983292_1_alg».proof.Proof.RegionNorm7
import proofs.«167957_j84052509983292_1_alg».proof.Proof.RegionCls8

set_option maxRecDepth 16384

noncomputable section

namespace Cert.KernelIdeal.Gen

open Idealize.ShloMosaic Idealize.ShloMosaic.TcCoe Idealize.SL.Sem Cert.Spec Cert.KernelIdeal.HostValue Cert.KernelIdeal.RegionValue

variable (m : (ℓ : Loc nD τ sig) → Buf (Elt Ideal) ℓ) (ρ : Dev nD → PrngReg) (c : Dev nD)

/-! ## Boundary 1: after the first stretch -/
theorem S1_v1 : W1 m ρ c (Proc.devRef .tc main_v1) = srcOf (F := Ideal) (W0 m ρ c (Proc.devRef .tc main_arg7)) := H0_v1 (W0 m ρ c)
theorem S1_v3 : W1 m ρ c (Proc.devRef .tc main_v3) = dstOf (F := Ideal) (W0 m ρ c (Proc.devRef .tc main_arg7)) := H0_v3 (W0 m ρ c)
theorem S1_v26 : W1 m ρ c (Proc.devRef .tc main_v26) = normE (W0 m ρ c (Proc.devRef .tc main_arg7)) := H0_v26 (W0 m ρ c)
theorem S1_v27 : W1 m ρ c (Proc.devRef .tc main_v27) = dinv2E (W0 m ρ c (Proc.devRef .tc main_arg7)) := H0_v27 (W0 m ρ c)
theorem S1_v29 : W1 m ρ c (Proc.devRef .tc main_v29) = wOf0 (F := Ideal) (W0 m ρ c (Proc.devRef .tc main_arg1)) := H0_v29 (W0 m ρ c)
theorem S1_keep_arg0 : W1 m ρ c (Proc.devRef .tc main_arg0) = W0 m ρ c (Proc.devRef .tc main_arg0) := H0_keep_arg0 (W0 m ρ c)
theorem S1_keep_arg1 : W1 m ρ c (Proc.devRef .tc main_arg1) = W0 m ρ c (Proc.devRef .tc main_arg1) := H0_keep_arg1 (W0 m ρ c)
theorem S1_keep_arg2 : W1 m ρ c (Proc.devRef .tc main_arg2) = W0 m ρ c (Proc.devRef .tc main_arg2) := H0_keep_arg2 (W0 m ρ c)
theorem S1_keep_arg3 : W1 m ρ c (Proc.devRef .tc main_arg3) = W0 m ρ c (Proc.devRef .tc main_arg3) := H0_keep_arg3 (W0 m ρ c)
theorem S1_keep_arg4 : W1 m ρ c (Proc.devRef .tc main_arg4) = W0 m ρ c (Proc.devRef .tc main_arg4) := H0_keep_arg4 (W0 m ρ c)
theorem S1_keep_arg5 : W1 m ρ c (Proc.devRef .tc main_arg5) = W0 m ρ c (Proc.devRef .tc main_arg5) := H0_keep_arg5 (W0 m ρ c)
theorem S1_keep_arg6 : W1 m ρ c (Proc.devRef .tc main_arg6) = W0 m ρ c (Proc.devRef .tc main_arg6) := H0_keep_arg6 (W0 m ρ c)
theorem S1_keep_arg8 : W1 m ρ c (Proc.devRef .tc main_arg8) = W0 m ρ c (Proc.devRef .tc main_arg8) := H0_keep_arg8 (W0 m ρ c)

/-! ## Layer 0: boundaries 1 to 4 -/
theorem R0_h : W2 m ρ c (Proc.devRef .tc main_v30) = proj (F := Ideal) (W1 m ρ c (Proc.devRef .tc main_arg0)) (W1 m ρ c (Proc.devRef .tc main_v29)) := (W2_arr m ρ c 2).trans (lin_arr0 (V1 m ρ) c)
theorem R0_keep_v1 : W2 m ρ c (Proc.devRef .tc main_v1) = W1 m ρ c (Proc.devRef .tc main_v1) := W2_of_ne m ρ c main_v1 (by decide)
theorem R0_keep_v3 : W2 m ρ c (Proc.devRef .tc main_v3) = W1 m ρ c (Proc.devRef .tc main_v3) := W2_of_ne m ρ c main_v3 (by decide)
theorem R0_keep_v26 : W2 m ρ c (Proc.devRef .tc main_v26) = W1 m ρ c (Proc.devRef .tc main_v26) := W2_of_ne m ρ c main_v26 (by decide)
theorem R0_keep_v27 : W2 m ρ c (Proc.devRef .tc main_v27) = W1 m ρ c (Proc.devRef .tc main_v27) := W2_of_ne m ρ c main_v27 (by decide)
theorem R0_keep_arg1 : W2 m ρ c (Proc.devRef .tc main_arg1) = W1 m ρ c (Proc.devRef .tc main_arg1) := W2_of_ne m ρ c main_arg1 (by decide)
theorem R0_keep_arg2 : W2 m ρ c (Proc.devRef .tc main_arg2) = W1 m ρ c (Proc.devRef .tc main_arg2) := W2_of_ne m ρ c main_arg2 (by decide)
theorem R0_keep_arg3 : W2 m ρ c (Proc.devRef .tc main_arg3) = W1 m ρ c (Proc.devRef .tc main_arg3) := W2_of_ne m ρ c main_arg3 (by decide)
theorem R0_keep_arg4 : W2 m ρ c (Proc.devRef .tc main_arg4) = W1 m ρ c (Proc.devRef .tc main_arg4) := W2_of_ne m ρ c main_arg4 (by decide)
theorem R0_keep_arg5 : W2 m ρ c (Proc.devRef .tc main_arg5) = W1 m ρ c (Proc.devRef .tc main_arg5) := W2_of_ne m ρ c main_arg5 (by decide)
theorem R0_keep_arg6 : W2 m ρ c (Proc.devRef .tc main_arg6) = W1 m ρ c (Proc.devRef .tc main_arg6) := W2_of_ne m ρ c main_arg6 (by decide)
theorem R0_keep_arg8 : W2 m ρ c (Proc.devRef .tc main_arg8) = W1 m ρ c (Proc.devRef .tc main_arg8) := W2_of_ne m ρ c main_arg8 (by decide)
theorem S3_c : W3 m ρ c (Proc.devRef .tc main_v52) = (comb (F := Ideal) (W2 m ρ c (Proc.devRef .tc main_v30)) (bOf0 (F := Ideal) (W2 m ρ c (Proc.devRef .tc main_arg2))) (W2 m ρ c (Proc.devRef .tc main_v1)) (W2 m ρ c (Proc.devRef .tc main_v3)) (W2 m ρ c (Proc.devRef .tc main_v26)) (W2 m ρ c (Proc.devRef .tc main_v27))) := H1_c (W2 m ρ c)
theorem S3_sc : W3 m ρ c (Proc.devRef .tc main_v73) = scaleRow (gOf0 (F := Ideal) (W2 m ρ c (Proc.devRef .tc main_arg3))) (rOf (F := Ideal) (comb (F := Ideal) (W2 m ρ c (Proc.devRef .tc main_v30)) (bOf0 (F := Ideal) (W2 m ρ c (Proc.devRef .tc main_arg2))) (W2 m ρ c (Proc.devRef .tc main_v1)) (W2 m ρ c (Proc.devRef .tc main_v3)) (W2 m ρ c (Proc.devRef .tc main_v26)) (W2 m ρ c (Proc.devRef .tc main_v27)))) := H1_sc (W2 m ρ c)
theorem S3_sh : W3 m ρ c (Proc.devRef .tc main_v74) = shiftRow (tOf0 (F := Ideal) (W2 m ρ c (Proc.devRef .tc main_arg4))) (meanOf (F := Ideal) (comb (F := Ideal) (W2 m ρ c (Proc.devRef .tc main_v30)) (bOf0 (F := Ideal) (W2 m ρ c (Proc.devRef .tc main_arg2))) (W2 m ρ c (Proc.devRef .tc main_v1)) (W2 m ρ c (Proc.devRef .tc main_v3)) (W2 m ρ c (Proc.devRef .tc main_v26)) (W2 m ρ c (Proc.devRef .tc main_v27)))) (gOf0 (F := Ideal) (W2 m ρ c (Proc.devRef .tc main_arg3))) (rOf (F := Ideal) (comb (F := Ideal) (W2 m ρ c (Proc.devRef .tc main_v30)) (bOf0 (F := Ideal) (W2 m ρ c (Proc.devRef .tc main_arg2))) (W2 m ρ c (Proc.devRef .tc main_v1)) (W2 m ρ c (Proc.devRef .tc main_v3)) (W2 m ρ c (Proc.devRef .tc main_v26)) (W2 m ρ c (Proc.devRef .tc main_v27)))) := H1_sh (W2 m ρ c)
theorem S3_keep_v1 : W3 m ρ c (Proc.devRef .tc main_v1) = W2 m ρ c (Proc.devRef .tc main_v1) := H1_keep_v1 (W2 m ρ c)
theorem S3_keep_v3 : W3 m ρ c (Proc.devRef .tc main_v3) = W2 m ρ c (Proc.devRef .tc main_v3) := H1_keep_v3 (W2 m ρ c)
theorem S3_keep_v26 : W3 m ρ c (Proc.devRef .tc main_v26) = W2 m ρ c (Proc.devRef .tc main_v26) := H1_keep_v26 (W2 m ρ c)
theorem S3_keep_v27 : W3 m ρ c (Proc.devRef .tc main_v27) = W2 m ρ c (Proc.devRef .tc main_v27) := H1_keep_v27 (W2 m ρ c)
theorem S3_keep_arg1 : W3 m ρ c (Proc.devRef .tc main_arg1) = W2 m ρ c (Proc.devRef .tc main_arg1) := H1_keep_arg1 (W2 m ρ c)
theorem S3_keep_arg2 : W3 m ρ c (Proc.devRef .tc main_arg2) = W2 m ρ c (Proc.devRef .tc main_arg2) := H1_keep_arg2 (W2 m ρ c)
theorem S3_keep_arg3 : W3 m ρ c (Proc.devRef .tc main_arg3) = W2 m ρ c (Proc.devRef .tc main_arg3) := H1_keep_arg3 (W2 m ρ c)
theorem S3_keep_arg4 : W3 m ρ c (Proc.devRef .tc main_arg4) = W2 m ρ c (Proc.devRef .tc main_arg4) := H1_keep_arg4 (W2 m ρ c)
theorem S3_keep_arg5 : W3 m ρ c (Proc.devRef .tc main_arg5) = W2 m ρ c (Proc.devRef .tc main_arg5) := H1_keep_arg5 (W2 m ρ c)
theorem S3_keep_arg6 : W3 m ρ c (Proc.devRef .tc main_arg6) = W2 m ρ c (Proc.devRef .tc main_arg6) := H1_keep_arg6 (W2 m ρ c)
theorem S3_keep_arg8 : W3 m ρ c (Proc.devRef .tc main_arg8) = W2 m ρ c (Proc.devRef .tc main_arg8) := H1_keep_arg8 (W2 m ρ c)
theorem R1_x : W4 m ρ c (Proc.devRef .tc main_v75) = affineRelu (W3 m ρ c (Proc.devRef .tc main_v52)) (W3 m ρ c (Proc.devRef .tc main_v73)) (W3 m ρ c (Proc.devRef .tc main_v74)) := (W4_arr m ρ c 3).trans (norm_arr1 (V3 m ρ) c)
theorem R1_keep_v1 : W4 m ρ c (Proc.devRef .tc main_v1) = W3 m ρ c (Proc.devRef .tc main_v1) := W4_of_ne m ρ c main_v1 (by decide)
theorem R1_keep_v3 : W4 m ρ c (Proc.devRef .tc main_v3) = W3 m ρ c (Proc.devRef .tc main_v3) := W4_of_ne m ρ c main_v3 (by decide)
theorem R1_keep_v26 : W4 m ρ c (Proc.devRef .tc main_v26) = W3 m ρ c (Proc.devRef .tc main_v26) := W4_of_ne m ρ c main_v26 (by decide)
theorem R1_keep_v27 : W4 m ρ c (Proc.devRef .tc main_v27) = W3 m ρ c (Proc.devRef .tc main_v27) := W4_of_ne m ρ c main_v27 (by decide)
theorem R1_keep_arg1 : W4 m ρ c (Proc.devRef .tc main_arg1) = W3 m ρ c (Proc.devRef .tc main_arg1) := W4_of_ne m ρ c main_arg1 (by decide)
theorem R1_keep_arg2 : W4 m ρ c (Proc.devRef .tc main_arg2) = W3 m ρ c (Proc.devRef .tc main_arg2) := W4_of_ne m ρ c main_arg2 (by decide)
theorem R1_keep_arg3 : W4 m ρ c (Proc.devRef .tc main_arg3) = W3 m ρ c (Proc.devRef .tc main_arg3) := W4_of_ne m ρ c main_arg3 (by decide)
theorem R1_keep_arg4 : W4 m ρ c (Proc.devRef .tc main_arg4) = W3 m ρ c (Proc.devRef .tc main_arg4) := W4_of_ne m ρ c main_arg4 (by decide)
theorem R1_keep_arg5 : W4 m ρ c (Proc.devRef .tc main_arg5) = W3 m ρ c (Proc.devRef .tc main_arg5) := W4_of_ne m ρ c main_arg5 (by decide)
theorem R1_keep_arg6 : W4 m ρ c (Proc.devRef .tc main_arg6) = W3 m ρ c (Proc.devRef .tc main_arg6) := W4_of_ne m ρ c main_arg6 (by decide)
theorem R1_keep_arg8 : W4 m ρ c (Proc.devRef .tc main_arg8) = W3 m ρ c (Proc.devRef .tc main_arg8) := W4_of_ne m ρ c main_arg8 (by decide)
/-- Layer 0: what the first normalisation region leaves is the kernel's first layer of the launch contents. -/
theorem KL0 : W4 m ρ c (Proc.devRef .tc main_v75) = kerX1 (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg7)) := by
  rw [R1_x, S3_c, S3_sc, S3_sh]
  rw [R0_h, R0_keep_arg2, R0_keep_arg3, R0_keep_arg4, R0_keep_v1, R0_keep_v3, R0_keep_v26, R0_keep_v27]
  rw [S1_v29, S1_keep_arg0, S1_keep_arg2, S1_keep_arg3, S1_keep_arg4, S1_v1, S1_v3, S1_v26, S1_v27]
  rfl
theorem KL0_keep_v1 : W4 m ρ c (Proc.devRef .tc main_v1) = srcOf (F := Ideal) (W0 m ρ c (Proc.devRef .tc main_arg7)) := by rw [R1_keep_v1, S3_keep_v1, R0_keep_v1, S1_v1]
theorem KL0_keep_v3 : W4 m ρ c (Proc.devRef .tc main_v3) = dstOf (F := Ideal) (W0 m ρ c (Proc.devRef .tc main_arg7)) := by rw [R1_keep_v3, S3_keep_v3, R0_keep_v3, S1_v3]
theorem KL0_keep_v26 : W4 m ρ c (Proc.devRef .tc main_v26) = normE (W0 m ρ c (Proc.devRef .tc main_arg7)) := by rw [R1_keep_v26, S3_keep_v26, R0_keep_v26, S1_v26]
theorem KL0_keep_v27 : W4 m ρ c (Proc.devRef .tc main_v27) = dinv2E (W0 m ρ c (Proc.devRef .tc main_arg7)) := by rw [R1_keep_v27, S3_keep_v27, R0_keep_v27, S1_v27]
theorem KL0_keep_arg1 : W4 m ρ c (Proc.devRef .tc main_arg1) = W0 m ρ c (Proc.devRef .tc main_arg1) := by rw [R1_keep_arg1, S3_keep_arg1, R0_keep_arg1, S1_keep_arg1]
theorem KL0_keep_arg2 : W4 m ρ c (Proc.devRef .tc main_arg2) = W0 m ρ c (Proc.devRef .tc main_arg2) := by rw [R1_keep_arg2, S3_keep_arg2, R0_keep_arg2, S1_keep_arg2]
theorem KL0_keep_arg3 : W4 m ρ c (Proc.devRef .tc main_arg3) = W0 m ρ c (Proc.devRef .tc main_arg3) := by rw [R1_keep_arg3, S3_keep_arg3, R0_keep_arg3, S1_keep_arg3]
theorem KL0_keep_arg4 : W4 m ρ c (Proc.devRef .tc main_arg4) = W0 m ρ c (Proc.devRef .tc main_arg4) := by rw [R1_keep_arg4, S3_keep_arg4, R0_keep_arg4, S1_keep_arg4]
theorem KL0_keep_arg5 : W4 m ρ c (Proc.devRef .tc main_arg5) = W0 m ρ c (Proc.devRef .tc main_arg5) := by rw [R1_keep_arg5, S3_keep_arg5, R0_keep_arg5, S1_keep_arg5]
theorem KL0_keep_arg6 : W4 m ρ c (Proc.devRef .tc main_arg6) = W0 m ρ c (Proc.devRef .tc main_arg6) := by rw [R1_keep_arg6, S3_keep_arg6, R0_keep_arg6, S1_keep_arg6]
theorem KL0_keep_arg8 : W4 m ρ c (Proc.devRef .tc main_arg8) = W0 m ρ c (Proc.devRef .tc main_arg8) := by rw [R1_keep_arg8, S3_keep_arg8, R0_keep_arg8, S1_keep_arg8]

/-! ## Layer 1: boundaries 5 to 8 -/
theorem S5_w : W5 m ρ c (Proc.devRef .tc main_v77) = wOf1 (F := Ideal) (W4 m ρ c (Proc.devRef .tc main_arg1)) := H2_w (W4 m ρ c)
theorem S5_keep_v75 : W5 m ρ c (Proc.devRef .tc main_v75) = W4 m ρ c (Proc.devRef .tc main_v75) := H2_keep_v75 (W4 m ρ c)
theorem S5_keep_v1 : W5 m ρ c (Proc.devRef .tc main_v1) = W4 m ρ c (Proc.devRef .tc main_v1) := H2_keep_v1 (W4 m ρ c)
theorem S5_keep_v3 : W5 m ρ c (Proc.devRef .tc main_v3) = W4 m ρ c (Proc.devRef .tc main_v3) := H2_keep_v3 (W4 m ρ c)
theorem S5_keep_v26 : W5 m ρ c (Proc.devRef .tc main_v26) = W4 m ρ c (Proc.devRef .tc main_v26) := H2_keep_v26 (W4 m ρ c)
theorem S5_keep_v27 : W5 m ρ c (Proc.devRef .tc main_v27) = W4 m ρ c (Proc.devRef .tc main_v27) := H2_keep_v27 (W4 m ρ c)
theorem S5_keep_arg1 : W5 m ρ c (Proc.devRef .tc main_arg1) = W4 m ρ c (Proc.devRef .tc main_arg1) := H2_keep_arg1 (W4 m ρ c)
theorem S5_keep_arg2 : W5 m ρ c (Proc.devRef .tc main_arg2) = W4 m ρ c (Proc.devRef .tc main_arg2) := H2_keep_arg2 (W4 m ρ c)
theorem S5_keep_arg3 : W5 m ρ c (Proc.devRef .tc main_arg3) = W4 m ρ c (Proc.devRef .tc main_arg3) := H2_keep_arg3 (W4 m ρ c)
theorem S5_keep_arg4 : W5 m ρ c (Proc.devRef .tc main_arg4) = W4 m ρ c (Proc.devRef .tc main_arg4) := H2_keep_arg4 (W4 m ρ c)
theorem S5_keep_arg5 : W5 m ρ c (Proc.devRef .tc main_arg5) = W4 m ρ c (Proc.devRef .tc main_arg5) := H2_keep_arg5 (W4 m ρ c)
theorem S5_keep_arg6 : W5 m ρ c (Proc.devRef .tc main_arg6) = W4 m ρ c (Proc.devRef .tc main_arg6) := H2_keep_arg6 (W4 m ρ c)
theorem S5_keep_arg8 : W5 m ρ c (Proc.devRef .tc main_arg8) = W4 m ρ c (Proc.devRef .tc main_arg8) := H2_keep_arg8 (W4 m ρ c)
theorem R2_h : W6 m ρ c (Proc.devRef .tc main_v78) = proj (F := Ideal) (W5 m ρ c (Proc.devRef .tc main_v75)) (W5 m ρ c (Proc.devRef .tc main_v77)) := (W6_arr m ρ c 2).trans (lin_arr2 (V5 m ρ) c)
theorem R2_keep_v1 : W6 m ρ c (Proc.devRef .tc main_v1) = W5 m ρ c (Proc.devRef .tc main_v1) := W6_of_ne m ρ c main_v1 (by decide)
theorem R2_keep_v3 : W6 m ρ c (Proc.devRef .tc main_v3) = W5 m ρ c (Proc.devRef .tc main_v3) := W6_of_ne m ρ c main_v3 (by decide)
theorem R2_keep_v26 : W6 m ρ c (Proc.devRef .tc main_v26) = W5 m ρ c (Proc.devRef .tc main_v26) := W6_of_ne m ρ c main_v26 (by decide)
theorem R2_keep_v27 : W6 m ρ c (Proc.devRef .tc main_v27) = W5 m ρ c (Proc.devRef .tc main_v27) := W6_of_ne m ρ c main_v27 (by decide)
theorem R2_keep_arg1 : W6 m ρ c (Proc.devRef .tc main_arg1) = W5 m ρ c (Proc.devRef .tc main_arg1) := W6_of_ne m ρ c main_arg1 (by decide)
theorem R2_keep_arg2 : W6 m ρ c (Proc.devRef .tc main_arg2) = W5 m ρ c (Proc.devRef .tc main_arg2) := W6_of_ne m ρ c main_arg2 (by decide)
theorem R2_keep_arg3 : W6 m ρ c (Proc.devRef .tc main_arg3) = W5 m ρ c (Proc.devRef .tc main_arg3) := W6_of_ne m ρ c main_arg3 (by decide)
theorem R2_keep_arg4 : W6 m ρ c (Proc.devRef .tc main_arg4) = W5 m ρ c (Proc.devRef .tc main_arg4) := W6_of_ne m ρ c main_arg4 (by decide)
theorem R2_keep_arg5 : W6 m ρ c (Proc.devRef .tc main_arg5) = W5 m ρ c (Proc.devRef .tc main_arg5) := W6_of_ne m ρ c main_arg5 (by decide)
theorem R2_keep_arg6 : W6 m ρ c (Proc.devRef .tc main_arg6) = W5 m ρ c (Proc.devRef .tc main_arg6) := W6_of_ne m ρ c main_arg6 (by decide)
theorem R2_keep_arg8 : W6 m ρ c (Proc.devRef .tc main_arg8) = W5 m ρ c (Proc.devRef .tc main_arg8) := W6_of_ne m ρ c main_arg8 (by decide)
theorem S7_c : W7 m ρ c (Proc.devRef .tc main_v100) = (comb (F := Ideal) (W6 m ρ c (Proc.devRef .tc main_v78)) (bOf1 (F := Ideal) (W6 m ρ c (Proc.devRef .tc main_arg2))) (W6 m ρ c (Proc.devRef .tc main_v1)) (W6 m ρ c (Proc.devRef .tc main_v3)) (W6 m ρ c (Proc.devRef .tc main_v26)) (W6 m ρ c (Proc.devRef .tc main_v27))) := H3_c (W6 m ρ c)
theorem S7_sc : W7 m ρ c (Proc.devRef .tc main_v121) = scaleRow (gOf1 (F := Ideal) (W6 m ρ c (Proc.devRef .tc main_arg3))) (rOf (F := Ideal) (comb (F := Ideal) (W6 m ρ c (Proc.devRef .tc main_v78)) (bOf1 (F := Ideal) (W6 m ρ c (Proc.devRef .tc main_arg2))) (W6 m ρ c (Proc.devRef .tc main_v1)) (W6 m ρ c (Proc.devRef .tc main_v3)) (W6 m ρ c (Proc.devRef .tc main_v26)) (W6 m ρ c (Proc.devRef .tc main_v27)))) := H3_sc (W6 m ρ c)
theorem S7_sh : W7 m ρ c (Proc.devRef .tc main_v122) = shiftRow (tOf1 (F := Ideal) (W6 m ρ c (Proc.devRef .tc main_arg4))) (meanOf (F := Ideal) (comb (F := Ideal) (W6 m ρ c (Proc.devRef .tc main_v78)) (bOf1 (F := Ideal) (W6 m ρ c (Proc.devRef .tc main_arg2))) (W6 m ρ c (Proc.devRef .tc main_v1)) (W6 m ρ c (Proc.devRef .tc main_v3)) (W6 m ρ c (Proc.devRef .tc main_v26)) (W6 m ρ c (Proc.devRef .tc main_v27)))) (gOf1 (F := Ideal) (W6 m ρ c (Proc.devRef .tc main_arg3))) (rOf (F := Ideal) (comb (F := Ideal) (W6 m ρ c (Proc.devRef .tc main_v78)) (bOf1 (F := Ideal) (W6 m ρ c (Proc.devRef .tc main_arg2))) (W6 m ρ c (Proc.devRef .tc main_v1)) (W6 m ρ c (Proc.devRef .tc main_v3)) (W6 m ρ c (Proc.devRef .tc main_v26)) (W6 m ρ c (Proc.devRef .tc main_v27)))) := H3_sh (W6 m ρ c)
theorem S7_keep_v1 : W7 m ρ c (Proc.devRef .tc main_v1) = W6 m ρ c (Proc.devRef .tc main_v1) := H3_keep_v1 (W6 m ρ c)
theorem S7_keep_v3 : W7 m ρ c (Proc.devRef .tc main_v3) = W6 m ρ c (Proc.devRef .tc main_v3) := H3_keep_v3 (W6 m ρ c)
theorem S7_keep_v26 : W7 m ρ c (Proc.devRef .tc main_v26) = W6 m ρ c (Proc.devRef .tc main_v26) := H3_keep_v26 (W6 m ρ c)
theorem S7_keep_v27 : W7 m ρ c (Proc.devRef .tc main_v27) = W6 m ρ c (Proc.devRef .tc main_v27) := H3_keep_v27 (W6 m ρ c)
theorem S7_keep_arg1 : W7 m ρ c (Proc.devRef .tc main_arg1) = W6 m ρ c (Proc.devRef .tc main_arg1) := H3_keep_arg1 (W6 m ρ c)
theorem S7_keep_arg2 : W7 m ρ c (Proc.devRef .tc main_arg2) = W6 m ρ c (Proc.devRef .tc main_arg2) := H3_keep_arg2 (W6 m ρ c)
theorem S7_keep_arg3 : W7 m ρ c (Proc.devRef .tc main_arg3) = W6 m ρ c (Proc.devRef .tc main_arg3) := H3_keep_arg3 (W6 m ρ c)
theorem S7_keep_arg4 : W7 m ρ c (Proc.devRef .tc main_arg4) = W6 m ρ c (Proc.devRef .tc main_arg4) := H3_keep_arg4 (W6 m ρ c)
theorem S7_keep_arg5 : W7 m ρ c (Proc.devRef .tc main_arg5) = W6 m ρ c (Proc.devRef .tc main_arg5) := H3_keep_arg5 (W6 m ρ c)
theorem S7_keep_arg6 : W7 m ρ c (Proc.devRef .tc main_arg6) = W6 m ρ c (Proc.devRef .tc main_arg6) := H3_keep_arg6 (W6 m ρ c)
theorem S7_keep_arg8 : W7 m ρ c (Proc.devRef .tc main_arg8) = W6 m ρ c (Proc.devRef .tc main_arg8) := H3_keep_arg8 (W6 m ρ c)
theorem R3_x : W8 m ρ c (Proc.devRef .tc main_v123) = affineRelu (W7 m ρ c (Proc.devRef .tc main_v100)) (W7 m ρ c (Proc.devRef .tc main_v121)) (W7 m ρ c (Proc.devRef .tc main_v122)) := (W8_arr m ρ c 3).trans (norm_arr3 (V7 m ρ) c)
theorem R3_keep_v1 : W8 m ρ c (Proc.devRef .tc main_v1) = W7 m ρ c (Proc.devRef .tc main_v1) := W8_of_ne m ρ c main_v1 (by decide)
theorem R3_keep_v3 : W8 m ρ c (Proc.devRef .tc main_v3) = W7 m ρ c (Proc.devRef .tc main_v3) := W8_of_ne m ρ c main_v3 (by decide)
theorem R3_keep_v26 : W8 m ρ c (Proc.devRef .tc main_v26) = W7 m ρ c (Proc.devRef .tc main_v26) := W8_of_ne m ρ c main_v26 (by decide)
theorem R3_keep_v27 : W8 m ρ c (Proc.devRef .tc main_v27) = W7 m ρ c (Proc.devRef .tc main_v27) := W8_of_ne m ρ c main_v27 (by decide)
theorem R3_keep_arg1 : W8 m ρ c (Proc.devRef .tc main_arg1) = W7 m ρ c (Proc.devRef .tc main_arg1) := W8_of_ne m ρ c main_arg1 (by decide)
theorem R3_keep_arg2 : W8 m ρ c (Proc.devRef .tc main_arg2) = W7 m ρ c (Proc.devRef .tc main_arg2) := W8_of_ne m ρ c main_arg2 (by decide)
theorem R3_keep_arg3 : W8 m ρ c (Proc.devRef .tc main_arg3) = W7 m ρ c (Proc.devRef .tc main_arg3) := W8_of_ne m ρ c main_arg3 (by decide)
theorem R3_keep_arg4 : W8 m ρ c (Proc.devRef .tc main_arg4) = W7 m ρ c (Proc.devRef .tc main_arg4) := W8_of_ne m ρ c main_arg4 (by decide)
theorem R3_keep_arg5 : W8 m ρ c (Proc.devRef .tc main_arg5) = W7 m ρ c (Proc.devRef .tc main_arg5) := W8_of_ne m ρ c main_arg5 (by decide)
theorem R3_keep_arg6 : W8 m ρ c (Proc.devRef .tc main_arg6) = W7 m ρ c (Proc.devRef .tc main_arg6) := W8_of_ne m ρ c main_arg6 (by decide)
theorem R3_keep_arg8 : W8 m ρ c (Proc.devRef .tc main_arg8) = W7 m ρ c (Proc.devRef .tc main_arg8) := W8_of_ne m ρ c main_arg8 (by decide)
/-- Layer 1: what the normalisation region leaves is `kerLayer` of the contents four boundaries earlier. -/
theorem KL1 : W8 m ρ c (Proc.devRef .tc main_v123) = kerLayer (W4 m ρ c (Proc.devRef .tc main_v75)) (wOf1 (F := Ideal) (W4 m ρ c (Proc.devRef .tc main_arg1))) (bOf1 (F := Ideal) (W4 m ρ c (Proc.devRef .tc main_arg2))) (gOf1 (F := Ideal) (W4 m ρ c (Proc.devRef .tc main_arg3))) (tOf1 (F := Ideal) (W4 m ρ c (Proc.devRef .tc main_arg4))) (W4 m ρ c (Proc.devRef .tc main_v1)) (W4 m ρ c (Proc.devRef .tc main_v3)) (W4 m ρ c (Proc.devRef .tc main_v26)) (W4 m ρ c (Proc.devRef .tc main_v27)) := by
  rw [R3_x, S7_c, S7_sc, S7_sh]
  rw [R2_h, R2_keep_arg2, R2_keep_arg3, R2_keep_arg4, R2_keep_v1, R2_keep_v3, R2_keep_v26, R2_keep_v27]
  rw [S5_w, S5_keep_v75, S5_keep_arg2, S5_keep_arg3, S5_keep_arg4, S5_keep_v1, S5_keep_v3, S5_keep_v26, S5_keep_v27]
  rfl
theorem KL1_keep_v1 : W8 m ρ c (Proc.devRef .tc main_v1) = W4 m ρ c (Proc.devRef .tc main_v1) := by rw [R3_keep_v1, S7_keep_v1, R2_keep_v1, S5_keep_v1]
theorem KL1_keep_v3 : W8 m ρ c (Proc.devRef .tc main_v3) = W4 m ρ c (Proc.devRef .tc main_v3) := by rw [R3_keep_v3, S7_keep_v3, R2_keep_v3, S5_keep_v3]
theorem KL1_keep_v26 : W8 m ρ c (Proc.devRef .tc main_v26) = W4 m ρ c (Proc.devRef .tc main_v26) := by rw [R3_keep_v26, S7_keep_v26, R2_keep_v26, S5_keep_v26]
theorem KL1_keep_v27 : W8 m ρ c (Proc.devRef .tc main_v27) = W4 m ρ c (Proc.devRef .tc main_v27) := by rw [R3_keep_v27, S7_keep_v27, R2_keep_v27, S5_keep_v27]
theorem KL1_keep_arg1 : W8 m ρ c (Proc.devRef .tc main_arg1) = W4 m ρ c (Proc.devRef .tc main_arg1) := by rw [R3_keep_arg1, S7_keep_arg1, R2_keep_arg1, S5_keep_arg1]
theorem KL1_keep_arg2 : W8 m ρ c (Proc.devRef .tc main_arg2) = W4 m ρ c (Proc.devRef .tc main_arg2) := by rw [R3_keep_arg2, S7_keep_arg2, R2_keep_arg2, S5_keep_arg2]
theorem KL1_keep_arg3 : W8 m ρ c (Proc.devRef .tc main_arg3) = W4 m ρ c (Proc.devRef .tc main_arg3) := by rw [R3_keep_arg3, S7_keep_arg3, R2_keep_arg3, S5_keep_arg3]
theorem KL1_keep_arg4 : W8 m ρ c (Proc.devRef .tc main_arg4) = W4 m ρ c (Proc.devRef .tc main_arg4) := by rw [R3_keep_arg4, S7_keep_arg4, R2_keep_arg4, S5_keep_arg4]
theorem KL1_keep_arg5 : W8 m ρ c (Proc.devRef .tc main_arg5) = W4 m ρ c (Proc.devRef .tc main_arg5) := by rw [R3_keep_arg5, S7_keep_arg5, R2_keep_arg5, S5_keep_arg5]
theorem KL1_keep_arg6 : W8 m ρ c (Proc.devRef .tc main_arg6) = W4 m ρ c (Proc.devRef .tc main_arg6) := by rw [R3_keep_arg6, S7_keep_arg6, R2_keep_arg6, S5_keep_arg6]
theorem KL1_keep_arg8 : W8 m ρ c (Proc.devRef .tc main_arg8) = W4 m ρ c (Proc.devRef .tc main_arg8) := by rw [R3_keep_arg8, S7_keep_arg8, R2_keep_arg8, S5_keep_arg8]

/-! ## Layer 2: boundaries 9 to 12 -/
theorem S9_w : W9 m ρ c (Proc.devRef .tc main_v125) = wOf2 (F := Ideal) (W8 m ρ c (Proc.devRef .tc main_arg1)) := H4_w (W8 m ρ c)
theorem S9_keep_v123 : W9 m ρ c (Proc.devRef .tc main_v123) = W8 m ρ c (Proc.devRef .tc main_v123) := H4_keep_v123 (W8 m ρ c)
theorem S9_keep_v1 : W9 m ρ c (Proc.devRef .tc main_v1) = W8 m ρ c (Proc.devRef .tc main_v1) := H4_keep_v1 (W8 m ρ c)
theorem S9_keep_v3 : W9 m ρ c (Proc.devRef .tc main_v3) = W8 m ρ c (Proc.devRef .tc main_v3) := H4_keep_v3 (W8 m ρ c)
theorem S9_keep_v26 : W9 m ρ c (Proc.devRef .tc main_v26) = W8 m ρ c (Proc.devRef .tc main_v26) := H4_keep_v26 (W8 m ρ c)
theorem S9_keep_v27 : W9 m ρ c (Proc.devRef .tc main_v27) = W8 m ρ c (Proc.devRef .tc main_v27) := H4_keep_v27 (W8 m ρ c)
theorem S9_keep_arg1 : W9 m ρ c (Proc.devRef .tc main_arg1) = W8 m ρ c (Proc.devRef .tc main_arg1) := H4_keep_arg1 (W8 m ρ c)
theorem S9_keep_arg2 : W9 m ρ c (Proc.devRef .tc main_arg2) = W8 m ρ c (Proc.devRef .tc main_arg2) := H4_keep_arg2 (W8 m ρ c)
theorem S9_keep_arg3 : W9 m ρ c (Proc.devRef .tc main_arg3) = W8 m ρ c (Proc.devRef .tc main_arg3) := H4_keep_arg3 (W8 m ρ c)
theorem S9_keep_arg4 : W9 m ρ c (Proc.devRef .tc main_arg4) = W8 m ρ c (Proc.devRef .tc main_arg4) := H4_keep_arg4 (W8 m ρ c)
theorem S9_keep_arg5 : W9 m ρ c (Proc.devRef .tc main_arg5) = W8 m ρ c (Proc.devRef .tc main_arg5) := H4_keep_arg5 (W8 m ρ c)
theorem S9_keep_arg6 : W9 m ρ c (Proc.devRef .tc main_arg6) = W8 m ρ c (Proc.devRef .tc main_arg6) := H4_keep_arg6 (W8 m ρ c)
theorem S9_keep_arg8 : W9 m ρ c (Proc.devRef .tc main_arg8) = W8 m ρ c (Proc.devRef .tc main_arg8) := H4_keep_arg8 (W8 m ρ c)
theorem R4_h : W10 m ρ c (Proc.devRef .tc main_v126) = proj (F := Ideal) (W9 m ρ c (Proc.devRef .tc main_v123)) (W9 m ρ c (Proc.devRef .tc main_v125)) := (W10_arr m ρ c 2).trans (lin_arr4 (V9 m ρ) c)
theorem R4_keep_v1 : W10 m ρ c (Proc.devRef .tc main_v1) = W9 m ρ c (Proc.devRef .tc main_v1) := W10_of_ne m ρ c main_v1 (by decide)
theorem R4_keep_v3 : W10 m ρ c (Proc.devRef .tc main_v3) = W9 m ρ c (Proc.devRef .tc main_v3) := W10_of_ne m ρ c main_v3 (by decide)
theorem R4_keep_v26 : W10 m ρ c (Proc.devRef .tc main_v26) = W9 m ρ c (Proc.devRef .tc main_v26) := W10_of_ne m ρ c main_v26 (by decide)
theorem R4_keep_v27 : W10 m ρ c (Proc.devRef .tc main_v27) = W9 m ρ c (Proc.devRef .tc main_v27) := W10_of_ne m ρ c main_v27 (by decide)
theorem R4_keep_arg1 : W10 m ρ c (Proc.devRef .tc main_arg1) = W9 m ρ c (Proc.devRef .tc main_arg1) := W10_of_ne m ρ c main_arg1 (by decide)
theorem R4_keep_arg2 : W10 m ρ c (Proc.devRef .tc main_arg2) = W9 m ρ c (Proc.devRef .tc main_arg2) := W10_of_ne m ρ c main_arg2 (by decide)
theorem R4_keep_arg3 : W10 m ρ c (Proc.devRef .tc main_arg3) = W9 m ρ c (Proc.devRef .tc main_arg3) := W10_of_ne m ρ c main_arg3 (by decide)
theorem R4_keep_arg4 : W10 m ρ c (Proc.devRef .tc main_arg4) = W9 m ρ c (Proc.devRef .tc main_arg4) := W10_of_ne m ρ c main_arg4 (by decide)
theorem R4_keep_arg5 : W10 m ρ c (Proc.devRef .tc main_arg5) = W9 m ρ c (Proc.devRef .tc main_arg5) := W10_of_ne m ρ c main_arg5 (by decide)
theorem R4_keep_arg6 : W10 m ρ c (Proc.devRef .tc main_arg6) = W9 m ρ c (Proc.devRef .tc main_arg6) := W10_of_ne m ρ c main_arg6 (by decide)
theorem R4_keep_arg8 : W10 m ρ c (Proc.devRef .tc main_arg8) = W9 m ρ c (Proc.devRef .tc main_arg8) := W10_of_ne m ρ c main_arg8 (by decide)
theorem S11_c : W11 m ρ c (Proc.devRef .tc main_v148) = (comb (F := Ideal) (W10 m ρ c (Proc.devRef .tc main_v126)) (bOf2 (F := Ideal) (W10 m ρ c (Proc.devRef .tc main_arg2))) (W10 m ρ c (Proc.devRef .tc main_v1)) (W10 m ρ c (Proc.devRef .tc main_v3)) (W10 m ρ c (Proc.devRef .tc main_v26)) (W10 m ρ c (Proc.devRef .tc main_v27))) := H5_c (W10 m ρ c)
theorem S11_sc : W11 m ρ c (Proc.devRef .tc main_v169) = scaleRow (gOf2 (F := Ideal) (W10 m ρ c (Proc.devRef .tc main_arg3))) (rOf (F := Ideal) (comb (F := Ideal) (W10 m ρ c (Proc.devRef .tc main_v126)) (bOf2 (F := Ideal) (W10 m ρ c (Proc.devRef .tc main_arg2))) (W10 m ρ c (Proc.devRef .tc main_v1)) (W10 m ρ c (Proc.devRef .tc main_v3)) (W10 m ρ c (Proc.devRef .tc main_v26)) (W10 m ρ c (Proc.devRef .tc main_v27)))) := H5_sc (W10 m ρ c)
theorem S11_sh : W11 m ρ c (Proc.devRef .tc main_v170) = shiftRow (tOf2 (F := Ideal) (W10 m ρ c (Proc.devRef .tc main_arg4))) (meanOf (F := Ideal) (comb (F := Ideal) (W10 m ρ c (Proc.devRef .tc main_v126)) (bOf2 (F := Ideal) (W10 m ρ c (Proc.devRef .tc main_arg2))) (W10 m ρ c (Proc.devRef .tc main_v1)) (W10 m ρ c (Proc.devRef .tc main_v3)) (W10 m ρ c (Proc.devRef .tc main_v26)) (W10 m ρ c (Proc.devRef .tc main_v27)))) (gOf2 (F := Ideal) (W10 m ρ c (Proc.devRef .tc main_arg3))) (rOf (F := Ideal) (comb (F := Ideal) (W10 m ρ c (Proc.devRef .tc main_v126)) (bOf2 (F := Ideal) (W10 m ρ c (Proc.devRef .tc main_arg2))) (W10 m ρ c (Proc.devRef .tc main_v1)) (W10 m ρ c (Proc.devRef .tc main_v3)) (W10 m ρ c (Proc.devRef .tc main_v26)) (W10 m ρ c (Proc.devRef .tc main_v27)))) := H5_sh (W10 m ρ c)
theorem S11_keep_v1 : W11 m ρ c (Proc.devRef .tc main_v1) = W10 m ρ c (Proc.devRef .tc main_v1) := H5_keep_v1 (W10 m ρ c)
theorem S11_keep_v3 : W11 m ρ c (Proc.devRef .tc main_v3) = W10 m ρ c (Proc.devRef .tc main_v3) := H5_keep_v3 (W10 m ρ c)
theorem S11_keep_v26 : W11 m ρ c (Proc.devRef .tc main_v26) = W10 m ρ c (Proc.devRef .tc main_v26) := H5_keep_v26 (W10 m ρ c)
theorem S11_keep_v27 : W11 m ρ c (Proc.devRef .tc main_v27) = W10 m ρ c (Proc.devRef .tc main_v27) := H5_keep_v27 (W10 m ρ c)
theorem S11_keep_arg1 : W11 m ρ c (Proc.devRef .tc main_arg1) = W10 m ρ c (Proc.devRef .tc main_arg1) := H5_keep_arg1 (W10 m ρ c)
theorem S11_keep_arg2 : W11 m ρ c (Proc.devRef .tc main_arg2) = W10 m ρ c (Proc.devRef .tc main_arg2) := H5_keep_arg2 (W10 m ρ c)
theorem S11_keep_arg3 : W11 m ρ c (Proc.devRef .tc main_arg3) = W10 m ρ c (Proc.devRef .tc main_arg3) := H5_keep_arg3 (W10 m ρ c)
theorem S11_keep_arg4 : W11 m ρ c (Proc.devRef .tc main_arg4) = W10 m ρ c (Proc.devRef .tc main_arg4) := H5_keep_arg4 (W10 m ρ c)
theorem S11_keep_arg5 : W11 m ρ c (Proc.devRef .tc main_arg5) = W10 m ρ c (Proc.devRef .tc main_arg5) := H5_keep_arg5 (W10 m ρ c)
theorem S11_keep_arg6 : W11 m ρ c (Proc.devRef .tc main_arg6) = W10 m ρ c (Proc.devRef .tc main_arg6) := H5_keep_arg6 (W10 m ρ c)
theorem S11_keep_arg8 : W11 m ρ c (Proc.devRef .tc main_arg8) = W10 m ρ c (Proc.devRef .tc main_arg8) := H5_keep_arg8 (W10 m ρ c)
theorem R5_x : W12 m ρ c (Proc.devRef .tc main_v171) = affineRelu (W11 m ρ c (Proc.devRef .tc main_v148)) (W11 m ρ c (Proc.devRef .tc main_v169)) (W11 m ρ c (Proc.devRef .tc main_v170)) := (W12_arr m ρ c 3).trans (norm_arr5 (V11 m ρ) c)
theorem R5_keep_v1 : W12 m ρ c (Proc.devRef .tc main_v1) = W11 m ρ c (Proc.devRef .tc main_v1) := W12_of_ne m ρ c main_v1 (by decide)
theorem R5_keep_v3 : W12 m ρ c (Proc.devRef .tc main_v3) = W11 m ρ c (Proc.devRef .tc main_v3) := W12_of_ne m ρ c main_v3 (by decide)
theorem R5_keep_v26 : W12 m ρ c (Proc.devRef .tc main_v26) = W11 m ρ c (Proc.devRef .tc main_v26) := W12_of_ne m ρ c main_v26 (by decide)
theorem R5_keep_v27 : W12 m ρ c (Proc.devRef .tc main_v27) = W11 m ρ c (Proc.devRef .tc main_v27) := W12_of_ne m ρ c main_v27 (by decide)
theorem R5_keep_arg1 : W12 m ρ c (Proc.devRef .tc main_arg1) = W11 m ρ c (Proc.devRef .tc main_arg1) := W12_of_ne m ρ c main_arg1 (by decide)
theorem R5_keep_arg2 : W12 m ρ c (Proc.devRef .tc main_arg2) = W11 m ρ c (Proc.devRef .tc main_arg2) := W12_of_ne m ρ c main_arg2 (by decide)
theorem R5_keep_arg3 : W12 m ρ c (Proc.devRef .tc main_arg3) = W11 m ρ c (Proc.devRef .tc main_arg3) := W12_of_ne m ρ c main_arg3 (by decide)
theorem R5_keep_arg4 : W12 m ρ c (Proc.devRef .tc main_arg4) = W11 m ρ c (Proc.devRef .tc main_arg4) := W12_of_ne m ρ c main_arg4 (by decide)
theorem R5_keep_arg5 : W12 m ρ c (Proc.devRef .tc main_arg5) = W11 m ρ c (Proc.devRef .tc main_arg5) := W12_of_ne m ρ c main_arg5 (by decide)
theorem R5_keep_arg6 : W12 m ρ c (Proc.devRef .tc main_arg6) = W11 m ρ c (Proc.devRef .tc main_arg6) := W12_of_ne m ρ c main_arg6 (by decide)
theorem R5_keep_arg8 : W12 m ρ c (Proc.devRef .tc main_arg8) = W11 m ρ c (Proc.devRef .tc main_arg8) := W12_of_ne m ρ c main_arg8 (by decide)
/-- Layer 2: what the normalisation region leaves is `kerLayer` of the contents four boundaries earlier. -/
theorem KL2 : W12 m ρ c (Proc.devRef .tc main_v171) = kerLayer (W8 m ρ c (Proc.devRef .tc main_v123)) (wOf2 (F := Ideal) (W8 m ρ c (Proc.devRef .tc main_arg1))) (bOf2 (F := Ideal) (W8 m ρ c (Proc.devRef .tc main_arg2))) (gOf2 (F := Ideal) (W8 m ρ c (Proc.devRef .tc main_arg3))) (tOf2 (F := Ideal) (W8 m ρ c (Proc.devRef .tc main_arg4))) (W8 m ρ c (Proc.devRef .tc main_v1)) (W8 m ρ c (Proc.devRef .tc main_v3)) (W8 m ρ c (Proc.devRef .tc main_v26)) (W8 m ρ c (Proc.devRef .tc main_v27)) := by
  rw [R5_x, S11_c, S11_sc, S11_sh]
  rw [R4_h, R4_keep_arg2, R4_keep_arg3, R4_keep_arg4, R4_keep_v1, R4_keep_v3, R4_keep_v26, R4_keep_v27]
  rw [S9_w, S9_keep_v123, S9_keep_arg2, S9_keep_arg3, S9_keep_arg4, S9_keep_v1, S9_keep_v3, S9_keep_v26, S9_keep_v27]
  rfl
theorem KL2_keep_v1 : W12 m ρ c (Proc.devRef .tc main_v1) = W8 m ρ c (Proc.devRef .tc main_v1) := by rw [R5_keep_v1, S11_keep_v1, R4_keep_v1, S9_keep_v1]
theorem KL2_keep_v3 : W12 m ρ c (Proc.devRef .tc main_v3) = W8 m ρ c (Proc.devRef .tc main_v3) := by rw [R5_keep_v3, S11_keep_v3, R4_keep_v3, S9_keep_v3]
theorem KL2_keep_v26 : W12 m ρ c (Proc.devRef .tc main_v26) = W8 m ρ c (Proc.devRef .tc main_v26) := by rw [R5_keep_v26, S11_keep_v26, R4_keep_v26, S9_keep_v26]
theorem KL2_keep_v27 : W12 m ρ c (Proc.devRef .tc main_v27) = W8 m ρ c (Proc.devRef .tc main_v27) := by rw [R5_keep_v27, S11_keep_v27, R4_keep_v27, S9_keep_v27]
theorem KL2_keep_arg1 : W12 m ρ c (Proc.devRef .tc main_arg1) = W8 m ρ c (Proc.devRef .tc main_arg1) := by rw [R5_keep_arg1, S11_keep_arg1, R4_keep_arg1, S9_keep_arg1]
theorem KL2_keep_arg2 : W12 m ρ c (Proc.devRef .tc main_arg2) = W8 m ρ c (Proc.devRef .tc main_arg2) := by rw [R5_keep_arg2, S11_keep_arg2, R4_keep_arg2, S9_keep_arg2]
theorem KL2_keep_arg3 : W12 m ρ c (Proc.devRef .tc main_arg3) = W8 m ρ c (Proc.devRef .tc main_arg3) := by rw [R5_keep_arg3, S11_keep_arg3, R4_keep_arg3, S9_keep_arg3]
theorem KL2_keep_arg4 : W12 m ρ c (Proc.devRef .tc main_arg4) = W8 m ρ c (Proc.devRef .tc main_arg4) := by rw [R5_keep_arg4, S11_keep_arg4, R4_keep_arg4, S9_keep_arg4]
theorem KL2_keep_arg5 : W12 m ρ c (Proc.devRef .tc main_arg5) = W8 m ρ c (Proc.devRef .tc main_arg5) := by rw [R5_keep_arg5, S11_keep_arg5, R4_keep_arg5, S9_keep_arg5]
theorem KL2_keep_arg6 : W12 m ρ c (Proc.devRef .tc main_arg6) = W8 m ρ c (Proc.devRef .tc main_arg6) := by rw [R5_keep_arg6, S11_keep_arg6, R4_keep_arg6, S9_keep_arg6]
theorem KL2_keep_arg8 : W12 m ρ c (Proc.devRef .tc main_arg8) = W8 m ρ c (Proc.devRef .tc main_arg8) := by rw [R5_keep_arg8, S11_keep_arg8, R4_keep_arg8, S9_keep_arg8]

/-! ## Layer 3: boundaries 13 to 16 -/
theorem S13_w : W13 m ρ c (Proc.devRef .tc main_v173) = wOf3 (F := Ideal) (W12 m ρ c (Proc.devRef .tc main_arg1)) := H6_w (W12 m ρ c)
theorem S13_keep_v171 : W13 m ρ c (Proc.devRef .tc main_v171) = W12 m ρ c (Proc.devRef .tc main_v171) := H6_keep_v171 (W12 m ρ c)
theorem S13_keep_v1 : W13 m ρ c (Proc.devRef .tc main_v1) = W12 m ρ c (Proc.devRef .tc main_v1) := H6_keep_v1 (W12 m ρ c)
theorem S13_keep_v3 : W13 m ρ c (Proc.devRef .tc main_v3) = W12 m ρ c (Proc.devRef .tc main_v3) := H6_keep_v3 (W12 m ρ c)
theorem S13_keep_v26 : W13 m ρ c (Proc.devRef .tc main_v26) = W12 m ρ c (Proc.devRef .tc main_v26) := H6_keep_v26 (W12 m ρ c)
theorem S13_keep_v27 : W13 m ρ c (Proc.devRef .tc main_v27) = W12 m ρ c (Proc.devRef .tc main_v27) := H6_keep_v27 (W12 m ρ c)
theorem S13_keep_arg1 : W13 m ρ c (Proc.devRef .tc main_arg1) = W12 m ρ c (Proc.devRef .tc main_arg1) := H6_keep_arg1 (W12 m ρ c)
theorem S13_keep_arg2 : W13 m ρ c (Proc.devRef .tc main_arg2) = W12 m ρ c (Proc.devRef .tc main_arg2) := H6_keep_arg2 (W12 m ρ c)
theorem S13_keep_arg3 : W13 m ρ c (Proc.devRef .tc main_arg3) = W12 m ρ c (Proc.devRef .tc main_arg3) := H6_keep_arg3 (W12 m ρ c)
theorem S13_keep_arg4 : W13 m ρ c (Proc.devRef .tc main_arg4) = W12 m ρ c (Proc.devRef .tc main_arg4) := H6_keep_arg4 (W12 m ρ c)
theorem S13_keep_arg5 : W13 m ρ c (Proc.devRef .tc main_arg5) = W12 m ρ c (Proc.devRef .tc main_arg5) := H6_keep_arg5 (W12 m ρ c)
theorem S13_keep_arg6 : W13 m ρ c (Proc.devRef .tc main_arg6) = W12 m ρ c (Proc.devRef .tc main_arg6) := H6_keep_arg6 (W12 m ρ c)
theorem S13_keep_arg8 : W13 m ρ c (Proc.devRef .tc main_arg8) = W12 m ρ c (Proc.devRef .tc main_arg8) := H6_keep_arg8 (W12 m ρ c)
theorem R6_h : W14 m ρ c (Proc.devRef .tc main_v174) = proj (F := Ideal) (W13 m ρ c (Proc.devRef .tc main_v171)) (W13 m ρ c (Proc.devRef .tc main_v173)) := (W14_arr m ρ c 2).trans (lin_arr6 (V13 m ρ) c)
theorem R6_keep_v1 : W14 m ρ c (Proc.devRef .tc main_v1) = W13 m ρ c (Proc.devRef .tc main_v1) := W14_of_ne m ρ c main_v1 (by decide)
theorem R6_keep_v3 : W14 m ρ c (Proc.devRef .tc main_v3) = W13 m ρ c (Proc.devRef .tc main_v3) := W14_of_ne m ρ c main_v3 (by decide)
theorem R6_keep_v26 : W14 m ρ c (Proc.devRef .tc main_v26) = W13 m ρ c (Proc.devRef .tc main_v26) := W14_of_ne m ρ c main_v26 (by decide)
theorem R6_keep_v27 : W14 m ρ c (Proc.devRef .tc main_v27) = W13 m ρ c (Proc.devRef .tc main_v27) := W14_of_ne m ρ c main_v27 (by decide)
theorem R6_keep_arg1 : W14 m ρ c (Proc.devRef .tc main_arg1) = W13 m ρ c (Proc.devRef .tc main_arg1) := W14_of_ne m ρ c main_arg1 (by decide)
theorem R6_keep_arg2 : W14 m ρ c (Proc.devRef .tc main_arg2) = W13 m ρ c (Proc.devRef .tc main_arg2) := W14_of_ne m ρ c main_arg2 (by decide)
theorem R6_keep_arg3 : W14 m ρ c (Proc.devRef .tc main_arg3) = W13 m ρ c (Proc.devRef .tc main_arg3) := W14_of_ne m ρ c main_arg3 (by decide)
theorem R6_keep_arg4 : W14 m ρ c (Proc.devRef .tc main_arg4) = W13 m ρ c (Proc.devRef .tc main_arg4) := W14_of_ne m ρ c main_arg4 (by decide)
theorem R6_keep_arg5 : W14 m ρ c (Proc.devRef .tc main_arg5) = W13 m ρ c (Proc.devRef .tc main_arg5) := W14_of_ne m ρ c main_arg5 (by decide)
theorem R6_keep_arg6 : W14 m ρ c (Proc.devRef .tc main_arg6) = W13 m ρ c (Proc.devRef .tc main_arg6) := W14_of_ne m ρ c main_arg6 (by decide)
theorem R6_keep_arg8 : W14 m ρ c (Proc.devRef .tc main_arg8) = W13 m ρ c (Proc.devRef .tc main_arg8) := W14_of_ne m ρ c main_arg8 (by decide)
theorem S15_c : W15 m ρ c (Proc.devRef .tc main_v196) = (comb (F := Ideal) (W14 m ρ c (Proc.devRef .tc main_v174)) (bOf3 (F := Ideal) (W14 m ρ c (Proc.devRef .tc main_arg2))) (W14 m ρ c (Proc.devRef .tc main_v1)) (W14 m ρ c (Proc.devRef .tc main_v3)) (W14 m ρ c (Proc.devRef .tc main_v26)) (W14 m ρ c (Proc.devRef .tc main_v27))) := H7_c (W14 m ρ c)
theorem S15_sc : W15 m ρ c (Proc.devRef .tc main_v217) = scaleRow (gOf3 (F := Ideal) (W14 m ρ c (Proc.devRef .tc main_arg3))) (rOf (F := Ideal) (comb (F := Ideal) (W14 m ρ c (Proc.devRef .tc main_v174)) (bOf3 (F := Ideal) (W14 m ρ c (Proc.devRef .tc main_arg2))) (W14 m ρ c (Proc.devRef .tc main_v1)) (W14 m ρ c (Proc.devRef .tc main_v3)) (W14 m ρ c (Proc.devRef .tc main_v26)) (W14 m ρ c (Proc.devRef .tc main_v27)))) := H7_sc (W14 m ρ c)
theorem S15_sh : W15 m ρ c (Proc.devRef .tc main_v218) = shiftRow (tOf3 (F := Ideal) (W14 m ρ c (Proc.devRef .tc main_arg4))) (meanOf (F := Ideal) (comb (F := Ideal) (W14 m ρ c (Proc.devRef .tc main_v174)) (bOf3 (F := Ideal) (W14 m ρ c (Proc.devRef .tc main_arg2))) (W14 m ρ c (Proc.devRef .tc main_v1)) (W14 m ρ c (Proc.devRef .tc main_v3)) (W14 m ρ c (Proc.devRef .tc main_v26)) (W14 m ρ c (Proc.devRef .tc main_v27)))) (gOf3 (F := Ideal) (W14 m ρ c (Proc.devRef .tc main_arg3))) (rOf (F := Ideal) (comb (F := Ideal) (W14 m ρ c (Proc.devRef .tc main_v174)) (bOf3 (F := Ideal) (W14 m ρ c (Proc.devRef .tc main_arg2))) (W14 m ρ c (Proc.devRef .tc main_v1)) (W14 m ρ c (Proc.devRef .tc main_v3)) (W14 m ρ c (Proc.devRef .tc main_v26)) (W14 m ρ c (Proc.devRef .tc main_v27)))) := H7_sh (W14 m ρ c)
theorem S15_keep_v1 : W15 m ρ c (Proc.devRef .tc main_v1) = W14 m ρ c (Proc.devRef .tc main_v1) := H7_keep_v1 (W14 m ρ c)
theorem S15_keep_v3 : W15 m ρ c (Proc.devRef .tc main_v3) = W14 m ρ c (Proc.devRef .tc main_v3) := H7_keep_v3 (W14 m ρ c)
theorem S15_keep_v26 : W15 m ρ c (Proc.devRef .tc main_v26) = W14 m ρ c (Proc.devRef .tc main_v26) := H7_keep_v26 (W14 m ρ c)
theorem S15_keep_v27 : W15 m ρ c (Proc.devRef .tc main_v27) = W14 m ρ c (Proc.devRef .tc main_v27) := H7_keep_v27 (W14 m ρ c)
theorem S15_keep_arg1 : W15 m ρ c (Proc.devRef .tc main_arg1) = W14 m ρ c (Proc.devRef .tc main_arg1) := H7_keep_arg1 (W14 m ρ c)
theorem S15_keep_arg2 : W15 m ρ c (Proc.devRef .tc main_arg2) = W14 m ρ c (Proc.devRef .tc main_arg2) := H7_keep_arg2 (W14 m ρ c)
theorem S15_keep_arg3 : W15 m ρ c (Proc.devRef .tc main_arg3) = W14 m ρ c (Proc.devRef .tc main_arg3) := H7_keep_arg3 (W14 m ρ c)
theorem S15_keep_arg4 : W15 m ρ c (Proc.devRef .tc main_arg4) = W14 m ρ c (Proc.devRef .tc main_arg4) := H7_keep_arg4 (W14 m ρ c)
theorem S15_keep_arg5 : W15 m ρ c (Proc.devRef .tc main_arg5) = W14 m ρ c (Proc.devRef .tc main_arg5) := H7_keep_arg5 (W14 m ρ c)
theorem S15_keep_arg6 : W15 m ρ c (Proc.devRef .tc main_arg6) = W14 m ρ c (Proc.devRef .tc main_arg6) := H7_keep_arg6 (W14 m ρ c)
theorem S15_keep_arg8 : W15 m ρ c (Proc.devRef .tc main_arg8) = W14 m ρ c (Proc.devRef .tc main_arg8) := H7_keep_arg8 (W14 m ρ c)
theorem R7_x : W16 m ρ c (Proc.devRef .tc main_v219) = affineRelu (W15 m ρ c (Proc.devRef .tc main_v196)) (W15 m ρ c (Proc.devRef .tc main_v217)) (W15 m ρ c (Proc.devRef .tc main_v218)) := (W16_arr m ρ c 3).trans (norm_arr7 (V15 m ρ) c)
theorem R7_keep_v1 : W16 m ρ c (Proc.devRef .tc main_v1) = W15 m ρ c (Proc.devRef .tc main_v1) := W16_of_ne m ρ c main_v1 (by decide)
theorem R7_keep_v3 : W16 m ρ c (Proc.devRef .tc main_v3) = W15 m ρ c (Proc.devRef .tc main_v3) := W16_of_ne m ρ c main_v3 (by decide)
theorem R7_keep_v26 : W16 m ρ c (Proc.devRef .tc main_v26) = W15 m ρ c (Proc.devRef .tc main_v26) := W16_of_ne m ρ c main_v26 (by decide)
theorem R7_keep_v27 : W16 m ρ c (Proc.devRef .tc main_v27) = W15 m ρ c (Proc.devRef .tc main_v27) := W16_of_ne m ρ c main_v27 (by decide)
theorem R7_keep_arg1 : W16 m ρ c (Proc.devRef .tc main_arg1) = W15 m ρ c (Proc.devRef .tc main_arg1) := W16_of_ne m ρ c main_arg1 (by decide)
theorem R7_keep_arg2 : W16 m ρ c (Proc.devRef .tc main_arg2) = W15 m ρ c (Proc.devRef .tc main_arg2) := W16_of_ne m ρ c main_arg2 (by decide)
theorem R7_keep_arg3 : W16 m ρ c (Proc.devRef .tc main_arg3) = W15 m ρ c (Proc.devRef .tc main_arg3) := W16_of_ne m ρ c main_arg3 (by decide)
theorem R7_keep_arg4 : W16 m ρ c (Proc.devRef .tc main_arg4) = W15 m ρ c (Proc.devRef .tc main_arg4) := W16_of_ne m ρ c main_arg4 (by decide)
theorem R7_keep_arg5 : W16 m ρ c (Proc.devRef .tc main_arg5) = W15 m ρ c (Proc.devRef .tc main_arg5) := W16_of_ne m ρ c main_arg5 (by decide)
theorem R7_keep_arg6 : W16 m ρ c (Proc.devRef .tc main_arg6) = W15 m ρ c (Proc.devRef .tc main_arg6) := W16_of_ne m ρ c main_arg6 (by decide)
theorem R7_keep_arg8 : W16 m ρ c (Proc.devRef .tc main_arg8) = W15 m ρ c (Proc.devRef .tc main_arg8) := W16_of_ne m ρ c main_arg8 (by decide)
/-- Layer 3: what the normalisation region leaves is `kerLayer` of the contents four boundaries earlier. -/
theorem KL3 : W16 m ρ c (Proc.devRef .tc main_v219) = kerLayer (W12 m ρ c (Proc.devRef .tc main_v171)) (wOf3 (F := Ideal) (W12 m ρ c (Proc.devRef .tc main_arg1))) (bOf3 (F := Ideal) (W12 m ρ c (Proc.devRef .tc main_arg2))) (gOf3 (F := Ideal) (W12 m ρ c (Proc.devRef .tc main_arg3))) (tOf3 (F := Ideal) (W12 m ρ c (Proc.devRef .tc main_arg4))) (W12 m ρ c (Proc.devRef .tc main_v1)) (W12 m ρ c (Proc.devRef .tc main_v3)) (W12 m ρ c (Proc.devRef .tc main_v26)) (W12 m ρ c (Proc.devRef .tc main_v27)) := by
  rw [R7_x, S15_c, S15_sc, S15_sh]
  rw [R6_h, R6_keep_arg2, R6_keep_arg3, R6_keep_arg4, R6_keep_v1, R6_keep_v3, R6_keep_v26, R6_keep_v27]
  rw [S13_w, S13_keep_v171, S13_keep_arg2, S13_keep_arg3, S13_keep_arg4, S13_keep_v1, S13_keep_v3, S13_keep_v26, S13_keep_v27]
  rfl
theorem KL3_keep_v1 : W16 m ρ c (Proc.devRef .tc main_v1) = W12 m ρ c (Proc.devRef .tc main_v1) := by rw [R7_keep_v1, S15_keep_v1, R6_keep_v1, S13_keep_v1]
theorem KL3_keep_v3 : W16 m ρ c (Proc.devRef .tc main_v3) = W12 m ρ c (Proc.devRef .tc main_v3) := by rw [R7_keep_v3, S15_keep_v3, R6_keep_v3, S13_keep_v3]
theorem KL3_keep_v26 : W16 m ρ c (Proc.devRef .tc main_v26) = W12 m ρ c (Proc.devRef .tc main_v26) := by rw [R7_keep_v26, S15_keep_v26, R6_keep_v26, S13_keep_v26]
theorem KL3_keep_v27 : W16 m ρ c (Proc.devRef .tc main_v27) = W12 m ρ c (Proc.devRef .tc main_v27) := by rw [R7_keep_v27, S15_keep_v27, R6_keep_v27, S13_keep_v27]
theorem KL3_keep_arg1 : W16 m ρ c (Proc.devRef .tc main_arg1) = W12 m ρ c (Proc.devRef .tc main_arg1) := by rw [R7_keep_arg1, S15_keep_arg1, R6_keep_arg1, S13_keep_arg1]
theorem KL3_keep_arg2 : W16 m ρ c (Proc.devRef .tc main_arg2) = W12 m ρ c (Proc.devRef .tc main_arg2) := by rw [R7_keep_arg2, S15_keep_arg2, R6_keep_arg2, S13_keep_arg2]
theorem KL3_keep_arg3 : W16 m ρ c (Proc.devRef .tc main_arg3) = W12 m ρ c (Proc.devRef .tc main_arg3) := by rw [R7_keep_arg3, S15_keep_arg3, R6_keep_arg3, S13_keep_arg3]
theorem KL3_keep_arg4 : W16 m ρ c (Proc.devRef .tc main_arg4) = W12 m ρ c (Proc.devRef .tc main_arg4) := by rw [R7_keep_arg4, S15_keep_arg4, R6_keep_arg4, S13_keep_arg4]
theorem KL3_keep_arg5 : W16 m ρ c (Proc.devRef .tc main_arg5) = W12 m ρ c (Proc.devRef .tc main_arg5) := by rw [R7_keep_arg5, S15_keep_arg5, R6_keep_arg5, S13_keep_arg5]
theorem KL3_keep_arg6 : W16 m ρ c (Proc.devRef .tc main_arg6) = W12 m ρ c (Proc.devRef .tc main_arg6) := by rw [R7_keep_arg6, S15_keep_arg6, R6_keep_arg6, S13_keep_arg6]
theorem KL3_keep_arg8 : W16 m ρ c (Proc.devRef .tc main_arg8) = W12 m ρ c (Proc.devRef .tc main_arg8) := by rw [R7_keep_arg8, S15_keep_arg8, R6_keep_arg8, S13_keep_arg8]

/-! ## The tail: pooling, the classifier region, and the whole program -/
theorem S17_p : W17 m ρ c (Proc.devRef .tc main_v231) = poolOf (F := Ideal) (W16 m ρ c (Proc.devRef .tc main_v219)) (W16 m ρ c (Proc.devRef .tc main_arg8)) := H8_p (W16 m ρ c)
theorem S17_b : W17 m ρ c (Proc.devRef .tc main_v232) = (shapeCast Cert.KernelIdeal.S1x10 (W16 m ρ c (Proc.devRef .tc main_arg6) : FVec Ideal Cert.KernelIdeal.S10 .f32) Cert.KernelIdeal.Facts₀.shapeCasts_S10_S1x10 : FVec Ideal Cert.KernelIdeal.S1x10 .f32) := H8_b (W16 m ρ c)
theorem S17_keep_arg5 : W17 m ρ c (Proc.devRef .tc main_arg5) = W16 m ρ c (Proc.devRef .tc main_arg5) := H8_keep_arg5 (W16 m ρ c)
theorem R8_out : W18 m ρ c (Proc.devRef .tc main_v233) = clsKer (W17 m ρ c (Proc.devRef .tc main_v231)) (W17 m ρ c (Proc.devRef .tc main_arg5)) (W17 m ρ c (Proc.devRef .tc main_v232)) := (W18_arr m ρ c 3).trans (cls_arr8 (V17 m ρ) c)

/-- The returned array at the last boundary is `kerOut` of the launch contents of the nine arguments. -/
theorem ker_value : W18 m ρ c (Proc.devRef .tc main_v233) = kerOut (W0 m ρ c (Proc.devRef .tc main_arg0)) (W0 m ρ c (Proc.devRef .tc main_arg1)) (W0 m ρ c (Proc.devRef .tc main_arg2)) (W0 m ρ c (Proc.devRef .tc main_arg3)) (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) := by
  rw [R8_out, S17_p, S17_b, S17_keep_arg5]
  rw [KL3, KL3_keep_arg8, KL3_keep_arg5, KL3_keep_arg6]
  rw [KL2, KL2_keep_arg1, KL2_keep_arg2, KL2_keep_arg3, KL2_keep_arg4, KL2_keep_v1, KL2_keep_v3, KL2_keep_v26, KL2_keep_v27, KL2_keep_arg5, KL2_keep_arg6, KL2_keep_arg8]
  rw [KL1, KL1_keep_arg1, KL1_keep_arg2, KL1_keep_arg3, KL1_keep_arg4, KL1_keep_v1, KL1_keep_v3, KL1_keep_v26, KL1_keep_v27, KL1_keep_arg5, KL1_keep_arg6, KL1_keep_arg8]
  rw [KL0, KL0_keep_arg1, KL0_keep_arg2, KL0_keep_arg3, KL0_keep_arg4, KL0_keep_v1, KL0_keep_v3, KL0_keep_v26, KL0_keep_v27, KL0_keep_arg5, KL0_keep_arg6, KL0_keep_arg8]
  rfl

end Cert.KernelIdeal.Gen

end
-- ==== Proof.RefFold.lean ====
/-
  The reference program's run as a FOLD: @main is a straight line of 319 host operations, so every weakly fair execution
  terminates with each buffer at the fold of the operations' results over the launch contents. The line is cut here into
  ten consecutive pieces — a prelude, two pieces per layer, a tail — and the fold over the whole line is the folds over
  the pieces, one after the other; each piece is read on its own, from whatever contents it starts at.
-/
import proofs.«167957_j84052509983292_1_alg».proof.Proof.Gen.ReferenceIdeal
import Idealize.ShloMosaic.Lib.StableHlo.Run

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

/-- @main's 319 operations, in order (the rectifier's three operations stand at each of its four calls). -/
abbrev ops : List (HloOp τ sig (Elt F)) :=
  [ unary main_arg7 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg7 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    nullary main_cst_2 (constant S_ .f32 0xBF000000#32),
    unary main_cst_2 main_v10 (broadcastInDim S50000 ![] bcast_S_S50000 : (⟨S_, .f32⟩ : BufTy).Contents (Elt F) → (⟨S50000, .f32⟩ : BufTy).Contents (Elt F)),
    binary main_v9 main_v10 main_v11 (Host.powf : (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v11 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_4 (constantI S_ 32 0#32),
    unary main_c_4 main_v19 (broadcastInDim S800000 ![] bcast_S_S800000 : (⟨S_, .i32⟩ : BufTy).Contents (Elt F) → (⟨S800000, .i32⟩ : BufTy).Contents (Elt F)),
    binary main_v3 main_v19 main_v20 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v21 (broadcastInDim S800000 ![] bcast_S_S800000 : (⟨S_, .i32⟩ : BufTy).Contents (Elt F) → (⟨S800000, .i32⟩ : BufTy).Contents (Elt F)),
    binary main_v3 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v11 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v18 main_v25 main_v26 (mulf : (⟨S800000, .f32⟩ : BufTy).Contents (Elt F) → (⟨S800000, .f32⟩ : BufTy).Contents (Elt F) → (⟨S800000, .f32⟩ : BufTy).Contents (Elt F)),
    unary main_arg1 main_v27 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v27 main_v28 rfl shapeCasts_S1x128x128_S128x128,
    unary main_arg2 main_v29 ((extractStridedSlice S1x128 ![0, 0] · slices_S4x128_S1x128_0_0) : (⟨S4x128, .f32⟩ : BufTy).Contents (Elt F) → (⟨S1x128, .f32⟩ : BufTy).Contents (Elt F)),
    reshape main_v29 main_v30 rfl shapeCasts_S1x128_S128,
    binary main_arg0 main_v28 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v26 main_v39 (broadcastInDim S800000x1 ![0] bcast_S800000_S800000x1_0 : (⟨S800000, .f32⟩ : BufTy).Contents (Elt F) → (⟨S800000x1, .f32⟩ : BufTy).Contents (Elt F)),
    unary main_v39 main_v40 (broadcastInDim S800000x128 ![0, 1] bcast_S800000x1_S800000x128_0_1 : (⟨S800000x1, .f32⟩ : BufTy).Contents (Elt F) → (⟨S800000x128, .f32⟩ : BufTy).Contents (Elt F)),
    binary main_v38 main_v40 main_v41 (mulf : (⟨S800000x128, .f32⟩ : BufTy).Contents (Elt F) → (⟨S800000x128, .f32⟩ : BufTy).Contents (Elt F) → (⟨S800000x128, .f32⟩ : BufTy).Contents (Elt F)),
    nullary main_cst_8 (constant S_ .f32 0x00000000#32),
    unary main_cst_8 main_v42 (broadcastInDim S50000x128 ![] bcast_S_S50000x128 : (⟨S_, .f32⟩ : BufTy).Contents (Elt F) → (⟨S50000x128, .f32⟩ : BufTy).Contents (Elt F)),
    unary main_v3 main_v43 (broadcastInDim S800000x1 ![0] bcast_S800000_S800000x1_0 : (⟨S800000, .i32⟩ : BufTy).Contents (Elt F) → (⟨S800000x1, .i32⟩ : BufTy).Contents (Elt F)),
    ternary main_v42 main_v43 main_v41 main_v44 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v11 main_v11 main_v45 (mulf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v31 main_v47 main_v48 (mulf : (⟨S50000x128, .f32⟩ : BufTy).Contents (Elt F) → (⟨S50000x128, .f32⟩ : BufTy).Contents (Elt F) → (⟨S50000x128, .f32⟩ : BufTy).Contents (Elt F)),
    binary main_v44 main_v48 main_v49 (addf : (⟨S50000x128, .f32⟩ : BufTy).Contents (Elt F) → (⟨S50000x128, .f32⟩ : BufTy).Contents (Elt F) → (⟨S50000x128, .f32⟩ : BufTy).Contents (Elt F)),
    unary main_v30 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)),
    nullary main_cst_9 (constant S_ .f32 0x00000000#32),
    binary main_v52 main_cst_9 main_v53 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_10 (constant S_ .f32 0x47435000#32),
    unary main_cst_10 main_v54 (broadcastInDim S128 ![] bcast_S_S128 : (⟨S_, .f32⟩ : BufTy).Contents (Elt F) → (⟨S128, .f32⟩ : BufTy).Contents (Elt F)),
    binary main_v53 main_v54 main_v55 (Host.divf : (⟨S128, .f32⟩ : BufTy).Contents (Elt F) → (⟨S128, .f32⟩ : BufTy).Contents (Elt F) → (⟨S128, .f32⟩ : BufTy).Contents (Elt F)),
    unary main_v55 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v52 main_v57 main_v58 (subf : (⟨S50000x128, .f32⟩ : BufTy).Contents (Elt F) → (⟨S50000x128, .f32⟩ : BufTy).Contents (Elt F) → (⟨S50000x128, .f32⟩ : BufTy).Contents (Elt F)),
    binary main_v58 main_v58 main_v59 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v59 main_cst_11 main_v60 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v61 (broadcastInDim S128 ![] bcast_S_S128 : (⟨S_, .f32⟩ : BufTy).Contents (Elt F) → (⟨S128, .f32⟩ : BufTy).Contents (Elt F)),
    binary main_v60 main_v61 main_v62 (Host.divf : (⟨S128, .f32⟩ : BufTy).Contents (Elt F) → (⟨S128, .f32⟩ : BufTy).Contents (Elt F) → (⟨S128, .f32⟩ : BufTy).Contents (Elt F)),
    unary main_v55 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v52 main_v64 main_v65 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v66 (broadcastInDim S128 ![] bcast_S_S128 : (⟨S_, .f32⟩ : BufTy).Contents (Elt F) → (⟨S128, .f32⟩ : BufTy).Contents (Elt F)),
    binary main_v62 main_v66 main_v67 (addf : (⟨S128, .f32⟩ : BufTy).Contents (Elt F) → (⟨S128, .f32⟩ : BufTy).Contents (Elt F) → (⟨S128, .f32⟩ : BufTy).Contents (Elt F)),
    unary main_v67 main_v68 (Host.rsqrt : (⟨S128, .f32⟩ : BufTy).Contents (Elt F) → (⟨S128, .f32⟩ : BufTy).Contents (Elt F)),
    unary main_v68 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v65 main_v70 main_v71 (mulf : (⟨S50000x128, .f32⟩ : BufTy).Contents (Elt F) → (⟨S50000x128, .f32⟩ : BufTy).Contents (Elt F) → (⟨S50000x128, .f32⟩ : BufTy).Contents (Elt F)),
    unary main_arg3 main_v72 ((extractStridedSlice S1x128 ![0, 0] · slices_S4x128_S1x128_0_0) : (⟨S4x128, .f32⟩ : BufTy).Contents (Elt F) → (⟨S1x128, .f32⟩ : BufTy).Contents (Elt F)),
    reshape main_v72 main_v73 rfl shapeCasts_S1x128_S128,
    unary main_v73 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v71 main_v75 main_v76 (mulf : (⟨S50000x128, .f32⟩ : BufTy).Contents (Elt F) → (⟨S50000x128, .f32⟩ : BufTy).Contents (Elt F) → (⟨S50000x128, .f32⟩ : BufTy).Contents (Elt F)),
    unary main_arg4 main_v77 ((extractStridedSlice S1x128 ![0, 0] · slices_S4x128_S1x128_0_0) : (⟨S4x128, .f32⟩ : BufTy).Contents (Elt F) → (⟨S1x128, .f32⟩ : BufTy).Contents (Elt F)),
    reshape main_v77 main_v78 rfl shapeCasts_S1x128_S128,
    unary main_v78 main_v79 (broadcastInDim S1x128 ![1] bcast_S128_S1x128_1 : (⟨S128, .f32⟩ : BufTy).Contents (Elt F) → (⟨S1x128, .f32⟩ : BufTy).Contents (Elt F)),
    unary main_v79 main_v80 (broadcastInDim S50000x128 ![0, 1] bcast_S1x128_S50000x128_0_1 : (⟨S1x128, .f32⟩ : BufTy).Contents (Elt F) → (⟨S50000x128, .f32⟩ : BufTy).Contents (Elt F)),
    binary main_v76 main_v80 main_v81 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v81) main_call0.v0 main_call0.v1 maximumf,
    unary main_arg1 main_v83 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v83 main_v84 rfl shapeCasts_S1x128x128_S128x128,
    unary main_arg2 main_v85 ((extractStridedSlice S1x128 ![1, 0] · slices_S4x128_S1x128_1_0) : (⟨S4x128, .f32⟩ : BufTy).Contents (Elt F) → (⟨S1x128, .f32⟩ : BufTy).Contents (Elt F)),
    reshape main_v85 main_v86 rfl shapeCasts_S1x128_S128,
    binary main_v82 main_v84 main_v87 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_14 (constantI S_ 32 0#32),
    unary main_c_14 main_v88 (broadcastInDim S800000 ![] bcast_S_S800000 : (⟨S_, .i32⟩ : BufTy).Contents (Elt F) → (⟨S800000, .i32⟩ : BufTy).Contents (Elt F)),
    binary main_v1 main_v88 main_v89 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v90 (broadcastInDim S800000 ![] bcast_S_S800000 : (⟨S_, .i32⟩ : BufTy).Contents (Elt F) → (⟨S800000, .i32⟩ : BufTy).Contents (Elt F)),
    binary main_v1 main_v90 main_v91 (addi : (⟨S800000, .i32⟩ : BufTy).Contents (Elt F) → (⟨S800000, .i32⟩ : BufTy).Contents (Elt F) → (⟨S800000, .i32⟩ : BufTy).Contents (Elt F)),
    ternary main_v89 main_v91 main_v1 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v92 main_v93 (broadcastInDim S800000x1 ![0] bcast_S800000_S800000x1_0 : (⟨S800000, .i32⟩ : BufTy).Contents (Elt F) → (⟨S800000x1, .i32⟩ : BufTy).Contents (Elt F)),
    binary main_v87 main_v93 main_v94 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v26 main_v95 (broadcastInDim S800000x1 ![0] bcast_S800000_S800000x1_0 : (⟨S800000, .f32⟩ : BufTy).Contents (Elt F) → (⟨S800000x1, .f32⟩ : BufTy).Contents (Elt F)),
    unary main_v95 main_v96 (broadcastInDim S800000x128 ![0, 1] bcast_S800000x1_S800000x128_0_1 : (⟨S800000x1, .f32⟩ : BufTy).Contents (Elt F) → (⟨S800000x128, .f32⟩ : BufTy).Contents (Elt F)),
    binary main_v94 main_v96 main_v97 (mulf : (⟨S800000x128, .f32⟩ : BufTy).Contents (Elt F) → (⟨S800000x128, .f32⟩ : BufTy).Contents (Elt F) → (⟨S800000x128, .f32⟩ : BufTy).Contents (Elt F)),
    nullary main_cst_16 (constant S_ .f32 0x00000000#32),
    unary main_cst_16 main_v98 (broadcastInDim S50000x128 ![] bcast_S_S50000x128 : (⟨S_, .f32⟩ : BufTy).Contents (Elt F) → (⟨S50000x128, .f32⟩ : BufTy).Contents (Elt F)),
    unary main_v3 main_v99 (broadcastInDim S800000x1 ![0] bcast_S800000_S800000x1_0 : (⟨S800000, .i32⟩ : BufTy).Contents (Elt F) → (⟨S800000x1, .i32⟩ : BufTy).Contents (Elt F)),
    ternary main_v98 main_v99 main_v97 main_v100 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v11 main_v11 main_v101 (mulf : (⟨S50000, .f32⟩ : BufTy).Contents (Elt F) → (⟨S50000, .f32⟩ : BufTy).Contents (Elt F) → (⟨S50000, .f32⟩ : BufTy).Contents (Elt F)),
    unary main_v101 main_v102 (broadcastInDim S50000x1 ![0] bcast_S50000_S50000x1_0 : (⟨S50000, .f32⟩ : BufTy).Contents (Elt F) → (⟨S50000x1, .f32⟩ : BufTy).Contents (Elt F)),
    unary main_v102 main_v103 (broadcastInDim S50000x128 ![0, 1] bcast_S50000x1_S50000x128_0_1 : (⟨S50000x1, .f32⟩ : BufTy).Contents (Elt F) → (⟨S50000x128, .f32⟩ : BufTy).Contents (Elt F)),
    binary main_v87 main_v103 main_v104 (mulf : (⟨S50000x128, .f32⟩ : BufTy).Contents (Elt F) → (⟨S50000x128, .f32⟩ : BufTy).Contents (Elt F) → (⟨S50000x128, .f32⟩ : BufTy).Contents (Elt F)),
    binary main_v100 main_v104 main_v105 (addf : (⟨S50000x128, .f32⟩ : BufTy).Contents (Elt F) → (⟨S50000x128, .f32⟩ : BufTy).Contents (Elt F) → (⟨S50000x128, .f32⟩ : BufTy).Contents (Elt F)),
    unary main_v86 main_v106 (broadcastInDim S1x128 ![1] bcast_S128_S1x128_1 : (⟨S128, .f32⟩ : BufTy).Contents (Elt F) → (⟨S1x128, .f32⟩ : BufTy).Contents (Elt F)),
    unary main_v106 main_v107 (broadcastInDim S50000x128 ![0, 1] bcast_S1x128_S50000x128_0_1 : (⟨S1x128, .f32⟩ : BufTy).Contents (Elt F) → (⟨S50000x128, .f32⟩ : BufTy).Contents (Elt F)),
    binary main_v105 main_v107 main_v108 (addf : (⟨S50000x128, .f32⟩ : BufTy).Contents (Elt F) → (⟨S50000x128, .f32⟩ : BufTy).Contents (Elt F) → (⟨S50000x128, .f32⟩ : BufTy).Contents (Elt F)),
    nullary main_cst_17 (constant S_ .f32 0x00000000#32),
    binary main_v108 main_cst_17 main_v109 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_18 (constant S_ .f32 0x47435000#32),
    unary main_cst_18 main_v110 (broadcastInDim S128 ![] bcast_S_S128 : (⟨S_, .f32⟩ : BufTy).Contents (Elt F) → (⟨S128, .f32⟩ : BufTy).Contents (Elt F)),
    binary main_v109 main_v110 main_v111 (Host.divf : (⟨S128, .f32⟩ : BufTy).Contents (Elt F) → (⟨S128, .f32⟩ : BufTy).Contents (Elt F) → (⟨S128, .f32⟩ : BufTy).Contents (Elt F)),
    unary main_v111 main_v112 (broadcastInDim S1x128 ![1] bcast_S128_S1x128_1 : (⟨S128, .f32⟩ : BufTy).Contents (Elt F) → (⟨S1x128, .f32⟩ : BufTy).Contents (Elt F)),
    unary main_v112 main_v113 (broadcastInDim S50000x128 ![0, 1] bcast_S1x128_S50000x128_0_1 : (⟨S1x128, .f32⟩ : BufTy).Contents (Elt F) → (⟨S50000x128, .f32⟩ : BufTy).Contents (Elt F)),
    binary main_v108 main_v113 main_v114 (subf : (⟨S50000x128, .f32⟩ : BufTy).Contents (Elt F) → (⟨S50000x128, .f32⟩ : BufTy).Contents (Elt F) → (⟨S50000x128, .f32⟩ : BufTy).Contents (Elt F)),
    binary main_v114 main_v114 main_v115 (mulf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    binary main_v115 main_cst_19 main_v116 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_20 (constant S_ .f32 0x47435000#32),
    unary main_cst_20 main_v117 (broadcastInDim S128 ![] bcast_S_S128 : (⟨S_, .f32⟩ : BufTy).Contents (Elt F) → (⟨S128, .f32⟩ : BufTy).Contents (Elt F)),
    binary main_v116 main_v117 main_v118 (Host.divf : (⟨S128, .f32⟩ : BufTy).Contents (Elt F) → (⟨S128, .f32⟩ : BufTy).Contents (Elt F) → (⟨S128, .f32⟩ : BufTy).Contents (Elt F)),
    unary main_v111 main_v119 (broadcastInDim S1x128 ![1] bcast_S128_S1x128_1 : (⟨S128, .f32⟩ : BufTy).Contents (Elt F) → (⟨S1x128, .f32⟩ : BufTy).Contents (Elt F)),
    unary main_v119 main_v120 (broadcastInDim S50000x128 ![0, 1] bcast_S1x128_S50000x128_0_1 : (⟨S1x128, .f32⟩ : BufTy).Contents (Elt F) → (⟨S50000x128, .f32⟩ : BufTy).Contents (Elt F)),
    binary main_v108 main_v120 main_v121 (subf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v122 (broadcastInDim S128 ![] bcast_S_S128 : (⟨S_, .f32⟩ : BufTy).Contents (Elt F) → (⟨S128, .f32⟩ : BufTy).Contents (Elt F)),
    binary main_v118 main_v122 main_v123 (addf : (⟨S128, .f32⟩ : BufTy).Contents (Elt F) → (⟨S128, .f32⟩ : BufTy).Contents (Elt F) → (⟨S128, .f32⟩ : BufTy).Contents (Elt F)),
    unary main_v123 main_v124 (Host.rsqrt : (⟨S128, .f32⟩ : BufTy).Contents (Elt F) → (⟨S128, .f32⟩ : BufTy).Contents (Elt F)),
    unary main_v124 main_v125 (broadcastInDim S1x128 ![1] bcast_S128_S1x128_1 : (⟨S128, .f32⟩ : BufTy).Contents (Elt F) → (⟨S1x128, .f32⟩ : BufTy).Contents (Elt F)),
    unary main_v125 main_v126 (broadcastInDim S50000x128 ![0, 1] bcast_S1x128_S50000x128_0_1 : (⟨S1x128, .f32⟩ : BufTy).Contents (Elt F) → (⟨S50000x128, .f32⟩ : BufTy).Contents (Elt F)),
    binary main_v121 main_v126 main_v127 (mulf : (⟨S50000x128, .f32⟩ : BufTy).Contents (Elt F) → (⟨S50000x128, .f32⟩ : BufTy).Contents (Elt F) → (⟨S50000x128, .f32⟩ : BufTy).Contents (Elt F)),
    unary main_arg3 main_v128 ((extractStridedSlice S1x128 ![1, 0] · slices_S4x128_S1x128_1_0) : (⟨S4x128, .f32⟩ : BufTy).Contents (Elt F) → (⟨S1x128, .f32⟩ : BufTy).Contents (Elt F)),
    reshape main_v128 main_v129 rfl shapeCasts_S1x128_S128,
    unary main_v129 main_v130 (broadcastInDim S1x128 ![1] bcast_S128_S1x128_1 : (⟨S128, .f32⟩ : BufTy).Contents (Elt F) → (⟨S1x128, .f32⟩ : BufTy).Contents (Elt F)),
    unary main_v130 main_v131 (broadcastInDim S50000x128 ![0, 1] bcast_S1x128_S50000x128_0_1 : (⟨S1x128, .f32⟩ : BufTy).Contents (Elt F) → (⟨S50000x128, .f32⟩ : BufTy).Contents (Elt F)),
    binary main_v127 main_v131 main_v132 (mulf : (⟨S50000x128, .f32⟩ : BufTy).Contents (Elt F) → (⟨S50000x128, .f32⟩ : BufTy).Contents (Elt F) → (⟨S50000x128, .f32⟩ : BufTy).Contents (Elt F)),
    unary main_arg4 main_v133 ((extractStridedSlice S1x128 ![1, 0] · slices_S4x128_S1x128_1_0) : (⟨S4x128, .f32⟩ : BufTy).Contents (Elt F) → (⟨S1x128, .f32⟩ : BufTy).Contents (Elt F)),
    reshape main_v133 main_v134 rfl shapeCasts_S1x128_S128,
    unary main_v134 main_v135 (broadcastInDim S1x128 ![1] bcast_S128_S1x128_1 : (⟨S128, .f32⟩ : BufTy).Contents (Elt F) → (⟨S1x128, .f32⟩ : BufTy).Contents (Elt F)),
    unary main_v135 main_v136 (broadcastInDim S50000x128 ![0, 1] bcast_S1x128_S50000x128_0_1 : (⟨S1x128, .f32⟩ : BufTy).Contents (Elt F) → (⟨S50000x128, .f32⟩ : BufTy).Contents (Elt F)),
    binary main_v132 main_v136 main_v137 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v137) main_call1.v0 main_call1.v1 maximumf,
    unary main_arg1 main_v139 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v139 main_v140 rfl shapeCasts_S1x128x128_S128x128,
    unary main_arg2 main_v141 ((extractStridedSlice S1x128 ![2, 0] · slices_S4x128_S1x128_2_0) : (⟨S4x128, .f32⟩ : BufTy).Contents (Elt F) → (⟨S1x128, .f32⟩ : BufTy).Contents (Elt F)),
    reshape main_v141 main_v142 rfl shapeCasts_S1x128_S128,
    binary main_v138 main_v140 main_v143 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_22 (constantI S_ 32 0#32),
    unary main_c_22 main_v144 (broadcastInDim S800000 ![] bcast_S_S800000 : (⟨S_, .i32⟩ : BufTy).Contents (Elt F) → (⟨S800000, .i32⟩ : BufTy).Contents (Elt F)),
    binary main_v1 main_v144 main_v145 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v146 (broadcastInDim S800000 ![] bcast_S_S800000 : (⟨S_, .i32⟩ : BufTy).Contents (Elt F) → (⟨S800000, .i32⟩ : BufTy).Contents (Elt F)),
    binary main_v1 main_v146 main_v147 (addi : (⟨S800000, .i32⟩ : BufTy).Contents (Elt F) → (⟨S800000, .i32⟩ : BufTy).Contents (Elt F) → (⟨S800000, .i32⟩ : BufTy).Contents (Elt F)),
    ternary main_v145 main_v147 main_v1 main_v148 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v148 main_v149 (broadcastInDim S800000x1 ![0] bcast_S800000_S800000x1_0 : (⟨S800000, .i32⟩ : BufTy).Contents (Elt F) → (⟨S800000x1, .i32⟩ : BufTy).Contents (Elt F)),
    binary main_v143 main_v149 main_v150 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v26 main_v151 (broadcastInDim S800000x1 ![0] bcast_S800000_S800000x1_0 : (⟨S800000, .f32⟩ : BufTy).Contents (Elt F) → (⟨S800000x1, .f32⟩ : BufTy).Contents (Elt F)),
    unary main_v151 main_v152 (broadcastInDim S800000x128 ![0, 1] bcast_S800000x1_S800000x128_0_1 : (⟨S800000x1, .f32⟩ : BufTy).Contents (Elt F) → (⟨S800000x128, .f32⟩ : BufTy).Contents (Elt F)),
    binary main_v150 main_v152 main_v153 (mulf : (⟨S800000x128, .f32⟩ : BufTy).Contents (Elt F) → (⟨S800000x128, .f32⟩ : BufTy).Contents (Elt F) → (⟨S800000x128, .f32⟩ : BufTy).Contents (Elt F)),
    nullary main_cst_24 (constant S_ .f32 0x00000000#32),
    unary main_cst_24 main_v154 (broadcastInDim S50000x128 ![] bcast_S_S50000x128 : (⟨S_, .f32⟩ : BufTy).Contents (Elt F) → (⟨S50000x128, .f32⟩ : BufTy).Contents (Elt F)),
    unary main_v3 main_v155 (broadcastInDim S800000x1 ![0] bcast_S800000_S800000x1_0 : (⟨S800000, .i32⟩ : BufTy).Contents (Elt F) → (⟨S800000x1, .i32⟩ : BufTy).Contents (Elt F)),
    ternary main_v154 main_v155 main_v153 main_v156 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v11 main_v11 main_v157 (mulf : (⟨S50000, .f32⟩ : BufTy).Contents (Elt F) → (⟨S50000, .f32⟩ : BufTy).Contents (Elt F) → (⟨S50000, .f32⟩ : BufTy).Contents (Elt F)),
    unary main_v157 main_v158 (broadcastInDim S50000x1 ![0] bcast_S50000_S50000x1_0 : (⟨S50000, .f32⟩ : BufTy).Contents (Elt F) → (⟨S50000x1, .f32⟩ : BufTy).Contents (Elt F)),
    unary main_v158 main_v159 (broadcastInDim S50000x128 ![0, 1] bcast_S50000x1_S50000x128_0_1 : (⟨S50000x1, .f32⟩ : BufTy).Contents (Elt F) → (⟨S50000x128, .f32⟩ : BufTy).Contents (Elt F)),
    binary main_v143 main_v159 main_v160 (mulf : (⟨S50000x128, .f32⟩ : BufTy).Contents (Elt F) → (⟨S50000x128, .f32⟩ : BufTy).Contents (Elt F) → (⟨S50000x128, .f32⟩ : BufTy).Contents (Elt F)),
    binary main_v156 main_v160 main_v161 (addf : (⟨S50000x128, .f32⟩ : BufTy).Contents (Elt F) → (⟨S50000x128, .f32⟩ : BufTy).Contents (Elt F) → (⟨S50000x128, .f32⟩ : BufTy).Contents (Elt F)),
    unary main_v142 main_v162 (broadcastInDim S1x128 ![1] bcast_S128_S1x128_1 : (⟨S128, .f32⟩ : BufTy).Contents (Elt F) → (⟨S1x128, .f32⟩ : BufTy).Contents (Elt F)),
    unary main_v162 main_v163 (broadcastInDim S50000x128 ![0, 1] bcast_S1x128_S50000x128_0_1 : (⟨S1x128, .f32⟩ : BufTy).Contents (Elt F) → (⟨S50000x128, .f32⟩ : BufTy).Contents (Elt F)),
    binary main_v161 main_v163 main_v164 (addf : (⟨S50000x128, .f32⟩ : BufTy).Contents (Elt F) → (⟨S50000x128, .f32⟩ : BufTy).Contents (Elt F) → (⟨S50000x128, .f32⟩ : BufTy).Contents (Elt F)),
    nullary main_cst_25 (constant S_ .f32 0x00000000#32),
    binary main_v164 main_cst_25 main_v165 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_26 (constant S_ .f32 0x47435000#32),
    unary main_cst_26 main_v166 (broadcastInDim S128 ![] bcast_S_S128 : (⟨S_, .f32⟩ : BufTy).Contents (Elt F) → (⟨S128, .f32⟩ : BufTy).Contents (Elt F)),
    binary main_v165 main_v166 main_v167 (Host.divf : (⟨S128, .f32⟩ : BufTy).Contents (Elt F) → (⟨S128, .f32⟩ : BufTy).Contents (Elt F) → (⟨S128, .f32⟩ : BufTy).Contents (Elt F)),
    unary main_v167 main_v168 (broadcastInDim S1x128 ![1] bcast_S128_S1x128_1 : (⟨S128, .f32⟩ : BufTy).Contents (Elt F) → (⟨S1x128, .f32⟩ : BufTy).Contents (Elt F)),
    unary main_v168 main_v169 (broadcastInDim S50000x128 ![0, 1] bcast_S1x128_S50000x128_0_1 : (⟨S1x128, .f32⟩ : BufTy).Contents (Elt F) → (⟨S50000x128, .f32⟩ : BufTy).Contents (Elt F)),
    binary main_v164 main_v169 main_v170 (subf : (⟨S50000x128, .f32⟩ : BufTy).Contents (Elt F) → (⟨S50000x128, .f32⟩ : BufTy).Contents (Elt F) → (⟨S50000x128, .f32⟩ : BufTy).Contents (Elt F)),
    binary main_v170 main_v170 main_v171 (mulf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x00000000#32),
    binary main_v171 main_cst_27 main_v172 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_28 (constant S_ .f32 0x47435000#32),
    unary main_cst_28 main_v173 (broadcastInDim S128 ![] bcast_S_S128 : (⟨S_, .f32⟩ : BufTy).Contents (Elt F) → (⟨S128, .f32⟩ : BufTy).Contents (Elt F)),
    binary main_v172 main_v173 main_v174 (Host.divf : (⟨S128, .f32⟩ : BufTy).Contents (Elt F) → (⟨S128, .f32⟩ : BufTy).Contents (Elt F) → (⟨S128, .f32⟩ : BufTy).Contents (Elt F)),
    unary main_v167 main_v175 (broadcastInDim S1x128 ![1] bcast_S128_S1x128_1 : (⟨S128, .f32⟩ : BufTy).Contents (Elt F) → (⟨S1x128, .f32⟩ : BufTy).Contents (Elt F)),
    unary main_v175 main_v176 (broadcastInDim S50000x128 ![0, 1] bcast_S1x128_S50000x128_0_1 : (⟨S1x128, .f32⟩ : BufTy).Contents (Elt F) → (⟨S50000x128, .f32⟩ : BufTy).Contents (Elt F)),
    binary main_v164 main_v176 main_v177 (subf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x3727C5AC#32),
    unary main_cst_29 main_v178 (broadcastInDim S128 ![] bcast_S_S128 : (⟨S_, .f32⟩ : BufTy).Contents (Elt F) → (⟨S128, .f32⟩ : BufTy).Contents (Elt F)),
    binary main_v174 main_v178 main_v179 (addf : (⟨S128, .f32⟩ : BufTy).Contents (Elt F) → (⟨S128, .f32⟩ : BufTy).Contents (Elt F) → (⟨S128, .f32⟩ : BufTy).Contents (Elt F)),
    unary main_v179 main_v180 (Host.rsqrt : (⟨S128, .f32⟩ : BufTy).Contents (Elt F) → (⟨S128, .f32⟩ : BufTy).Contents (Elt F)),
    unary main_v180 main_v181 (broadcastInDim S1x128 ![1] bcast_S128_S1x128_1 : (⟨S128, .f32⟩ : BufTy).Contents (Elt F) → (⟨S1x128, .f32⟩ : BufTy).Contents (Elt F)),
    unary main_v181 main_v182 (broadcastInDim S50000x128 ![0, 1] bcast_S1x128_S50000x128_0_1 : (⟨S1x128, .f32⟩ : BufTy).Contents (Elt F) → (⟨S50000x128, .f32⟩ : BufTy).Contents (Elt F)),
    binary main_v177 main_v182 main_v183 (mulf : (⟨S50000x128, .f32⟩ : BufTy).Contents (Elt F) → (⟨S50000x128, .f32⟩ : BufTy).Contents (Elt F) → (⟨S50000x128, .f32⟩ : BufTy).Contents (Elt F)),
    unary main_arg3 main_v184 ((extractStridedSlice S1x128 ![2, 0] · slices_S4x128_S1x128_2_0) : (⟨S4x128, .f32⟩ : BufTy).Contents (Elt F) → (⟨S1x128, .f32⟩ : BufTy).Contents (Elt F)),
    reshape main_v184 main_v185 rfl shapeCasts_S1x128_S128,
    unary main_v185 main_v186 (broadcastInDim S1x128 ![1] bcast_S128_S1x128_1 : (⟨S128, .f32⟩ : BufTy).Contents (Elt F) → (⟨S1x128, .f32⟩ : BufTy).Contents (Elt F)),
    unary main_v186 main_v187 (broadcastInDim S50000x128 ![0, 1] bcast_S1x128_S50000x128_0_1 : (⟨S1x128, .f32⟩ : BufTy).Contents (Elt F) → (⟨S50000x128, .f32⟩ : BufTy).Contents (Elt F)),
    binary main_v183 main_v187 main_v188 (mulf : (⟨S50000x128, .f32⟩ : BufTy).Contents (Elt F) → (⟨S50000x128, .f32⟩ : BufTy).Contents (Elt F) → (⟨S50000x128, .f32⟩ : BufTy).Contents (Elt F)),
    unary main_arg4 main_v189 ((extractStridedSlice S1x128 ![2, 0] · slices_S4x128_S1x128_2_0) : (⟨S4x128, .f32⟩ : BufTy).Contents (Elt F) → (⟨S1x128, .f32⟩ : BufTy).Contents (Elt F)),
    reshape main_v189 main_v190 rfl shapeCasts_S1x128_S128,
    unary main_v190 main_v191 (broadcastInDim S1x128 ![1] bcast_S128_S1x128_1 : (⟨S128, .f32⟩ : BufTy).Contents (Elt F) → (⟨S1x128, .f32⟩ : BufTy).Contents (Elt F)),
    unary main_v191 main_v192 (broadcastInDim S50000x128 ![0, 1] bcast_S1x128_S50000x128_0_1 : (⟨S1x128, .f32⟩ : BufTy).Contents (Elt F) → (⟨S50000x128, .f32⟩ : BufTy).Contents (Elt F)),
    binary main_v188 main_v192 main_v193 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v193) main_call2.v0 main_call2.v1 maximumf,
    unary main_arg1 main_v195 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v195 main_v196 rfl shapeCasts_S1x128x128_S128x128,
    unary main_arg2 main_v197 ((extractStridedSlice S1x128 ![3, 0] · slices_S4x128_S1x128_3_0) : (⟨S4x128, .f32⟩ : BufTy).Contents (Elt F) → (⟨S1x128, .f32⟩ : BufTy).Contents (Elt F)),
    reshape main_v197 main_v198 rfl shapeCasts_S1x128_S128,
    binary main_v194 main_v196 main_v199 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_30 (constantI S_ 32 0#32),
    unary main_c_30 main_v200 (broadcastInDim S800000 ![] bcast_S_S800000 : (⟨S_, .i32⟩ : BufTy).Contents (Elt F) → (⟨S800000, .i32⟩ : BufTy).Contents (Elt F)),
    binary main_v1 main_v200 main_v201 (cmpi .slt : (⟨S800000, .i32⟩ : BufTy).Contents (Elt F) → (⟨S800000, .i32⟩ : BufTy).Contents (Elt F) → (⟨S800000, .i1⟩ : BufTy).Contents (Elt F)),
    nullary main_c_31 (constantI S_ 32 50000#32),
    unary main_c_31 main_v202 (broadcastInDim S800000 ![] bcast_S_S800000 : (⟨S_, .i32⟩ : BufTy).Contents (Elt F) → (⟨S800000, .i32⟩ : BufTy).Contents (Elt F)),
    binary main_v1 main_v202 main_v203 (addi : (⟨S800000, .i32⟩ : BufTy).Contents (Elt F) → (⟨S800000, .i32⟩ : BufTy).Contents (Elt F) → (⟨S800000, .i32⟩ : BufTy).Contents (Elt F)),
    ternary main_v201 main_v203 main_v1 main_v204 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v204 main_v205 (broadcastInDim S800000x1 ![0] bcast_S800000_S800000x1_0 : (⟨S800000, .i32⟩ : BufTy).Contents (Elt F) → (⟨S800000x1, .i32⟩ : BufTy).Contents (Elt F)),
    binary main_v199 main_v205 main_v206 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v26 main_v207 (broadcastInDim S800000x1 ![0] bcast_S800000_S800000x1_0 : (⟨S800000, .f32⟩ : BufTy).Contents (Elt F) → (⟨S800000x1, .f32⟩ : BufTy).Contents (Elt F)),
    unary main_v207 main_v208 (broadcastInDim S800000x128 ![0, 1] bcast_S800000x1_S800000x128_0_1 : (⟨S800000x1, .f32⟩ : BufTy).Contents (Elt F) → (⟨S800000x128, .f32⟩ : BufTy).Contents (Elt F)),
    binary main_v206 main_v208 main_v209 (mulf : (⟨S800000x128, .f32⟩ : BufTy).Contents (Elt F) → (⟨S800000x128, .f32⟩ : BufTy).Contents (Elt F) → (⟨S800000x128, .f32⟩ : BufTy).Contents (Elt F)),
    nullary main_cst_32 (constant S_ .f32 0x00000000#32),
    unary main_cst_32 main_v210 (broadcastInDim S50000x128 ![] bcast_S_S50000x128 : (⟨S_, .f32⟩ : BufTy).Contents (Elt F) → (⟨S50000x128, .f32⟩ : BufTy).Contents (Elt F)),
    unary main_v3 main_v211 (broadcastInDim S800000x1 ![0] bcast_S800000_S800000x1_0 : (⟨S800000, .i32⟩ : BufTy).Contents (Elt F) → (⟨S800000x1, .i32⟩ : BufTy).Contents (Elt F)),
    ternary main_v210 main_v211 main_v209 main_v212 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v11 main_v11 main_v213 (mulf : (⟨S50000, .f32⟩ : BufTy).Contents (Elt F) → (⟨S50000, .f32⟩ : BufTy).Contents (Elt F) → (⟨S50000, .f32⟩ : BufTy).Contents (Elt F)),
    unary main_v213 main_v214 (broadcastInDim S50000x1 ![0] bcast_S50000_S50000x1_0 : (⟨S50000, .f32⟩ : BufTy).Contents (Elt F) → (⟨S50000x1, .f32⟩ : BufTy).Contents (Elt F)),
    unary main_v214 main_v215 (broadcastInDim S50000x128 ![0, 1] bcast_S50000x1_S50000x128_0_1 : (⟨S50000x1, .f32⟩ : BufTy).Contents (Elt F) → (⟨S50000x128, .f32⟩ : BufTy).Contents (Elt F)),
    binary main_v199 main_v215 main_v216 (mulf : (⟨S50000x128, .f32⟩ : BufTy).Contents (Elt F) → (⟨S50000x128, .f32⟩ : BufTy).Contents (Elt F) → (⟨S50000x128, .f32⟩ : BufTy).Contents (Elt F)),
    binary main_v212 main_v216 main_v217 (addf : (⟨S50000x128, .f32⟩ : BufTy).Contents (Elt F) → (⟨S50000x128, .f32⟩ : BufTy).Contents (Elt F) → (⟨S50000x128, .f32⟩ : BufTy).Contents (Elt F)),
    unary main_v198 main_v218 (broadcastInDim S1x128 ![1] bcast_S128_S1x128_1 : (⟨S128, .f32⟩ : BufTy).Contents (Elt F) → (⟨S1x128, .f32⟩ : BufTy).Contents (Elt F)),
    unary main_v218 main_v219 (broadcastInDim S50000x128 ![0, 1] bcast_S1x128_S50000x128_0_1 : (⟨S1x128, .f32⟩ : BufTy).Contents (Elt F) → (⟨S50000x128, .f32⟩ : BufTy).Contents (Elt F)),
    binary main_v217 main_v219 main_v220 (addf : (⟨S50000x128, .f32⟩ : BufTy).Contents (Elt F) → (⟨S50000x128, .f32⟩ : BufTy).Contents (Elt F) → (⟨S50000x128, .f32⟩ : BufTy).Contents (Elt F)),
    nullary main_cst_33 (constant S_ .f32 0x00000000#32),
    binary main_v220 main_cst_33 main_v221 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_34 (constant S_ .f32 0x47435000#32),
    unary main_cst_34 main_v222 (broadcastInDim S128 ![] bcast_S_S128 : (⟨S_, .f32⟩ : BufTy).Contents (Elt F) → (⟨S128, .f32⟩ : BufTy).Contents (Elt F)),
    binary main_v221 main_v222 main_v223 (Host.divf : (⟨S128, .f32⟩ : BufTy).Contents (Elt F) → (⟨S128, .f32⟩ : BufTy).Contents (Elt F) → (⟨S128, .f32⟩ : BufTy).Contents (Elt F)),
    unary main_v223 main_v224 (broadcastInDim S1x128 ![1] bcast_S128_S1x128_1 : (⟨S128, .f32⟩ : BufTy).Contents (Elt F) → (⟨S1x128, .f32⟩ : BufTy).Contents (Elt F)),
    unary main_v224 main_v225 (broadcastInDim S50000x128 ![0, 1] bcast_S1x128_S50000x128_0_1 : (⟨S1x128, .f32⟩ : BufTy).Contents (Elt F) → (⟨S50000x128, .f32⟩ : BufTy).Contents (Elt F)),
    binary main_v220 main_v225 main_v226 (subf : (⟨S50000x128, .f32⟩ : BufTy).Contents (Elt F) → (⟨S50000x128, .f32⟩ : BufTy).Contents (Elt F) → (⟨S50000x128, .f32⟩ : BufTy).Contents (Elt F)),
    binary main_v226 main_v226 main_v227 (mulf : (⟨S50000x128, .f32⟩ : BufTy).Contents (Elt F) → (⟨S50000x128, .f32⟩ : BufTy).Contents (Elt F) → (⟨S50000x128, .f32⟩ : BufTy).Contents (Elt F)),
    nullary main_cst_35 (constant S_ .f32 0x00000000#32),
    binary main_v227 main_cst_35 main_v228 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_36 (constant S_ .f32 0x47435000#32),
    unary main_cst_36 main_v229 (broadcastInDim S128 ![] bcast_S_S128 : (⟨S_, .f32⟩ : BufTy).Contents (Elt F) → (⟨S128, .f32⟩ : BufTy).Contents (Elt F)),
    binary main_v228 main_v229 main_v230 (Host.divf : (⟨S128, .f32⟩ : BufTy).Contents (Elt F) → (⟨S128, .f32⟩ : BufTy).Contents (Elt F) → (⟨S128, .f32⟩ : BufTy).Contents (Elt F)),
    unary main_v223 main_v231 (broadcastInDim S1x128 ![1] bcast_S128_S1x128_1 : (⟨S128, .f32⟩ : BufTy).Contents (Elt F) → (⟨S1x128, .f32⟩ : BufTy).Contents (Elt F)),
    unary main_v231 main_v232 (broadcastInDim S50000x128 ![0, 1] bcast_S1x128_S50000x128_0_1 : (⟨S1x128, .f32⟩ : BufTy).Contents (Elt F) → (⟨S50000x128, .f32⟩ : BufTy).Contents (Elt F)),
    binary main_v220 main_v232 main_v233 (subf : (⟨S50000x128, .f32⟩ : BufTy).Contents (Elt F) → (⟨S50000x128, .f32⟩ : BufTy).Contents (Elt F) → (⟨S50000x128, .f32⟩ : BufTy).Contents (Elt F)),
    nullary main_cst_37 (constant S_ .f32 0x3727C5AC#32),
    unary main_cst_37 main_v234 (broadcastInDim S128 ![] bcast_S_S128 : (⟨S_, .f32⟩ : BufTy).Contents (Elt F) → (⟨S128, .f32⟩ : BufTy).Contents (Elt F)),
    binary main_v230 main_v234 main_v235 (addf : (⟨S128, .f32⟩ : BufTy).Contents (Elt F) → (⟨S128, .f32⟩ : BufTy).Contents (Elt F) → (⟨S128, .f32⟩ : BufTy).Contents (Elt F)),
    unary main_v235 main_v236 (Host.rsqrt : (⟨S128, .f32⟩ : BufTy).Contents (Elt F) → (⟨S128, .f32⟩ : BufTy).Contents (Elt F)),
    unary main_v236 main_v237 (broadcastInDim S1x128 ![1] bcast_S128_S1x128_1 : (⟨S128, .f32⟩ : BufTy).Contents (Elt F) → (⟨S1x128, .f32⟩ : BufTy).Contents (Elt F)),
    unary main_v237 main_v238 (broadcastInDim S50000x128 ![0, 1] bcast_S1x128_S50000x128_0_1 : (⟨S1x128, .f32⟩ : BufTy).Contents (Elt F) → (⟨S50000x128, .f32⟩ : BufTy).Contents (Elt F)),
    binary main_v233 main_v238 main_v239 (mulf : (⟨S50000x128, .f32⟩ : BufTy).Contents (Elt F) → (⟨S50000x128, .f32⟩ : BufTy).Contents (Elt F) → (⟨S50000x128, .f32⟩ : BufTy).Contents (Elt F)),
    unary main_arg3 main_v240 ((extractStridedSlice S1x128 ![3, 0] · slices_S4x128_S1x128_3_0) : (⟨S4x128, .f32⟩ : BufTy).Contents (Elt F) → (⟨S1x128, .f32⟩ : BufTy).Contents (Elt F)),
    reshape main_v240 main_v241 rfl shapeCasts_S1x128_S128,
    unary main_v241 main_v242 (broadcastInDim S1x128 ![1] bcast_S128_S1x128_1 : (⟨S128, .f32⟩ : BufTy).Contents (Elt F) → (⟨S1x128, .f32⟩ : BufTy).Contents (Elt F)),
    unary main_v242 main_v243 (broadcastInDim S50000x128 ![0, 1] bcast_S1x128_S50000x128_0_1 : (⟨S1x128, .f32⟩ : BufTy).Contents (Elt F) → (⟨S50000x128, .f32⟩ : BufTy).Contents (Elt F)),
    binary main_v239 main_v243 main_v244 (mulf : (⟨S50000x128, .f32⟩ : BufTy).Contents (Elt F) → (⟨S50000x128, .f32⟩ : BufTy).Contents (Elt F) → (⟨S50000x128, .f32⟩ : BufTy).Contents (Elt F)),
    unary main_arg4 main_v245 ((extractStridedSlice S1x128 ![3, 0] · slices_S4x128_S1x128_3_0) : (⟨S4x128, .f32⟩ : BufTy).Contents (Elt F) → (⟨S1x128, .f32⟩ : BufTy).Contents (Elt F)),
    reshape main_v245 main_v246 rfl shapeCasts_S1x128_S128,
    unary main_v246 main_v247 (broadcastInDim S1x128 ![1] bcast_S128_S1x128_1 : (⟨S128, .f32⟩ : BufTy).Contents (Elt F) → (⟨S1x128, .f32⟩ : BufTy).Contents (Elt F)),
    unary main_v247 main_v248 (broadcastInDim S50000x128 ![0, 1] bcast_S1x128_S50000x128_0_1 : (⟨S1x128, .f32⟩ : BufTy).Contents (Elt F) → (⟨S50000x128, .f32⟩ : BufTy).Contents (Elt F)),
    binary main_v244 main_v248 main_v249 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v249) main_call3.v0 main_call3.v1 maximumf,
    nullary main_cst_38 (constant S_ .f32 0x00000000#32),
    unary main_cst_38 main_v251 (broadcastInDim S512x128 ![] bcast_S_S512x128 : (⟨S_, .f32⟩ : BufTy).Contents (Elt F) → (⟨S512x128, .f32⟩ : BufTy).Contents (Elt F)),
    unary main_arg8 main_v252 (broadcastInDim S50000x1 ![0] bcast_S50000_S50000x1_0 : (⟨S50000, .i32⟩ : BufTy).Contents (Elt F) → (⟨S50000x1, .i32⟩ : BufTy).Contents (Elt F)),
    ternary main_v251 main_v252 main_v250 main_v253 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    nullary main_cst_39 (constant S_ .f32 0x3F800000#32),
    unary main_cst_39 main_v254 (broadcastInDim S50000 ![] bcast_S_S50000 : (⟨S_, .f32⟩ : BufTy).Contents (Elt F) → (⟨S50000, .f32⟩ : BufTy).Contents (Elt F)),
    nullary main_cst_40 (constant S_ .f32 0x00000000#32),
    unary main_cst_40 main_v255 (broadcastInDim S512 ![] bcast_S_S512 : (⟨S_, .f32⟩ : BufTy).Contents (Elt F) → (⟨S512, .f32⟩ : BufTy).Contents (Elt F)),
    unary main_arg8 main_v256 (broadcastInDim S50000x1 ![0] bcast_S50000_S50000x1_0 : (⟨S50000, .i32⟩ : BufTy).Contents (Elt F) → (⟨S50000x1, .i32⟩ : BufTy).Contents (Elt F)),
    ternary main_v255 main_v256 main_v254 main_v257 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    nullary main_cst_41 (constant S_ .f32 0x3F800000#32),
    unary main_cst_41 main_v258 (broadcastInDim S512 ![] bcast_S_S512 : (⟨S_, .f32⟩ : BufTy).Contents (Elt F) → (⟨S512, .f32⟩ : BufTy).Contents (Elt F)),
    binary main_v257 main_v258 main_v259 (maximumf : (⟨S512, .f32⟩ : BufTy).Contents (Elt F) → (⟨S512, .f32⟩ : BufTy).Contents (Elt F) → (⟨S512, .f32⟩ : BufTy).Contents (Elt F)),
    unary main_v259 main_v260 (broadcastInDim S512x1 ![0] bcast_S512_S512x1_0 : (⟨S512, .f32⟩ : BufTy).Contents (Elt F) → (⟨S512x1, .f32⟩ : BufTy).Contents (Elt F)),
    unary main_v260 main_v261 (broadcastInDim S512x128 ![0, 1] bcast_S512x1_S512x128_0_1 : (⟨S512x1, .f32⟩ : BufTy).Contents (Elt F) → (⟨S512x128, .f32⟩ : BufTy).Contents (Elt F)),
    binary main_v253 main_v261 main_v262 (Host.divf : (⟨S512x128, .f32⟩ : BufTy).Contents (Elt F) → (⟨S512x128, .f32⟩ : BufTy).Contents (Elt F) → (⟨S512x128, .f32⟩ : BufTy).Contents (Elt F)),
    binary main_v262 main_arg5 main_v263 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    unary main_arg6 main_v264 (broadcastInDim S1x10 ![1] bcast_S10_S1x10_1 : (⟨S10, .f32⟩ : BufTy).Contents (Elt F) → (⟨S1x10, .f32⟩ : BufTy).Contents (Elt F)),
    unary main_v264 main_v265 (broadcastInDim S512x10 ![0, 1] bcast_S1x10_S512x10_0_1 : (⟨S1x10, .f32⟩ : BufTy).Contents (Elt F) → (⟨S512x10, .f32⟩ : BufTy).Contents (Elt F)),
    binary main_v263 main_v265 main_v266 (addf : (⟨S512x10, .f32⟩ : BufTy).Contents (Elt F) → (⟨S512x10, .f32⟩ : BufTy).Contents (Elt F) → (⟨S512x10, .f32⟩ : BufTy).Contents (Elt F)) ]

/-- Operations 1 to 35: the edge table's rows, the degrees, the edge weights. -/
abbrev opsP : List (HloOp τ sig (Elt F)) :=
  [ unary main_arg7 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg7 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v3 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x3F800000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (addf : (⟨S50000, .f32⟩ : BufTy).Contents (Elt F) → (⟨S50000, .f32⟩ : BufTy).Contents (Elt F) → (⟨S50000, .f32⟩ : BufTy).Contents (Elt F)),
    nullary main_cst_2 (constant S_ .f32 0xBF000000#32),
    unary main_cst_2 main_v10 (broadcastInDim S50000 ![] bcast_S_S50000 : (⟨S_, .f32⟩ : BufTy).Contents (Elt F) → (⟨S50000, .f32⟩ : BufTy).Contents (Elt F)),
    binary main_v9 main_v10 main_v11 (Host.powf : (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v12 (broadcastInDim S800000 ![] bcast_S_S800000 : (⟨S_, .i32⟩ : BufTy).Contents (Elt F) → (⟨S800000, .i32⟩ : BufTy).Contents (Elt F)),
    binary main_v1 main_v12 main_v13 (cmpi .slt : (⟨S800000, .i32⟩ : BufTy).Contents (Elt F) → (⟨S800000, .i32⟩ : BufTy).Contents (Elt F) → (⟨S800000, .i1⟩ : BufTy).Contents (Elt F)),
    nullary main_c_3 (constantI S_ 32 50000#32),
    unary main_c_3 main_v14 (broadcastInDim S800000 ![] bcast_S_S800000 : (⟨S_, .i32⟩ : BufTy).Contents (Elt F) → (⟨S800000, .i32⟩ : BufTy).Contents (Elt F)),
    binary main_v1 main_v14 main_v15 (addi : (⟨S800000, .i32⟩ : BufTy).Contents (Elt F) → (⟨S800000, .i32⟩ : BufTy).Contents (Elt F) → (⟨S800000, .i32⟩ : BufTy).Contents (Elt F)),
    ternary main_v13 main_v15 main_v1 main_v16 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v16 main_v17 (broadcastInDim S800000x1 ![0] bcast_S800000_S800000x1_0 : (⟨S800000, .i32⟩ : BufTy).Contents (Elt F) → (⟨S800000x1, .i32⟩ : BufTy).Contents (Elt F)),
    binary main_v11 main_v17 main_v18 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_4 (constantI S_ 32 0#32),
    unary main_c_4 main_v19 (broadcastInDim S800000 ![] bcast_S_S800000 : (⟨S_, .i32⟩ : BufTy).Contents (Elt F) → (⟨S800000, .i32⟩ : BufTy).Contents (Elt F)),
    binary main_v3 main_v19 main_v20 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v21 (broadcastInDim S800000 ![] bcast_S_S800000 : (⟨S_, .i32⟩ : BufTy).Contents (Elt F) → (⟨S800000, .i32⟩ : BufTy).Contents (Elt F)),
    binary main_v3 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v3 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v11 main_v24 main_v25 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v18 main_v25 main_v26 (mulf : (⟨S800000, .f32⟩ : BufTy).Contents (Elt F) → (⟨S800000, .f32⟩ : BufTy).Contents (Elt F) → (⟨S800000, .f32⟩ : BufTy).Contents (Elt F)) ]

/-- Operations 36 to 64: layer 0: the parameter slices, the projection, the graph convolution. -/
abbrev opsA0 : List (HloOp τ sig (Elt F)) :=
  [ unary main_arg1 main_v27 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v27 main_v28 rfl shapeCasts_S1x128x128_S128x128,
    unary main_arg2 main_v29 ((extractStridedSlice S1x128 ![0, 0] · slices_S4x128_S1x128_0_0) : (⟨S4x128, .f32⟩ : BufTy).Contents (Elt F) → (⟨S1x128, .f32⟩ : BufTy).Contents (Elt F)),
    reshape main_v29 main_v30 rfl shapeCasts_S1x128_S128,
    binary main_arg0 main_v28 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_6 (constantI S_ 32 0#32),
    unary main_c_6 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v26 main_v39 (broadcastInDim S800000x1 ![0] bcast_S800000_S800000x1_0 : (⟨S800000, .f32⟩ : BufTy).Contents (Elt F) → (⟨S800000x1, .f32⟩ : BufTy).Contents (Elt F)),
    unary main_v39 main_v40 (broadcastInDim S800000x128 ![0, 1] bcast_S800000x1_S800000x128_0_1 : (⟨S800000x1, .f32⟩ : BufTy).Contents (Elt F) → (⟨S800000x128, .f32⟩ : BufTy).Contents (Elt F)),
    binary main_v38 main_v40 main_v41 (mulf : (⟨S800000x128, .f32⟩ : BufTy).Contents (Elt F) → (⟨S800000x128, .f32⟩ : BufTy).Contents (Elt F) → (⟨S800000x128, .f32⟩ : BufTy).Contents (Elt F)),
    nullary main_cst_8 (constant S_ .f32 0x00000000#32),
    unary main_cst_8 main_v42 (broadcastInDim S50000x128 ![] bcast_S_S50000x128 : (⟨S_, .f32⟩ : BufTy).Contents (Elt F) → (⟨S50000x128, .f32⟩ : BufTy).Contents (Elt F)),
    unary main_v3 main_v43 (broadcastInDim S800000x1 ![0] bcast_S800000_S800000x1_0 : (⟨S800000, .i32⟩ : BufTy).Contents (Elt F) → (⟨S800000x1, .i32⟩ : BufTy).Contents (Elt F)),
    ternary main_v42 main_v43 main_v41 main_v44 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v11 main_v11 main_v45 (mulf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v31 main_v47 main_v48 (mulf : (⟨S50000x128, .f32⟩ : BufTy).Contents (Elt F) → (⟨S50000x128, .f32⟩ : BufTy).Contents (Elt F) → (⟨S50000x128, .f32⟩ : BufTy).Contents (Elt F)),
    binary main_v44 main_v48 main_v49 (addf : (⟨S50000x128, .f32⟩ : BufTy).Contents (Elt F) → (⟨S50000x128, .f32⟩ : BufTy).Contents (Elt F) → (⟨S50000x128, .f32⟩ : BufTy).Contents (Elt F)),
    unary main_v30 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)) ]

/-- Operations 65 to 101: layer 0: the column statistics, the normalisation, the rectifier. -/
abbrev opsB0 : List (HloOp τ sig (Elt F)) :=
  [ nullary main_cst_9 (constant S_ .f32 0x00000000#32),
    binary main_v52 main_cst_9 main_v53 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_10 (constant S_ .f32 0x47435000#32),
    unary main_cst_10 main_v54 (broadcastInDim S128 ![] bcast_S_S128 : (⟨S_, .f32⟩ : BufTy).Contents (Elt F) → (⟨S128, .f32⟩ : BufTy).Contents (Elt F)),
    binary main_v53 main_v54 main_v55 (Host.divf : (⟨S128, .f32⟩ : BufTy).Contents (Elt F) → (⟨S128, .f32⟩ : BufTy).Contents (Elt F) → (⟨S128, .f32⟩ : BufTy).Contents (Elt F)),
    unary main_v55 main_v56 (broadcastInDim S1x128 ![1] bcast_S128_S1x128_1 : (⟨S128, .f32⟩ : BufTy).Contents (Elt F) → (⟨S1x128, .f32⟩ : BufTy).Contents (Elt F)),
    unary main_v56 main_v57 (broadcastInDim S50000x128 ![0, 1] bcast_S1x128_S50000x128_0_1 : (⟨S1x128, .f32⟩ : BufTy).Contents (Elt F) → (⟨S50000x128, .f32⟩ : BufTy).Contents (Elt F)),
    binary main_v52 main_v57 main_v58 (subf : (⟨S50000x128, .f32⟩ : BufTy).Contents (Elt F) → (⟨S50000x128, .f32⟩ : BufTy).Contents (Elt F) → (⟨S50000x128, .f32⟩ : BufTy).Contents (Elt F)),
    binary main_v58 main_v58 main_v59 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v59 main_cst_11 main_v60 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v61 (broadcastInDim S128 ![] bcast_S_S128 : (⟨S_, .f32⟩ : BufTy).Contents (Elt F) → (⟨S128, .f32⟩ : BufTy).Contents (Elt F)),
    binary main_v60 main_v61 main_v62 (Host.divf : (⟨S128, .f32⟩ : BufTy).Contents (Elt F) → (⟨S128, .f32⟩ : BufTy).Contents (Elt F) → (⟨S128, .f32⟩ : BufTy).Contents (Elt F)),
    unary main_v55 main_v63 (broadcastInDim S1x128 ![1] bcast_S128_S1x128_1 : (⟨S128, .f32⟩ : BufTy).Contents (Elt F) → (⟨S1x128, .f32⟩ : BufTy).Contents (Elt F)),
    unary main_v63 main_v64 (broadcastInDim S50000x128 ![0, 1] bcast_S1x128_S50000x128_0_1 : (⟨S1x128, .f32⟩ : BufTy).Contents (Elt F) → (⟨S50000x128, .f32⟩ : BufTy).Contents (Elt F)),
    binary main_v52 main_v64 main_v65 (subf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v66 (broadcastInDim S128 ![] bcast_S_S128 : (⟨S_, .f32⟩ : BufTy).Contents (Elt F) → (⟨S128, .f32⟩ : BufTy).Contents (Elt F)),
    binary main_v62 main_v66 main_v67 (addf : (⟨S128, .f32⟩ : BufTy).Contents (Elt F) → (⟨S128, .f32⟩ : BufTy).Contents (Elt F) → (⟨S128, .f32⟩ : BufTy).Contents (Elt F)),
    unary main_v67 main_v68 (Host.rsqrt : (⟨S128, .f32⟩ : BufTy).Contents (Elt F) → (⟨S128, .f32⟩ : BufTy).Contents (Elt F)),
    unary main_v68 main_v69 (broadcastInDim S1x128 ![1] bcast_S128_S1x128_1 : (⟨S128, .f32⟩ : BufTy).Contents (Elt F) → (⟨S1x128, .f32⟩ : BufTy).Contents (Elt F)),
    unary main_v69 main_v70 (broadcastInDim S50000x128 ![0, 1] bcast_S1x128_S50000x128_0_1 : (⟨S1x128, .f32⟩ : BufTy).Contents (Elt F) → (⟨S50000x128, .f32⟩ : BufTy).Contents (Elt F)),
    binary main_v65 main_v70 main_v71 (mulf : (⟨S50000x128, .f32⟩ : BufTy).Contents (Elt F) → (⟨S50000x128, .f32⟩ : BufTy).Contents (Elt F) → (⟨S50000x128, .f32⟩ : BufTy).Contents (Elt F)),
    unary main_arg3 main_v72 ((extractStridedSlice S1x128 ![0, 0] · slices_S4x128_S1x128_0_0) : (⟨S4x128, .f32⟩ : BufTy).Contents (Elt F) → (⟨S1x128, .f32⟩ : BufTy).Contents (Elt F)),
    reshape main_v72 main_v73 rfl shapeCasts_S1x128_S128,
    unary main_v73 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v71 main_v75 main_v76 (mulf : (⟨S50000x128, .f32⟩ : BufTy).Contents (Elt F) → (⟨S50000x128, .f32⟩ : BufTy).Contents (Elt F) → (⟨S50000x128, .f32⟩ : BufTy).Contents (Elt F)),
    unary main_arg4 main_v77 ((extractStridedSlice S1x128 ![0, 0] · slices_S4x128_S1x128_0_0) : (⟨S4x128, .f32⟩ : BufTy).Contents (Elt F) → (⟨S1x128, .f32⟩ : BufTy).Contents (Elt F)),
    reshape main_v77 main_v78 rfl shapeCasts_S1x128_S128,
    unary main_v78 main_v79 (broadcastInDim S1x128 ![1] bcast_S128_S1x128_1 : (⟨S128, .f32⟩ : BufTy).Contents (Elt F) → (⟨S1x128, .f32⟩ : BufTy).Contents (Elt F)),
    unary main_v79 main_v80 (broadcastInDim S50000x128 ![0, 1] bcast_S1x128_S50000x128_0_1 : (⟨S1x128, .f32⟩ : BufTy).Contents (Elt F) → (⟨S50000x128, .f32⟩ : BufTy).Contents (Elt F)),
    binary main_v76 main_v80 main_v81 (addf : (⟨S50000x128, .f32⟩ : BufTy).Contents (Elt F) → (⟨S50000x128, .f32⟩ : BufTy).Contents (Elt F) → (⟨S50000x128, .f32⟩ : BufTy).Contents (Elt F)),
    TRef.nullary main_call0.cst (constant S_ .f32 0x00000000#32),
    TRef.unary main_call0.cst main_call0.v0 (broadcastInDim S50000x128 ![] bcast_S_S50000x128),
    TRef.binary (.of main_v81) main_call0.v0 main_call0.v1 maximumf ]

/-- Operations 102 to 130: layer 1: the parameter slices, the projection, the graph convolution. -/
abbrev opsA1 : List (HloOp τ sig (Elt F)) :=
  [ unary main_arg1 main_v83 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v83 main_v84 rfl shapeCasts_S1x128x128_S128x128,
    unary main_arg2 main_v85 ((extractStridedSlice S1x128 ![1, 0] · slices_S4x128_S1x128_1_0) : (⟨S4x128, .f32⟩ : BufTy).Contents (Elt F) → (⟨S1x128, .f32⟩ : BufTy).Contents (Elt F)),
    reshape main_v85 main_v86 rfl shapeCasts_S1x128_S128,
    binary main_v82 main_v84 main_v87 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_14 (constantI S_ 32 0#32),
    unary main_c_14 main_v88 (broadcastInDim S800000 ![] bcast_S_S800000 : (⟨S_, .i32⟩ : BufTy).Contents (Elt F) → (⟨S800000, .i32⟩ : BufTy).Contents (Elt F)),
    binary main_v1 main_v88 main_v89 (cmpi .slt : (⟨S800000, .i32⟩ : BufTy).Contents (Elt F) → (⟨S800000, .i32⟩ : BufTy).Contents (Elt F) → (⟨S800000, .i1⟩ : BufTy).Contents (Elt F)),
    nullary main_c_15 (constantI S_ 32 50000#32),
    unary main_c_15 main_v90 (broadcastInDim S800000 ![] bcast_S_S800000 : (⟨S_, .i32⟩ : BufTy).Contents (Elt F) → (⟨S800000, .i32⟩ : BufTy).Contents (Elt F)),
    binary main_v1 main_v90 main_v91 (addi : (⟨S800000, .i32⟩ : BufTy).Contents (Elt F) → (⟨S800000, .i32⟩ : BufTy).Contents (Elt F) → (⟨S800000, .i32⟩ : BufTy).Contents (Elt F)),
    ternary main_v89 main_v91 main_v1 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v92 main_v93 (broadcastInDim S800000x1 ![0] bcast_S800000_S800000x1_0 : (⟨S800000, .i32⟩ : BufTy).Contents (Elt F) → (⟨S800000x1, .i32⟩ : BufTy).Contents (Elt F)),
    binary main_v87 main_v93 main_v94 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v26 main_v95 (broadcastInDim S800000x1 ![0] bcast_S800000_S800000x1_0 : (⟨S800000, .f32⟩ : BufTy).Contents (Elt F) → (⟨S800000x1, .f32⟩ : BufTy).Contents (Elt F)),
    unary main_v95 main_v96 (broadcastInDim S800000x128 ![0, 1] bcast_S800000x1_S800000x128_0_1 : (⟨S800000x1, .f32⟩ : BufTy).Contents (Elt F) → (⟨S800000x128, .f32⟩ : BufTy).Contents (Elt F)),
    binary main_v94 main_v96 main_v97 (mulf : (⟨S800000x128, .f32⟩ : BufTy).Contents (Elt F) → (⟨S800000x128, .f32⟩ : BufTy).Contents (Elt F) → (⟨S800000x128, .f32⟩ : BufTy).Contents (Elt F)),
    nullary main_cst_16 (constant S_ .f32 0x00000000#32),
    unary main_cst_16 main_v98 (broadcastInDim S50000x128 ![] bcast_S_S50000x128 : (⟨S_, .f32⟩ : BufTy).Contents (Elt F) → (⟨S50000x128, .f32⟩ : BufTy).Contents (Elt F)),
    unary main_v3 main_v99 (broadcastInDim S800000x1 ![0] bcast_S800000_S800000x1_0 : (⟨S800000, .i32⟩ : BufTy).Contents (Elt F) → (⟨S800000x1, .i32⟩ : BufTy).Contents (Elt F)),
    ternary main_v98 main_v99 main_v97 main_v100 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v11 main_v11 main_v101 (mulf : (⟨S50000, .f32⟩ : BufTy).Contents (Elt F) → (⟨S50000, .f32⟩ : BufTy).Contents (Elt F) → (⟨S50000, .f32⟩ : BufTy).Contents (Elt F)),
    unary main_v101 main_v102 (broadcastInDim S50000x1 ![0] bcast_S50000_S50000x1_0 : (⟨S50000, .f32⟩ : BufTy).Contents (Elt F) → (⟨S50000x1, .f32⟩ : BufTy).Contents (Elt F)),
    unary main_v102 main_v103 (broadcastInDim S50000x128 ![0, 1] bcast_S50000x1_S50000x128_0_1 : (⟨S50000x1, .f32⟩ : BufTy).Contents (Elt F) → (⟨S50000x128, .f32⟩ : BufTy).Contents (Elt F)),
    binary main_v87 main_v103 main_v104 (mulf : (⟨S50000x128, .f32⟩ : BufTy).Contents (Elt F) → (⟨S50000x128, .f32⟩ : BufTy).Contents (Elt F) → (⟨S50000x128, .f32⟩ : BufTy).Contents (Elt F)),
    binary main_v100 main_v104 main_v105 (addf : (⟨S50000x128, .f32⟩ : BufTy).Contents (Elt F) → (⟨S50000x128, .f32⟩ : BufTy).Contents (Elt F) → (⟨S50000x128, .f32⟩ : BufTy).Contents (Elt F)),
    unary main_v86 main_v106 (broadcastInDim S1x128 ![1] bcast_S128_S1x128_1 : (⟨S128, .f32⟩ : BufTy).Contents (Elt F) → (⟨S1x128, .f32⟩ : BufTy).Contents (Elt F)),
    unary main_v106 main_v107 (broadcastInDim S50000x128 ![0, 1] bcast_S1x128_S50000x128_0_1 : (⟨S1x128, .f32⟩ : BufTy).Contents (Elt F) → (⟨S50000x128, .f32⟩ : BufTy).Contents (Elt F)),
    binary main_v105 main_v107 main_v108 (addf : (⟨S50000x128, .f32⟩ : BufTy).Contents (Elt F) → (⟨S50000x128, .f32⟩ : BufTy).Contents (Elt F) → (⟨S50000x128, .f32⟩ : BufTy).Contents (Elt F)) ]

/-- Operations 131 to 167: layer 1: the column statistics, the normalisation, the rectifier. -/
abbrev opsB1 : List (HloOp τ sig (Elt F)) :=
  [ nullary main_cst_17 (constant S_ .f32 0x00000000#32),
    binary main_v108 main_cst_17 main_v109 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_18 (constant S_ .f32 0x47435000#32),
    unary main_cst_18 main_v110 (broadcastInDim S128 ![] bcast_S_S128 : (⟨S_, .f32⟩ : BufTy).Contents (Elt F) → (⟨S128, .f32⟩ : BufTy).Contents (Elt F)),
    binary main_v109 main_v110 main_v111 (Host.divf : (⟨S128, .f32⟩ : BufTy).Contents (Elt F) → (⟨S128, .f32⟩ : BufTy).Contents (Elt F) → (⟨S128, .f32⟩ : BufTy).Contents (Elt F)),
    unary main_v111 main_v112 (broadcastInDim S1x128 ![1] bcast_S128_S1x128_1 : (⟨S128, .f32⟩ : BufTy).Contents (Elt F) → (⟨S1x128, .f32⟩ : BufTy).Contents (Elt F)),
    unary main_v112 main_v113 (broadcastInDim S50000x128 ![0, 1] bcast_S1x128_S50000x128_0_1 : (⟨S1x128, .f32⟩ : BufTy).Contents (Elt F) → (⟨S50000x128, .f32⟩ : BufTy).Contents (Elt F)),
    binary main_v108 main_v113 main_v114 (subf : (⟨S50000x128, .f32⟩ : BufTy).Contents (Elt F) → (⟨S50000x128, .f32⟩ : BufTy).Contents (Elt F) → (⟨S50000x128, .f32⟩ : BufTy).Contents (Elt F)),
    binary main_v114 main_v114 main_v115 (mulf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    binary main_v115 main_cst_19 main_v116 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_20 (constant S_ .f32 0x47435000#32),
    unary main_cst_20 main_v117 (broadcastInDim S128 ![] bcast_S_S128 : (⟨S_, .f32⟩ : BufTy).Contents (Elt F) → (⟨S128, .f32⟩ : BufTy).Contents (Elt F)),
    binary main_v116 main_v117 main_v118 (Host.divf : (⟨S128, .f32⟩ : BufTy).Contents (Elt F) → (⟨S128, .f32⟩ : BufTy).Contents (Elt F) → (⟨S128, .f32⟩ : BufTy).Contents (Elt F)),
    unary main_v111 main_v119 (broadcastInDim S1x128 ![1] bcast_S128_S1x128_1 : (⟨S128, .f32⟩ : BufTy).Contents (Elt F) → (⟨S1x128, .f32⟩ : BufTy).Contents (Elt F)),
    unary main_v119 main_v120 (broadcastInDim S50000x128 ![0, 1] bcast_S1x128_S50000x128_0_1 : (⟨S1x128, .f32⟩ : BufTy).Contents (Elt F) → (⟨S50000x128, .f32⟩ : BufTy).Contents (Elt F)),
    binary main_v108 main_v120 main_v121 (subf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v122 (broadcastInDim S128 ![] bcast_S_S128 : (⟨S_, .f32⟩ : BufTy).Contents (Elt F) → (⟨S128, .f32⟩ : BufTy).Contents (Elt F)),
    binary main_v118 main_v122 main_v123 (addf : (⟨S128, .f32⟩ : BufTy).Contents (Elt F) → (⟨S128, .f32⟩ : BufTy).Contents (Elt F) → (⟨S128, .f32⟩ : BufTy).Contents (Elt F)),
    unary main_v123 main_v124 (Host.rsqrt : (⟨S128, .f32⟩ : BufTy).Contents (Elt F) → (⟨S128, .f32⟩ : BufTy).Contents (Elt F)),
    unary main_v124 main_v125 (broadcastInDim S1x128 ![1] bcast_S128_S1x128_1 : (⟨S128, .f32⟩ : BufTy).Contents (Elt F) → (⟨S1x128, .f32⟩ : BufTy).Contents (Elt F)),
    unary main_v125 main_v126 (broadcastInDim S50000x128 ![0, 1] bcast_S1x128_S50000x128_0_1 : (⟨S1x128, .f32⟩ : BufTy).Contents (Elt F) → (⟨S50000x128, .f32⟩ : BufTy).Contents (Elt F)),
    binary main_v121 main_v126 main_v127 (mulf : (⟨S50000x128, .f32⟩ : BufTy).Contents (Elt F) → (⟨S50000x128, .f32⟩ : BufTy).Contents (Elt F) → (⟨S50000x128, .f32⟩ : BufTy).Contents (Elt F)),
    unary main_arg3 main_v128 ((extractStridedSlice S1x128 ![1, 0] · slices_S4x128_S1x128_1_0) : (⟨S4x128, .f32⟩ : BufTy).Contents (Elt F) → (⟨S1x128, .f32⟩ : BufTy).Contents (Elt F)),
    reshape main_v128 main_v129 rfl shapeCasts_S1x128_S128,
    unary main_v129 main_v130 (broadcastInDim S1x128 ![1] bcast_S128_S1x128_1 : (⟨S128, .f32⟩ : BufTy).Contents (Elt F) → (⟨S1x128, .f32⟩ : BufTy).Contents (Elt F)),
    unary main_v130 main_v131 (broadcastInDim S50000x128 ![0, 1] bcast_S1x128_S50000x128_0_1 : (⟨S1x128, .f32⟩ : BufTy).Contents (Elt F) → (⟨S50000x128, .f32⟩ : BufTy).Contents (Elt F)),
    binary main_v127 main_v131 main_v132 (mulf : (⟨S50000x128, .f32⟩ : BufTy).Contents (Elt F) → (⟨S50000x128, .f32⟩ : BufTy).Contents (Elt F) → (⟨S50000x128, .f32⟩ : BufTy).Contents (Elt F)),
    unary main_arg4 main_v133 ((extractStridedSlice S1x128 ![1, 0] · slices_S4x128_S1x128_1_0) : (⟨S4x128, .f32⟩ : BufTy).Contents (Elt F) → (⟨S1x128, .f32⟩ : BufTy).Contents (Elt F)),
    reshape main_v133 main_v134 rfl shapeCasts_S1x128_S128,
    unary main_v134 main_v135 (broadcastInDim S1x128 ![1] bcast_S128_S1x128_1 : (⟨S128, .f32⟩ : BufTy).Contents (Elt F) → (⟨S1x128, .f32⟩ : BufTy).Contents (Elt F)),
    unary main_v135 main_v136 (broadcastInDim S50000x128 ![0, 1] bcast_S1x128_S50000x128_0_1 : (⟨S1x128, .f32⟩ : BufTy).Contents (Elt F) → (⟨S50000x128, .f32⟩ : BufTy).Contents (Elt F)),
    binary main_v132 main_v136 main_v137 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v137) main_call1.v0 main_call1.v1 maximumf ]

/-- Operations 168 to 196: layer 2: the parameter slices, the projection, the graph convolution. -/
abbrev opsA2 : List (HloOp τ sig (Elt F)) :=
  [ unary main_arg1 main_v139 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v139 main_v140 rfl shapeCasts_S1x128x128_S128x128,
    unary main_arg2 main_v141 ((extractStridedSlice S1x128 ![2, 0] · slices_S4x128_S1x128_2_0) : (⟨S4x128, .f32⟩ : BufTy).Contents (Elt F) → (⟨S1x128, .f32⟩ : BufTy).Contents (Elt F)),
    reshape main_v141 main_v142 rfl shapeCasts_S1x128_S128,
    binary main_v138 main_v140 main_v143 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_22 (constantI S_ 32 0#32),
    unary main_c_22 main_v144 (broadcastInDim S800000 ![] bcast_S_S800000 : (⟨S_, .i32⟩ : BufTy).Contents (Elt F) → (⟨S800000, .i32⟩ : BufTy).Contents (Elt F)),
    binary main_v1 main_v144 main_v145 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v146 (broadcastInDim S800000 ![] bcast_S_S800000 : (⟨S_, .i32⟩ : BufTy).Contents (Elt F) → (⟨S800000, .i32⟩ : BufTy).Contents (Elt F)),
    binary main_v1 main_v146 main_v147 (addi : (⟨S800000, .i32⟩ : BufTy).Contents (Elt F) → (⟨S800000, .i32⟩ : BufTy).Contents (Elt F) → (⟨S800000, .i32⟩ : BufTy).Contents (Elt F)),
    ternary main_v145 main_v147 main_v1 main_v148 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v148 main_v149 (broadcastInDim S800000x1 ![0] bcast_S800000_S800000x1_0 : (⟨S800000, .i32⟩ : BufTy).Contents (Elt F) → (⟨S800000x1, .i32⟩ : BufTy).Contents (Elt F)),
    binary main_v143 main_v149 main_v150 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v26 main_v151 (broadcastInDim S800000x1 ![0] bcast_S800000_S800000x1_0 : (⟨S800000, .f32⟩ : BufTy).Contents (Elt F) → (⟨S800000x1, .f32⟩ : BufTy).Contents (Elt F)),
    unary main_v151 main_v152 (broadcastInDim S800000x128 ![0, 1] bcast_S800000x1_S800000x128_0_1 : (⟨S800000x1, .f32⟩ : BufTy).Contents (Elt F) → (⟨S800000x128, .f32⟩ : BufTy).Contents (Elt F)),
    binary main_v150 main_v152 main_v153 (mulf : (⟨S800000x128, .f32⟩ : BufTy).Contents (Elt F) → (⟨S800000x128, .f32⟩ : BufTy).Contents (Elt F) → (⟨S800000x128, .f32⟩ : BufTy).Contents (Elt F)),
    nullary main_cst_24 (constant S_ .f32 0x00000000#32),
    unary main_cst_24 main_v154 (broadcastInDim S50000x128 ![] bcast_S_S50000x128 : (⟨S_, .f32⟩ : BufTy).Contents (Elt F) → (⟨S50000x128, .f32⟩ : BufTy).Contents (Elt F)),
    unary main_v3 main_v155 (broadcastInDim S800000x1 ![0] bcast_S800000_S800000x1_0 : (⟨S800000, .i32⟩ : BufTy).Contents (Elt F) → (⟨S800000x1, .i32⟩ : BufTy).Contents (Elt F)),
    ternary main_v154 main_v155 main_v153 main_v156 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v11 main_v11 main_v157 (mulf : (⟨S50000, .f32⟩ : BufTy).Contents (Elt F) → (⟨S50000, .f32⟩ : BufTy).Contents (Elt F) → (⟨S50000, .f32⟩ : BufTy).Contents (Elt F)),
    unary main_v157 main_v158 (broadcastInDim S50000x1 ![0] bcast_S50000_S50000x1_0 : (⟨S50000, .f32⟩ : BufTy).Contents (Elt F) → (⟨S50000x1, .f32⟩ : BufTy).Contents (Elt F)),
    unary main_v158 main_v159 (broadcastInDim S50000x128 ![0, 1] bcast_S50000x1_S50000x128_0_1 : (⟨S50000x1, .f32⟩ : BufTy).Contents (Elt F) → (⟨S50000x128, .f32⟩ : BufTy).Contents (Elt F)),
    binary main_v143 main_v159 main_v160 (mulf : (⟨S50000x128, .f32⟩ : BufTy).Contents (Elt F) → (⟨S50000x128, .f32⟩ : BufTy).Contents (Elt F) → (⟨S50000x128, .f32⟩ : BufTy).Contents (Elt F)),
    binary main_v156 main_v160 main_v161 (addf : (⟨S50000x128, .f32⟩ : BufTy).Contents (Elt F) → (⟨S50000x128, .f32⟩ : BufTy).Contents (Elt F) → (⟨S50000x128, .f32⟩ : BufTy).Contents (Elt F)),
    unary main_v142 main_v162 (broadcastInDim S1x128 ![1] bcast_S128_S1x128_1 : (⟨S128, .f32⟩ : BufTy).Contents (Elt F) → (⟨S1x128, .f32⟩ : BufTy).Contents (Elt F)),
    unary main_v162 main_v163 (broadcastInDim S50000x128 ![0, 1] bcast_S1x128_S50000x128_0_1 : (⟨S1x128, .f32⟩ : BufTy).Contents (Elt F) → (⟨S50000x128, .f32⟩ : BufTy).Contents (Elt F)),
    binary main_v161 main_v163 main_v164 (addf : (⟨S50000x128, .f32⟩ : BufTy).Contents (Elt F) → (⟨S50000x128, .f32⟩ : BufTy).Contents (Elt F) → (⟨S50000x128, .f32⟩ : BufTy).Contents (Elt F)) ]

/-- Operations 197 to 233: layer 2: the column statistics, the normalisation, the rectifier. -/
abbrev opsB2 : List (HloOp τ sig (Elt F)) :=
  [ nullary main_cst_25 (constant S_ .f32 0x00000000#32),
    binary main_v164 main_cst_25 main_v165 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_26 (constant S_ .f32 0x47435000#32),
    unary main_cst_26 main_v166 (broadcastInDim S128 ![] bcast_S_S128 : (⟨S_, .f32⟩ : BufTy).Contents (Elt F) → (⟨S128, .f32⟩ : BufTy).Contents (Elt F)),
    binary main_v165 main_v166 main_v167 (Host.divf : (⟨S128, .f32⟩ : BufTy).Contents (Elt F) → (⟨S128, .f32⟩ : BufTy).Contents (Elt F) → (⟨S128, .f32⟩ : BufTy).Contents (Elt F)),
    unary main_v167 main_v168 (broadcastInDim S1x128 ![1] bcast_S128_S1x128_1 : (⟨S128, .f32⟩ : BufTy).Contents (Elt F) → (⟨S1x128, .f32⟩ : BufTy).Contents (Elt F)),
    unary main_v168 main_v169 (broadcastInDim S50000x128 ![0, 1] bcast_S1x128_S50000x128_0_1 : (⟨S1x128, .f32⟩ : BufTy).Contents (Elt F) → (⟨S50000x128, .f32⟩ : BufTy).Contents (Elt F)),
    binary main_v164 main_v169 main_v170 (subf : (⟨S50000x128, .f32⟩ : BufTy).Contents (Elt F) → (⟨S50000x128, .f32⟩ : BufTy).Contents (Elt F) → (⟨S50000x128, .f32⟩ : BufTy).Contents (Elt F)),
    binary main_v170 main_v170 main_v171 (mulf : (⟨S50000x128, .f32⟩ : BufTy).Contents (Elt F) → (⟨S50000x128, .f32⟩ : BufTy).Contents (Elt F) → (⟨S50000x128, .f32⟩ : BufTy).Contents (Elt F)),
    nullary main_cst_27 (constant S_ .f32 0x00000000#32),
    binary main_v171 main_cst_27 main_v172 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_28 (constant S_ .f32 0x47435000#32),
    unary main_cst_28 main_v173 (broadcastInDim S128 ![] bcast_S_S128 : (⟨S_, .f32⟩ : BufTy).Contents (Elt F) → (⟨S128, .f32⟩ : BufTy).Contents (Elt F)),
    binary main_v172 main_v173 main_v174 (Host.divf : (⟨S128, .f32⟩ : BufTy).Contents (Elt F) → (⟨S128, .f32⟩ : BufTy).Contents (Elt F) → (⟨S128, .f32⟩ : BufTy).Contents (Elt F)),
    unary main_v167 main_v175 (broadcastInDim S1x128 ![1] bcast_S128_S1x128_1 : (⟨S128, .f32⟩ : BufTy).Contents (Elt F) → (⟨S1x128, .f32⟩ : BufTy).Contents (Elt F)),
    unary main_v175 main_v176 (broadcastInDim S50000x128 ![0, 1] bcast_S1x128_S50000x128_0_1 : (⟨S1x128, .f32⟩ : BufTy).Contents (Elt F) → (⟨S50000x128, .f32⟩ : BufTy).Contents (Elt F)),
    binary main_v164 main_v176 main_v177 (subf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x3727C5AC#32),
    unary main_cst_29 main_v178 (broadcastInDim S128 ![] bcast_S_S128 : (⟨S_, .f32⟩ : BufTy).Contents (Elt F) → (⟨S128, .f32⟩ : BufTy).Contents (Elt F)),
    binary main_v174 main_v178 main_v179 (addf : (⟨S128, .f32⟩ : BufTy).Contents (Elt F) → (⟨S128, .f32⟩ : BufTy).Contents (Elt F) → (⟨S128, .f32⟩ : BufTy).Contents (Elt F)),
    unary main_v179 main_v180 (Host.rsqrt : (⟨S128, .f32⟩ : BufTy).Contents (Elt F) → (⟨S128, .f32⟩ : BufTy).Contents (Elt F)),
    unary main_v180 main_v181 (broadcastInDim S1x128 ![1] bcast_S128_S1x128_1 : (⟨S128, .f32⟩ : BufTy).Contents (Elt F) → (⟨S1x128, .f32⟩ : BufTy).Contents (Elt F)),
    unary main_v181 main_v182 (broadcastInDim S50000x128 ![0, 1] bcast_S1x128_S50000x128_0_1 : (⟨S1x128, .f32⟩ : BufTy).Contents (Elt F) → (⟨S50000x128, .f32⟩ : BufTy).Contents (Elt F)),
    binary main_v177 main_v182 main_v183 (mulf : (⟨S50000x128, .f32⟩ : BufTy).Contents (Elt F) → (⟨S50000x128, .f32⟩ : BufTy).Contents (Elt F) → (⟨S50000x128, .f32⟩ : BufTy).Contents (Elt F)),
    unary main_arg3 main_v184 ((extractStridedSlice S1x128 ![2, 0] · slices_S4x128_S1x128_2_0) : (⟨S4x128, .f32⟩ : BufTy).Contents (Elt F) → (⟨S1x128, .f32⟩ : BufTy).Contents (Elt F)),
    reshape main_v184 main_v185 rfl shapeCasts_S1x128_S128,
    unary main_v185 main_v186 (broadcastInDim S1x128 ![1] bcast_S128_S1x128_1 : (⟨S128, .f32⟩ : BufTy).Contents (Elt F) → (⟨S1x128, .f32⟩ : BufTy).Contents (Elt F)),
    unary main_v186 main_v187 (broadcastInDim S50000x128 ![0, 1] bcast_S1x128_S50000x128_0_1 : (⟨S1x128, .f32⟩ : BufTy).Contents (Elt F) → (⟨S50000x128, .f32⟩ : BufTy).Contents (Elt F)),
    binary main_v183 main_v187 main_v188 (mulf : (⟨S50000x128, .f32⟩ : BufTy).Contents (Elt F) → (⟨S50000x128, .f32⟩ : BufTy).Contents (Elt F) → (⟨S50000x128, .f32⟩ : BufTy).Contents (Elt F)),
    unary main_arg4 main_v189 ((extractStridedSlice S1x128 ![2, 0] · slices_S4x128_S1x128_2_0) : (⟨S4x128, .f32⟩ : BufTy).Contents (Elt F) → (⟨S1x128, .f32⟩ : BufTy).Contents (Elt F)),
    reshape main_v189 main_v190 rfl shapeCasts_S1x128_S128,
    unary main_v190 main_v191 (broadcastInDim S1x128 ![1] bcast_S128_S1x128_1 : (⟨S128, .f32⟩ : BufTy).Contents (Elt F) → (⟨S1x128, .f32⟩ : BufTy).Contents (Elt F)),
    unary main_v191 main_v192 (broadcastInDim S50000x128 ![0, 1] bcast_S1x128_S50000x128_0_1 : (⟨S1x128, .f32⟩ : BufTy).Contents (Elt F) → (⟨S50000x128, .f32⟩ : BufTy).Contents (Elt F)),
    binary main_v188 main_v192 main_v193 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (.of main_v193) main_call2.v0 main_call2.v1 maximumf ]

/-- Operations 234 to 262: layer 3: the parameter slices, the projection, the graph convolution. -/
abbrev opsA3 : List (HloOp τ sig (Elt F)) :=
  [ unary main_arg1 main_v195 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v195 main_v196 rfl shapeCasts_S1x128x128_S128x128,
    unary main_arg2 main_v197 ((extractStridedSlice S1x128 ![3, 0] · slices_S4x128_S1x128_3_0) : (⟨S4x128, .f32⟩ : BufTy).Contents (Elt F) → (⟨S1x128, .f32⟩ : BufTy).Contents (Elt F)),
    reshape main_v197 main_v198 rfl shapeCasts_S1x128_S128,
    binary main_v194 main_v196 main_v199 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_c_30 (constantI S_ 32 0#32),
    unary main_c_30 main_v200 (broadcastInDim S800000 ![] bcast_S_S800000 : (⟨S_, .i32⟩ : BufTy).Contents (Elt F) → (⟨S800000, .i32⟩ : BufTy).Contents (Elt F)),
    binary main_v1 main_v200 main_v201 (cmpi .slt : (⟨S800000, .i32⟩ : BufTy).Contents (Elt F) → (⟨S800000, .i32⟩ : BufTy).Contents (Elt F) → (⟨S800000, .i1⟩ : BufTy).Contents (Elt F)),
    nullary main_c_31 (constantI S_ 32 50000#32),
    unary main_c_31 main_v202 (broadcastInDim S800000 ![] bcast_S_S800000 : (⟨S_, .i32⟩ : BufTy).Contents (Elt F) → (⟨S800000, .i32⟩ : BufTy).Contents (Elt F)),
    binary main_v1 main_v202 main_v203 (addi : (⟨S800000, .i32⟩ : BufTy).Contents (Elt F) → (⟨S800000, .i32⟩ : BufTy).Contents (Elt F) → (⟨S800000, .i32⟩ : BufTy).Contents (Elt F)),
    ternary main_v201 main_v203 main_v1 main_v204 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v204 main_v205 (broadcastInDim S800000x1 ![0] bcast_S800000_S800000x1_0 : (⟨S800000, .i32⟩ : BufTy).Contents (Elt F) → (⟨S800000x1, .i32⟩ : BufTy).Contents (Elt F)),
    binary main_v199 main_v205 main_v206 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v26 main_v207 (broadcastInDim S800000x1 ![0] bcast_S800000_S800000x1_0 : (⟨S800000, .f32⟩ : BufTy).Contents (Elt F) → (⟨S800000x1, .f32⟩ : BufTy).Contents (Elt F)),
    unary main_v207 main_v208 (broadcastInDim S800000x128 ![0, 1] bcast_S800000x1_S800000x128_0_1 : (⟨S800000x1, .f32⟩ : BufTy).Contents (Elt F) → (⟨S800000x128, .f32⟩ : BufTy).Contents (Elt F)),
    binary main_v206 main_v208 main_v209 (mulf : (⟨S800000x128, .f32⟩ : BufTy).Contents (Elt F) → (⟨S800000x128, .f32⟩ : BufTy).Contents (Elt F) → (⟨S800000x128, .f32⟩ : BufTy).Contents (Elt F)),
    nullary main_cst_32 (constant S_ .f32 0x00000000#32),
    unary main_cst_32 main_v210 (broadcastInDim S50000x128 ![] bcast_S_S50000x128 : (⟨S_, .f32⟩ : BufTy).Contents (Elt F) → (⟨S50000x128, .f32⟩ : BufTy).Contents (Elt F)),
    unary main_v3 main_v211 (broadcastInDim S800000x1 ![0] bcast_S800000_S800000x1_0 : (⟨S800000, .i32⟩ : BufTy).Contents (Elt F) → (⟨S800000x1, .i32⟩ : BufTy).Contents (Elt F)),
    ternary main_v210 main_v211 main_v209 main_v212 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v11 main_v11 main_v213 (mulf : (⟨S50000, .f32⟩ : BufTy).Contents (Elt F) → (⟨S50000, .f32⟩ : BufTy).Contents (Elt F) → (⟨S50000, .f32⟩ : BufTy).Contents (Elt F)),
    unary main_v213 main_v214 (broadcastInDim S50000x1 ![0] bcast_S50000_S50000x1_0 : (⟨S50000, .f32⟩ : BufTy).Contents (Elt F) → (⟨S50000x1, .f32⟩ : BufTy).Contents (Elt F)),
    unary main_v214 main_v215 (broadcastInDim S50000x128 ![0, 1] bcast_S50000x1_S50000x128_0_1 : (⟨S50000x1, .f32⟩ : BufTy).Contents (Elt F) → (⟨S50000x128, .f32⟩ : BufTy).Contents (Elt F)),
    binary main_v199 main_v215 main_v216 (mulf : (⟨S50000x128, .f32⟩ : BufTy).Contents (Elt F) → (⟨S50000x128, .f32⟩ : BufTy).Contents (Elt F) → (⟨S50000x128, .f32⟩ : BufTy).Contents (Elt F)),
    binary main_v212 main_v216 main_v217 (addf : (⟨S50000x128, .f32⟩ : BufTy).Contents (Elt F) → (⟨S50000x128, .f32⟩ : BufTy).Contents (Elt F) → (⟨S50000x128, .f32⟩ : BufTy).Contents (Elt F)),
    unary main_v198 main_v218 (broadcastInDim S1x128 ![1] bcast_S128_S1x128_1 : (⟨S128, .f32⟩ : BufTy).Contents (Elt F) → (⟨S1x128, .f32⟩ : BufTy).Contents (Elt F)),
    unary main_v218 main_v219 (broadcastInDim S50000x128 ![0, 1] bcast_S1x128_S50000x128_0_1 : (⟨S1x128, .f32⟩ : BufTy).Contents (Elt F) → (⟨S50000x128, .f32⟩ : BufTy).Contents (Elt F)),
    binary main_v217 main_v219 main_v220 (addf : (⟨S50000x128, .f32⟩ : BufTy).Contents (Elt F) → (⟨S50000x128, .f32⟩ : BufTy).Contents (Elt F) → (⟨S50000x128, .f32⟩ : BufTy).Contents (Elt F)) ]

/-- Operations 263 to 299: layer 3: the column statistics, the normalisation, the rectifier. -/
abbrev opsB3 : List (HloOp τ sig (Elt F)) :=
  [ nullary main_cst_33 (constant S_ .f32 0x00000000#32),
    binary main_v220 main_cst_33 main_v221 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_34 (constant S_ .f32 0x47435000#32),
    unary main_cst_34 main_v222 (broadcastInDim S128 ![] bcast_S_S128 : (⟨S_, .f32⟩ : BufTy).Contents (Elt F) → (⟨S128, .f32⟩ : BufTy).Contents (Elt F)),
    binary main_v221 main_v222 main_v223 (Host.divf : (⟨S128, .f32⟩ : BufTy).Contents (Elt F) → (⟨S128, .f32⟩ : BufTy).Contents (Elt F) → (⟨S128, .f32⟩ : BufTy).Contents (Elt F)),
    unary main_v223 main_v224 (broadcastInDim S1x128 ![1] bcast_S128_S1x128_1 : (⟨S128, .f32⟩ : BufTy).Contents (Elt F) → (⟨S1x128, .f32⟩ : BufTy).Contents (Elt F)),
    unary main_v224 main_v225 (broadcastInDim S50000x128 ![0, 1] bcast_S1x128_S50000x128_0_1 : (⟨S1x128, .f32⟩ : BufTy).Contents (Elt F) → (⟨S50000x128, .f32⟩ : BufTy).Contents (Elt F)),
    binary main_v220 main_v225 main_v226 (subf : (⟨S50000x128, .f32⟩ : BufTy).Contents (Elt F) → (⟨S50000x128, .f32⟩ : BufTy).Contents (Elt F) → (⟨S50000x128, .f32⟩ : BufTy).Contents (Elt F)),
    binary main_v226 main_v226 main_v227 (mulf : (⟨S50000x128, .f32⟩ : BufTy).Contents (Elt F) → (⟨S50000x128, .f32⟩ : BufTy).Contents (Elt F) → (⟨S50000x128, .f32⟩ : BufTy).Contents (Elt F)),
    nullary main_cst_35 (constant S_ .f32 0x00000000#32),
    binary main_v227 main_cst_35 main_v228 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_36 (constant S_ .f32 0x47435000#32),
    unary main_cst_36 main_v229 (broadcastInDim S128 ![] bcast_S_S128 : (⟨S_, .f32⟩ : BufTy).Contents (Elt F) → (⟨S128, .f32⟩ : BufTy).Contents (Elt F)),
    binary main_v228 main_v229 main_v230 (Host.divf : (⟨S128, .f32⟩ : BufTy).Contents (Elt F) → (⟨S128, .f32⟩ : BufTy).Contents (Elt F) → (⟨S128, .f32⟩ : BufTy).Contents (Elt F)),
    unary main_v223 main_v231 (broadcastInDim S1x128 ![1] bcast_S128_S1x128_1 : (⟨S128, .f32⟩ : BufTy).Contents (Elt F) → (⟨S1x128, .f32⟩ : BufTy).Contents (Elt F)),
    unary main_v231 main_v232 (broadcastInDim S50000x128 ![0, 1] bcast_S1x128_S50000x128_0_1 : (⟨S1x128, .f32⟩ : BufTy).Contents (Elt F) → (⟨S50000x128, .f32⟩ : BufTy).Contents (Elt F)),
    binary main_v220 main_v232 main_v233 (subf : (⟨S50000x128, .f32⟩ : BufTy).Contents (Elt F) → (⟨S50000x128, .f32⟩ : BufTy).Contents (Elt F) → (⟨S50000x128, .f32⟩ : BufTy).Contents (Elt F)),
    nullary main_cst_37 (constant S_ .f32 0x3727C5AC#32),
    unary main_cst_37 main_v234 (broadcastInDim S128 ![] bcast_S_S128 : (⟨S_, .f32⟩ : BufTy).Contents (Elt F) → (⟨S128, .f32⟩ : BufTy).Contents (Elt F)),
    binary main_v230 main_v234 main_v235 (addf : (⟨S128, .f32⟩ : BufTy).Contents (Elt F) → (⟨S128, .f32⟩ : BufTy).Contents (Elt F) → (⟨S128, .f32⟩ : BufTy).Contents (Elt F)),
    unary main_v235 main_v236 (Host.rsqrt : (⟨S128, .f32⟩ : BufTy).Contents (Elt F) → (⟨S128, .f32⟩ : BufTy).Contents (Elt F)),
    unary main_v236 main_v237 (broadcastInDim S1x128 ![1] bcast_S128_S1x128_1 : (⟨S128, .f32⟩ : BufTy).Contents (Elt F) → (⟨S1x128, .f32⟩ : BufTy).Contents (Elt F)),
    unary main_v237 main_v238 (broadcastInDim S50000x128 ![0, 1] bcast_S1x128_S50000x128_0_1 : (⟨S1x128, .f32⟩ : BufTy).Contents (Elt F) → (⟨S50000x128, .f32⟩ : BufTy).Contents (Elt F)),
    binary main_v233 main_v238 main_v239 (mulf : (⟨S50000x128, .f32⟩ : BufTy).Contents (Elt F) → (⟨S50000x128, .f32⟩ : BufTy).Contents (Elt F) → (⟨S50000x128, .f32⟩ : BufTy).Contents (Elt F)),
    unary main_arg3 main_v240 ((extractStridedSlice S1x128 ![3, 0] · slices_S4x128_S1x128_3_0) : (⟨S4x128, .f32⟩ : BufTy).Contents (Elt F) → (⟨S1x128, .f32⟩ : BufTy).Contents (Elt F)),
    reshape main_v240 main_v241 rfl shapeCasts_S1x128_S128,
    unary main_v241 main_v242 (broadcastInDim S1x128 ![1] bcast_S128_S1x128_1 : (⟨S128, .f32⟩ : BufTy).Contents (Elt F) → (⟨S1x128, .f32⟩ : BufTy).Contents (Elt F)),
    unary main_v242 main_v243 (broadcastInDim S50000x128 ![0, 1] bcast_S1x128_S50000x128_0_1 : (⟨S1x128, .f32⟩ : BufTy).Contents (Elt F) → (⟨S50000x128, .f32⟩ : BufTy).Contents (Elt F)),
    binary main_v239 main_v243 main_v244 (mulf : (⟨S50000x128, .f32⟩ : BufTy).Contents (Elt F) → (⟨S50000x128, .f32⟩ : BufTy).Contents (Elt F) → (⟨S50000x128, .f32⟩ : BufTy).Contents (Elt F)),
    unary main_arg4 main_v245 ((extractStridedSlice S1x128 ![3, 0] · slices_S4x128_S1x128_3_0) : (⟨S4x128, .f32⟩ : BufTy).Contents (Elt F) → (⟨S1x128, .f32⟩ : BufTy).Contents (Elt F)),
    reshape main_v245 main_v246 rfl shapeCasts_S1x128_S128,
    unary main_v246 main_v247 (broadcastInDim S1x128 ![1] bcast_S128_S1x128_1 : (⟨S128, .f32⟩ : BufTy).Contents (Elt F) → (⟨S1x128, .f32⟩ : BufTy).Contents (Elt F)),
    unary main_v247 main_v248 (broadcastInDim S50000x128 ![0, 1] bcast_S1x128_S50000x128_0_1 : (⟨S1x128, .f32⟩ : BufTy).Contents (Elt F) → (⟨S50000x128, .f32⟩ : BufTy).Contents (Elt F)),
    binary main_v244 main_v248 main_v249 (addf : (⟨S50000x128, .f32⟩ : BufTy).Contents (Elt F) → (⟨S50000x128, .f32⟩ : BufTy).Contents (Elt F) → (⟨S50000x128, .f32⟩ : BufTy).Contents (Elt F)),
    TRef.nullary main_call3.cst (constant S_ .f32 0x00000000#32),
    TRef.unary main_call3.cst main_call3.v0 (broadcastInDim S50000x128 ![] bcast_S_S50000x128),
    TRef.binary (.of main_v249) main_call3.v0 main_call3.v1 maximumf ]

/-- Operations 300 to 319: the pooling over graphs and the classifier. -/
abbrev opsT : List (HloOp τ sig (Elt F)) :=
  [ nullary main_cst_38 (constant S_ .f32 0x00000000#32),
    unary main_cst_38 main_v251 (broadcastInDim S512x128 ![] bcast_S_S512x128 : (⟨S_, .f32⟩ : BufTy).Contents (Elt F) → (⟨S512x128, .f32⟩ : BufTy).Contents (Elt F)),
    unary main_arg8 main_v252 (broadcastInDim S50000x1 ![0] bcast_S50000_S50000x1_0 : (⟨S50000, .i32⟩ : BufTy).Contents (Elt F) → (⟨S50000x1, .i32⟩ : BufTy).Contents (Elt F)),
    ternary main_v251 main_v252 main_v250 main_v253 ((fun x i u => Host.scatterAdd scatter_S512x128_S50000x1_S50000x128_1_0_0_1 x i u) : (⟨S512x128, .f32⟩ : BufTy).Contents (Elt F) → (⟨S50000x1, .i32⟩ : BufTy).Contents (Elt F) → (⟨S50000x128, .f32⟩ : BufTy).Contents (Elt F) → (⟨S512x128, .f32⟩ : BufTy).Contents (Elt F)),
    nullary main_cst_39 (constant S_ .f32 0x3F800000#32),
    unary main_cst_39 main_v254 (broadcastInDim S50000 ![] bcast_S_S50000 : (⟨S_, .f32⟩ : BufTy).Contents (Elt F) → (⟨S50000, .f32⟩ : BufTy).Contents (Elt F)),
    nullary main_cst_40 (constant S_ .f32 0x00000000#32),
    unary main_cst_40 main_v255 (broadcastInDim S512 ![] bcast_S_S512 : (⟨S_, .f32⟩ : BufTy).Contents (Elt F) → (⟨S512, .f32⟩ : BufTy).Contents (Elt F)),
    unary main_arg8 main_v256 (broadcastInDim S50000x1 ![0] bcast_S50000_S50000x1_0 : (⟨S50000, .i32⟩ : BufTy).Contents (Elt F) → (⟨S50000x1, .i32⟩ : BufTy).Contents (Elt F)),
    ternary main_v255 main_v256 main_v254 main_v257 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    nullary main_cst_41 (constant S_ .f32 0x3F800000#32),
    unary main_cst_41 main_v258 (broadcastInDim S512 ![] bcast_S_S512 : (⟨S_, .f32⟩ : BufTy).Contents (Elt F) → (⟨S512, .f32⟩ : BufTy).Contents (Elt F)),
    binary main_v257 main_v258 main_v259 (maximumf : (⟨S512, .f32⟩ : BufTy).Contents (Elt F) → (⟨S512, .f32⟩ : BufTy).Contents (Elt F) → (⟨S512, .f32⟩ : BufTy).Contents (Elt F)),
    unary main_v259 main_v260 (broadcastInDim S512x1 ![0] bcast_S512_S512x1_0 : (⟨S512, .f32⟩ : BufTy).Contents (Elt F) → (⟨S512x1, .f32⟩ : BufTy).Contents (Elt F)),
    unary main_v260 main_v261 (broadcastInDim S512x128 ![0, 1] bcast_S512x1_S512x128_0_1 : (⟨S512x1, .f32⟩ : BufTy).Contents (Elt F) → (⟨S512x128, .f32⟩ : BufTy).Contents (Elt F)),
    binary main_v253 main_v261 main_v262 (Host.divf : (⟨S512x128, .f32⟩ : BufTy).Contents (Elt F) → (⟨S512x128, .f32⟩ : BufTy).Contents (Elt F) → (⟨S512x128, .f32⟩ : BufTy).Contents (Elt F)),
    binary main_v262 main_arg5 main_v263 ((fun l r => Host.dotGeneral dot_S512x128_S128x10_S512x10_1_0_0_1_n_n none l r) : (⟨S512x128, .f32⟩ : BufTy).Contents (Elt F) → (⟨S128x10, .f32⟩ : BufTy).Contents (Elt F) → (⟨S512x10, .f32⟩ : BufTy).Contents (Elt F)),
    unary main_arg6 main_v264 (broadcastInDim S1x10 ![1] bcast_S10_S1x10_1 : (⟨S10, .f32⟩ : BufTy).Contents (Elt F) → (⟨S1x10, .f32⟩ : BufTy).Contents (Elt F)),
    unary main_v264 main_v265 (broadcastInDim S512x10 ![0, 1] bcast_S1x10_S512x10_0_1 : (⟨S1x10, .f32⟩ : BufTy).Contents (Elt F) → (⟨S512x10, .f32⟩ : BufTy).Contents (Elt F)),
    binary main_v263 main_v265 main_v266 (addf : (⟨S512x10, .f32⟩ : BufTy).Contents (Elt F) → (⟨S512x10, .f32⟩ : BufTy).Contents (Elt F) → (⟨S512x10, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

/-- Every weakly fair execution of @main terminates, nothing faulting, each buffer at the fold of the 319 operations over
    the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The line is its ten pieces in order. -/
theorem ops_split : (ops : List (HloOp τ sig (Elt F))) =
    opsP ++ (opsA0 ++ (opsB0 ++ (opsA1 ++ (opsB1 ++ (opsA2 ++ (opsB2 ++ (opsA3 ++ (opsB3 ++ opsT)))))))) := rfl

/-- The fold over two lines one after the other is the fold over the second from where the first ends. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over the whole line, piece by piece. -/
theorem after_ops (V : Valuation τ sig (Elt F)) :
    after ops V = after opsT (after opsB3 (after opsA3 (after opsB2 (after opsA2 (after opsB1 (after opsA1 (after opsB0 (after opsA0 (after opsP V))))))))) := by
  rw [ops_split]; simp only [after_append]

end Cert.ReferenceIdeal.Fold

end
-- ==== Proof.RefStages.lean ====
/-
  The reference's ten pieces read one at a time, each from arbitrary starting contents `V`: what a piece leaves in the
  buffer it is there to compute, as the shared stage function of what it reads, and that it leaves the buffers later
  pieces still read as they were. Two pieces make a layer (`refLayer`); the whole line at the result buffer is
  `refOut` of the nine argument arrays.
-/
import proofs.«167957_j84052509983292_1_alg».proof.Proof.RefFold
import proofs.«167957_j84052509983292_1_alg».proof.Proof.Network

set_option maxRecDepth 8192

noncomputable section

namespace Cert.ReferenceIdeal.Fold

open Cert.ReferenceIdeal Cert.ReferenceIdeal.Gen Idealize.ShloMosaic Idealize.ShloMosaic.TcCoe Idealize.SL.Sem Idealize.ShloMosaic.StableHlo Cert.Spec

variable (V : Valuation τ sig (Elt Ideal))

/-! ## The prelude -/
theorem P_v1 : after (opsP (F := Ideal)) V (Proc.devRef .tc main_v1) = srcOf (F := Ideal) (V (Proc.devRef .tc main_arg7)) := by after_results_simp <;> rfl
theorem P_v3 : after (opsP (F := Ideal)) V (Proc.devRef .tc main_v3) = dstOf (F := Ideal) (V (Proc.devRef .tc main_arg7)) := by after_results_simp <;> rfl
theorem P_v11 : after (opsP (F := Ideal)) V (Proc.devRef .tc main_v11) = dinvOf (F := Ideal) (dstOf (F := Ideal) (V (Proc.devRef .tc main_arg7))) := by after_results_simp <;> rfl
theorem P_v26 : after (opsP (F := Ideal)) V (Proc.devRef .tc main_v26) = normE (V (Proc.devRef .tc main_arg7)) := by after_results_simp <;> rfl
theorem P_keep_arg0 : after (opsP (F := Ideal)) V (Proc.devRef .tc main_arg0) = V (Proc.devRef .tc main_arg0) := by after_results_simp <;> rfl
theorem P_keep_arg1 : after (opsP (F := Ideal)) V (Proc.devRef .tc main_arg1) = V (Proc.devRef .tc main_arg1) := by after_results_simp <;> rfl
theorem P_keep_arg2 : after (opsP (F := Ideal)) V (Proc.devRef .tc main_arg2) = V (Proc.devRef .tc main_arg2) := by after_results_simp <;> rfl
theorem P_keep_arg3 : after (opsP (F := Ideal)) V (Proc.devRef .tc main_arg3) = V (Proc.devRef .tc main_arg3) := by after_results_simp <;> rfl
theorem P_keep_arg4 : after (opsP (F := Ideal)) V (Proc.devRef .tc main_arg4) = V (Proc.devRef .tc main_arg4) := by after_results_simp <;> rfl
theorem P_keep_arg5 : after (opsP (F := Ideal)) V (Proc.devRef .tc main_arg5) = V (Proc.devRef .tc main_arg5) := by after_results_simp <;> rfl
theorem P_keep_arg6 : after (opsP (F := Ideal)) V (Proc.devRef .tc main_arg6) = V (Proc.devRef .tc main_arg6) := by after_results_simp <;> rfl
theorem P_keep_arg8 : after (opsP (F := Ideal)) V (Proc.devRef .tc main_arg8) = V (Proc.devRef .tc main_arg8) := by after_results_simp <;> rfl

/-! ## Layer 0 -/
theorem A0_c : after (opsA0 (F := Ideal)) V (Proc.devRef .tc main_v52) = comb (F := Ideal) (proj (F := Ideal) (V (Proc.devRef .tc main_arg0)) (wOf0 (F := Ideal) (V (Proc.devRef .tc main_arg1)))) (bOf0 (F := Ideal) (V (Proc.devRef .tc main_arg2))) (V (Proc.devRef .tc main_v1)) (V (Proc.devRef .tc main_v3)) (V (Proc.devRef .tc main_v26)) (mulf (V (Proc.devRef .tc main_v11)) (V (Proc.devRef .tc main_v11)) : FVec Ideal S50000 .f32) := by after_results_simp <;> rfl
theorem B0_x : after (opsB0 (F := Ideal)) V (Proc.devRef .tc main_v82) = refNorm (V (Proc.devRef .tc main_v52)) (meanOf (F := Ideal) (V (Proc.devRef .tc main_v52))) (rOf (F := Ideal) (V (Proc.devRef .tc main_v52))) (gOf0 (F := Ideal) (V (Proc.devRef .tc main_arg3))) (tOf0 (F := Ideal) (V (Proc.devRef .tc main_arg4))) := by after_results_simp <;> rfl
theorem A0_keep_v1 : after (opsA0 (F := Ideal)) V (Proc.devRef .tc main_v1) = V (Proc.devRef .tc main_v1) := by after_results_simp <;> rfl
theorem B0_keep_v1 : after (opsB0 (F := Ideal)) V (Proc.devRef .tc main_v1) = V (Proc.devRef .tc main_v1) := by after_results_simp <;> rfl
theorem A0_keep_v3 : after (opsA0 (F := Ideal)) V (Proc.devRef .tc main_v3) = V (Proc.devRef .tc main_v3) := by after_results_simp <;> rfl
theorem B0_keep_v3 : after (opsB0 (F := Ideal)) V (Proc.devRef .tc main_v3) = V (Proc.devRef .tc main_v3) := by after_results_simp <;> rfl
theorem A0_keep_v11 : after (opsA0 (F := Ideal)) V (Proc.devRef .tc main_v11) = V (Proc.devRef .tc main_v11) := by after_results_simp <;> rfl
theorem B0_keep_v11 : after (opsB0 (F := Ideal)) V (Proc.devRef .tc main_v11) = V (Proc.devRef .tc main_v11) := by after_results_simp <;> rfl
theorem A0_keep_v26 : after (opsA0 (F := Ideal)) V (Proc.devRef .tc main_v26) = V (Proc.devRef .tc main_v26) := by after_results_simp <;> rfl
theorem B0_keep_v26 : after (opsB0 (F := Ideal)) V (Proc.devRef .tc main_v26) = V (Proc.devRef .tc main_v26) := by after_results_simp <;> rfl
theorem A0_keep_arg1 : after (opsA0 (F := Ideal)) V (Proc.devRef .tc main_arg1) = V (Proc.devRef .tc main_arg1) := by after_results_simp <;> rfl
theorem B0_keep_arg1 : after (opsB0 (F := Ideal)) V (Proc.devRef .tc main_arg1) = V (Proc.devRef .tc main_arg1) := by after_results_simp <;> rfl
theorem A0_keep_arg2 : after (opsA0 (F := Ideal)) V (Proc.devRef .tc main_arg2) = V (Proc.devRef .tc main_arg2) := by after_results_simp <;> rfl
theorem B0_keep_arg2 : after (opsB0 (F := Ideal)) V (Proc.devRef .tc main_arg2) = V (Proc.devRef .tc main_arg2) := by after_results_simp <;> rfl
theorem A0_keep_arg3 : after (opsA0 (F := Ideal)) V (Proc.devRef .tc main_arg3) = V (Proc.devRef .tc main_arg3) := by after_results_simp <;> rfl
theorem B0_keep_arg3 : after (opsB0 (F := Ideal)) V (Proc.devRef .tc main_arg3) = V (Proc.devRef .tc main_arg3) := by after_results_simp <;> rfl
theorem A0_keep_arg4 : after (opsA0 (F := Ideal)) V (Proc.devRef .tc main_arg4) = V (Proc.devRef .tc main_arg4) := by after_results_simp <;> rfl
theorem B0_keep_arg4 : after (opsB0 (F := Ideal)) V (Proc.devRef .tc main_arg4) = V (Proc.devRef .tc main_arg4) := by after_results_simp <;> rfl
theorem A0_keep_arg5 : after (opsA0 (F := Ideal)) V (Proc.devRef .tc main_arg5) = V (Proc.devRef .tc main_arg5) := by after_results_simp <;> rfl
theorem B0_keep_arg5 : after (opsB0 (F := Ideal)) V (Proc.devRef .tc main_arg5) = V (Proc.devRef .tc main_arg5) := by after_results_simp <;> rfl
theorem A0_keep_arg6 : after (opsA0 (F := Ideal)) V (Proc.devRef .tc main_arg6) = V (Proc.devRef .tc main_arg6) := by after_results_simp <;> rfl
theorem B0_keep_arg6 : after (opsB0 (F := Ideal)) V (Proc.devRef .tc main_arg6) = V (Proc.devRef .tc main_arg6) := by after_results_simp <;> rfl
theorem A0_keep_arg8 : after (opsA0 (F := Ideal)) V (Proc.devRef .tc main_arg8) = V (Proc.devRef .tc main_arg8) := by after_results_simp <;> rfl
theorem B0_keep_arg8 : after (opsB0 (F := Ideal)) V (Proc.devRef .tc main_arg8) = V (Proc.devRef .tc main_arg8) := by after_results_simp <;> rfl
/-- Layer 0 from any starting contents: the reference's layer function of what it reads. -/
theorem L0_x : after (opsB0 (F := Ideal)) (after (opsA0 (F := Ideal)) V) (Proc.devRef .tc main_v82) = refLayer (V (Proc.devRef .tc main_arg0)) (wOf0 (F := Ideal) (V (Proc.devRef .tc main_arg1))) (bOf0 (F := Ideal) (V (Proc.devRef .tc main_arg2))) (gOf0 (F := Ideal) (V (Proc.devRef .tc main_arg3))) (tOf0 (F := Ideal) (V (Proc.devRef .tc main_arg4))) (V (Proc.devRef .tc main_v1)) (V (Proc.devRef .tc main_v3)) (V (Proc.devRef .tc main_v26)) (mulf (V (Proc.devRef .tc main_v11)) (V (Proc.devRef .tc main_v11)) : FVec Ideal S50000 .f32) := by
  rw [B0_x, A0_c, A0_keep_arg3, A0_keep_arg4]; rfl
theorem L0_keep_v1 : after (opsB0 (F := Ideal)) (after (opsA0 (F := Ideal)) V) (Proc.devRef .tc main_v1) = V (Proc.devRef .tc main_v1) := by rw [B0_keep_v1, A0_keep_v1]
theorem L0_keep_v3 : after (opsB0 (F := Ideal)) (after (opsA0 (F := Ideal)) V) (Proc.devRef .tc main_v3) = V (Proc.devRef .tc main_v3) := by rw [B0_keep_v3, A0_keep_v3]
theorem L0_keep_v11 : after (opsB0 (F := Ideal)) (after (opsA0 (F := Ideal)) V) (Proc.devRef .tc main_v11) = V (Proc.devRef .tc main_v11) := by rw [B0_keep_v11, A0_keep_v11]
theorem L0_keep_v26 : after (opsB0 (F := Ideal)) (after (opsA0 (F := Ideal)) V) (Proc.devRef .tc main_v26) = V (Proc.devRef .tc main_v26) := by rw [B0_keep_v26, A0_keep_v26]
theorem L0_keep_arg1 : after (opsB0 (F := Ideal)) (after (opsA0 (F := Ideal)) V) (Proc.devRef .tc main_arg1) = V (Proc.devRef .tc main_arg1) := by rw [B0_keep_arg1, A0_keep_arg1]
theorem L0_keep_arg2 : after (opsB0 (F := Ideal)) (after (opsA0 (F := Ideal)) V) (Proc.devRef .tc main_arg2) = V (Proc.devRef .tc main_arg2) := by rw [B0_keep_arg2, A0_keep_arg2]
theorem L0_keep_arg3 : after (opsB0 (F := Ideal)) (after (opsA0 (F := Ideal)) V) (Proc.devRef .tc main_arg3) = V (Proc.devRef .tc main_arg3) := by rw [B0_keep_arg3, A0_keep_arg3]
theorem L0_keep_arg4 : after (opsB0 (F := Ideal)) (after (opsA0 (F := Ideal)) V) (Proc.devRef .tc main_arg4) = V (Proc.devRef .tc main_arg4) := by rw [B0_keep_arg4, A0_keep_arg4]
theorem L0_keep_arg5 : after (opsB0 (F := Ideal)) (after (opsA0 (F := Ideal)) V) (Proc.devRef .tc main_arg5) = V (Proc.devRef .tc main_arg5) := by rw [B0_keep_arg5, A0_keep_arg5]
theorem L0_keep_arg6 : after (opsB0 (F := Ideal)) (after (opsA0 (F := Ideal)) V) (Proc.devRef .tc main_arg6) = V (Proc.devRef .tc main_arg6) := by rw [B0_keep_arg6, A0_keep_arg6]
theorem L0_keep_arg8 : after (opsB0 (F := Ideal)) (after (opsA0 (F := Ideal)) V) (Proc.devRef .tc main_arg8) = V (Proc.devRef .tc main_arg8) := by rw [B0_keep_arg8, A0_keep_arg8]

/-! ## Layer 1 -/
theorem A1_c : after (opsA1 (F := Ideal)) V (Proc.devRef .tc main_v108) = comb (F := Ideal) (proj (F := Ideal) (V (Proc.devRef .tc main_v82)) (wOf1 (F := Ideal) (V (Proc.devRef .tc main_arg1)))) (bOf1 (F := Ideal) (V (Proc.devRef .tc main_arg2))) (V (Proc.devRef .tc main_v1)) (V (Proc.devRef .tc main_v3)) (V (Proc.devRef .tc main_v26)) (mulf (V (Proc.devRef .tc main_v11)) (V (Proc.devRef .tc main_v11)) : FVec Ideal S50000 .f32) := by after_results_simp <;> rfl
theorem B1_x : after (opsB1 (F := Ideal)) V (Proc.devRef .tc main_v138) = refNorm (V (Proc.devRef .tc main_v108)) (meanOf (F := Ideal) (V (Proc.devRef .tc main_v108))) (rOf (F := Ideal) (V (Proc.devRef .tc main_v108))) (gOf1 (F := Ideal) (V (Proc.devRef .tc main_arg3))) (tOf1 (F := Ideal) (V (Proc.devRef .tc main_arg4))) := by after_results_simp <;> rfl
theorem A1_keep_v1 : after (opsA1 (F := Ideal)) V (Proc.devRef .tc main_v1) = V (Proc.devRef .tc main_v1) := by after_results_simp <;> rfl
theorem B1_keep_v1 : after (opsB1 (F := Ideal)) V (Proc.devRef .tc main_v1) = V (Proc.devRef .tc main_v1) := by after_results_simp <;> rfl
theorem A1_keep_v3 : after (opsA1 (F := Ideal)) V (Proc.devRef .tc main_v3) = V (Proc.devRef .tc main_v3) := by after_results_simp <;> rfl
theorem B1_keep_v3 : after (opsB1 (F := Ideal)) V (Proc.devRef .tc main_v3) = V (Proc.devRef .tc main_v3) := by after_results_simp <;> rfl
theorem A1_keep_v11 : after (opsA1 (F := Ideal)) V (Proc.devRef .tc main_v11) = V (Proc.devRef .tc main_v11) := by after_results_simp <;> rfl
theorem B1_keep_v11 : after (opsB1 (F := Ideal)) V (Proc.devRef .tc main_v11) = V (Proc.devRef .tc main_v11) := by after_results_simp <;> rfl
theorem A1_keep_v26 : after (opsA1 (F := Ideal)) V (Proc.devRef .tc main_v26) = V (Proc.devRef .tc main_v26) := by after_results_simp <;> rfl
theorem B1_keep_v26 : after (opsB1 (F := Ideal)) V (Proc.devRef .tc main_v26) = V (Proc.devRef .tc main_v26) := by after_results_simp <;> rfl
theorem A1_keep_arg1 : after (opsA1 (F := Ideal)) V (Proc.devRef .tc main_arg1) = V (Proc.devRef .tc main_arg1) := by after_results_simp <;> rfl
theorem B1_keep_arg1 : after (opsB1 (F := Ideal)) V (Proc.devRef .tc main_arg1) = V (Proc.devRef .tc main_arg1) := by after_results_simp <;> rfl
theorem A1_keep_arg2 : after (opsA1 (F := Ideal)) V (Proc.devRef .tc main_arg2) = V (Proc.devRef .tc main_arg2) := by after_results_simp <;> rfl
theorem B1_keep_arg2 : after (opsB1 (F := Ideal)) V (Proc.devRef .tc main_arg2) = V (Proc.devRef .tc main_arg2) := by after_results_simp <;> rfl
theorem A1_keep_arg3 : after (opsA1 (F := Ideal)) V (Proc.devRef .tc main_arg3) = V (Proc.devRef .tc main_arg3) := by after_results_simp <;> rfl
theorem B1_keep_arg3 : after (opsB1 (F := Ideal)) V (Proc.devRef .tc main_arg3) = V (Proc.devRef .tc main_arg3) := by after_results_simp <;> rfl
theorem A1_keep_arg4 : after (opsA1 (F := Ideal)) V (Proc.devRef .tc main_arg4) = V (Proc.devRef .tc main_arg4) := by after_results_simp <;> rfl
theorem B1_keep_arg4 : after (opsB1 (F := Ideal)) V (Proc.devRef .tc main_arg4) = V (Proc.devRef .tc main_arg4) := by after_results_simp <;> rfl
theorem A1_keep_arg5 : after (opsA1 (F := Ideal)) V (Proc.devRef .tc main_arg5) = V (Proc.devRef .tc main_arg5) := by after_results_simp <;> rfl
theorem B1_keep_arg5 : after (opsB1 (F := Ideal)) V (Proc.devRef .tc main_arg5) = V (Proc.devRef .tc main_arg5) := by after_results_simp <;> rfl
theorem A1_keep_arg6 : after (opsA1 (F := Ideal)) V (Proc.devRef .tc main_arg6) = V (Proc.devRef .tc main_arg6) := by after_results_simp <;> rfl
theorem B1_keep_arg6 : after (opsB1 (F := Ideal)) V (Proc.devRef .tc main_arg6) = V (Proc.devRef .tc main_arg6) := by after_results_simp <;> rfl
theorem A1_keep_arg8 : after (opsA1 (F := Ideal)) V (Proc.devRef .tc main_arg8) = V (Proc.devRef .tc main_arg8) := by after_results_simp <;> rfl
theorem B1_keep_arg8 : after (opsB1 (F := Ideal)) V (Proc.devRef .tc main_arg8) = V (Proc.devRef .tc main_arg8) := by after_results_simp <;> rfl
/-- Layer 1 from any starting contents: the reference's layer function of what it reads. -/
theorem L1_x : after (opsB1 (F := Ideal)) (after (opsA1 (F := Ideal)) V) (Proc.devRef .tc main_v138) = refLayer (V (Proc.devRef .tc main_v82)) (wOf1 (F := Ideal) (V (Proc.devRef .tc main_arg1))) (bOf1 (F := Ideal) (V (Proc.devRef .tc main_arg2))) (gOf1 (F := Ideal) (V (Proc.devRef .tc main_arg3))) (tOf1 (F := Ideal) (V (Proc.devRef .tc main_arg4))) (V (Proc.devRef .tc main_v1)) (V (Proc.devRef .tc main_v3)) (V (Proc.devRef .tc main_v26)) (mulf (V (Proc.devRef .tc main_v11)) (V (Proc.devRef .tc main_v11)) : FVec Ideal S50000 .f32) := by
  rw [B1_x, A1_c, A1_keep_arg3, A1_keep_arg4]; rfl
theorem L1_keep_v1 : after (opsB1 (F := Ideal)) (after (opsA1 (F := Ideal)) V) (Proc.devRef .tc main_v1) = V (Proc.devRef .tc main_v1) := by rw [B1_keep_v1, A1_keep_v1]
theorem L1_keep_v3 : after (opsB1 (F := Ideal)) (after (opsA1 (F := Ideal)) V) (Proc.devRef .tc main_v3) = V (Proc.devRef .tc main_v3) := by rw [B1_keep_v3, A1_keep_v3]
theorem L1_keep_v11 : after (opsB1 (F := Ideal)) (after (opsA1 (F := Ideal)) V) (Proc.devRef .tc main_v11) = V (Proc.devRef .tc main_v11) := by rw [B1_keep_v11, A1_keep_v11]
theorem L1_keep_v26 : after (opsB1 (F := Ideal)) (after (opsA1 (F := Ideal)) V) (Proc.devRef .tc main_v26) = V (Proc.devRef .tc main_v26) := by rw [B1_keep_v26, A1_keep_v26]
theorem L1_keep_arg1 : after (opsB1 (F := Ideal)) (after (opsA1 (F := Ideal)) V) (Proc.devRef .tc main_arg1) = V (Proc.devRef .tc main_arg1) := by rw [B1_keep_arg1, A1_keep_arg1]
theorem L1_keep_arg2 : after (opsB1 (F := Ideal)) (after (opsA1 (F := Ideal)) V) (Proc.devRef .tc main_arg2) = V (Proc.devRef .tc main_arg2) := by rw [B1_keep_arg2, A1_keep_arg2]
theorem L1_keep_arg3 : after (opsB1 (F := Ideal)) (after (opsA1 (F := Ideal)) V) (Proc.devRef .tc main_arg3) = V (Proc.devRef .tc main_arg3) := by rw [B1_keep_arg3, A1_keep_arg3]
theorem L1_keep_arg4 : after (opsB1 (F := Ideal)) (after (opsA1 (F := Ideal)) V) (Proc.devRef .tc main_arg4) = V (Proc.devRef .tc main_arg4) := by rw [B1_keep_arg4, A1_keep_arg4]
theorem L1_keep_arg5 : after (opsB1 (F := Ideal)) (after (opsA1 (F := Ideal)) V) (Proc.devRef .tc main_arg5) = V (Proc.devRef .tc main_arg5) := by rw [B1_keep_arg5, A1_keep_arg5]
theorem L1_keep_arg6 : after (opsB1 (F := Ideal)) (after (opsA1 (F := Ideal)) V) (Proc.devRef .tc main_arg6) = V (Proc.devRef .tc main_arg6) := by rw [B1_keep_arg6, A1_keep_arg6]
theorem L1_keep_arg8 : after (opsB1 (F := Ideal)) (after (opsA1 (F := Ideal)) V) (Proc.devRef .tc main_arg8) = V (Proc.devRef .tc main_arg8) := by rw [B1_keep_arg8, A1_keep_arg8]

/-! ## Layer 2 -/
theorem A2_c : after (opsA2 (F := Ideal)) V (Proc.devRef .tc main_v164) = comb (F := Ideal) (proj (F := Ideal) (V (Proc.devRef .tc main_v138)) (wOf2 (F := Ideal) (V (Proc.devRef .tc main_arg1)))) (bOf2 (F := Ideal) (V (Proc.devRef .tc main_arg2))) (V (Proc.devRef .tc main_v1)) (V (Proc.devRef .tc main_v3)) (V (Proc.devRef .tc main_v26)) (mulf (V (Proc.devRef .tc main_v11)) (V (Proc.devRef .tc main_v11)) : FVec Ideal S50000 .f32) := by after_results_simp <;> rfl
theorem B2_x : after (opsB2 (F := Ideal)) V (Proc.devRef .tc main_v194) = refNorm (V (Proc.devRef .tc main_v164)) (meanOf (F := Ideal) (V (Proc.devRef .tc main_v164))) (rOf (F := Ideal) (V (Proc.devRef .tc main_v164))) (gOf2 (F := Ideal) (V (Proc.devRef .tc main_arg3))) (tOf2 (F := Ideal) (V (Proc.devRef .tc main_arg4))) := by after_results_simp <;> rfl
theorem A2_keep_v1 : after (opsA2 (F := Ideal)) V (Proc.devRef .tc main_v1) = V (Proc.devRef .tc main_v1) := by after_results_simp <;> rfl
theorem B2_keep_v1 : after (opsB2 (F := Ideal)) V (Proc.devRef .tc main_v1) = V (Proc.devRef .tc main_v1) := by after_results_simp <;> rfl
theorem A2_keep_v3 : after (opsA2 (F := Ideal)) V (Proc.devRef .tc main_v3) = V (Proc.devRef .tc main_v3) := by after_results_simp <;> rfl
theorem B2_keep_v3 : after (opsB2 (F := Ideal)) V (Proc.devRef .tc main_v3) = V (Proc.devRef .tc main_v3) := by after_results_simp <;> rfl
theorem A2_keep_v11 : after (opsA2 (F := Ideal)) V (Proc.devRef .tc main_v11) = V (Proc.devRef .tc main_v11) := by after_results_simp <;> rfl
theorem B2_keep_v11 : after (opsB2 (F := Ideal)) V (Proc.devRef .tc main_v11) = V (Proc.devRef .tc main_v11) := by after_results_simp <;> rfl
theorem A2_keep_v26 : after (opsA2 (F := Ideal)) V (Proc.devRef .tc main_v26) = V (Proc.devRef .tc main_v26) := by after_results_simp <;> rfl
theorem B2_keep_v26 : after (opsB2 (F := Ideal)) V (Proc.devRef .tc main_v26) = V (Proc.devRef .tc main_v26) := by after_results_simp <;> rfl
theorem A2_keep_arg1 : after (opsA2 (F := Ideal)) V (Proc.devRef .tc main_arg1) = V (Proc.devRef .tc main_arg1) := by after_results_simp <;> rfl
theorem B2_keep_arg1 : after (opsB2 (F := Ideal)) V (Proc.devRef .tc main_arg1) = V (Proc.devRef .tc main_arg1) := by after_results_simp <;> rfl
theorem A2_keep_arg2 : after (opsA2 (F := Ideal)) V (Proc.devRef .tc main_arg2) = V (Proc.devRef .tc main_arg2) := by after_results_simp <;> rfl
theorem B2_keep_arg2 : after (opsB2 (F := Ideal)) V (Proc.devRef .tc main_arg2) = V (Proc.devRef .tc main_arg2) := by after_results_simp <;> rfl
theorem A2_keep_arg3 : after (opsA2 (F := Ideal)) V (Proc.devRef .tc main_arg3) = V (Proc.devRef .tc main_arg3) := by after_results_simp <;> rfl
theorem B2_keep_arg3 : after (opsB2 (F := Ideal)) V (Proc.devRef .tc main_arg3) = V (Proc.devRef .tc main_arg3) := by after_results_simp <;> rfl
theorem A2_keep_arg4 : after (opsA2 (F := Ideal)) V (Proc.devRef .tc main_arg4) = V (Proc.devRef .tc main_arg4) := by after_results_simp <;> rfl
theorem B2_keep_arg4 : after (opsB2 (F := Ideal)) V (Proc.devRef .tc main_arg4) = V (Proc.devRef .tc main_arg4) := by after_results_simp <;> rfl
theorem A2_keep_arg5 : after (opsA2 (F := Ideal)) V (Proc.devRef .tc main_arg5) = V (Proc.devRef .tc main_arg5) := by after_results_simp <;> rfl
theorem B2_keep_arg5 : after (opsB2 (F := Ideal)) V (Proc.devRef .tc main_arg5) = V (Proc.devRef .tc main_arg5) := by after_results_simp <;> rfl
theorem A2_keep_arg6 : after (opsA2 (F := Ideal)) V (Proc.devRef .tc main_arg6) = V (Proc.devRef .tc main_arg6) := by after_results_simp <;> rfl
theorem B2_keep_arg6 : after (opsB2 (F := Ideal)) V (Proc.devRef .tc main_arg6) = V (Proc.devRef .tc main_arg6) := by after_results_simp <;> rfl
theorem A2_keep_arg8 : after (opsA2 (F := Ideal)) V (Proc.devRef .tc main_arg8) = V (Proc.devRef .tc main_arg8) := by after_results_simp <;> rfl
theorem B2_keep_arg8 : after (opsB2 (F := Ideal)) V (Proc.devRef .tc main_arg8) = V (Proc.devRef .tc main_arg8) := by after_results_simp <;> rfl
/-- Layer 2 from any starting contents: the reference's layer function of what it reads. -/
theorem L2_x : after (opsB2 (F := Ideal)) (after (opsA2 (F := Ideal)) V) (Proc.devRef .tc main_v194) = refLayer (V (Proc.devRef .tc main_v138)) (wOf2 (F := Ideal) (V (Proc.devRef .tc main_arg1))) (bOf2 (F := Ideal) (V (Proc.devRef .tc main_arg2))) (gOf2 (F := Ideal) (V (Proc.devRef .tc main_arg3))) (tOf2 (F := Ideal) (V (Proc.devRef .tc main_arg4))) (V (Proc.devRef .tc main_v1)) (V (Proc.devRef .tc main_v3)) (V (Proc.devRef .tc main_v26)) (mulf (V (Proc.devRef .tc main_v11)) (V (Proc.devRef .tc main_v11)) : FVec Ideal S50000 .f32) := by
  rw [B2_x, A2_c, A2_keep_arg3, A2_keep_arg4]; rfl
theorem L2_keep_v1 : after (opsB2 (F := Ideal)) (after (opsA2 (F := Ideal)) V) (Proc.devRef .tc main_v1) = V (Proc.devRef .tc main_v1) := by rw [B2_keep_v1, A2_keep_v1]
theorem L2_keep_v3 : after (opsB2 (F := Ideal)) (after (opsA2 (F := Ideal)) V) (Proc.devRef .tc main_v3) = V (Proc.devRef .tc main_v3) := by rw [B2_keep_v3, A2_keep_v3]
theorem L2_keep_v11 : after (opsB2 (F := Ideal)) (after (opsA2 (F := Ideal)) V) (Proc.devRef .tc main_v11) = V (Proc.devRef .tc main_v11) := by rw [B2_keep_v11, A2_keep_v11]
theorem L2_keep_v26 : after (opsB2 (F := Ideal)) (after (opsA2 (F := Ideal)) V) (Proc.devRef .tc main_v26) = V (Proc.devRef .tc main_v26) := by rw [B2_keep_v26, A2_keep_v26]
theorem L2_keep_arg1 : after (opsB2 (F := Ideal)) (after (opsA2 (F := Ideal)) V) (Proc.devRef .tc main_arg1) = V (Proc.devRef .tc main_arg1) := by rw [B2_keep_arg1, A2_keep_arg1]
theorem L2_keep_arg2 : after (opsB2 (F := Ideal)) (after (opsA2 (F := Ideal)) V) (Proc.devRef .tc main_arg2) = V (Proc.devRef .tc main_arg2) := by rw [B2_keep_arg2, A2_keep_arg2]
theorem L2_keep_arg3 : after (opsB2 (F := Ideal)) (after (opsA2 (F := Ideal)) V) (Proc.devRef .tc main_arg3) = V (Proc.devRef .tc main_arg3) := by rw [B2_keep_arg3, A2_keep_arg3]
theorem L2_keep_arg4 : after (opsB2 (F := Ideal)) (after (opsA2 (F := Ideal)) V) (Proc.devRef .tc main_arg4) = V (Proc.devRef .tc main_arg4) := by rw [B2_keep_arg4, A2_keep_arg4]
theorem L2_keep_arg5 : after (opsB2 (F := Ideal)) (after (opsA2 (F := Ideal)) V) (Proc.devRef .tc main_arg5) = V (Proc.devRef .tc main_arg5) := by rw [B2_keep_arg5, A2_keep_arg5]
theorem L2_keep_arg6 : after (opsB2 (F := Ideal)) (after (opsA2 (F := Ideal)) V) (Proc.devRef .tc main_arg6) = V (Proc.devRef .tc main_arg6) := by rw [B2_keep_arg6, A2_keep_arg6]
theorem L2_keep_arg8 : after (opsB2 (F := Ideal)) (after (opsA2 (F := Ideal)) V) (Proc.devRef .tc main_arg8) = V (Proc.devRef .tc main_arg8) := by rw [B2_keep_arg8, A2_keep_arg8]

/-! ## Layer 3 -/
theorem A3_c : after (opsA3 (F := Ideal)) V (Proc.devRef .tc main_v220) = comb (F := Ideal) (proj (F := Ideal) (V (Proc.devRef .tc main_v194)) (wOf3 (F := Ideal) (V (Proc.devRef .tc main_arg1)))) (bOf3 (F := Ideal) (V (Proc.devRef .tc main_arg2))) (V (Proc.devRef .tc main_v1)) (V (Proc.devRef .tc main_v3)) (V (Proc.devRef .tc main_v26)) (mulf (V (Proc.devRef .tc main_v11)) (V (Proc.devRef .tc main_v11)) : FVec Ideal S50000 .f32) := by after_results_simp <;> rfl
theorem B3_x : after (opsB3 (F := Ideal)) V (Proc.devRef .tc main_v250) = refNorm (V (Proc.devRef .tc main_v220)) (meanOf (F := Ideal) (V (Proc.devRef .tc main_v220))) (rOf (F := Ideal) (V (Proc.devRef .tc main_v220))) (gOf3 (F := Ideal) (V (Proc.devRef .tc main_arg3))) (tOf3 (F := Ideal) (V (Proc.devRef .tc main_arg4))) := by after_results_simp <;> rfl
theorem A3_keep_v1 : after (opsA3 (F := Ideal)) V (Proc.devRef .tc main_v1) = V (Proc.devRef .tc main_v1) := by after_results_simp <;> rfl
theorem B3_keep_v1 : after (opsB3 (F := Ideal)) V (Proc.devRef .tc main_v1) = V (Proc.devRef .tc main_v1) := by after_results_simp <;> rfl
theorem A3_keep_v3 : after (opsA3 (F := Ideal)) V (Proc.devRef .tc main_v3) = V (Proc.devRef .tc main_v3) := by after_results_simp <;> rfl
theorem B3_keep_v3 : after (opsB3 (F := Ideal)) V (Proc.devRef .tc main_v3) = V (Proc.devRef .tc main_v3) := by after_results_simp <;> rfl
theorem A3_keep_v11 : after (opsA3 (F := Ideal)) V (Proc.devRef .tc main_v11) = V (Proc.devRef .tc main_v11) := by after_results_simp <;> rfl
theorem B3_keep_v11 : after (opsB3 (F := Ideal)) V (Proc.devRef .tc main_v11) = V (Proc.devRef .tc main_v11) := by after_results_simp <;> rfl
theorem A3_keep_v26 : after (opsA3 (F := Ideal)) V (Proc.devRef .tc main_v26) = V (Proc.devRef .tc main_v26) := by after_results_simp <;> rfl
theorem B3_keep_v26 : after (opsB3 (F := Ideal)) V (Proc.devRef .tc main_v26) = V (Proc.devRef .tc main_v26) := by after_results_simp <;> rfl
theorem A3_keep_arg1 : after (opsA3 (F := Ideal)) V (Proc.devRef .tc main_arg1) = V (Proc.devRef .tc main_arg1) := by after_results_simp <;> rfl
theorem B3_keep_arg1 : after (opsB3 (F := Ideal)) V (Proc.devRef .tc main_arg1) = V (Proc.devRef .tc main_arg1) := by after_results_simp <;> rfl
theorem A3_keep_arg2 : after (opsA3 (F := Ideal)) V (Proc.devRef .tc main_arg2) = V (Proc.devRef .tc main_arg2) := by after_results_simp <;> rfl
theorem B3_keep_arg2 : after (opsB3 (F := Ideal)) V (Proc.devRef .tc main_arg2) = V (Proc.devRef .tc main_arg2) := by after_results_simp <;> rfl
theorem A3_keep_arg3 : after (opsA3 (F := Ideal)) V (Proc.devRef .tc main_arg3) = V (Proc.devRef .tc main_arg3) := by after_results_simp <;> rfl
theorem B3_keep_arg3 : after (opsB3 (F := Ideal)) V (Proc.devRef .tc main_arg3) = V (Proc.devRef .tc main_arg3) := by after_results_simp <;> rfl
theorem A3_keep_arg4 : after (opsA3 (F := Ideal)) V (Proc.devRef .tc main_arg4) = V (Proc.devRef .tc main_arg4) := by after_results_simp <;> rfl
theorem B3_keep_arg4 : after (opsB3 (F := Ideal)) V (Proc.devRef .tc main_arg4) = V (Proc.devRef .tc main_arg4) := by after_results_simp <;> rfl
theorem A3_keep_arg5 : after (opsA3 (F := Ideal)) V (Proc.devRef .tc main_arg5) = V (Proc.devRef .tc main_arg5) := by after_results_simp <;> rfl
theorem B3_keep_arg5 : after (opsB3 (F := Ideal)) V (Proc.devRef .tc main_arg5) = V (Proc.devRef .tc main_arg5) := by after_results_simp <;> rfl
theorem A3_keep_arg6 : after (opsA3 (F := Ideal)) V (Proc.devRef .tc main_arg6) = V (Proc.devRef .tc main_arg6) := by after_results_simp <;> rfl
theorem B3_keep_arg6 : after (opsB3 (F := Ideal)) V (Proc.devRef .tc main_arg6) = V (Proc.devRef .tc main_arg6) := by after_results_simp <;> rfl
theorem A3_keep_arg8 : after (opsA3 (F := Ideal)) V (Proc.devRef .tc main_arg8) = V (Proc.devRef .tc main_arg8) := by after_results_simp <;> rfl
theorem B3_keep_arg8 : after (opsB3 (F := Ideal)) V (Proc.devRef .tc main_arg8) = V (Proc.devRef .tc main_arg8) := by after_results_simp <;> rfl
/-- Layer 3 from any starting contents: the reference's layer function of what it reads. -/
theorem L3_x : after (opsB3 (F := Ideal)) (after (opsA3 (F := Ideal)) V) (Proc.devRef .tc main_v250) = refLayer (V (Proc.devRef .tc main_v194)) (wOf3 (F := Ideal) (V (Proc.devRef .tc main_arg1))) (bOf3 (F := Ideal) (V (Proc.devRef .tc main_arg2))) (gOf3 (F := Ideal) (V (Proc.devRef .tc main_arg3))) (tOf3 (F := Ideal) (V (Proc.devRef .tc main_arg4))) (V (Proc.devRef .tc main_v1)) (V (Proc.devRef .tc main_v3)) (V (Proc.devRef .tc main_v26)) (mulf (V (Proc.devRef .tc main_v11)) (V (Proc.devRef .tc main_v11)) : FVec Ideal S50000 .f32) := by
  rw [B3_x, A3_c, A3_keep_arg3, A3_keep_arg4]; rfl
theorem L3_keep_v1 : after (opsB3 (F := Ideal)) (after (opsA3 (F := Ideal)) V) (Proc.devRef .tc main_v1) = V (Proc.devRef .tc main_v1) := by rw [B3_keep_v1, A3_keep_v1]
theorem L3_keep_v3 : after (opsB3 (F := Ideal)) (after (opsA3 (F := Ideal)) V) (Proc.devRef .tc main_v3) = V (Proc.devRef .tc main_v3) := by rw [B3_keep_v3, A3_keep_v3]
theorem L3_keep_v11 : after (opsB3 (F := Ideal)) (after (opsA3 (F := Ideal)) V) (Proc.devRef .tc main_v11) = V (Proc.devRef .tc main_v11) := by rw [B3_keep_v11, A3_keep_v11]
theorem L3_keep_v26 : after (opsB3 (F := Ideal)) (after (opsA3 (F := Ideal)) V) (Proc.devRef .tc main_v26) = V (Proc.devRef .tc main_v26) := by rw [B3_keep_v26, A3_keep_v26]
theorem L3_keep_arg1 : after (opsB3 (F := Ideal)) (after (opsA3 (F := Ideal)) V) (Proc.devRef .tc main_arg1) = V (Proc.devRef .tc main_arg1) := by rw [B3_keep_arg1, A3_keep_arg1]
theorem L3_keep_arg2 : after (opsB3 (F := Ideal)) (after (opsA3 (F := Ideal)) V) (Proc.devRef .tc main_arg2) = V (Proc.devRef .tc main_arg2) := by rw [B3_keep_arg2, A3_keep_arg2]
theorem L3_keep_arg3 : after (opsB3 (F := Ideal)) (after (opsA3 (F := Ideal)) V) (Proc.devRef .tc main_arg3) = V (Proc.devRef .tc main_arg3) := by rw [B3_keep_arg3, A3_keep_arg3]
theorem L3_keep_arg4 : after (opsB3 (F := Ideal)) (after (opsA3 (F := Ideal)) V) (Proc.devRef .tc main_arg4) = V (Proc.devRef .tc main_arg4) := by rw [B3_keep_arg4, A3_keep_arg4]
theorem L3_keep_arg5 : after (opsB3 (F := Ideal)) (after (opsA3 (F := Ideal)) V) (Proc.devRef .tc main_arg5) = V (Proc.devRef .tc main_arg5) := by rw [B3_keep_arg5, A3_keep_arg5]
theorem L3_keep_arg6 : after (opsB3 (F := Ideal)) (after (opsA3 (F := Ideal)) V) (Proc.devRef .tc main_arg6) = V (Proc.devRef .tc main_arg6) := by rw [B3_keep_arg6, A3_keep_arg6]
theorem L3_keep_arg8 : after (opsB3 (F := Ideal)) (after (opsA3 (F := Ideal)) V) (Proc.devRef .tc main_arg8) = V (Proc.devRef .tc main_arg8) := by rw [B3_keep_arg8, A3_keep_arg8]

/-! ## The tail, and the whole line -/
theorem T_out : after (opsT (F := Ideal)) V (Proc.devRef .tc main_v266) = clsOf (F := Ideal) (poolOf (F := Ideal) (V (Proc.devRef .tc main_v250)) (V (Proc.devRef .tc main_arg8))) (V (Proc.devRef .tc main_arg5)) (V (Proc.devRef .tc main_arg6)) := by after_results_simp <;> rfl

/-- The reference's fold at its result buffer is `refOut` of the starting contents of the nine arguments. -/
theorem ref_value : after (ops (F := Ideal)) V (Proc.devRef .tc main_v266) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_ops, T_out]
  rw [L3_x, L3_keep_arg8, L3_keep_arg5, L3_keep_arg6]
  rw [L2_x, L2_keep_arg1, L2_keep_arg2, L2_keep_arg3, L2_keep_arg4, L2_keep_v1, L2_keep_v3, L2_keep_v26, L2_keep_v11, L2_keep_arg8, L2_keep_arg5, L2_keep_arg6]
  rw [L1_x, L1_keep_arg1, L1_keep_arg2, L1_keep_arg3, L1_keep_arg4, L1_keep_v1, L1_keep_v3, L1_keep_v26, L1_keep_v11, L1_keep_arg8, L1_keep_arg5, L1_keep_arg6]
  rw [L0_x, L0_keep_arg1, L0_keep_arg2, L0_keep_arg3, L0_keep_arg4, L0_keep_v1, L0_keep_v3, L0_keep_v26, L0_keep_v11, L0_keep_arg8, L0_keep_arg5, L0_keep_arg6]
  rw [P_v1, P_v3, P_v11, P_v26, P_keep_arg0, P_keep_arg1, P_keep_arg2, P_keep_arg3, P_keep_arg4, P_keep_arg5, P_keep_arg6, P_keep_arg8]
  rfl

end Cert.ReferenceIdeal.Fold

end
-- ==== Proof.RefKeep.lean ====
/-
  No operation of the reference's line writes an argument array: the fold over the whole line, read at an argument's
  buffer, is the starting contents. (This is the reference's frame, and the second half of its run's postcondition.)
-/
import proofs.«167957_j84052509983292_1_alg».proof.Proof.RefFold

set_option maxRecDepth 8192

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

theorem ops_keep_arg0 : after (ops (F := F)) V (Proc.devRef .tc main_arg0) = V (Proc.devRef .tc main_arg0) := by after_results_simp <;> rfl
theorem ops_keep_arg1 : after (ops (F := F)) V (Proc.devRef .tc main_arg1) = V (Proc.devRef .tc main_arg1) := by after_results_simp <;> rfl
theorem ops_keep_arg2 : after (ops (F := F)) V (Proc.devRef .tc main_arg2) = V (Proc.devRef .tc main_arg2) := by after_results_simp <;> rfl
theorem ops_keep_arg3 : after (ops (F := F)) V (Proc.devRef .tc main_arg3) = V (Proc.devRef .tc main_arg3) := by after_results_simp <;> rfl
theorem ops_keep_arg4 : after (ops (F := F)) V (Proc.devRef .tc main_arg4) = V (Proc.devRef .tc main_arg4) := by after_results_simp <;> rfl
theorem ops_keep_arg5 : after (ops (F := F)) V (Proc.devRef .tc main_arg5) = V (Proc.devRef .tc main_arg5) := by after_results_simp <;> rfl
theorem ops_keep_arg6 : after (ops (F := F)) V (Proc.devRef .tc main_arg6) = V (Proc.devRef .tc main_arg6) := by after_results_simp <;> rfl
theorem ops_keep_arg7 : after (ops (F := F)) V (Proc.devRef .tc main_arg7) = V (Proc.devRef .tc main_arg7) := by after_results_simp <;> rfl
theorem ops_keep_arg8 : after (ops (F := F)) V (Proc.devRef .tc main_arg8) = V (Proc.devRef .tc main_arg8) := by after_results_simp <;> rfl

end Cert.ReferenceIdeal.Fold

end
-- ==== Proof.LibIdealReal.lean ====
/-
  General lemmas, independent of any one program: "every entry of an array is a real number" (and its
  refinements "a nonnegative real", "a positive real") is carried through the operations of a program read
  at the ideal instance, where a float is an extended real and every operation is the exact one.  The two
  infinities are the only extended reals that are not reals; sums, differences, products and maxima of
  reals are reals, a quotient by a positive real is a real, the reciprocal square root of a positive real
  is a positive real, a real power of a real is a real, a finite sum of reals is a real, and an operation
  that only re-indexes an array (broadcast, reshape, slice, gather) returns entries of its operand.
-/
import Idealize.ShloMosaic.PureOps.Ideal.Laws

namespace Cert.LibIdealReal

open Idealize.ShloMosaic
open scoped BigOperators

/-- Every entry of the array is a real number (neither infinity). -/
def AllReal {s : Shape} {φ : FTy} (v : FVec Ideal s φ) : Prop := ∀ i, ∃ r : ℝ, v i = (r : EReal)

/-- Every entry of the array is a nonnegative real number. -/
def AllNonneg {s : Shape} {φ : FTy} (v : FVec Ideal s φ) : Prop := ∀ i, ∃ r : ℝ, 0 ≤ r ∧ v i = (r : EReal)

/-- Every entry of the array is a positive real number. -/
def AllPos {s : Shape} {φ : FTy} (v : FVec Ideal s φ) : Prop := ∀ i, ∃ r : ℝ, 0 < r ∧ v i = (r : EReal)

section Pointwise
variable {s : Shape} {φ : FTy}

/-- A nonnegative real is a real. -/
theorem AllNonneg.allReal {x : FVec Ideal s φ} (hx : AllNonneg x) : AllReal x :=
  fun i => let ⟨r, _, h⟩ := hx i; ⟨r, h⟩

/-- A positive real is a real. -/
theorem AllPos.allReal {x : FVec Ideal s φ} (hx : AllPos x) : AllReal x :=
  fun i => let ⟨r, _, h⟩ := hx i; ⟨r, h⟩

/-- A positive real is a nonnegative real. -/
theorem AllPos.allNonneg {x : FVec Ideal s φ} (hx : AllPos x) : AllNonneg x :=
  fun i => let ⟨r, hr, h⟩ := hx i; ⟨r, hr.le, h⟩

/-- The sum of two reals is a real: (a : EReal) + (b : EReal) = ((a + b : ℝ) : EReal). -/
theorem allReal_addf {x y : FVec Ideal s φ} (hx : AllReal x) (hy : AllReal y) : AllReal (addf x y) := by
  intro i
  obtain ⟨a, ha⟩ := hx i
  obtain ⟨b, hb⟩ := hy i
  refine ⟨a + b, ?_⟩
  show x i + y i = _
  rw [ha, hb, EReal.coe_add]

/-- The difference of two reals is a real. -/
theorem allReal_subf {x y : FVec Ideal s φ} (hx : AllReal x) (hy : AllReal y) : AllReal (subf x y) := by
  intro i
  obtain ⟨a, ha⟩ := hx i
  obtain ⟨b, hb⟩ := hy i
  refine ⟨a - b, ?_⟩
  show x i - y i = _
  rw [ha, hb, EReal.coe_sub]

/-- The product of two reals is a real. -/
theorem allReal_mulf {x y : FVec Ideal s φ} (hx : AllReal x) (hy : AllReal y) : AllReal (mulf x y) := by
  intro i
  obtain ⟨a, ha⟩ := hx i
  obtain ⟨b, hb⟩ := hy i
  refine ⟨a * b, ?_⟩
  show x i * y i = _
  rw [ha, hb, EReal.coe_mul]

/-- The maximum of two reals is one of them, hence a real. -/
theorem allReal_maximumf {x y : FVec Ideal s φ} (hx : AllReal x) (hy : AllReal y) : AllReal (maximumf x y) := by
  intro i
  obtain ⟨a, ha⟩ := hx i
  obtain ⟨b, hb⟩ := hy i
  show ∃ r : ℝ, max (x i) (y i) = (r : EReal)
  rcases le_total (x i) (y i) with h | h
  · exact ⟨b, by rw [max_eq_right h, hb]⟩
  · exact ⟨a, by rw [max_eq_left h, ha]⟩

/-- The maximum of a real and a nonnegative real is a nonnegative real (the rectifier max(x, 0)). -/
theorem allNonneg_maximumf_right {x y : FVec Ideal s φ} (hx : AllReal x) (hy : AllNonneg y) :
    AllNonneg (maximumf x y) := by
  intro i
  obtain ⟨a, ha⟩ := hx i
  obtain ⟨b, hb0, hb⟩ := hy i
  show ∃ r : ℝ, 0 ≤ r ∧ max (x i) (y i) = (r : EReal)
  rcases le_total (x i) (y i) with h | h
  · exact ⟨b, hb0, by rw [max_eq_right h, hb]⟩
  · refine ⟨a, ?_, by rw [max_eq_left h, ha]⟩
    rw [ha, hb] at h
    exact hb0.trans (EReal.coe_le_coe_iff.mp h)

/-- The square of a real is a nonnegative real. -/
theorem allNonneg_mulf_self {x : FVec Ideal s φ} (hx : AllReal x) : AllNonneg (mulf x x) := by
  intro i
  obtain ⟨a, ha⟩ := hx i
  refine ⟨a * a, mul_self_nonneg a, ?_⟩
  show x i * x i = _
  rw [ha, EReal.coe_mul]

/-- The product of two nonnegative reals is a nonnegative real. -/
theorem allNonneg_mulf {x y : FVec Ideal s φ} (hx : AllNonneg x) (hy : AllNonneg y) : AllNonneg (mulf x y) := by
  intro i
  obtain ⟨a, ha0, ha⟩ := hx i
  obtain ⟨b, hb0, hb⟩ := hy i
  refine ⟨a * b, mul_nonneg ha0 hb0, ?_⟩
  show x i * y i = _
  rw [ha, hb, EReal.coe_mul]

/-- The sum of two nonnegative reals is a nonnegative real. -/
theorem allNonneg_addf {x y : FVec Ideal s φ} (hx : AllNonneg x) (hy : AllNonneg y) : AllNonneg (addf x y) := by
  intro i
  obtain ⟨a, ha0, ha⟩ := hx i
  obtain ⟨b, hb0, hb⟩ := hy i
  refine ⟨a + b, add_nonneg ha0 hb0, ?_⟩
  show x i + y i = _
  rw [ha, hb, EReal.coe_add]

/-- A nonnegative real plus a positive real is a positive real. -/
theorem allPos_addf {x y : FVec Ideal s φ} (hx : AllNonneg x) (hy : AllPos y) : AllPos (addf x y) := by
  intro i
  obtain ⟨a, ha0, ha⟩ := hx i
  obtain ⟨b, hb0, hb⟩ := hy i
  refine ⟨a + b, add_pos_of_nonneg_of_pos ha0 hb0, ?_⟩
  show x i + y i = _
  rw [ha, hb, EReal.coe_add]

/-- A real divided by a positive real is a real: for b ≠ 0 the quotient is the product with 1 / b. -/
theorem allReal_hostDivf {x y : FVec Ideal s φ} (hx : AllReal x) (hy : AllPos y) : AllReal (Host.divf x y) := by
  intro i
  obtain ⟨a, ha⟩ := hx i
  obtain ⟨b, hb0, hb⟩ := hy i
  refine ⟨a * (1 / b), ?_⟩
  show Ideal.div (x i) (y i) = _
  rw [ha, hb, Ideal.div_coe hb0.ne', EReal.coe_mul]

/-- A nonnegative real divided by a positive real is a nonnegative real. -/
theorem allNonneg_hostDivf {x y : FVec Ideal s φ} (hx : AllNonneg x) (hy : AllPos y) :
    AllNonneg (Host.divf x y) := by
  intro i
  obtain ⟨a, ha0, ha⟩ := hx i
  obtain ⟨b, hb0, hb⟩ := hy i
  refine ⟨a * (1 / b), mul_nonneg ha0 (one_div_pos.mpr hb0).le, ?_⟩
  show Ideal.div (x i) (y i) = _
  rw [ha, hb, Ideal.div_coe hb0.ne', EReal.coe_mul]

/-- The reciprocal square root of a positive real r is the positive real (√r)⁻¹. -/
theorem allPos_hostRsqrt {x : FVec Ideal s φ} (hx : AllPos x) : AllPos (Host.rsqrt x) := by
  intro i
  obtain ⟨a, ha0, ha⟩ := hx i
  refine ⟨(Real.sqrt a)⁻¹, inv_pos.mpr (Real.sqrt_pos.mpr ha0), ?_⟩
  show Ideal.rsqrt (x i) = _
  rw [ha, Ideal.rsqrt_coe, if_neg (not_lt.mpr ha0.le), if_neg ha0.ne']

/-- The reciprocal square root of a positive real is a real. -/
theorem allReal_hostRsqrt {x : FVec Ideal s φ} (hx : AllPos x) : AllReal (Host.rsqrt x) :=
  (allPos_hostRsqrt hx).allReal

/-- A real power of a real is a real (the real power function is total on the reals). -/
theorem allReal_hostPowf {x y : FVec Ideal s φ} (hx : AllReal x) (hy : AllReal y) : AllReal (Host.powf x y) := by
  intro i
  obtain ⟨a, ha⟩ := hx i
  obtain ⟨b, hb⟩ := hy i
  refine ⟨Real.rpow a b, ?_⟩
  show Ideal.pow (x i) (y i) = _
  rw [ha, hb, Ideal.pow_coe_coe]

/-- A real power of a positive real is a positive real. -/
theorem allPos_hostPowf {x y : FVec Ideal s φ} (hx : AllPos x) (hy : AllReal y) : AllPos (Host.powf x y) := by
  intro i
  obtain ⟨a, ha0, ha⟩ := hx i
  obtain ⟨b, hb⟩ := hy i
  refine ⟨Real.rpow a b, Real.rpow_pos_of_pos ha0 b, ?_⟩
  show Ideal.pow (x i) (y i) = _
  rw [ha, hb, Ideal.pow_coe_coe]

end Pointwise

section Layout
variable {s t : Shape} {φ : FTy}

/-- Each entry of a broadcast is an entry of the operand: reals stay reals. -/
theorem allReal_broadcastInDim (dims : Fin s.rank → Fin t.rank) (h : s.BroadcastsInDim t dims)
    {x : FVec Ideal s φ} (hx : AllReal x) : AllReal (φ := φ) (broadcastInDim t dims h x) :=
  fun _ => hx _

/-- Each entry of a broadcast is an entry of the operand: nonnegative reals stay nonnegative reals. -/
theorem allNonneg_broadcastInDim (dims : Fin s.rank → Fin t.rank) (h : s.BroadcastsInDim t dims)
    {x : FVec Ideal s φ} (hx : AllNonneg x) : AllNonneg (φ := φ) (broadcastInDim t dims h x) :=
  fun _ => hx _

/-- Each entry of a broadcast is an entry of the operand: positive reals stay positive reals. -/
theorem allPos_broadcastInDim (dims : Fin s.rank → Fin t.rank) (h : s.BroadcastsInDim t dims)
    {x : FVec Ideal s φ} (hx : AllPos x) : AllPos (φ := φ) (broadcastInDim t dims h x) :=
  fun _ => hx _

/-- A reshape holds the same entries in row-major order under another shape: reals stay reals. -/
theorem allReal_shapeCast {x : FVec Ideal s φ} (h : s.ShapeCasts t) (hx : AllReal x) :
    AllReal (φ := φ) (shapeCast t x h) :=
  fun _ => hx _

/-- A reshape holds the same entries: nonnegative reals stay nonnegative reals. -/
theorem allNonneg_shapeCast {x : FVec Ideal s φ} (h : s.ShapeCasts t) (hx : AllNonneg x) :
    AllNonneg (φ := φ) (shapeCast t x h) :=
  fun _ => hx _

/-- A reshape holds the same entries: positive reals stay positive reals. -/
theorem allPos_shapeCast {x : FVec Ideal s φ} (h : s.ShapeCasts t) (hx : AllPos x) :
    AllPos (φ := φ) (shapeCast t x h) :=
  fun _ => hx _

/-- Each entry of a slice is the operand's entry at the offset index: reals stay reals. -/
theorem allReal_extractStridedSlice (off : Fin s.rank → Nat) {x : FVec Ideal s φ} (h : s.Slices off t)
    (hx : AllReal x) : AllReal (φ := φ) (extractStridedSlice t off x h) :=
  fun _ => hx _

/-- Each entry of a slice is an entry of the operand: nonnegative reals stay nonnegative reals. -/
theorem allNonneg_extractStridedSlice (off : Fin s.rank → Nat) {x : FVec Ideal s φ} (h : s.Slices off t)
    (hx : AllNonneg x) : AllNonneg (φ := φ) (extractStridedSlice t off x h) :=
  fun _ => hx _

/-- Each entry of a slice is an entry of the operand: positive reals stay positive reals. -/
theorem allPos_extractStridedSlice (off : Fin s.rank → Nat) {x : FVec Ideal s φ} (h : s.Slices off t)
    (hx : AllPos x) : AllPos (φ := φ) (extractStridedSlice t off x h) :=
  fun _ => hx _

/-- Each entry of a gather is the operand's entry at the (clamped) index the index array names:
    reals stay reals, whatever the indices. -/
theorem allReal_hostGather {si : Shape} {w : Nat} (d : GatherDims s si t) {x : FVec Ideal s φ} (idx : IVec si w)
    (hx : AllReal x) : AllReal (φ := φ) (Host.gather d x idx) :=
  fun _ => hx _

/-- Each entry of a gather is an entry of the operand: nonnegative reals stay nonnegative reals. -/
theorem allNonneg_hostGather {si : Shape} {w : Nat} (d : GatherDims s si t) {x : FVec Ideal s φ} (idx : IVec si w)
    (hx : AllNonneg x) : AllNonneg (φ := φ) (Host.gather d x idx) :=
  fun _ => hx _

/-- Each entry of a gather is an entry of the operand: positive reals stay positive reals. -/
theorem allPos_hostGather {si : Shape} {w : Nat} (d : GatherDims s si t) {x : FVec Ideal s φ} (idx : IVec si w)
    (hx : AllPos x) : AllPos (φ := φ) (Host.gather d x idx) :=
  fun _ => hx _

end Layout

section Sums

/-- A finite sum of reals, each read as an extended real, is the real sum read as an extended real. -/
theorem coe_finset_sum {ι : Type} (S : Finset ι) (f : ι → ℝ) :
    ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A finite sum of extended reals each of which is a real is a real. -/
theorem exists_real_sum {ι : Type} (S : Finset ι) (g : ι → EReal) (hg : ∀ i, ∃ r : ℝ, g i = (r : EReal)) :
    ∃ r : ℝ, ∑ i ∈ S, g i = (r : EReal) := by
  choose f hf using hg
  exact ⟨∑ i ∈ S, f i, by rw [← coe_finset_sum]; exact Finset.sum_congr rfl fun i _ => hf i⟩

/-- A finite sum of extended reals each of which is a nonnegative real is a nonnegative real. -/
theorem exists_nonneg_sum {ι : Type} (S : Finset ι) (g : ι → EReal)
    (hg : ∀ i, ∃ r : ℝ, 0 ≤ r ∧ g i = (r : EReal)) : ∃ r : ℝ, 0 ≤ r ∧ ∑ i ∈ S, g i = (r : EReal) := by
  choose f hf0 hf using hg
  exact ⟨∑ i ∈ S, f i, Finset.sum_nonneg fun i _ => hf0 i,
    by rw [← coe_finset_sum]; exact Finset.sum_congr rfl fun i _ => hf i⟩

variable {s t u : Shape} {φ : FTy}

/-- The host's sum over some axes: at each kept index, the initial value plus the sum of the operand's
    entries that reduce to it — a finite sum of reals, hence a real. -/
theorem allReal_hostReduceAdd {axes : List (Fin s.rank)} {x : FVec Ideal s φ} {v : FVec Ideal u φ}
    (hred : s.ReducesTo axes t) (hS : 0 < u.numel) (hx : AllReal x) (hv : AllReal v) :
    AllReal (Host.reduceAdd (F := Ideal) x v hred hS) := by
  intro j
  obtain ⟨a, ha⟩ := hv (Shape.Idx.first hS)
  obtain ⟨b, hb⟩ := exists_real_sum (Finset.univ.filter fun i => hred.drop i = j) x hx
  refine ⟨a + b, ?_⟩
  have h : Host.reduceAdd (F := Ideal) x v hred hS j
      = v (Shape.Idx.first hS) + ∑ i ∈ Finset.univ.filter (fun i => hred.drop i = j), x i := rfl
  rw [h, ha, hb, EReal.coe_add]

/-- The host's sum of nonnegative reals from a nonnegative initial value is a nonnegative real. -/
theorem allNonneg_hostReduceAdd {axes : List (Fin s.rank)} {x : FVec Ideal s φ} {v : FVec Ideal u φ}
    (hred : s.ReducesTo axes t) (hS : 0 < u.numel) (hx : AllNonneg x) (hv : AllNonneg v) :
    AllNonneg (Host.reduceAdd (F := Ideal) x v hred hS) := by
  intro j
  obtain ⟨a, ha0, ha⟩ := hv (Shape.Idx.first hS)
  obtain ⟨b, hb0, hb⟩ := exists_nonneg_sum (Finset.univ.filter fun i => hred.drop i = j) x hx
  refine ⟨a + b, add_nonneg ha0 hb0, ?_⟩
  have h : Host.reduceAdd (F := Ideal) x v hred hS j
      = v (Shape.Idx.first hS) + ∑ i ∈ Finset.univ.filter (fun i => hred.drop i = j), x i := rfl
  rw [h, ha, hb, EReal.coe_add]

/-- The host's accumulating scatter: each operand entry plus the sum of the update entries whose index
    lands on it — a finite sum of reals, hence a real, whatever the indices. -/
theorem allReal_hostScatterAdd {si : Shape} {w : Nat} (d : ScatterDims s si u) {x : FVec Ideal s φ}
    (idx : IVec si w) {upd : FVec Ideal u φ} (hx : AllReal x) (hu : AllReal upd) :
    AllReal (Host.scatterAdd (F := Ideal) d x idx upd) := by
  intro i
  obtain ⟨a, ha⟩ := hx i
  obtain ⟨b, hb⟩ := exists_real_sum (Finset.univ.filter fun j => d.resultIdx? j idx = some i) upd hu
  refine ⟨a + b, ?_⟩
  have h : Host.scatterAdd (F := Ideal) d x idx upd i
      = x i + ∑ j ∈ Finset.univ.filter (fun j => d.resultIdx? j idx = some i), upd j := rfl
  rw [h, ha, hb, EReal.coe_add]

/-- The accumulating scatter of nonnegative reals into nonnegative reals gives nonnegative reals. -/
theorem allNonneg_hostScatterAdd {si : Shape} {w : Nat} (d : ScatterDims s si u) {x : FVec Ideal s φ}
    (idx : IVec si w) {upd : FVec Ideal u φ} (hx : AllNonneg x) (hu : AllNonneg upd) :
    AllNonneg (Host.scatterAdd (F := Ideal) d x idx upd) := by
  intro i
  obtain ⟨a, ha0, ha⟩ := hx i
  obtain ⟨b, hb0, hb⟩ := exists_nonneg_sum (Finset.univ.filter fun j => d.resultIdx? j idx = some i) upd hu
  refine ⟨a + b, add_nonneg ha0 hb0, ?_⟩
  have h : Host.scatterAdd (F := Ideal) d x idx upd i
      = x i + ∑ j ∈ Finset.univ.filter (fun j => d.resultIdx? j idx = some i), upd j := rfl
  rw [h, ha, hb, EReal.coe_add]

end Sums

section Contraction
variable {sl sr so : Shape} {φ₁ φ₂ : FTy}

/-- The sum over the contraction index of the products of two arrays of reals is a real. -/
theorem exists_real_contraction (d : DotDims sl sr so) {l : FVec Ideal sl φ₁} {r : FVec Ideal sr φ₂}
    (hl : AllReal l) (hr : AllReal r) (j : so.Idx) :
    ∃ c : ℝ, ∑ k : d.contr.Idx, l (d.lhsIdx j k) * r (d.rhsIdx j k) = (c : EReal) :=
  exists_real_sum Finset.univ (fun k => l (d.lhsIdx j k) * r (d.rhsIdx j k)) fun k => by
    obtain ⟨a, ha⟩ := hl (d.lhsIdx j k)
    obtain ⟨b, hb⟩ := hr (d.rhsIdx j k)
    exact ⟨a * b, by rw [ha, hb, EReal.coe_mul]⟩

/-- The host's matrix product of two arrays of reals: each entry a finite sum of products, a real. -/
theorem allReal_hostDotGeneral (d : DotDims sl sr so) (prec : Option ContractPrecision) {l : FVec Ideal sl φ₁}
    {r : FVec Ideal sr φ₂} (hl : AllReal l) (hr : AllReal r) : AllReal (Host.dotGeneral (F := Ideal) d prec l r) := by
  intro j
  obtain ⟨c, hc⟩ := exists_real_contraction d hl hr j
  exact ⟨c, (Ideal.dotGeneral_apply d prec .single l r j).trans hc⟩

/-- The matrix unit's product added to an accumulator, all three arrays of reals: each entry the
    accumulator's plus a finite sum of products, a real. -/
theorem allReal_matmul (d : DotDims sl sr so) (prec : Option ContractPrecision) {l : FVec Ideal sl φ₁}
    {r : FVec Ideal sr φ₂} {acc : FVec Ideal so .f32} (hl : AllReal l) (hr : AllReal r) (hacc : AllReal acc) :
    AllReal (matmul (F := Ideal) d prec l r acc) := by
  intro j
  obtain ⟨c, hc⟩ := exists_real_contraction d hl hr j
  obtain ⟨a, ha⟩ := hacc j
  refine ⟨a + c, (Ideal.matmul_apply d prec l r acc j).trans ?_⟩
  rw [ha, hc, EReal.coe_add]

end Contraction

section Constants

/-- The single-precision pattern 0x3F800000 (sign 0, exponent 127, fraction 0) denotes the real 1. -/
theorem ofBits_f32_one : Ideal.ofBits .f32 0x3F800000#32 = ((1 : ℝ) : EReal) := by
  simp [Ideal.ofBits, Ideal.ieee, -EReal.coe_mul]; norm_num

/-- The single-precision pattern 0xBF000000 (sign 1, exponent 126, fraction 0) denotes the real -1/2. -/
theorem ofBits_f32_neg_half : Ideal.ofBits .f32 0xBF000000#32 = ((-(1 / 2) : ℝ) : EReal) := by
  simp [Ideal.ofBits, Ideal.ieee, -EReal.coe_mul]; norm_num

/-- The single-precision pattern 0x47435000 (exponent 142, fraction 0x435000) denotes the real 50000. -/
theorem ofBits_f32_50000 : Ideal.ofBits .f32 0x47435000#32 = ((50000 : ℝ) : EReal) := by
  simp [Ideal.ofBits, Ideal.ieee, -EReal.coe_mul]; norm_num

/-- The single-precision pattern 0x3727C5AC (exponent 110, fraction 0x27C5AC) denotes the real
    (2^23 + 2606508) · 2^(110 - 127 - 23) = 10995116 / 2^40, the float nearest 10⁻⁵. -/
theorem ofBits_f32_eps : Ideal.ofBits .f32 0x3727C5AC#32 = ((10995116 / 1099511627776 : ℝ) : EReal) := by
  simp [Ideal.ofBits, Ideal.ieee, -EReal.coe_mul]; norm_num

variable (s : Shape)

/-- The constant array of pattern 0x00000000: every entry the real 0. -/
theorem allNonneg_constant_zero : AllNonneg (constant (F := Ideal) s .f32 0x00000000#32) :=
  fun _ => ⟨0, le_rfl, Ideal.ofBits_zero_f32.trans EReal.coe_zero.symm⟩

/-- The constant array of pattern 0x00000000: every entry the real 0. -/
theorem allReal_constant_zero : AllReal (constant (F := Ideal) s .f32 0x00000000#32) :=
  (allNonneg_constant_zero s).allReal

/-- The constant array of pattern 0x3F800000: every entry the positive real 1. -/
theorem allPos_constant_one : AllPos (constant (F := Ideal) s .f32 0x3F800000#32) :=
  fun _ => ⟨1, one_pos, ofBits_f32_one⟩

/-- The constant array of pattern 0x3F800000: every entry the real 1. -/
theorem allReal_constant_one : AllReal (constant (F := Ideal) s .f32 0x3F800000#32) :=
  (allPos_constant_one s).allReal

/-- The constant array of pattern 0xBF000000: every entry the real -1/2. -/
theorem allReal_constant_neg_half : AllReal (constant (F := Ideal) s .f32 0xBF000000#32) :=
  fun _ => ⟨-(1 / 2), ofBits_f32_neg_half⟩

/-- The constant array of pattern 0x47435000: every entry the positive real 50000. -/
theorem allPos_constant_50000 : AllPos (constant (F := Ideal) s .f32 0x47435000#32) :=
  fun _ => ⟨50000, by norm_num, ofBits_f32_50000⟩

/-- The constant array of pattern 0x47435000: every entry the real 50000. -/
theorem allReal_constant_50000 : AllReal (constant (F := Ideal) s .f32 0x47435000#32) :=
  (allPos_constant_50000 s).allReal

/-- The constant array of pattern 0x3727C5AC: every entry the positive real 10995116 / 2^40. -/
theorem allPos_constant_eps : AllPos (constant (F := Ideal) s .f32 0x3727C5AC#32) :=
  fun _ => ⟨10995116 / 1099511627776, by norm_num, ofBits_f32_eps⟩

/-- The constant array of pattern 0x3727C5AC: every entry a real. -/
theorem allReal_constant_eps : AllReal (constant (F := Ideal) s .f32 0x3727C5AC#32) :=
  (allPos_constant_eps s).allReal

end Constants

end Cert.LibIdealReal
-- ==== Proof.NormLaw.lean ====
/-
  The two spellings of one layer's normalisation agree on real data.

  The kernel side computes, per feature j, the scale s(j) = gamma(j) · r(j) and the shift t(j) = beta(j) − mean(j) · s(j)
  and then, per entry, max (c(n, j) · s(j) + t(j)) 0. The reference computes max (((c(n, j) − mean(j)) · r(j)) · gamma(j) + beta(j)) 0.
  Entry by entry this is one identity between real numbers (distributivity and commutativity); it needs every quantity
  to be a real number, because the extended reals do not distribute at the infinities. The result is again an array of
  real numbers.
-/
import proofs.«167957_j84052509983292_1_alg».proof.Proof.Spec
import proofs.«167957_j84052509983292_1_alg».proof.Proof.LibIdealLayout
import proofs.«167957_j84052509983292_1_alg».proof.Proof.LibIdealReal

noncomputable section

namespace Cert.NormLaw

open Idealize.ShloMosaic Idealize.ShloMosaic.ValueIdx

/-- The affine form c · s + (b − m · s) at the scale s = g · r equals ((c − m) · r) · g + b, for real numbers
    embedded in the extended reals: embed the real identity (a ring identity) and push the embedding through the
    sums, differences and products. -/
theorem scalar_affine (c m r g b : ℝ) :
    (c : EReal) * ((g : EReal) * r) + ((b : EReal) - (m : EReal) * ((g : EReal) * r))
      = (((c : EReal) - m) * r) * g + b := by
  have h : ((c * (g * r) + (b - m * (g * r)) : ℝ) : EReal) = (((c - m) * r * g + b : ℝ) : EReal) := by
    congr 1; ring
  simpa only [EReal.coe_mul, EReal.coe_add, EReal.coe_sub] using h

/-- The same identity under the rectifier max(·, 0). -/
theorem scalar_law (c m r g b : ℝ) :
    max ((c : EReal) * ((g : EReal) * r) + ((b : EReal) - (m : EReal) * ((g : EReal) * r))) 0
      = max ((((c : EReal) - m) * r) * g + b) 0 := by
  rw [scalar_affine]

variable [Cert.ReferenceIdeal.Facts] [Cert.KernelIdeal.Facts]

/-- A feature row repeated over the nodes reads, at node n and feature j, the row's entry j. -/
theorem overNodes_apply (v : FVec Ideal Cert.Spec.SF .f32) (n : Fin 50000) (j : Fin 128) :
    Cert.Spec.overNodes v (ix2 n j) = v (ix1 j) := by
  unfold Cert.Spec.overNodes
  exact IdealLayout.broadcastInDim_row_apply v _ _ n j

/-- The all-zero array reads 0 at every index: the scalar constant's word is the encoding of the real number 0. -/
theorem zerosN_apply (i : Cert.Spec.SN.Idx) : Cert.Spec.zerosN i = (0 : EReal) := by
  unfold Cert.Spec.zerosN
  refine (IdealLayout.broadcastInDim_scalar_apply _ _ _ i).trans ?_
  exact Ideal.ofBits_zero_f32

/-- A feature row recast to one row of a [1, 128] array reads, at (0, j), the row's entry j. -/
theorem rowCast_apply (v : FVec Ideal Cert.Spec.SF .f32) (j : Fin 128) :
    shapeCast Cert.KernelIdeal.S1x128 v Cert.KernelIdeal.Facts₀.shapeCasts_S128_S1x128 (ix2 (0 : Fin 1) j) = v (ix1 j) :=
  shapeCast_a_1a_apply v _ 0 j

/-- The kernel side at node n and feature j: max (c · (gamma · r) + (beta − mean · (gamma · r))) 0. -/
theorem kerNorm_apply (c : FVec Ideal Cert.Spec.SN .f32) (mean r gamma beta : FVec Ideal Cert.Spec.SF .f32)
    (n : Fin 50000) (j : Fin 128) :
    Cert.Spec.kerNorm c mean r gamma beta (ix2 n j)
      = max (c (ix2 n j) * (gamma (ix1 j) * r (ix1 j))
          + (beta (ix1 j) - mean (ix1 j) * (gamma (ix1 j) * r (ix1 j)))) 0 := by
  unfold Cert.Spec.kerNorm Cert.Spec.affineRelu
  show max (c (ix2 n j) * shapeCast Cert.KernelIdeal.S1x128 (mulf gamma r) _ (ix2 (0 : Fin 1) j)
      + shapeCast Cert.KernelIdeal.S1x128 (subf beta (mulf mean (mulf gamma r))) _ (ix2 (0 : Fin 1) j)) 0 = _
  rw [rowCast_apply, rowCast_apply]
  rfl

/-- The reference side at node n and feature j: max (((c − mean) · r) · gamma + beta) 0. -/
theorem refNorm_apply (c : FVec Ideal Cert.Spec.SN .f32) (mean r gamma beta : FVec Ideal Cert.Spec.SF .f32)
    (n : Fin 50000) (j : Fin 128) :
    Cert.Spec.refNorm c mean r gamma beta (ix2 n j)
      = max ((((c (ix2 n j) - mean (ix1 j)) * r (ix1 j)) * gamma (ix1 j)) + beta (ix1 j)) 0 := by
  unfold Cert.Spec.refNorm
  show max ((((c (ix2 n j) - Cert.Spec.overNodes mean (ix2 n j)) * Cert.Spec.overNodes r (ix2 n j))
      * Cert.Spec.overNodes gamma (ix2 n j)) + Cert.Spec.overNodes beta (ix2 n j)) (Cert.Spec.zerosN (ix2 n j)) = _
  rw [overNodes_apply, overNodes_apply, overNodes_apply, overNodes_apply, zerosN_apply]

/-- On real data the kernel's normalisation is the reference's: entry by entry, the scalar identity. -/
theorem norm_law (c : FVec Ideal Cert.Spec.SN .f32) (mean r gamma beta : FVec Ideal Cert.Spec.SF .f32)
    (hc : ∀ i, ∃ x : ℝ, c i = (x : EReal)) (hm : ∀ i, ∃ x : ℝ, mean i = (x : EReal))
    (hr : ∀ i, ∃ x : ℝ, r i = (x : EReal)) (hg : ∀ i, ∃ x : ℝ, gamma i = (x : EReal))
    (hb : ∀ i, ∃ x : ℝ, beta i = (x : EReal)) :
    Cert.Spec.kerNorm c mean r gamma beta = Cert.Spec.refNorm c mean r gamma beta := by
  funext i
  obtain ⟨n, j, rfl⟩ : ∃ (n : Fin 50000) (j : Fin 128), i = ix2 n j := ⟨i 0, i 1, eq_ix2 i⟩
  rw [kerNorm_apply, refNorm_apply]
  obtain ⟨xc, hxc⟩ := hc (ix2 n j)
  obtain ⟨xm, hxm⟩ := hm (ix1 j)
  obtain ⟨xr, hxr⟩ := hr (ix1 j)
  obtain ⟨xg, hxg⟩ := hg (ix1 j)
  obtain ⟨xb, hxb⟩ := hb (ix1 j)
  rw [hxc, hxm, hxr, hxg, hxb]
  exact scalar_law xc xm xr xg xb

/-- On real data the normalised array is again an array of real numbers: differences, products, sums and maxima of
    reals are reals, and a repeated row or the zero array only holds reals. -/
theorem refNorm_real (c : FVec Ideal Cert.Spec.SN .f32) (mean r gamma beta : FVec Ideal Cert.Spec.SF .f32)
    (hc : ∀ i, ∃ x : ℝ, c i = (x : EReal)) (hm : ∀ i, ∃ x : ℝ, mean i = (x : EReal))
    (hr : ∀ i, ∃ x : ℝ, r i = (x : EReal)) (hg : ∀ i, ∃ x : ℝ, gamma i = (x : EReal))
    (hb : ∀ i, ∃ x : ℝ, beta i = (x : EReal)) :
    ∀ i, ∃ x : ℝ, Cert.Spec.refNorm c mean r gamma beta i = (x : EReal) := by
  have over : ∀ v : FVec Ideal Cert.Spec.SF .f32, Cert.LibIdealReal.AllReal v →
      Cert.LibIdealReal.AllReal (Cert.Spec.overNodes v) := fun v hv =>
    Cert.LibIdealReal.allReal_broadcastInDim _ _ (Cert.LibIdealReal.allReal_broadcastInDim _ _ hv)
  have hz : Cert.LibIdealReal.AllReal Cert.Spec.zerosN := fun i => ⟨0, by rw [zerosN_apply, EReal.coe_zero]⟩
  exact Cert.LibIdealReal.allReal_maximumf
    (Cert.LibIdealReal.allReal_addf
      (Cert.LibIdealReal.allReal_mulf
        (Cert.LibIdealReal.allReal_mulf (Cert.LibIdealReal.allReal_subf hc (over mean hm)) (over r hr))
        (over gamma hg))
      (over beta hb))
    hz

end Cert.NormLaw

end
-- ==== Proof.StagesReal.lean ====
/-
  Every stage of the network keeps real numbers real, and so one layer of the kernel is one layer of the reference.

  Each stage is a nest of exact operations on extended reals. Sums, differences, products and maxima of reals are
  reals; a finite sum of reals (a reduction, an accumulating scatter, a matrix product) is a real; an operation that
  only re-indexes (broadcast, slice, recast, gather) returns entries of its operand; a quotient by the positive real
  50000 is a real; a real power of a real is a real. For the reciprocal standard deviation the argument must be
  positive: the variance is a mean of squares, a nonnegative real, and adding the positive constant eps makes it a
  positive real, whose reciprocal square root is a (positive) real. With every quantity real, the two spellings of the
  normalisation agree (the scalar identity of the normalisation law), and the layer's output is again real.
-/
import proofs.«167957_j84052509983292_1_alg».proof.Proof.Stages
import proofs.«167957_j84052509983292_1_alg».proof.Proof.LibIdealReal
import proofs.«167957_j84052509983292_1_alg».proof.Proof.NormLaw

set_option maxRecDepth 8192

noncomputable section

namespace Cert.StagesReal

open Cert.LibIdealReal Cert.Spec Idealize.ShloMosaic Cert.ReferenceIdeal Cert.ReferenceIdeal.Facts₀

variable [Cert.ReferenceIdeal.Facts] [Cert.KernelIdeal.Facts]

/-- deg^(-1/2) is real at every node: the degree is 1 plus a finite sum of ones, a real, and a real power of a real
    is a real. -/
theorem allReal_dinvOf (dst : IVec S800000 32) : AllReal (s := S50000) (φ := .f32) (dinvOf (F := Ideal) dst) := by
  unfold dinvOf
  exact allReal_hostPowf
    (allReal_addf
      (allReal_hostScatterAdd _ _ (allReal_broadcastInDim _ _ (allReal_constant_zero _))
        (allReal_broadcastInDim _ _ (allReal_constant_one _)))
      (allReal_broadcastInDim _ _ (allReal_constant_one _)))
    (allReal_broadcastInDim _ _ (allReal_constant_neg_half _))

/-- The edge weight dinv(src) · dinv(dst) is a product of two entries of dinv. -/
theorem allReal_normOf (src dst : IVec S800000 32) (dinv : FVec Ideal S50000 .f32) (h : AllReal dinv) :
    AllReal (s := S800000) (φ := .f32) (normOf (F := Ideal) src dst dinv) := by
  unfold normOf
  exact allReal_mulf (allReal_hostGather _ _ h) (allReal_hostGather _ _ h)

/-- Layer 0's weight matrix is a slab of the stacked weights, recast: its entries are entries of the stack. -/
theorem allReal_wOf0 (a : FVec Ideal S4x128x128 .f32) (h : AllReal a) :
    AllReal (s := S128x128) (φ := .f32) (wOf0 (F := Ideal) a) := by
  unfold wOf0
  exact allReal_shapeCast _ (allReal_extractStridedSlice _ _ h)

/-- Layer 0's bias row is a row of the stacked biases, recast. -/
theorem allReal_bOf0 (a : FVec Ideal S4x128 .f32) (h : AllReal a) :
    AllReal (s := S128) (φ := .f32) (bOf0 (F := Ideal) a) := by
  unfold bOf0
  exact allReal_shapeCast _ (allReal_extractStridedSlice _ _ h)

/-- Layer 0's gain row is a row of the stacked gains, recast. -/
theorem allReal_gOf0 (a : FVec Ideal S4x128 .f32) (h : AllReal a) :
    AllReal (s := S128) (φ := .f32) (gOf0 (F := Ideal) a) := by
  unfold gOf0
  exact allReal_shapeCast _ (allReal_extractStridedSlice _ _ h)

/-- Layer 0's offset row is a row of the stacked offsets, recast. -/
theorem allReal_tOf0 (a : FVec Ideal S4x128 .f32) (h : AllReal a) :
    AllReal (s := S128) (φ := .f32) (tOf0 (F := Ideal) a) := by
  unfold tOf0
  exact allReal_shapeCast _ (allReal_extractStridedSlice _ _ h)

/-- Layer 1's weight matrix is a slab of the stacked weights, recast: its entries are entries of the stack. -/
theorem allReal_wOf1 (a : FVec Ideal S4x128x128 .f32) (h : AllReal a) :
    AllReal (s := S128x128) (φ := .f32) (wOf1 (F := Ideal) a) := by
  unfold wOf1
  exact allReal_shapeCast _ (allReal_extractStridedSlice _ _ h)

/-- Layer 1's bias row is a row of the stacked biases, recast. -/
theorem allReal_bOf1 (a : FVec Ideal S4x128 .f32) (h : AllReal a) :
    AllReal (s := S128) (φ := .f32) (bOf1 (F := Ideal) a) := by
  unfold bOf1
  exact allReal_shapeCast _ (allReal_extractStridedSlice _ _ h)

/-- Layer 1's gain row is a row of the stacked gains, recast. -/
theorem allReal_gOf1 (a : FVec Ideal S4x128 .f32) (h : AllReal a) :
    AllReal (s := S128) (φ := .f32) (gOf1 (F := Ideal) a) := by
  unfold gOf1
  exact allReal_shapeCast _ (allReal_extractStridedSlice _ _ h)

/-- Layer 1's offset row is a row of the stacked offsets, recast. -/
theorem allReal_tOf1 (a : FVec Ideal S4x128 .f32) (h : AllReal a) :
    AllReal (s := S128) (φ := .f32) (tOf1 (F := Ideal) a) := by
  unfold tOf1
  exact allReal_shapeCast _ (allReal_extractStridedSlice _ _ h)

/-- Layer 2's weight matrix is a slab of the stacked weights, recast: its entries are entries of the stack. -/
theorem allReal_wOf2 (a : FVec Ideal S4x128x128 .f32) (h : AllReal a) :
    AllReal (s := S128x128) (φ := .f32) (wOf2 (F := Ideal) a) := by
  unfold wOf2
  exact allReal_shapeCast _ (allReal_extractStridedSlice _ _ h)

/-- Layer 2's bias row is a row of the stacked biases, recast. -/
theorem allReal_bOf2 (a : FVec Ideal S4x128 .f32) (h : AllReal a) :
    AllReal (s := S128) (φ := .f32) (bOf2 (F := Ideal) a) := by
  unfold bOf2
  exact allReal_shapeCast _ (allReal_extractStridedSlice _ _ h)

/-- Layer 2's gain row is a row of the stacked gains, recast. -/
theorem allReal_gOf2 (a : FVec Ideal S4x128 .f32) (h : AllReal a) :
    AllReal (s := S128) (φ := .f32) (gOf2 (F := Ideal) a) := by
  unfold gOf2
  exact allReal_shapeCast _ (allReal_extractStridedSlice _ _ h)

/-- Layer 2's offset row is a row of the stacked offsets, recast. -/
theorem allReal_tOf2 (a : FVec Ideal S4x128 .f32) (h : AllReal a) :
    AllReal (s := S128) (φ := .f32) (tOf2 (F := Ideal) a) := by
  unfold tOf2
  exact allReal_shapeCast _ (allReal_extractStridedSlice _ _ h)

/-- Layer 3's weight matrix is a slab of the stacked weights, recast: its entries are entries of the stack. -/
theorem allReal_wOf3 (a : FVec Ideal S4x128x128 .f32) (h : AllReal a) :
    AllReal (s := S128x128) (φ := .f32) (wOf3 (F := Ideal) a) := by
  unfold wOf3
  exact allReal_shapeCast _ (allReal_extractStridedSlice _ _ h)

/-- Layer 3's bias row is a row of the stacked biases, recast. -/
theorem allReal_bOf3 (a : FVec Ideal S4x128 .f32) (h : AllReal a) :
    AllReal (s := S128) (φ := .f32) (bOf3 (F := Ideal) a) := by
  unfold bOf3
  exact allReal_shapeCast _ (allReal_extractStridedSlice _ _ h)

/-- Layer 3's gain row is a row of the stacked gains, recast. -/
theorem allReal_gOf3 (a : FVec Ideal S4x128 .f32) (h : AllReal a) :
    AllReal (s := S128) (φ := .f32) (gOf3 (F := Ideal) a) := by
  unfold gOf3
  exact allReal_shapeCast _ (allReal_extractStridedSlice _ _ h)

/-- Layer 3's offset row is a row of the stacked offsets, recast. -/
theorem allReal_tOf3 (a : FVec Ideal S4x128 .f32) (h : AllReal a) :
    AllReal (s := S128) (φ := .f32) (tOf3 (F := Ideal) a) := by
  unfold tOf3
  exact allReal_shapeCast _ (allReal_extractStridedSlice _ _ h)

/-- The projection x · W: each entry a finite sum of products of reals. -/
theorem allReal_proj (x : FVec Ideal S50000x128 .f32) (w : FVec Ideal S128x128 .f32) (hx : AllReal x) (hw : AllReal w) :
    AllReal (s := S50000x128) (φ := .f32) (proj (F := Ideal) x w) := by
  unfold proj
  exact allReal_hostDotGeneral _ _ hx hw

/-- One graph convolution: a finite sum of products h(src) · norm into each target row, plus h · dinv2, plus the
    bias row. -/
theorem allReal_comb (h : FVec Ideal S50000x128 .f32) (bl : FVec Ideal S128 .f32) (src dst : IVec S800000 32)
    (norm : FVec Ideal S800000 .f32) (dinv2 : FVec Ideal S50000 .f32)
    (hh : AllReal h) (hb : AllReal bl) (hn : AllReal norm) (hd : AllReal dinv2) :
    AllReal (s := S50000x128) (φ := .f32) (comb (F := Ideal) h bl src dst norm dinv2) := by
  unfold comb
  exact allReal_addf
    (allReal_addf
      (allReal_hostScatterAdd _ _ (allReal_broadcastInDim _ _ (allReal_constant_zero _))
        (allReal_mulf (allReal_hostGather _ _ hh)
          (allReal_broadcastInDim _ _ (allReal_broadcastInDim _ _ hn))))
      (allReal_mulf hh (allReal_broadcastInDim _ _ (allReal_broadcastInDim _ _ hd))))
    (allReal_broadcastInDim _ _ (allReal_broadcastInDim _ _ hb))

/-- The column means: a finite sum of reals divided by the positive real 50000. -/
theorem allReal_meanOf (c : FVec Ideal S50000x128 .f32) (hc : AllReal c) :
    AllReal (s := S128) (φ := .f32) (meanOf (F := Ideal) c) := by
  unfold meanOf
  exact allReal_hostDivf (allReal_hostReduceAdd _ _ hc (allReal_constant_zero _))
    (allPos_broadcastInDim _ _ (allPos_constant_50000 _))

/-- The reciprocal standard deviation is a positive real: the variance is a mean of squares of reals, a nonnegative
    real; plus the positive eps it is a positive real; the reciprocal square root of a positive real is a positive
    real. -/
theorem allPos_rOf (c : FVec Ideal S50000x128 .f32) (hc : AllReal c) :
    AllPos (s := S128) (φ := .f32) (rOf (F := Ideal) c) := by
  unfold rOf
  exact allPos_hostRsqrt
    (allPos_addf
      (allNonneg_hostDivf
        (allNonneg_hostReduceAdd _ _
          (allNonneg_mulf_self
            (allReal_subf hc (allReal_broadcastInDim _ _ (allReal_broadcastInDim _ _ (allReal_meanOf c hc)))))
          (allNonneg_constant_zero _))
        (allPos_broadcastInDim _ _ (allPos_constant_50000 _)))
      (allPos_broadcastInDim _ _ (allPos_constant_eps _)))

/-- The reciprocal standard deviation is a real. -/
theorem allReal_rOf (c : FVec Ideal S50000x128 .f32) (hc : AllReal c) :
    AllReal (s := S128) (φ := .f32) (rOf (F := Ideal) c) :=
  (allPos_rOf c hc).allReal

/-- On real data one layer of the kernel equals one layer of the reference: the convolved array, its column means and
    its reciprocal standard deviations are real, so the two spellings of the normalisation agree. -/
theorem layer_eq (x : FVec Ideal S50000x128 .f32) (w : FVec Ideal S128x128 .f32) (bl g t : FVec Ideal S128 .f32)
    (src dst : IVec S800000 32) (norm : FVec Ideal S800000 .f32) (dinv2 : FVec Ideal S50000 .f32)
    (hx : AllReal x) (hw : AllReal w) (hb : AllReal bl) (hg : AllReal g) (ht : AllReal t) (hn : AllReal norm)
    (hd : AllReal dinv2) :
    kerLayer x w bl g t src dst norm dinv2 = refLayer x w bl g t src dst norm dinv2 := by
  have hc := allReal_comb (proj (F := Ideal) x w) bl src dst norm dinv2 (allReal_proj x w hx hw) hb hn hd
  unfold kerLayer refLayer
  exact Cert.NormLaw.norm_law _ _ _ _ _ hc (allReal_meanOf _ hc) (allReal_rOf _ hc) hg ht

/-- On real data one layer's output is real. -/
theorem layer_real (x : FVec Ideal S50000x128 .f32) (w : FVec Ideal S128x128 .f32) (bl g t : FVec Ideal S128 .f32)
    (src dst : IVec S800000 32) (norm : FVec Ideal S800000 .f32) (dinv2 : FVec Ideal S50000 .f32)
    (hx : AllReal x) (hw : AllReal w) (hb : AllReal bl) (hg : AllReal g) (ht : AllReal t) (hn : AllReal norm)
    (hd : AllReal dinv2) :
    AllReal (s := S50000x128) (φ := .f32) (refLayer x w bl g t src dst norm dinv2) := by
  have hc := allReal_comb (proj (F := Ideal) x w) bl src dst norm dinv2 (allReal_proj x w hx hw) hb hn hd
  unfold refLayer
  exact Cert.NormLaw.refNorm_real _ _ _ _ _ hc (allReal_meanOf _ hc) (allReal_rOf _ hc) hg ht

end Cert.StagesReal

end
-- ==== Proof.NetworkEq.lean ====
/-
  On real inputs the kernel's network and the reference's compute the same array.

  Layer by layer: if the node features going into a layer are the same real array on both sides, the layer's two
  spellings agree on it (the layer law) and its output is again real; the edge weights and the self-loop weights are
  real whatever the edge table holds. After four layers the two node-feature arrays are equal, so their pooled features
  are equal, and the two classifiers differ only in how the bias row is spread over the graphs: the kernel reads row 0
  of the bias recast to [1, 10] at the column, the reference broadcasts the bias [10] → [1, 10] → [512, 10]; both read
  the bias entry of the column.
-/
import proofs.«167957_j84052509983292_1_alg».proof.Proof.Network
import proofs.«167957_j84052509983292_1_alg».proof.Proof.StagesReal
import proofs.«167957_j84052509983292_1_alg».proof.Proof.LibIdealLayout

noncomputable section

namespace Cert.NetworkEq

open Cert.LibIdealReal Cert.Spec Cert.StagesReal Idealize.ShloMosaic Idealize.ShloMosaic.ValueIdx
open Cert.ReferenceIdeal Cert.ReferenceIdeal.Facts₀

variable [Cert.ReferenceIdeal.Facts] [Cert.KernelIdeal.Facts]

/-- The edge weights are real: products of two entries of deg^(-1/2), which is real. -/
theorem allReal_normE (e : IVec S2x800000 32) : AllReal (s := S800000) (φ := .f32) (normE e) := by
  unfold normE
  exact allReal_normOf _ _ _ (allReal_dinvOf _)

/-- The self-loop weights deg^(-1) are real: squares of deg^(-1/2). -/
theorem allReal_dinv2E (e : IVec S2x800000 32) : AllReal (s := S50000) (φ := .f32) (dinv2E e) := by
  unfold dinv2E
  exact allReal_mulf (allReal_dinvOf _) (allReal_dinvOf _)

section Layers
variable (a0 : FVec Ideal S50000x128 .f32) (a1 : FVec Ideal S4x128x128 .f32) (a2 a3 a4 : FVec Ideal S4x128 .f32)
  (e : IVec S2x800000 32)

/-- After one layer the two sides agree and the array is real. -/
theorem x1_eq_real (h0 : AllReal a0) (h1 : AllReal a1) (h2 : AllReal a2) (h3 : AllReal a3) (h4 : AllReal a4) :
    kerX1 a0 a1 a2 a3 a4 e = refX1 a0 a1 a2 a3 a4 e
      ∧ AllReal (s := S50000x128) (φ := .f32) (refX1 a0 a1 a2 a3 a4 e) := by
  unfold kerX1 refX1
  exact ⟨layer_eq _ _ _ _ _ _ _ _ _ h0 (allReal_wOf0 a1 h1) (allReal_bOf0 a2 h2) (allReal_gOf0 a3 h3)
      (allReal_tOf0 a4 h4) (allReal_normE e) (allReal_dinv2E e),
    layer_real _ _ _ _ _ _ _ _ _ h0 (allReal_wOf0 a1 h1) (allReal_bOf0 a2 h2) (allReal_gOf0 a3 h3)
      (allReal_tOf0 a4 h4) (allReal_normE e) (allReal_dinv2E e)⟩

/-- After two layers the two sides agree and the array is real. -/
theorem x2_eq_real (h0 : AllReal a0) (h1 : AllReal a1) (h2 : AllReal a2) (h3 : AllReal a3) (h4 : AllReal a4) :
    kerX2 a0 a1 a2 a3 a4 e = refX2 a0 a1 a2 a3 a4 e
      ∧ AllReal (s := S50000x128) (φ := .f32) (refX2 a0 a1 a2 a3 a4 e) := by
  obtain ⟨hx, hr⟩ := x1_eq_real a0 a1 a2 a3 a4 e h0 h1 h2 h3 h4
  unfold kerX2 refX2
  rw [hx]
  exact ⟨layer_eq _ _ _ _ _ _ _ _ _ hr (allReal_wOf1 a1 h1) (allReal_bOf1 a2 h2) (allReal_gOf1 a3 h3)
      (allReal_tOf1 a4 h4) (allReal_normE e) (allReal_dinv2E e),
    layer_real _ _ _ _ _ _ _ _ _ hr (allReal_wOf1 a1 h1) (allReal_bOf1 a2 h2) (allReal_gOf1 a3 h3)
      (allReal_tOf1 a4 h4) (allReal_normE e) (allReal_dinv2E e)⟩

/-- After three layers the two sides agree and the array is real. -/
theorem x3_eq_real (h0 : AllReal a0) (h1 : AllReal a1) (h2 : AllReal a2) (h3 : AllReal a3) (h4 : AllReal a4) :
    kerX3 a0 a1 a2 a3 a4 e = refX3 a0 a1 a2 a3 a4 e
      ∧ AllReal (s := S50000x128) (φ := .f32) (refX3 a0 a1 a2 a3 a4 e) := by
  obtain ⟨hx, hr⟩ := x2_eq_real a0 a1 a2 a3 a4 e h0 h1 h2 h3 h4
  unfold kerX3 refX3
  rw [hx]
  exact ⟨layer_eq _ _ _ _ _ _ _ _ _ hr (allReal_wOf2 a1 h1) (allReal_bOf2 a2 h2) (allReal_gOf2 a3 h3)
      (allReal_tOf2 a4 h4) (allReal_normE e) (allReal_dinv2E e),
    layer_real _ _ _ _ _ _ _ _ _ hr (allReal_wOf2 a1 h1) (allReal_bOf2 a2 h2) (allReal_gOf2 a3 h3)
      (allReal_tOf2 a4 h4) (allReal_normE e) (allReal_dinv2E e)⟩

/-- After four layers the two sides agree and the array is real. -/
theorem x4_eq_real (h0 : AllReal a0) (h1 : AllReal a1) (h2 : AllReal a2) (h3 : AllReal a3) (h4 : AllReal a4) :
    kerX4 a0 a1 a2 a3 a4 e = refX4 a0 a1 a2 a3 a4 e
      ∧ AllReal (s := S50000x128) (φ := .f32) (refX4 a0 a1 a2 a3 a4 e) := by
  obtain ⟨hx, hr⟩ := x3_eq_real a0 a1 a2 a3 a4 e h0 h1 h2 h3 h4
  unfold kerX4 refX4
  rw [hx]
  exact ⟨layer_eq _ _ _ _ _ _ _ _ _ hr (allReal_wOf3 a1 h1) (allReal_bOf3 a2 h2) (allReal_gOf3 a3 h3)
      (allReal_tOf3 a4 h4) (allReal_normE e) (allReal_dinv2E e),
    layer_real _ _ _ _ _ _ _ _ _ hr (allReal_wOf3 a1 h1) (allReal_bOf3 a2 h2) (allReal_gOf3 a3 h3)
      (allReal_tOf3 a4 h4) (allReal_normE e) (allReal_dinv2E e)⟩

/-- The node features after four layers are the same array on both sides. -/
theorem x4_eq (h0 : AllReal a0) (h1 : AllReal a1) (h2 : AllReal a2) (h3 : AllReal a3) (h4 : AllReal a4) :
    kerX4 a0 a1 a2 a3 a4 e = refX4 a0 a1 a2 a3 a4 e :=
  (x4_eq_real a0 a1 a2 a3 a4 e h0 h1 h2 h3 h4).1

end Layers

/-- The two classifiers agree on any operands: the products are the same term, and at graph g and class j both bias
    rows read the bias entry j. -/
theorem cls_eq (p : FVec Ideal S512x128 .f32) (wc : FVec Ideal S128x10 .f32) (bc : FVec Ideal S10 .f32) :
    clsKer p wc (shapeCast Cert.KernelIdeal.S1x10 bc Cert.KernelIdeal.Facts₀.shapeCasts_S10_S1x10)
      = clsOf (F := Ideal) p wc bc := by
  unfold clsKer clsOf
  refine congrArg (addf (Host.dotGeneral (F := Ideal) dot_S512x128_S128x10_S512x10_1_0_0_1_n_n none p wc))
    (funext fun i => ?_)
  obtain ⟨g, j, rfl⟩ : ∃ (g : Fin 512) (j : Fin 10), i = ix2 g j := ⟨i 0, i 1, eq_ix2 i⟩
  exact (shapeCast_a_1a_apply bc _ 0 j).trans (IdealLayout.broadcastInDim_row_apply bc _ _ g j).symm

/-- On real inputs the kernel's result is the reference's. -/
theorem out_eq (a0 : FVec Ideal S50000x128 .f32) (a1 : FVec Ideal S4x128x128 .f32) (a2 a3 a4 : FVec Ideal S4x128 .f32)
    (a5 : FVec Ideal S128x10 .f32) (a6 : FVec Ideal S10 .f32) (e : IVec S2x800000 32) (a8 : IVec S50000 32)
    (h0 : AllReal a0) (h1 : AllReal a1) (h2 : AllReal a2) (h3 : AllReal a3) (h4 : AllReal a4) :
    kerOut a0 a1 a2 a3 a4 a5 a6 e a8 = refOut a0 a1 a2 a3 a4 a5 a6 e a8 := by
  unfold kerOut refOut
  rw [x4_eq a0 a1 a2 a3 a4 e h0 h1 h2 h3 h4]
  exact cls_eq _ a5 a6

end Cert.NetworkEq

end
-- ==== Proof.PreReal.lean ====
/-
  The precondition "every float input is finite", decoded: each of the seven float arrays holds real numbers only.

  The precondition is a conjunction, one conjunct per float array x, of "all entries of |x| are below +∞": the array of
  one-bit comparisons |x(i)| < +∞, reduced by "and" from the bit 1 over every axis. A conjunction that is 1 has both
  parts 1; a reduction by "and" that is 1 met a 1 at every entry; and |x| < +∞ for an extended real x says x is neither
  infinity, that is, x is a real number (|x| is max x (−x), which is +∞ at both infinities).
-/
import proofs.«167957_j84052509983292_1_alg».proof.Pre_finite_inputs
import Idealize.ShloMosaic.Lib.ReduceAll
import Idealize.ShloMosaic.Lib.ValueIdx
import Idealize.ShloMosaic.PureOps.Ideal

noncomputable section

namespace Cert.PreReal

open Idealize.ShloMosaic Idealize.ShloMosaic.ValueIdx

variable [Cert.Pre_finite_inputs.Facts]

/-- The scalar shape has one index. -/
instance subsingleton_scalar_idx : Subsingleton Cert.Pre_finite_inputs.S_.Idx :=
  ⟨fun a b => funext fun d => d.elim0⟩

/-- The word 0x7F800000 encodes +∞. -/
theorem inf_word : Ideal.ofBits .f32 0x7F800000#32 = (⊤ : EReal) := by simp [Ideal.ofBits, Ideal.ieee]

/-- An extended real x whose absolute value max x (−x) compares below +∞ is a real number: at x = +∞ and at x = −∞
    the maximum is +∞, which is not below itself. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- One conjunct of the precondition: if the reduction by "and", over all axes and from any initial bit, of the
    comparisons |x(i)| < +∞ is 1, then every entry of x is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x)
            (broadcastInDim s ![] hb (constant (F := Ideal) Cert.Pre_finite_inputs.S_ .f32 0x7F800000#32)))
          init hr hu ix0 = 1#1) :
    ∀ i, ∃ r : ℝ, x i = (r : EReal) := fun i =>
  real_of_abs_lt_inf (x i) (Host.reduce_andi_all _ init hr hu ix0 e i)

/-- The precondition decoded: each float input holds real numbers only. -/
theorem real_of_pre
    {a0 : FVec Ideal Cert.Pre_finite_inputs.S50000x128 .f32} {a1 : FVec Ideal Cert.Pre_finite_inputs.S4x128x128 .f32}
    {a2 a3 a4 : FVec Ideal Cert.Pre_finite_inputs.S4x128 .f32} {a5 : FVec Ideal Cert.Pre_finite_inputs.S128x10 .f32}
    {a6 : FVec Ideal Cert.Pre_finite_inputs.S10 .f32} {a7 : IVec Cert.Pre_finite_inputs.S2x800000 32}
    {a8 : IVec Cert.Pre_finite_inputs.S50000 32}
    (h : Cert.Pre_finite_inputs.fn (F := Ideal) a0 a1 a2 a3 a4 a5 a6 a7 a8 = fun _ => 1#1) :
    (∀ i, ∃ x : ℝ, a0 i = (x : EReal)) ∧ (∀ i, ∃ x : ℝ, a1 i = (x : EReal)) ∧ (∀ i, ∃ x : ℝ, a2 i = (x : EReal))
      ∧ (∀ i, ∃ x : ℝ, a3 i = (x : EReal)) ∧ (∀ i, ∃ x : ℝ, a4 i = (x : EReal))
      ∧ (∀ i, ∃ x : ℝ, a5 i = (x : EReal)) ∧ (∀ i, ∃ x : ℝ, a6 i = (x : EReal)) := by
  have e := congrFun h ix0
  dsimp only [Cert.Pre_finite_inputs.fn, Cert.Pre_finite_inputs.fn_part1] at e
  simp only [andi, IntOp.andi_eq_one] at e
  obtain ⟨⟨⟨⟨⟨⟨h0, h1⟩, h2⟩, h3⟩, h4⟩, h5⟩, h6⟩ := e
  exact ⟨real_of_all a0 _ _ _ _ h0, real_of_all a1 _ _ _ _ h1, real_of_all a2 _ _ _ _ h2,
    real_of_all a3 _ _ _ _ h3, real_of_all a4 _ _ _ _ h4, real_of_all a5 _ _ _ _ h5, real_of_all a6 _ _ _ _ h6⟩

end Cert.PreReal

end
-- ==== Proof.lean ====
/-
  The certificate of the four-layer graph network: the Pallas program (per layer a tiled projection x · W and a fused
  normalisation max (c · scale + shift) 0, then a classifier kernel, among host operations for the edge gather and
  scatter, the column statistics and the pooling) against its plain reference.

  * The three frames: the word-level and the idealized kernel programs by their generated frame certificates; the
    reference is a straight line of host operations, and no operation writes an argument.
  * The idealization rewrote nothing, so it preserves the kernel trivially.
  * The value claim, at the exact-arithmetic instance. Both programs are folds over their operations; read piece by
    piece, the kernel's result is `kerOut` and the reference's `refOut` of the nine argument arrays. The two differ in
    one place per layer: the kernel normalises by c · (γ r) + (β − μ (γ r)), the reference by ((c − μ) r) γ + β, where
    r = 1/sqrt(var + eps). These agree by distributivity, which holds on the extended reals only where the quantities
    are real: so finiteness of the inputs is carried through every operation of every layer (sums, products, the
    scatter-add, the power deg^(-1/2), the reciprocal square root of a positive number). The classifier's two spellings
    of the bias row agree entry by entry.
-/
import proofs.«167957_j84052509983292_1_alg».proof.Defs
import proofs.«167957_j84052509983292_1_alg».proof.Proof.Gen.Kernel
import proofs.«167957_j84052509983292_1_alg».proof.Proof.Gen.Kernel.Frame
import proofs.«167957_j84052509983292_1_alg».proof.Proof.Gen.KernelIdeal
import proofs.«167957_j84052509983292_1_alg».proof.Proof.Gen.ReferenceIdeal
import proofs.«167957_j84052509983292_1_alg».proof.Proof.Gen.Pre_finite_inputs
import proofs.«167957_j84052509983292_1_alg».proof.Proof.KernelChain
import proofs.«167957_j84052509983292_1_alg».proof.Proof.RefStages
import proofs.«167957_j84052509983292_1_alg».proof.Proof.RefKeep
import proofs.«167957_j84052509983292_1_alg».proof.Proof.NetworkEq
import proofs.«167957_j84052509983292_1_alg».proof.Proof.PreReal
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ
theorem frame_ki : Cert.frame_KernelIdeal := fun m ρ _ => Cert.KernelIdeal.Gen.frame m ρ

/-- The reference's frame: its run as a fold, read at each argument's buffer. -/
theorem frame_ri : Cert.frame_ReferenceIdeal := fun m ρ _ =>
  (θ_run Cert.ReferenceIdeal.defs _ _).mono (fun r h c =>
    ⟨(h c _).trans (Cert.ReferenceIdeal.Fold.ops_keep_arg0 _),
      (h c _).trans (Cert.ReferenceIdeal.Fold.ops_keep_arg1 _),
      (h c _).trans (Cert.ReferenceIdeal.Fold.ops_keep_arg2 _),
      (h c _).trans (Cert.ReferenceIdeal.Fold.ops_keep_arg3 _),
      (h c _).trans (Cert.ReferenceIdeal.Fold.ops_keep_arg4 _),
      (h c _).trans (Cert.ReferenceIdeal.Fold.ops_keep_arg5 _),
      (h c _).trans (Cert.ReferenceIdeal.Fold.ops_keep_arg6 _),
      (h c _).trans (Cert.ReferenceIdeal.Fold.ops_keep_arg7 _),
      (h c _).trans (Cert.ReferenceIdeal.Fold.ops_keep_arg8 _)⟩)
    (Cert.ReferenceIdeal.Fold.run_fold (F := Ideal) m ρ)

/-- The two idealized programs, from memories agreeing on the arguments, end with the same returned array: the
    kernel's is `kerOut`, the reference's `refOut`, of the argument arrays, and these are equal on finite inputs. -/
theorem algebraic : Cert.algebraic_KernelIdeal_ReferenceIdeal := by
  intro m ρ m' ρ' hpre hagree
  refine ⟨fun c => Cert.KernelIdeal.Gen.W18 m ρ c (Proc.devRef .tc Cert.KernelIdeal.main_v233), Cert.KernelIdeal.Gen.run_result m ρ, ?_⟩
  refine (θ_run Cert.ReferenceIdeal.defs _ _).mono (fun r h c =>
    ⟨?_, (h c _).trans (Cert.ReferenceIdeal.Fold.ops_keep_arg0 _),
      (h c _).trans (Cert.ReferenceIdeal.Fold.ops_keep_arg1 _),
      (h c _).trans (Cert.ReferenceIdeal.Fold.ops_keep_arg2 _),
      (h c _).trans (Cert.ReferenceIdeal.Fold.ops_keep_arg3 _),
      (h c _).trans (Cert.ReferenceIdeal.Fold.ops_keep_arg4 _),
      (h c _).trans (Cert.ReferenceIdeal.Fold.ops_keep_arg5 _),
      (h c _).trans (Cert.ReferenceIdeal.Fold.ops_keep_arg6 _),
      (h c _).trans (Cert.ReferenceIdeal.Fold.ops_keep_arg7 _),
      (h c _).trans (Cert.ReferenceIdeal.Fold.ops_keep_arg8 _)⟩)
    (Cert.ReferenceIdeal.Fold.run_fold (F := Ideal) m' ρ')
  obtain ⟨e0, e1, e2, e3, e4, e5, e6, e7, e8⟩ := hagree c
  have hr := Cert.PreReal.real_of_pre (hpre c)
  rw [h c Cert.ReferenceIdeal.main_v266, Cert.ReferenceIdeal.Fold.ref_value]
  refine Eq.trans ?_ (Cert.KernelIdeal.Gen.ker_value m ρ c).symm
  show Cert.Spec.refOut (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
     = Cert.Spec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
  rw [e0, e1, e2, e3, e4, e5, e6, e7, e8]
  exact (Cert.NetworkEq.out_eq _ _ _ _ _ _ _ _ _ hr.1 hr.2.1 hr.2.2.1 hr.2.2.2.1 hr.2.2.2.2.1).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
